-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn_part7 {F : FTy → Type} [FloatOps F] (main_arg25 : FVec F S64 .f32) (main_v118 : IVec S_ 1) (main_v119 : FVec F S256x64 .f32) : IVec S_ 1 :=
  let main_cst_46 : FVec F S_ .f32 := constant S_ .f32 0x7F800000#32
  let main_v120 : FVec F S256x64 .f32 := broadcastInDim S256x64 ![] bcast_S_S256x64 main_cst_46
  let main_v121 : IVec S256x64 1 := cmpf .olt main_v119 main_v120
  let main_c_47 : IVec S_ 1 := constantI S_ 1 1#1
  let main_v122 : IVec S_ 1 := (fun x v => Host.reduce IntOp.andi x v reducesTo_S256x64_S_d0_1 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg21 : FVec F S256 .f32) (main_arg22 : FVec F S256x64 .f32) (main_arg23 : FVec F S64 .f32) (main_arg24 : FVec F S256x64 .f32) (main_arg25 : FVec F S64 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x64 .f32 := Host.absf main_arg22
  let main_cst_42 : FVec F S_ .f32 := constant S_ .f32 0x7F800000#32
  let main_v110 : FVec F S256x64 .f32 := broadcastInDim S256x64 ![] bcast_S_S256x64 main_cst_42
  let main_v111 : IVec S256x64 1 := cmpf .olt main_v109 main_v110
  let main_c_43 : IVec S_ 1 := constantI S_ 1 1#1
  let main_v112 : IVec S_ 1 := (fun x v => Host.reduce IntOp.andi x v reducesTo_S256x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S256x64 .f32 := Host.absf main_arg24
  fn_part7 (F := F) main_arg25 main_v118 main_v119

def fn_part5 {F : FTy → Type} [FloatOps F] (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v63 : IVec S_ 1) (main_v67 : IVec S_ 1) : IVec S_ 1 :=
  let main_v68 : IVec S_ 1 := andi main_v63 main_v67
  let main_v69 : FVec F S640x256 .f32 := Host.absf main_arg14
  let main_cst_26 : FVec F S_ .f32 := constant S_ .f32 0x7F800000#32
  let main_v70 : FVec F S640x256 .f32 := broadcastInDim S640x256 ![] bcast_S_S640x256 main_cst_26
  let main_v71 : IVec S640x256 1 := cmpf .olt main_v69 main_v70
  let main_c_27 : IVec S_ 1 := constantI S_ 1 1#1
  let main_v72 : IVec S_ 1 := (fun x v => Host.reduce IntOp.andi x v reducesTo_S640x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x512 .f32) (main_arg1 : FVec F S65536x2 .f32) (main_arg2 : FVec F S10x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x2 .f32 := Host.absf main_arg1
  let main_cst_0 : FVec F S_ .f32 := constant S_ .f32 0x7F800000#32
  let main_v5 : FVec F S65536x2 .f32 := broadcastInDim S65536x2 ![] bcast_S_S65536x2 main_cst_0
  let main_v6 : IVec S65536x2 1 := cmpf .olt main_v4 main_v5
  let main_c_1 : IVec S_ 1 := constantI S_ 1 1#1
  let main_v7 : IVec S_ 1 := (fun x v => Host.reduce IntOp.andi x v reducesTo_S65536x2_S_d0_1 h_S_) main_v6 main_c_1
  let main_v8 : IVec S_ 1 := andi main_v3 main_v7
  let main_v9 : FVec F S10x128 .f32 := Host.absf main_arg2
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S65536x128 : Shape := ⟨2, ![65536, 128]⟩
abbrev S1024x512 : Shape := ⟨2, ![1024, 512]⟩
abbrev S1024x2 : Shape := ⟨2, ![1024, 2]⟩
abbrev S1024x128 : Shape := ⟨2, ![1024, 128]⟩
abbrev S1024x64 : Shape := ⟨2, ![1024, 64]⟩
abbrev S1024x68 : Shape := ⟨2, ![1024, 68]⟩
abbrev S1024x380 : Shape := ⟨2, ![1024, 380]⟩
abbrev S1024x448 : Shape := ⟨2, ![1024, 448]⟩
abbrev S1024 : Shape := ⟨1, ![1024]⟩
abbrev S1024x1 : Shape := ⟨2, ![1024, 1]⟩
abbrev S1024x10 : Shape := ⟨2, ![1024, 10]⟩
abbrev S1x128 : Shape := ⟨2, ![1, 128]⟩
abbrev S1x64 : Shape := ⟨2, ![1, 64]⟩
abbrev S1024x640 : Shape := ⟨2, ![1024, 640]⟩
abbrev S1024x256 : Shape := ⟨2, ![1024, 256]⟩
abbrev S1x256 : Shape := ⟨2, ![1, 256]⟩
abbrev S65536x2x64 : Shape := ⟨3, ![65536, 2, 64]⟩
abbrev S65536x64x2 : Shape := ⟨3, ![65536, 64, 2]⟩

abbrev nBuf : Space → Nat
  | .hbm => 29
  | .vmem => 30
  | .smem => 0
  | _ => 0

abbrev bufTy : (tb : Table) → Fin (tcTables nBuf tb) → BufTy
  | .hbm, ⟨0, _⟩ => ⟨S65536x512, .f32⟩
  | .hbm, ⟨1, _⟩ => ⟨S65536x2, .f32⟩
  | .hbm, ⟨2, _⟩ => ⟨S10x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S640x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x64, .f32⟩
  | .hbm, ⟨23, _⟩ => ⟨S64, .f32⟩
  | .hbm, ⟨24, _⟩ => ⟨S256x64, .f32⟩
  | .hbm, ⟨25, _⟩ => ⟨S64, .f32⟩
  | .hbm, ⟨26, _⟩ => ⟨S65536x128, .f32⟩
  | .hbm, ⟨27, _⟩ => ⟨S65536x2x64, .f32⟩
  | .hbm, ⟨28, _⟩ => ⟨S65536x64x2, .f32⟩
  | .local _ .vmem, ⟨0, _⟩ => ⟨S1024x512, .f32⟩
  | .local _ .vmem, ⟨1, _⟩ => ⟨S1024x512, .f32⟩
  | .local _ .vmem, ⟨2, _⟩ => ⟨S1024x2, .f32⟩
  | .local _ .vmem, ⟨3, _⟩ => ⟨S1024x2, .f32⟩
  | .local _ .vmem, ⟨4, _⟩ => ⟨S10x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S640x256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S256x64, .f32⟩
  | .local _ .vmem, ⟨25, _⟩ => ⟨S64, .f32⟩
  | .local _ .vmem, ⟨26, _⟩ => ⟨S256x64, .f32⟩
  | .local _ .vmem, ⟨27, _⟩ => ⟨S64, .f32⟩
  | .local _ .vmem, ⟨28, _⟩ => ⟨S1024x128, .f32⟩
  | .local _ .vmem, ⟨29, _⟩ => ⟨S1024x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S640x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S1024x2_S1024x2_0_0 : ∀ a, (![0, 0] : Fin 2 → Nat) a + S1024x2.size a ≤ S1024x2.size a
  h_S1024x2 : 0 < S1024x2.numel
  slices_S1024x512_o0_68_S1024x64 : S1024x512.Slices ![0, 68] S1024x64
  slices_S1024x512_o0_0_S1024x68 : S1024x512.Slices ![0, 0] S1024x68
  slices_S1024x512_o0_132_S1024x380 : S1024x512.Slices ![0, 132] S1024x380
  concatenates_S1024x68_S1024x380_S1024x448_d1 : Shape.Concatenates [S1024x68, S1024x380] S1024x448 1
  natLt_1_32 : 1 < 32
  reduces_S1024x64_S1024 : S1024x64.Reduces [1] S1024
  shapeCasts_S1024_S1024x1 : S1024.ShapeCasts S1024x1
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  reduces_S1024x10_S1024 : S1024x10.Reduces [1] S1024
  broadcasts_S1024x1_S1024x10 : S1024x1.Broadcasts S1024x10
  inb_S10x128_S10x128_0_0 : ∀ a, (![0, 0] : Fin 2 → Nat) a + S10x128.size a ≤ S10x128.size a
  h_S10x128 : 0 < S10x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  broadcasts_S1024x1_S1024x64 : S1024x1.Broadcasts S1024x64
  concatenates_S1024x448_S1024x128_S1024x64_S1024x640_d1 : Shape.Concatenates [S1024x448, S1024x128, S1024x64] S1024x640 1
  inb_S640x256_S640x256_0_0 : ∀ a, (![0, 0] : Fin 2 → Nat) a + S640x256.size a ≤ S640x256.size a
  h_S640x256 : 0 < S640x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  concatenates_S1024x64_S1024x64_S1024x128_d1 : Shape.Concatenates [S1024x64, S1024x64] S1024x128 1
  inb_S1024x128_S1024x128_0_0 : ∀ a, (![0, 0] : Fin 2 → Nat) a + S1024x128.size a ≤ S1024x128.size a
  h_S1024x128 : 0 < S1024x128.numel
  shapeCasts_S65536x128_S65536x2x64 : S65536x128.ShapeCasts S65536x2x64
  transposes_S65536x2x64_S65536x64x2_0_2_1 : S65536x2x64.Transposes [0, 2, 1] S65536x64x2
  dot_S1024x10_S10x128_S1024x128_1_0_0_1_n_n_wf : DotDims.WF S1024x10 S10x128 S1024x128 [1] [0] [0] [1] [] []
  dot_S1024x128_S128x128_S1024x128_1_0_0_1_n_n_wf : DotDims.WF S1024x128 S128x128 S1024x128 [1] [0] [0] [1] [] []
  dot_S1024x2_S2x64_S1024x64_1_0_0_1_n_n_wf : DotDims.WF S1024x2 S2x64 S1024x64 [1] [0] [0] [1] [] []
  dot_S1024x640_S640x256_S1024x256_1_0_0_1_n_n_wf : DotDims.WF S1024x640 S640x256 S1024x256 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S65536x2.size a
  hwx0_1 : ∀ i : grid0.Coords, EltTy.bits .f32 = 32 ∨ (Rect.block (s := S65536x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x64.size a ≤ S2x64.size a
  hwx0_10 : ∀ i : grid0.Coords, EltTy.bits .f32 = 32 ∨ (Rect.block (s := S2x64) S2x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S640x256.size a ≤ S640x256.size a
  hwx0_14 : ∀ i : grid0.Coords, EltTy.bits .f32 = 32 ∨ (Rect.block (s := S640x256) S640x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .f32 = 32 ∨ (Rect.block (s := S256x256) S256x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256.size a ≤ S256.size a
  hwx0_21 : ∀ i : grid0.Coords, EltTy.bits .f32 = 32 ∨ (Rect.block (s := S256) S256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x64.size a ≤ S256x64.size a
  hwx0_22 : ∀ i : grid0.Coords, EltTy.bits .f32 = 32 ∨ (Rect.block (s := S256x64) S256x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64.size a ≤ S64.size a
  hwx0_23 : ∀ i : grid0.Coords, EltTy.bits .f32 = 32 ∨ (Rect.block (s := S64) S64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x64.size a ≤ S256x64.size a
  hwx0_24 : ∀ i : grid0.Coords, EltTy.bits .f32 = 32 ∨ (Rect.block (s := S256x64) S256x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64.size a ≤ S64.size a
  hwx0_25 : ∀ i : grid0.Coords, EltTy.bits .f32 = 32 ∨ (Rect.block (s := S64) S64.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x128.size a ≤ S65536x128.size a
  hwx0_26 : ∀ i : grid0.Coords, EltTy.bits .f32 = 32 ∨ (Rect.block (s := S65536x128) S1024x128.size (cc0_transform_26 i) (hinb0_26 i)).WholeWords (EltTy.packing .f32)

variable [Facts₀]

def dot_S1024x10_S10x128_S1024x128_1_0_0_1_n_n : DotDims S1024x10 S10x128 S1024x128 where
  lhsContracting := [1]
  rhsContracting := [0]
  lhsNonContracting := [0]
  rhsNonContracting := [1]
  lhsBatch := []
  rhsBatch := []
  wf := dot_S1024x10_S10x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x2_S2x64_S1024x64_1_0_0_1_n_n : DotDims S1024x2 S2x64 S1024x64 where
  lhsContracting := [1]
  rhsContracting := [0]
  lhsNonContracting := [0]
  rhsNonContracting := [1]
  lhsBatch := []
  rhsBatch := []
  wf := dot_S1024x2_S2x64_S1024x64_1_0_0_1_n_n_wf
def dot_S1024x640_S640x256_S1024x256_1_0_0_1_n_n : DotDims S1024x640 S640x256 S1024x256 where
  lhsContracting := [1]
  rhsContracting := [0]
  lhsNonContracting := [0]
  rhsNonContracting := [1]
  lhsBatch := []
  rhsBatch := []
  wf := dot_S1024x640_S640x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S640x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S256x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S256x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S64.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v0) S1024x128.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S65536x64 : Shape := ⟨2, ![65536, 64]⟩
abbrev S65536x68 : Shape := ⟨2, ![65536, 68]⟩
abbrev S65536x380 : Shape := ⟨2, ![65536, 380]⟩
abbrev S65536x448 : Shape := ⟨2, ![65536, 448]⟩
abbrev S_ : Shape := ⟨0, ![]⟩
abbrev S65536x64x1 : Shape := ⟨3, ![65536, 64, 1]⟩
abbrev S1x1x10 : Shape := ⟨3, ![1, 1, 10]⟩
abbrev S65536x64x10 : Shape := ⟨3, ![65536, 64, 10]⟩
abbrev S65536x10 : Shape := ⟨2, ![65536, 10]⟩
abbrev S65536 : Shape := ⟨1, ![65536]⟩
abbrev S65536x1 : Shape := ⟨2, ![65536, 1]⟩
abbrev S65536x128 : Shape := ⟨2, ![65536, 128]⟩
abbrev S1x128 : Shape := ⟨2, ![1, 128]⟩
abbrev S1x64 : Shape := ⟨2, ![1, 64]⟩
abbrev S65536x640 : Shape := ⟨2, ![65536, 640]⟩
abbrev S65536x256 : Shape := ⟨2, ![65536, 256]⟩
abbrev S1x256 : Shape := ⟨2, ![1, 256]⟩
abbrev S65536x64x2 : Shape := ⟨3, ![65536, 64, 2]⟩

abbrev nBuf : Space → Nat
  | .hbm => 262
  | .vmem => 0
  | .smem => 0
  | _ => 0

abbrev hbmTy0_0 (i : Nat) : BufTy := match i % 128 with
  | 0 => ⟨S65536x512, .f32⟩
  | 1 => ⟨S65536x2, .f32⟩
  | 2 => ⟨S10x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S2x64, .f32⟩
  | 11 => ⟨S64, .f32⟩
  | 12 => ⟨S64, .f32⟩
  | 13 => ⟨S64, .f32⟩
  | 14 => ⟨S640x256, .f32⟩
  | 15 => ⟨S256, .f32⟩
  | 16 => ⟨S256, .f32⟩
  | 17 => ⟨S256, .f32⟩
  | 18 => ⟨S256x256, .f32⟩
  | 19 => ⟨S256, .f32⟩
  | 20 => ⟨S256, .f32⟩
  | 21 => ⟨S256, .f32⟩
  | 22 => ⟨S256x64, .f32⟩
  | 23 => ⟨S64, .f32⟩
  | 24 => ⟨S256x64, .f32⟩
  | 25 => ⟨S64, .f32⟩
  | 26 => ⟨S65536x64, .f32⟩
  | 27 => ⟨S65536x68, .f32⟩
  | 28 => ⟨S65536x380, .f32⟩
  | 29 => ⟨S65536x448, .f32⟩
  | 30 => ⟨S_, .f32⟩
  | 31 => ⟨S65536x64, .f32⟩
  | 32 => ⟨S65536x64, .f32⟩
  | 33 => ⟨S65536x64, .f32⟩
  | 34 => ⟨S65536x64, .i32⟩
  | 35 => ⟨S_, .i32⟩
  | 36 => ⟨S_, .i32⟩
  | 37 => ⟨S_, .i32⟩
  | 38 => ⟨S65536x64, .i32⟩
  | 39 => ⟨S65536x64, .i32⟩
  | 40 => ⟨S_, .i32⟩
  | 41 => ⟨S65536x64, .i32⟩
  | 42 => ⟨S65536x64, .i32⟩
  | 43 => ⟨S_, .f32⟩
  | 44 => ⟨S65536x64, .f32⟩
  | 45 => ⟨S65536x64, .i1⟩
  | 46 => ⟨S_, .f32⟩
  | 47 => ⟨S65536x64, .f32⟩
  | 48 => ⟨S65536x64, .i1⟩
  | 49 => ⟨S65536x64, .i1⟩
  | 50 => ⟨S65536x64, .f32⟩
  | 51 => ⟨S65536x64x1, .i32⟩
  | 52 => ⟨S1x1x10, .i32⟩
  | 53 => ⟨S65536x64x10, .i32⟩
  | 54 => ⟨S65536x64x10, .i32⟩
  | 55 => ⟨S65536x64x10, .i1⟩
  | 56 => ⟨S65536x64x10, .f32⟩
  | 57 => ⟨S65536x64x1, .f32⟩
  | 58 => ⟨S65536x64x10, .f32⟩
  | 59 => ⟨S65536x64x10, .f32⟩
  | 60 => ⟨S_, .f32⟩
  | 61 => ⟨S65536x10, .f32⟩
  | 62 => ⟨S_, .f32⟩
  | 63 => ⟨S65536, .f32⟩
  | 64 => ⟨S65536x1, .f32⟩
  | 65 => ⟨S_, .f32⟩
  | 66 => ⟨S65536x1, .f32⟩
  | 67 => ⟨S65536x1, .f32⟩
  | 68 => ⟨S65536x10, .f32⟩
  | 69 => ⟨S65536x10, .f32⟩
  | 70 => ⟨S65536x128, .f32⟩
  | 71 => ⟨S1x128, .f32⟩
  | 72 => ⟨S65536x128, .f32⟩
  | 73 => ⟨S65536x128, .f32⟩
  | 74 => ⟨S_, .f32⟩
  | 75 => ⟨S65536x128, .f32⟩
  | 76 => ⟨S65536x128, .f32⟩
  | 77 => ⟨S_, .f32⟩
  | 78 => ⟨S65536, .f32⟩
  | 79 => ⟨S65536x1, .f32⟩
  | 80 => ⟨S_, .f32⟩
  | 81 => ⟨S65536x1, .f32⟩
  | 82 => ⟨S65536x1, .f32⟩
  | 83 => ⟨S65536x128, .f32⟩
  | 84 => ⟨S65536x128, .f32⟩
  | 85 => ⟨S65536x128, .f32⟩
  | 86 => ⟨S_, .f32⟩
  | 87 => ⟨S65536, .f32⟩
  | 88 => ⟨S65536x1, .f32⟩
  | 89 => ⟨S_, .f32⟩
  | 90 => ⟨S65536x1, .f32⟩
  | 91 => ⟨S65536x1, .f32⟩
  | 92 => ⟨S65536x128, .f32⟩
  | 93 => ⟨S65536x128, .f32⟩
  | 94 => ⟨S_, .f32⟩
  | 95 => ⟨S65536x1, .f32⟩
  | 96 => ⟨S65536x1, .f32⟩
  | 97 => ⟨S65536x1, .f32⟩
  | 98 => ⟨S65536x128, .f32⟩
  | 99 => ⟨S65536x128, .f32⟩
  | 100 => ⟨S1x128, .f32⟩
  | 101 => ⟨S65536x128, .f32⟩
  | 102 => ⟨S65536x128, .f32⟩
  | 103 => ⟨S1x128, .f32⟩
  | 104 => ⟨S65536x128, .f32⟩
  | 105 => ⟨S65536x128, .f32⟩
  | 106 => ⟨S65536x128, .f32⟩
  | 107 => ⟨S1x128, .f32⟩
  | 108 => ⟨S65536x128, .f32⟩
  | 109 => ⟨S65536x128, .f32⟩
  | 110 => ⟨S_, .f32⟩
  | 111 => ⟨S65536x128, .f32⟩
  | 112 => ⟨S65536x128, .f32⟩
  | 113 => ⟨S_, .f32⟩
  | 114 => ⟨S65536, .f32⟩
  | 115 => ⟨S65536x1, .f32⟩
  | 116 => ⟨S_, .f32⟩
  | 117 => ⟨S65536x1, .f32⟩
  | 118 => ⟨S65536x1, .f32⟩
  | 119 => ⟨S65536x128, .f32⟩
  | 120 => ⟨S65536x128, .f32⟩
  | 121 => ⟨S65536x128, .f32⟩
  | 122 => ⟨S_, .f32⟩
  | 123 => ⟨S65536, .f32⟩
  | 124 => ⟨S65536x1, .f32⟩
  | 125 => ⟨S_, .f32⟩
  | 126 => ⟨S65536x1, .f32⟩
  | 127 => ⟨S65536x1, .f32⟩
  | _ => ⟨S65536x512, .f32⟩

abbrev hbmTy0_1 (i : Nat) : BufTy := match i % 128 with
  | 0 => ⟨S65536x128, .f32⟩
  | 1 => ⟨S65536x128, .f32⟩
  | 2 => ⟨S_, .f32⟩
  | 3 => ⟨S65536x1, .f32⟩
  | 4 => ⟨S65536x1, .f32⟩
  | 5 => ⟨S65536x1, .f32⟩
  | 6 => ⟨S65536x128, .f32⟩
  | 7 => ⟨S65536x128, .f32⟩
  | 8 => ⟨S1x128, .f32⟩
  | 9 => ⟨S65536x128, .f32⟩
  | 10 => ⟨S65536x128, .f32⟩
  | 11 => ⟨S1x128, .f32⟩
  | 12 => ⟨S65536x128, .f32⟩
  | 13 => ⟨S65536x128, .f32⟩
  | 14 => ⟨S65536x64, .f32⟩
  | 15 => ⟨S1x64, .f32⟩
  | 16 => ⟨S65536x64, .f32⟩
  | 17 => ⟨S65536x64, .f32⟩
  | 18 => ⟨S_, .f32⟩
  | 19 => ⟨S65536x64, .f32⟩
  | 20 => ⟨S65536x64, .f32⟩
  | 21 => ⟨S_, .f32⟩
  | 22 => ⟨S65536, .f32⟩
  | 23 => ⟨S65536x1, .f32⟩
  | 24 => ⟨S_, .f32⟩
  | 25 => ⟨S65536x1, .f32⟩
  | 26 => ⟨S65536x1, .f32⟩
  | 27 => ⟨S65536x64, .f32⟩
  | 28 => ⟨S65536x64, .f32⟩
  | 29 => ⟨S65536x64, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S65536x64, .f32⟩
  | 37 => ⟨S65536x64, .f32⟩
  | 38 => ⟨S_, .f32⟩
  | 39 => ⟨S65536x1, .f32⟩
  | 40 => ⟨S65536x1, .f32⟩
  | 41 => ⟨S65536x1, .f32⟩
  | 42 => ⟨S65536x64, .f32⟩
  | 43 => ⟨S65536x64, .f32⟩
  | 44 => ⟨S1x64, .f32⟩
  | 45 => ⟨S65536x64, .f32⟩
  | 46 => ⟨S65536x64, .f32⟩
  | 47 => ⟨S1x64, .f32⟩
  | 48 => ⟨S65536x64, .f32⟩
  | 49 => ⟨S65536x64, .f32⟩
  | 50 => ⟨S65536x640, .f32⟩
  | 51 => ⟨S65536x256, .f32⟩
  | 52 => ⟨S1x256, .f32⟩
  | 53 => ⟨S65536x256, .f32⟩
  | 54 => ⟨S65536x256, .f32⟩
  | 55 => ⟨S_, .f32⟩
  | 56 => ⟨S65536x256, .f32⟩
  | 57 => ⟨S65536x256, .f32⟩
  | 58 => ⟨S_, .f32⟩
  | 59 => ⟨S65536, .f32⟩
  | 60 => ⟨S65536x1, .f32⟩
  | 61 => ⟨S_, .f32⟩
  | 62 => ⟨S65536x1, .f32⟩
  | 63 => ⟨S65536x1, .f32⟩
  | 64 => ⟨S65536x256, .f32⟩
  | 65 => ⟨S65536x256, .f32⟩
  | 66 => ⟨S65536x256, .f32⟩
  | 67 => ⟨S_, .f32⟩
  | 68 => ⟨S65536, .f32⟩
  | 69 => ⟨S65536x1, .f32⟩
  | 70 => ⟨S_, .f32⟩
  | 71 => ⟨S65536x1, .f32⟩
  | 72 => ⟨S65536x1, .f32⟩
  | 73 => ⟨S65536x256, .f32⟩
  | 74 => ⟨S65536x256, .f32⟩
  | 75 => ⟨S_, .f32⟩
  | 76 => ⟨S65536x1, .f32⟩
  | 77 => ⟨S65536x1, .f32⟩
  | 78 => ⟨S65536x1, .f32⟩
  | 79 => ⟨S65536x256, .f32⟩
  | 80 => ⟨S65536x256, .f32⟩
  | 81 => ⟨S1x256, .f32⟩
  | 82 => ⟨S65536x256, .f32⟩
  | 83 => ⟨S65536x256, .f32⟩
  | 84 => ⟨S1x256, .f32⟩
  | 85 => ⟨S65536x256, .f32⟩
  | 86 => ⟨S65536x256, .f32⟩
  | 87 => ⟨S65536x256, .f32⟩
  | 88 => ⟨S1x256, .f32⟩
  | 89 => ⟨S65536x256, .f32⟩
  | 90 => ⟨S65536x256, .f32⟩
  | 91 => ⟨S_, .f32⟩
  | 92 => ⟨S65536x256, .f32⟩
  | 93 => ⟨S65536x256, .f32⟩
  | 94 => ⟨S_, .f32⟩
  | 95 => ⟨S65536, .f32⟩
  | 96 => ⟨S65536x1, .f32⟩
  | 97 => ⟨S_, .f32⟩
  | 98 => ⟨S65536x1, .f32⟩
  | 99 => ⟨S65536x1, .f32⟩
  | 100 => ⟨S65536x256, .f32⟩
  | 101 => ⟨S65536x256, .f32⟩
  | 102 => ⟨S65536x256, .f32⟩
  | 103 => ⟨S_, .f32⟩
  | 104 => ⟨S65536, .f32⟩
  | 105 => ⟨S65536x1, .f32⟩
  | 106 => ⟨S_, .f32⟩
  | 107 => ⟨S65536x1, .f32⟩
  | 108 => ⟨S65536x1, .f32⟩
  | 109 => ⟨S65536x256, .f32⟩
  | 110 => ⟨S65536x256, .f32⟩
  | 111 => ⟨S_, .f32⟩
  | 112 => ⟨S65536x1, .f32⟩
  | 113 => ⟨S65536x1, .f32⟩
  | 114 => ⟨S65536x1, .f32⟩
  | 115 => ⟨S65536x256, .f32⟩
  | 116 => ⟨S65536x256, .f32⟩
  | 117 => ⟨S1x256, .f32⟩
  | 118 => ⟨S65536x256, .f32⟩
  | 119 => ⟨S65536x256, .f32⟩
  | 120 => ⟨S1x256, .f32⟩
  | 121 => ⟨S65536x256, .f32⟩
  | 122 => ⟨S65536x256, .f32⟩
  | 123 => ⟨S65536x64, .f32⟩
  | 124 => ⟨S1x64, .f32⟩
  | 125 => ⟨S65536x64, .f32⟩
  | 126 => ⟨S65536x64, .f32⟩
  | 127 => ⟨S65536x64, .f32⟩
  | _ => ⟨S65536x512, .f32⟩

abbrev hbmTy0_2 (i : Nat) : BufTy := match i % 128 with
  | 0 => ⟨S1x64, .f32⟩
  | 1 => ⟨S65536x64, .f32⟩
  | 2 => ⟨S65536x64, .f32⟩
  | 3 => ⟨S65536x64x1, .f32⟩
  | 4 => ⟨S65536x64x1, .f32⟩
  | 5 => ⟨S65536x64x2, .f32⟩
  | _ => ⟨S65536x512, .f32⟩

abbrev hbmTy (i : Nat) : BufTy := match i / 128 with
  | 0 => hbmTy0_0 i
  | 1 => hbmTy0_1 i
  | 2 => hbmTy0_2 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_c_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_cst_2 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_3 : Ref sig .tc := ⟨.hbm, 60, rfl⟩
abbrev main_v19 : Ref sig .tc := ⟨.hbm, 61, rfl⟩
abbrev main_cst_4 : Ref sig .tc := ⟨.hbm, 62, rfl⟩
abbrev main_v20 : Ref sig .tc := ⟨.hbm, 63, rfl⟩
abbrev main_v21 : Ref sig .tc := ⟨.hbm, 64, rfl⟩
abbrev main_cst_5 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call2_cst : Ref sig .tc := ⟨.hbm, 74, rfl⟩
abbrev main_call2_v0 : Ref sig .tc := ⟨.hbm, 75, rfl⟩
abbrev main_v30 : Ref sig .tc := ⟨.hbm, 76, rfl⟩
abbrev main_cst_6 : Ref sig .tc := ⟨.hbm, 77, rfl⟩
abbrev main_v31 : Ref sig .tc := ⟨.hbm, 78, rfl⟩
abbrev main_v32 : Ref sig .tc := ⟨.hbm, 79, rfl⟩
abbrev main_cst_7 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_cst_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_10 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_call3_cst : Ref sig .tc := ⟨.hbm, 110, rfl⟩
abbrev main_call3_v0 : Ref sig .tc := ⟨.hbm, 111, rfl⟩
abbrev main_v59 : Ref sig .tc := ⟨.hbm, 112, rfl⟩
abbrev main_cst_11 : Ref sig .tc := ⟨.hbm, 113, rfl⟩
abbrev main_v60 : Ref sig .tc := ⟨.hbm, 114, rfl⟩
abbrev main_v61 : Ref sig .tc := ⟨.hbm, 115, rfl⟩
abbrev main_cst_12 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_13 : Ref sig .tc := ⟨.hbm, 122, rfl⟩
abbrev main_v67 : Ref sig .tc := ⟨.hbm, 123, rfl⟩
abbrev main_v68 : Ref sig .tc := ⟨.hbm, 124, rfl⟩
abbrev main_cst_14 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_15 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_call4_cst : Ref sig .tc := ⟨.hbm, 146, rfl⟩
abbrev main_call4_v0 : Ref sig .tc := ⟨.hbm, 147, rfl⟩
abbrev main_v88 : Ref sig .tc := ⟨.hbm, 148, rfl⟩
abbrev main_cst_16 : Ref sig .tc := ⟨.hbm, 149, rfl⟩
abbrev main_v89 : Ref sig .tc := ⟨.hbm, 150, rfl⟩
abbrev main_v90 : Ref sig .tc := ⟨.hbm, 151, rfl⟩
abbrev main_cst_17 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_18 : Ref sig .tc := ⟨.hbm, 158, rfl⟩
abbrev main_v96 : Ref sig .tc := ⟨.hbm, 159, rfl⟩
abbrev main_v97 : Ref sig .tc := ⟨.hbm, 160, rfl⟩
abbrev main_cst_19 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_20 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call5_cst : Ref sig .tc := ⟨.hbm, 183, rfl⟩
abbrev main_call5_v0 : Ref sig .tc := ⟨.hbm, 184, rfl⟩
abbrev main_v118 : Ref sig .tc := ⟨.hbm, 185, rfl⟩
abbrev main_cst_21 : Ref sig .tc := ⟨.hbm, 186, rfl⟩
abbrev main_v119 : Ref sig .tc := ⟨.hbm, 187, rfl⟩
abbrev main_v120 : Ref sig .tc := ⟨.hbm, 188, rfl⟩
abbrev main_cst_22 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_23 : Ref sig .tc := ⟨.hbm, 195, rfl⟩
abbrev main_v126 : Ref sig .tc := ⟨.hbm, 196, rfl⟩
abbrev main_v127 : Ref sig .tc := ⟨.hbm, 197, rfl⟩
abbrev main_cst_24 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_25 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call6_cst : Ref sig .tc := ⟨.hbm, 219, rfl⟩
abbrev main_call6_v0 : Ref sig .tc := ⟨.hbm, 220, rfl⟩
abbrev main_v147 : Ref sig .tc := ⟨.hbm, 221, rfl⟩
abbrev main_cst_26 : Ref sig .tc := ⟨.hbm, 222, rfl⟩
abbrev main_v148 : Ref sig .tc := ⟨.hbm, 223, rfl⟩
abbrev main_v149 : Ref sig .tc := ⟨.hbm, 224, rfl⟩
abbrev main_cst_27 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_cst_28 : Ref sig .tc := ⟨.hbm, 231, rfl⟩
abbrev main_v155 : Ref sig .tc := ⟨.hbm, 232, rfl⟩
abbrev main_v156 : Ref sig .tc := ⟨.hbm, 233, rfl⟩
abbrev main_cst_29 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_30 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩

abbrev nD : Nat := 1
abbrev τ : Topo := Topo.v7x

variable {F : FTy → Type} [FloatOps F]

class Facts₀ : Prop where
  slices_S65536x512_S65536x64_0_68 : S65536x512.Slices ![0, 68] S65536x64
  slices_S65536x512_S65536x68_0_0 : S65536x512.Slices ![0, 0] S65536x68
  slices_S65536x512_S65536x380_0_132 : S65536x512.Slices ![0, 132] S65536x380
  concatenates_S65536x68_S65536x380_S65536x448_d1 : Shape.Concatenates [S65536x68, S65536x380] S65536x448 1
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  bcast_S65536x64x1_S65536x64x10_0_1_2 : S65536x64x1.BroadcastsInDim S65536x64x10 (![0, 1, 2] : Fin 3 → Fin S65536x64x10.rank)
  bcast_S1x1x10_S65536x64x10_0_1_2 : S1x1x10.BroadcastsInDim S65536x64x10 (![0, 1, 2] : Fin 3 → Fin S65536x64x10.rank)
  reducesTo_S65536x64x10_S65536x10_d1 : S65536x64x10.ReducesTo [1] S65536x10
  h_S_ : 0 < S_.numel
  reducesTo_S65536x10_S65536_d1 : S65536x10.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x10_0_1 : S65536x1.BroadcastsInDim S65536x10 (![0, 1] : Fin 2 → Fin S65536x10.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  reducesTo_S65536x64_S65536_d1 : S65536x64.ReducesTo [1] S65536
  bcast_S65536x1_S65536x64_0_1 : S65536x1.BroadcastsInDim S65536x64 (![0, 1] : Fin 2 → Fin S65536x64.rank)
  concatenates_S65536x448_S65536x128_S65536x64_S65536x640_d1 : Shape.Concatenates [S65536x448, S65536x128, S65536x64] S65536x640 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  bcast_S65536x1_S65536x256_0_1 : S65536x1.BroadcastsInDim S65536x256 (![0, 1] : Fin 2 → Fin S65536x256.rank)
  concatenates_S65536x64x1_S65536x64x1_S65536x64x2_d2 : Shape.Concatenates [S65536x64x1, S65536x64x1] S65536x64x2 2
  dot_S65536x10_S10x128_S65536x128_1_0_0_1_n_n_wf : DotDims.WF S65536x10 S10x128 S65536x128 [1] [0] [0] [1] [] []
  dot_S65536x128_S128x128_S65536x128_1_0_0_1_n_n_wf : DotDims.WF S65536x128 S128x128 S65536x128 [1] [0] [0] [1] [] []
  dot_S65536x2_S2x64_S65536x64_1_0_0_1_n_n_wf : DotDims.WF S65536x2 S2x64 S65536x64 [1] [0] [0] [1] [] []
  dot_S65536x640_S640x256_S65536x256_1_0_0_1_n_n_wf : DotDims.WF S65536x640 S640x256 S65536x256 [1] [0] [0] [1] [] []
  dot_S65536x256_S256x256_S65536x256_1_0_0_1_n_n_wf : DotDims.WF S65536x256 S256x256 S65536x256 [1] [0] [0] [1] [] []
  dot_S65536x256_S256x64_S65536x64_1_0_0_1_n_n_wf : DotDims.WF S65536x256 S256x64 S65536x64 [1] [0] [0] [1] [] []

variable [Facts₀]

def dot_S65536x10_S10x128_S65536x128_1_0_0_1_n_n : DotDims S65536x10 S10x128 S65536x128 where
  lhsContracting := [1]
  rhsContracting := [0]
  lhsNonContracting := [0]
  rhsNonContracting := [1]
  lhsBatch := []
  rhsBatch := []
  wf := dot_S65536x10_S10x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x2_S2x64_S65536x64_1_0_0_1_n_n : DotDims S65536x2 S2x64 S65536x64 where
  lhsContracting := [1]
  rhsContracting := [0]
  lhsNonContracting := [0]
  rhsNonContracting := [1]
  lhsBatch := []
  rhsBatch := []
  wf := dot_S65536x2_S2x64_S65536x64_1_0_0_1_n_n_wf
def dot_S65536x640_S640x256_S65536x256_1_0_0_1_n_n : DotDims S65536x640 S640x256 S65536x256 where
  lhsContracting := [1]
  rhsContracting := [0]
  lhsNonContracting := [0]
  rhsNonContracting := [1]
  lhsBatch := []
  rhsBatch := []
  wf := dot_S65536x640_S640x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf

class Facts : Prop extends Facts₀ where

variable [Facts]
-- ==== Proof.RowSpec.lean ====
/-
  The function both programs compute, one observation row at a time.

  Every row of the batch is treated independently.  From an observation row `o` (512 reals) the 64 server
  workloads `o[68..132)` are binned into ten unit bins over [0, 10] (a workload outside [0, 10] is not counted, the
  value 10 falls in the last bin), the counts are divided by their total plus a small constant, and the normalised
  histogram goes through two dense layers, each followed by max(·, 0) and a layer normalisation.  The two
  preference entries go through one such layer.  The remaining 448 observation entries, the 128 histogram features and
  the 64 preference features are laid side by side (640 entries) and go through two more such layers (256 wide) and
  two linear heads of 64 outputs each.  The result row is the two heads side by side: entries [0, 64) the first
  head, entries [64, 128) the second.

  All arithmetic is on the extended reals: a sum is a finite sum, a quotient is `Ideal.div`, the reciprocal square
  root is `Ideal.rsqrt`, a literal is the exact value of its binary pattern.
-/
import Idealize.ShloMosaic.PureOps.Ideal
import Idealize.ShloMosaic.Lib.ValueIdx

noncomputable section

namespace Cert.RowSpec

open Idealize.ShloMosaic Idealize.ShloMosaic.ValueIdx

/-- Row `r` of a rank-2 array, as a function of the column. -/
def row2 {α : Type} {R N : Nat} (x : (⟨2, ![R, N]⟩ : Shape).Idx → α) (r : Fin R) : Fin N → α := fun k => x (ix2 r k)

/-- A rank-1 array as a function of its one coordinate. -/
def vec1 {α : Type} {N : Nat} (b : (⟨1, ![N]⟩ : Shape).Idx → α) : Fin N → α := fun j => b (ix1 j)

theorem row2_apply {α : Type} {R N : Nat} (x : (⟨2, ![R, N]⟩ : Shape).Idx → α) (r : Fin R) (k : Fin N) :
    row2 x r k = x (ix2 r k) := rfl

theorem vec1_apply {α : Type} {N : Nat} (b : (⟨1, ![N]⟩ : Shape).Idx → α) (j : Fin N) : vec1 b j = b (ix1 j) := rfl

/-- The 64 server workloads of an observation row: its entries 68 … 131. -/
def server (o : Fin 512 → EReal) : Fin 64 → EReal := fun s => o ⟨68 + s.val, by omega⟩

/-- The observation row without the workloads: entries 0 … 67, then 132 … 511. -/
def rest (o : Fin 512 → EReal) : Fin 448 → EReal := fun k =>
  if h : k.val < 68 then o ⟨k.val, by omega⟩ else o ⟨64 + k.val, by omega⟩

/-- The bin of a workload as a 32-bit word: ⌊w · 1⌋ converted to a signed word, clamped to 0 … 9. -/
def binWord (w : EReal) : BitVec 32 :=
  IntOp.minsi 9#32 (IntOp.maxsi 0#32 (Ideal.fptosi 32 (Ideal.liftRound Int.floor (w * Ideal.ofBits .f32 0x3F800000#32))))

/-- Whether a workload lies in [0, 10], as a bit. -/
def inRange (w : EReal) : BitVec 1 :=
  IntOp.andi (Ideal.cmp .oge w (Ideal.ofBits .f32 0x00000000#32)) (Ideal.cmp .ole w (Ideal.ofBits .f32 0x41200000#32))

/-- A bit as the real 0 or 1. -/
def ind (b : BitVec 1) : EReal := ((b.toNat : ℝ) : EReal)

/-- How many workloads of the row fall in bin `b` and lie in [0, 10]. -/
def count (o : Fin 512 → EReal) (b : Fin 10) : EReal :=
  ∑ s : Fin 64, ind (IntOp.cmpi .eq (binWord (server o s)) (BitVec.ofNat 32 b.val)) * ind (inRange (server o s))

/-- The normalised histogram: each count over the total count plus the literal 1e-8. -/
def hist (o : Fin 512 → EReal) : Fin 10 → EReal := fun b =>
  Ideal.div (count o b) ((∑ b' : Fin 10, count o b') + Ideal.ofBits .f32 0x322BCC77#32)

/-- A dense layer: x · W + bias. -/
def dense {K N : Nat} (W : Fin K → Fin N → EReal) (bias : Fin N → EReal) (x : Fin K → EReal) : Fin N → EReal :=
  fun j => (∑ k : Fin K, x k * W k j) + bias j

/-- max(·, 0), entry by entry. -/
def relu {N : Nat} (x : Fin N → EReal) : Fin N → EReal := fun j => max (x j) (Ideal.ofBits .f32 0x00000000#32)

/-- The mean of a row: its sum over the literal `c` (the row's length as a float). -/
def mean {N : Nat} (c : BitVec 32) (x : Fin N → EReal) : EReal := Ideal.div (∑ j : Fin N, x j) (Ideal.ofBits .f32 c)

/-- Layer normalisation of a row: (x − μ) · rsqrt(σ² + 1e-5) · g + b with μ the mean and σ² the mean of (x − μ)². -/
def norm {N : Nat} (c : BitVec 32) (g b : Fin N → EReal) (x : Fin N → EReal) : Fin N → EReal := fun j =>
  (x j - mean c x) * Ideal.rsqrt (mean c (fun j' => (x j' - mean c x) * (x j' - mean c x)) + Ideal.ofBits .f32 0x3727C5AC#32)
    * g j + b j

/-- The trunk's input: the 448 remaining observation entries, the 128 histogram features, the 64 preference features. -/
def joined (a : Fin 448 → EReal) (h : Fin 128 → EReal) (p : Fin 64 → EReal) : Fin 640 → EReal := fun k =>
  if h1 : k.val < 448 then a ⟨k.val, h1⟩
  else if h2 : k.val < 576 then h ⟨k.val - 448, by omega⟩
  else p ⟨k.val - 576, by omega⟩

/-- The two heads side by side. -/
def heads (d e : Fin 64 → EReal) : Fin 128 → EReal := fun k =>
  if h : k.val < 64 then d ⟨k.val, h⟩ else e ⟨k.val - 64, by omega⟩

/-- The weights, as functions of their coordinates (the order is the programs' argument order after the two
    batch arrays). -/
structure Weights where
  hW1 : Fin 10 → Fin 128 → EReal
  hb1 : Fin 128 → EReal
  hg1 : Fin 128 → EReal
  hc1 : Fin 128 → EReal
  hW2 : Fin 128 → Fin 128 → EReal
  hb2 : Fin 128 → EReal
  hg2 : Fin 128 → EReal
  hc2 : Fin 128 → EReal
  pW : Fin 2 → Fin 64 → EReal
  pb : Fin 64 → EReal
  pg : Fin 64 → EReal
  pc : Fin 64 → EReal
  sW1 : Fin 640 → Fin 256 → EReal
  sb1 : Fin 256 → EReal
  sg1 : Fin 256 → EReal
  sc1 : Fin 256 → EReal
  sW2 : Fin 256 → Fin 256 → EReal
  sb2 : Fin 256 → EReal
  sg2 : Fin 256 → EReal
  sc2 : Fin 256 → EReal
  dW : Fin 256 → Fin 64 → EReal
  db : Fin 64 → EReal
  eW : Fin 256 → Fin 64 → EReal
  eb : Fin 64 → EReal

/-- The histogram features of an observation row. -/
def histFeat (θ : Weights) (o : Fin 512 → EReal) : Fin 128 → EReal :=
  norm 0x43000000#32 θ.hg2 θ.hc2 (relu (dense θ.hW2 θ.hb2
    (norm 0x43000000#32 θ.hg1 θ.hc1 (relu (dense θ.hW1 θ.hb1 (hist o))))))

/-- The preference features of a preference row. -/
def prefFeat (θ : Weights) (p : Fin 2 → EReal) : Fin 64 → EReal :=
  norm 0x42800000#32 θ.pg θ.pc (relu (dense θ.pW θ.pb p))

/-- The trunk's output (256 entries). -/
def trunk (θ : Weights) (o : Fin 512 → EReal) (p : Fin 2 → EReal) : Fin 256 → EReal :=
  norm 0x43800000#32 θ.sg2 θ.sc2 (relu (dense θ.sW2 θ.sb2
    (norm 0x43800000#32 θ.sg1 θ.sc1 (relu (dense θ.sW1 θ.sb1 (joined (rest o) (histFeat θ o) (prefFeat θ p)))))))

/-- The result row: the two heads of the trunk's output side by side (128 entries). -/
def resultRow (θ : Weights) (o : Fin 512 → EReal) (p : Fin 2 → EReal) : Fin 128 → EReal :=
  heads (dense θ.dW θ.db (trunk θ o p)) (dense θ.eW θ.eb (trunk θ o p))

/-- The 24 weight arrays, in the programs' argument order, as the weights of the row function. -/
def weightsOf
    (x2 : (⟨2, ![10, 128]⟩ : Shape).Idx → EReal) (x3 x4 x5 : (⟨1, ![128]⟩ : Shape).Idx → EReal)
    (x6 : (⟨2, ![128, 128]⟩ : Shape).Idx → EReal) (x7 x8 x9 : (⟨1, ![128]⟩ : Shape).Idx → EReal)
    (x10 : (⟨2, ![2, 64]⟩ : Shape).Idx → EReal) (x11 x12 x13 : (⟨1, ![64]⟩ : Shape).Idx → EReal)
    (x14 : (⟨2, ![640, 256]⟩ : Shape).Idx → EReal) (x15 x16 x17 : (⟨1, ![256]⟩ : Shape).Idx → EReal)
    (x18 : (⟨2, ![256, 256]⟩ : Shape).Idx → EReal) (x19 x20 x21 : (⟨1, ![256]⟩ : Shape).Idx → EReal)
    (x22 : (⟨2, ![256, 64]⟩ : Shape).Idx → EReal) (x23 : (⟨1, ![64]⟩ : Shape).Idx → EReal)
    (x24 : (⟨2, ![256, 64]⟩ : Shape).Idx → EReal) (x25 : (⟨1, ![64]⟩ : Shape).Idx → EReal) : Weights where
  hW1 := row2 x2
  hb1 := vec1 x3
  hg1 := vec1 x4
  hc1 := vec1 x5
  hW2 := row2 x6
  hb2 := vec1 x7
  hg2 := vec1 x8
  hc2 := vec1 x9
  pW := row2 x10
  pb := vec1 x11
  pg := vec1 x12
  pc := vec1 x13
  sW1 := row2 x14
  sb1 := vec1 x15
  sg1 := vec1 x16
  sc1 := vec1 x17
  sW2 := row2 x18
  sb2 := vec1 x19
  sg2 := vec1 x20
  sc2 := vec1 x21
  dW := row2 x22
  db := vec1 x23
  eW := row2 x24
  eb := vec1 x25

/-- The batch of result rows as one [65536, 128] array: row `r` is the result row of observation row `r` and
    preference row `r`. -/
def outArr (θ : Weights) (obs : (⟨2, ![65536, 512]⟩ : Shape).Idx → EReal) (pref : (⟨2, ![65536, 2]⟩ : Shape).Idx → EReal) :
    (⟨2, ![65536, 128]⟩ : Shape).Idx → EReal :=
  fun i => resultRow θ (row2 obs (i 0)) (row2 pref (i 0)) (i 1)

/-- The same numbers as a [65536, 64, 2] array: entry (r, a, h) is output `a` of head `h` of row `r`, that is entry
    `64·h + a` of the result row. -/
def result (θ : Weights) (obs : (⟨2, ![65536, 512]⟩ : Shape).Idx → EReal) (pref : (⟨2, ![65536, 2]⟩ : Shape).Idx → EReal) :
    (⟨3, ![65536, 64, 2]⟩ : Shape).Idx → EReal :=
  fun i => resultRow θ (row2 obs (i 0)) (row2 pref (i 0))
    ⟨64 * (i 2).val + (i 1).val, by have h1 : (i 1).val < 64 := (i 1).isLt; have h2 : (i 2).val < 2 := (i 2).isLt; omega⟩

end Cert.RowSpec

end
-- ==== Proof.KerHist.lean ====
/-
  The histogram part of the kernel's body, one row of the block at a time.

  The body slices the 64 server workloads out of the observation block, bins each into a 32-bit bin word, counts for each
  of the ten bins the workloads that fall in it and lie in [0, 10] (a lane sum of products of two 0/1 indicators), lays
  the ten count columns side by side and divides each by the row's total count plus a small literal.  This module says
  that row `r` of that [1024, 10] block is `Cert.RowSpec.hist` of row `r` of the observation block, and that row `r` of
  the block of remaining observation entries is `Cert.RowSpec.rest` of it.
-/
import proofs.«101865_j10033043603499_2_alg».proof.KernelIdeal
import proofs.«101865_j10033043603499_2_alg».proof.Proof.Gen.KernelIdeal.Skeleton
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KerHist

open Idealize.ShloMosaic Idealize.ShloMosaic.ValueIdx Cert.KernelIdeal Cert.KernelIdeal.Gen Cert.RowSpec

variable {α : Type}

/-- A bit widened to a 32-bit word and read as a signed integer is the bit read as a natural number. -/
theorem bit_toInt (b : BitVec 1) : (b.setWidth 32).toInt = (b.toNat : ℤ) := by
  rcases BitVec.eq_zero_or_eq_one b with h | h <;> subst h <;> decide

/-- So the conversion of a widened bit to an extended real is the real 0 or 1 of the bit. -/
theorem sitofp_bit (b : BitVec 1) : FloatOps.sitofp (F := Ideal) .f32 (b.setWidth 32) = ind b := by
  show (((b.setWidth 32).toInt : ℝ) : EReal) = ((b.toNat : ℝ) : EReal)
  rw [bit_toInt, Int.cast_natCast]

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) (u : Fin 1) : broadcastTo ⟨2, ![a, b]⟩ v h (ix2 i c) = v (ix2 i u) := by
  refine broadcastTo_apply v h (ix2 i c) (ix2 i u) fun ax => ?_
  match ax with
  | ⟨0, _⟩ =>
    show i.val = if a = 1 then 0 else i.val
    split
    · have := i.isLt; omega
    · rfl
  | ⟨1, _⟩ =>
    show u.val = if (1 : ℕ) = 1 then 0 else c.val
    rw [if_pos rfl]; omega

/-- The lane sum of a [1024, 64] block at row `r` is the sum over the 64 lanes. -/
theorem laneSum64_apply (x : FVec Ideal S1024x64 .f32) (r : Fin 1024) :
    multiReduction (F := Ideal) .add [1] S1024 x 0x00000000#32 reduces_S1024x64_S1024 (.inl rfl) rfl (ix1 r)
      = ∑ s : Fin 64, x (ix2 r s) := by
  refine (Ideal.multiReduction_add_single x 0x00000000#32 reduces_S1024x64_S1024 (.inl rfl) rfl (ix1 r)).trans ?_
  refine Finset.sum_congr rfl fun s _ => congrArg x ?_
  funext a
  match a with
  | ⟨0, _⟩ => rfl
  | ⟨1, _⟩ => rfl

/-- The lane sum of a [1024, 10] block at row `r` is the sum over the 10 lanes. -/
theorem laneSum10_apply (x : FVec Ideal S1024x10 .f32) (r : Fin 1024) :
    multiReduction (F := Ideal) .add [1] S1024 x 0x00000000#32 reduces_S1024x10_S1024 (.inl rfl) rfl (ix1 r)
      = ∑ b : Fin 10, x (ix2 r b) := by
  refine (Ideal.multiReduction_add_single x 0x00000000#32 reduces_S1024x10_S1024 (.inl rfl) rfl (ix1 r)).trans ?_
  refine Finset.sum_congr rfl fun s _ => congrArg x ?_
  funext a
  match a with
  | ⟨0, _⟩ => rfl
  | ⟨1, _⟩ => rfl

/-- One count column: the lane sum of the products of the indicator "the bin word is `bw`" and the second factor. -/
theorem binCol_apply (v13 : IVec S1024x64 32) (v20 : FVec Ideal S1024x64 .f32) (bw : BitVec 32) (r : Fin 1024) :
    multiReduction (F := Ideal) .add [1] S1024
        (mulf (sitofp .f32 (extui 32 (cmpi .eq v13 (broadcast S1024x64 bw)) natLt_1_32)) v20)
        0x00000000#32 reduces_S1024x64_S1024 (.inl rfl) rfl (ix1 r)
      = ∑ s : Fin 64, ind (IntOp.cmpi .eq (v13 (ix2 r s)) bw) * v20 (ix2 r s) := by
  refine (laneSum64_apply _ r).trans ?_
  refine Finset.sum_congr rfl fun s _ => ?_
  show FloatOps.sitofp (F := Ideal) .f32 ((IntOp.cmpi .eq (v13 (ix2 r s)) bw).setWidth 32) * v20 (ix2 r s) = _
  rw [sitofp_bit]

/-- Ten unit columns laid side by side: column `b` of the result is the `b`-th piece. -/
theorem cat10_apply (c0 c1 c2 c3 c4 c5 c6 c7 c8 c9 : FVec Ideal S1024x1 .f32) (r : Fin 1024) (b : Fin 10) :
    concatenate S1024x10 1 [⟨S1024x1, c0⟩, ⟨S1024x1, c1⟩, ⟨S1024x1, c2⟩, ⟨S1024x1, c3⟩, ⟨S1024x1, c4⟩, ⟨S1024x1, c5⟩,
        ⟨S1024x1, c6⟩, ⟨S1024x1, c7⟩, ⟨S1024x1, c8⟩, ⟨S1024x1, c9⟩]
        concatenates_S1024x1_S1024x1_S1024x1_S1024x1_S1024x1_S1024x1_S1024x1_S1024x1_S1024x1_S1024x1_S1024x10_d1 (ix2 r b)
      = (![c0, c1, c2, c3, c4, c5, c6, c7, c8, c9] b) (ix2 r (0 : Fin 1)) :=
  concatenate_ofFn_unit_apply (t := S1024x10) (s₁ := S1024x1) (1 : Fin 2) ![c0, c1, c2, c3, c4, c5, c6, c7, c8, c9]
    concatenates_S1024x1_S1024x1_S1024x1_S1024x1_S1024x1_S1024x1_S1024x1_S1024x1_S1024x1_S1024x1_S1024x10_d1
    rfl rfl (ix2 r b) b rfl (ix2 r (0 : Fin 1)) (fun a ha => by
      match a with
      | ⟨0, _⟩ => rfl
      | ⟨1, _⟩ => exact absurd rfl ha)

/-- Entry `(r, s)` of the workload block is workload `s` of observation row `r`. -/
theorem pay2_apply (v0 : Vec Ideal S1024x512 .f32) (r : Fin 1024) (s : Fin 64) :
    k0_pay2 (F := Ideal) v0 (ix2 r s) = server (row2 v0 r) s := by
  unfold k0_pay2 server
  exact slice2_axis1_apply 68 v0 _ r s ⟨68 + s.val, by omega⟩ rfl

/-- Entry `(r, s)` of the block of bin words is the bin word of that workload. -/
theorem pay4_apply (v0 : Vec Ideal S1024x512 .f32) (r : Fin 1024) (s : Fin 64) :
    k0_pay4 (F := Ideal) v0 (ix2 r s) = binWord (server (row2 v0 r) s) := by
  rw [← pay2_apply]
  rfl

/-- Entry `(r, s)` of the block of in-range indicators is the real 0 or 1 of "that workload lies in [0, 10]". -/
theorem pay5_apply (v0 : Vec Ideal S1024x512 .f32) (r : Fin 1024) (s : Fin 64) :
    k0_pay5 (F := Ideal) v0 (ix2 r s) = ind (inRange (server (row2 v0 r) s)) := by
  rw [← pay2_apply]
  exact sitofp_bit _

/-- One count column after the keepdims cast. -/
theorem binCol1_apply (v13 : IVec S1024x64 32) (v20 : FVec Ideal S1024x64 .f32) (bw : BitVec 32) (r : Fin 1024) (u : Fin 1) :
    shapeCast S1024x1 (multiReduction (F := Ideal) .add [1] S1024
        (mulf (sitofp .f32 (extui 32 (cmpi .eq v13 (broadcast S1024x64 bw)) natLt_1_32)) v20)
        0x00000000#32 reduces_S1024x64_S1024 (.inl rfl) rfl) shapeCasts_S1024_S1024x1 (ix2 r u)
      = ∑ s : Fin 64, ind (IntOp.cmpi .eq (v13 (ix2 r s)) bw) * v20 (ix2 r s) :=
  (shapeCast_a_a1_apply _ shapeCasts_S1024_S1024x1 r u).trans (binCol_apply v13 v20 bw r)

/-- With the bin words and the in-range indicators of the observation block, that lane sum is the row's count. -/
theorem count_of_cols (v0 : Vec Ideal S1024x512 .f32) (r : Fin 1024) (b : Fin 10) :
    ∑ s : Fin 64, ind (IntOp.cmpi .eq (k0_pay4 (F := Ideal) v0 (ix2 r s)) (BitVec.ofNat 32 b.val)) * k0_pay5 (F := Ideal) v0 (ix2 r s)
      = RowSpec.count (row2 v0 r) b := by
  unfold RowSpec.count
  refine Finset.sum_congr rfl fun s _ => ?_
  rw [pay4_apply, pay5_apply]

/-- The count column of bin 0 at row `r` is the row's count for that bin. -/
theorem pay6_apply (v0 : Vec Ideal S1024x512 .f32) (r : Fin 1024) (u : Fin 1) :
    k0_pay6 (F := Ideal) v0 (ix2 r u) = RowSpec.count (row2 v0 r) (0 : Fin 10) := by
  unfold k0_pay6
  exact (binCol1_apply (k0_pay4 v0) (k0_pay5 v0) 0#32 r u).trans (count_of_cols v0 r (0 : Fin 10))

/-- The count column of bin 1 at row `r` is the row's count for that bin. -/
theorem pay7_apply (v0 : Vec Ideal S1024x512 .f32) (r : Fin 1024) (u : Fin 1) :
    k0_pay7 (F := Ideal) v0 (ix2 r u) = RowSpec.count (row2 v0 r) (1 : Fin 10) := by
  unfold k0_pay7
  exact (binCol1_apply (k0_pay4 v0) (k0_pay5 v0) 1#32 r u).trans (count_of_cols v0 r (1 : Fin 10))

/-- The count column of bin 2 at row `r` is the row's count for that bin. -/
theorem pay8_apply (v0 : Vec Ideal S1024x512 .f32) (r : Fin 1024) (u : Fin 1) :
    k0_pay8 (F := Ideal) v0 (ix2 r u) = RowSpec.count (row2 v0 r) (2 : Fin 10) := by
  unfold k0_pay8
  exact (binCol1_apply (k0_pay4 v0) (k0_pay5 v0) 2#32 r u).trans (count_of_cols v0 r (2 : Fin 10))

/-- The count column of bin 3 at row `r` is the row's count for that bin. -/
theorem pay10_apply (v0 : Vec Ideal S1024x512 .f32) (r : Fin 1024) (u : Fin 1) :
    k0_pay10 (F := Ideal) (k0_pay4 v0) (k0_pay5 v0) k0_pay9 (ix2 r u) = RowSpec.count (row2 v0 r) (3 : Fin 10) := by
  unfold k0_pay10 k0_pay9
  exact (binCol1_apply (k0_pay4 v0) (k0_pay5 v0) 3#32 r u).trans (count_of_cols v0 r (3 : Fin 10))

/-- The count column of bin 4 at row `r` is the row's count for that bin. -/
theorem pay11_apply (v0 : Vec Ideal S1024x512 .f32) (r : Fin 1024) (u : Fin 1) :
    k0_pay11 (F := Ideal) (k0_pay4 v0) (k0_pay5 v0) (ix2 r u) = RowSpec.count (row2 v0 r) (4 : Fin 10) := by
  unfold k0_pay11
  exact (binCol1_apply (k0_pay4 v0) (k0_pay5 v0) 4#32 r u).trans (count_of_cols v0 r (4 : Fin 10))

/-- The count column of bin 5 at row `r` is the row's count for that bin. -/
theorem pay12_apply (v0 : Vec Ideal S1024x512 .f32) (r : Fin 1024) (u : Fin 1) :
    k0_pay12 (F := Ideal) (k0_pay4 v0) (k0_pay5 v0) (ix2 r u) = RowSpec.count (row2 v0 r) (5 : Fin 10) := by
  unfold k0_pay12
  exact (binCol1_apply (k0_pay4 v0) (k0_pay5 v0) 5#32 r u).trans (count_of_cols v0 r (5 : Fin 10))

/-- The count column of bin 6 at row `r` is the row's count for that bin. -/
theorem pay13_apply (v0 : Vec Ideal S1024x512 .f32) (r : Fin 1024) (u : Fin 1) :
    k0_pay13 (F := Ideal) (k0_pay4 v0) (k0_pay5 v0) (ix2 r u) = RowSpec.count (row2 v0 r) (6 : Fin 10) := by
  unfold k0_pay13
  exact (binCol1_apply (k0_pay4 v0) (k0_pay5 v0) 6#32 r u).trans (count_of_cols v0 r (6 : Fin 10))

/-- The count column of bin 7 at row `r` is the row's count for that bin. -/
theorem pay14_apply (v0 : Vec Ideal S1024x512 .f32) (r : Fin 1024) (u : Fin 1) :
    k0_pay14 (F := Ideal) (k0_pay4 v0) (k0_pay5 v0) (ix2 r u) = RowSpec.count (row2 v0 r) (7 : Fin 10) := by
  unfold k0_pay14
  exact (binCol1_apply (k0_pay4 v0) (k0_pay5 v0) 7#32 r u).trans (count_of_cols v0 r (7 : Fin 10))

/-- The count column of bin 8 at row `r` is the row's count for that bin. -/
theorem pay15_apply (v0 : Vec Ideal S1024x512 .f32) (r : Fin 1024) (u : Fin 1) :
    k0_pay15 (F := Ideal) (k0_pay4 v0) (k0_pay5 v0) (ix2 r u) = RowSpec.count (row2 v0 r) (8 : Fin 10) := by
  unfold k0_pay15
  exact (binCol1_apply (k0_pay4 v0) (k0_pay5 v0) 8#32 r u).trans (count_of_cols v0 r (8 : Fin 10))

/-- The last count column (bin 9), before its keepdims cast. -/
theorem pay16_apply (v0 : Vec Ideal S1024x512 .f32) (r : Fin 1024) :
    k0_pay16 (F := Ideal) (k0_pay4 v0) (k0_pay5 v0) (ix1 r) = RowSpec.count (row2 v0 r) (9 : Fin 10) := by
  unfold k0_pay16
  exact (binCol_apply (k0_pay4 v0) (k0_pay5 v0) 9#32 r).trans (count_of_cols v0 r 9)

/-- The normalised histogram block from its ten count columns: the columns side by side, each entry over the row's
    total plus the literal 1e-8 (the first ten statements of the payload that consumes the columns, verbatim). -/
def histFront (v27 v34 v41 v48 v55 v62 v69 v76 v83 : FVec Ideal S1024x1 .f32) (v89 : FVec Ideal S1024 .f32) :
    FVec Ideal S1024x10 .f32 :=
  have v90 : FVec Ideal S1024x1 .f32 := shapeCast S1024x1 v89 shapeCasts_S1024_S1024x1
  have v91 : FVec Ideal S1024x10 .f32 := concatenate S1024x10 1 [⟨S1024x1, v27⟩, ⟨S1024x1, v34⟩, ⟨S1024x1, v41⟩, ⟨S1024x1, v48⟩, ⟨S1024x1, v55⟩, ⟨S1024x1, v62⟩, ⟨S1024x1, v69⟩, ⟨S1024x1, v76⟩, ⟨S1024x1, v83⟩, ⟨S1024x1, v90⟩] concatenates_S1024x1_S1024x1_S1024x1_S1024x1_S1024x1_S1024x1_S1024x1_S1024x1_S1024x1_S1024x1_S1024x10_d1
  have v92 : FVec Ideal S1024 .f32 := multiReduction .add [1] S1024 v91 0x00000000#32 reduces_S1024x10_S1024 (.inl rfl) rfl
  have v93 : FVec Ideal S1024x1 .f32 := shapeCast S1024x1 v92 shapeCasts_S1024_S1024x1
  have cst_18 : Ideal .f32 := Scalar.ofBits .f32 0x322BCC77#32
  have v94 : FVec Ideal S1024x1 .f32 := broadcast S1024x1 cst_18
  have v95 : FVec Ideal S1024x1 .f32 := addf v93 v94
  have v96 : FVec Ideal S1024x10 .f32 := broadcastTo S1024x10 v95 broadcasts_S1024x1_S1024x10
  divf v91 v96

/-- The normalised block read at `(r, b)`, from what its ten columns are at row `r`. -/
theorem histFront_apply (c0 c1 c2 c3 c4 c5 c6 c7 c8 : FVec Ideal S1024x1 .f32) (c9 : FVec Ideal S1024 .f32) (r : Fin 1024)
    (cnt : Fin 10 → EReal)
    (h : ∀ b' : Fin 10, (![c0, c1, c2, c3, c4, c5, c6, c7, c8, shapeCast S1024x1 c9 shapeCasts_S1024_S1024x1] b')
      (ix2 r (0 : Fin 1)) = cnt b') (b : Fin 10) :
    histFront c0 c1 c2 c3 c4 c5 c6 c7 c8 c9 (ix2 r b)
      = Ideal.div (cnt b) ((∑ b' : Fin 10, cnt b') + Ideal.ofBits .f32 0x322BCC77#32) := by
  unfold histFront
  refine (divf_apply _ _ (ix2 r b)).trans ?_
  refine congrArg₂ Ideal.div ?_ ?_
  · exact (cat10_apply c0 c1 c2 c3 c4 c5 c6 c7 c8 _ r b).trans (h b)
  · refine (broadcastTo_a1_ab_apply _ broadcasts_S1024x1_S1024x10 r b (0 : Fin 1)).trans ?_
    refine (addf_apply _ _ _).trans ?_
    refine congrArg₂ (· + ·) ?_ rfl
    refine (shapeCast_a_a1_apply _ shapeCasts_S1024_S1024x1 r (0 : Fin 1)).trans ?_
    refine (laneSum10_apply _ r).trans ?_
    exact Finset.sum_congr rfl fun b' _ => (cat10_apply c0 c1 c2 c3 c4 c5 c6 c7 c8 _ r b').trans (h b')
/-- Row `r` of the block of remaining observation entries (columns 0 … 67 and 132 … 511 laid side by side). -/
theorem rest_row (v0 : Vec Ideal S1024x512 .f32) (r : Fin 1024) :
    row2 (k0_pay3 (F := Ideal) v0) r = rest (row2 v0 r) := by
  funext k
  show k0_pay3 v0 (ix2 r k) = _
  unfold k0_pay3 rest
  by_cases hk : k.val < 68
  · rw [dif_pos hk]
    refine (concatenate_pair_apply_left (t := S1024x448) (s₁ := S1024x68) (s₂ := S1024x380) (1 : Fin 2) _ _
      concatenates_S1024x68_S1024x380_S1024x448_d1 (ix2 r k) rfl (ix2 r (⟨k.val, hk⟩ : Fin 68)) ?_).trans ?_
    · intro b
      match b with
      | ⟨0, _⟩ => rfl
      | ⟨1, _⟩ => rfl
    · exact slice2_axis1_apply 0 v0 _ r (⟨k.val, hk⟩ : Fin 68) (⟨k.val, by omega⟩ : Fin 512) (by simp)
  · rw [dif_neg hk]
    have hk2 : k.val < 448 := k.isLt
    refine (concatenate_pair_apply_right (t := S1024x448) (s₁ := S1024x68) (s₂ := S1024x380) (1 : Fin 2) _ _
      concatenates_S1024x68_S1024x380_S1024x448_d1 (ix2 r k) rfl rfl (ix2 r (⟨k.val - 68, by omega⟩ : Fin 380)) ?_ ?_).trans ?_
    · intro b hb
      match b with
      | ⟨0, _⟩ => rfl
      | ⟨1, _⟩ => exact absurd rfl hb
    · show (k.val - 68) + 68 = k.val
      omega
    · exact slice2_axis1_apply 132 v0 _ r (⟨k.val - 68, by omega⟩ : Fin 380) (⟨64 + k.val, by omega⟩ : Fin 512)
        (by show 64 + k.val = 132 + (k.val - 68); omega)

/-- Row `r` of the normalised histogram block computed from the observation block is the histogram of row `r`. -/
theorem hist_row (v0 : Vec Ideal S1024x512 .f32) (r : Fin 1024) :
    row2 (histFront (k0_pay6 v0) (k0_pay7 v0) (k0_pay8 v0) (k0_pay10 (k0_pay4 v0) (k0_pay5 v0) k0_pay9)
        (k0_pay11 (k0_pay4 v0) (k0_pay5 v0)) (k0_pay12 (k0_pay4 v0) (k0_pay5 v0)) (k0_pay13 (k0_pay4 v0) (k0_pay5 v0))
        (k0_pay14 (k0_pay4 v0) (k0_pay5 v0)) (k0_pay15 (k0_pay4 v0) (k0_pay5 v0)) (k0_pay16 (k0_pay4 v0) (k0_pay5 v0))) r
      = hist (row2 v0 r) := by
  funext b
  refine histFront_apply _ _ _ _ _ _ _ _ _ _ r (RowSpec.count (row2 v0 r)) (fun b' => ?_) b
  match b' with
  | ⟨0, _⟩ => exact pay6_apply v0 r 0
  | ⟨1, _⟩ => exact pay7_apply v0 r 0
  | ⟨2, _⟩ => exact pay8_apply v0 r 0
  | ⟨3, _⟩ => exact pay10_apply v0 r 0
  | ⟨4, _⟩ => exact pay11_apply v0 r 0
  | ⟨5, _⟩ => exact pay12_apply v0 r 0
  | ⟨6, _⟩ => exact pay13_apply v0 r 0
  | ⟨7, _⟩ => exact pay14_apply v0 r 0
  | ⟨8, _⟩ => exact pay15_apply v0 r 0
  | ⟨9, _⟩ => exact (shapeCast_a_a1_apply _ shapeCasts_S1024_S1024x1 r 0).trans (pay16_apply v0 r)

end Cert.KerHist

end
-- ==== Proof.KerOps.lean ====
/-
  Row forms of the block operations the kernel's dense layers and layer normalisations are built from.

  A block is a [1024, N] array; its row r is a function of the column.  Read at (r, j): a lane sum kept as a
  [1024, 1] column is the finite sum of row r; a column broadcast along the lanes is the column's entry in row r;
  a bias vector laid as one row and broadcast down the block is its entry j; a matrix product into a zero
  accumulator is the sum over k of (row r of the left block at k) times (the right block at (k, j)); blocks laid
  side by side along the lanes read the piece the column falls in.
-/
import proofs.«101865_j10033043603499_2_alg».proof.KernelIdeal
import proofs.«101865_j10033043603499_2_alg».proof.Proof.Gen.KernelIdeal
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KerOps

open Idealize.ShloMosaic Idealize.ShloMosaic.ValueIdx Cert.KernelIdeal Cert.KernelIdeal.Gen Cert.RowSpec

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The lane sum of a `[1024, N]` block, read at row `r`, is the finite sum of that row. -/
theorem laneSum_apply {N : ℕ} (v : FVec Ideal ⟨2, ![1024, N]⟩ .f32)
    (h : (⟨2, ![1024, N]⟩ : Shape).Reduces [1] ⟨1, ![1024]⟩) (hφ : FKind.Formats .f32)
    (hacc : (0x00000000#32 : BitVec 32) = 0x00000000#32) (r : Fin 1024) :
    multiReduction .add [1] ⟨1, ![1024]⟩ v 0x00000000#32 h hφ hacc (ix1 r) = ∑ k : Fin N, v (ix2 r k) := by
  refine (Ideal.multiReduction_add_single v 0x00000000#32 h hφ hacc (ix1 r)).trans ?_
  show ∑ k : Fin N, v (h.lift (ix1 r) k) = _
  refine Finset.sum_congr rfl fun k _ => congrArg v ?_
  funext a
  apply Fin.ext
  match a with
  | ⟨0, _⟩ => rfl
  | ⟨1, _⟩ => rfl

/-- The reciprocal square root of a block is taken entry by entry. -/
theorem rsqrt_apply {s : Shape} {φ : FTy} (a : FVec Ideal s φ) (i : s.Idx) : rsqrt a i = Ideal.rsqrt (a i) := rfl

/-- A matrix product of a `[R, K]` block and a `[K, N]` block into a zero accumulator, read at `(r, j)`: the sum
    over `k` of the left block at `(r, k)` times the right block at `(k, j)`.  The hypotheses say that the
    product contracts the left block's second axis with the right block's first. -/
theorem matmul_zero_apply {R K N : ℕ} {φ₁ φ₂ : FTy} (D : DotDims ⟨2, ![R, K]⟩ ⟨2, ![K, N]⟩ ⟨2, ![R, N]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (lhs : FVec Ideal ⟨2, ![R, K]⟩ φ₁) (rhs : FVec Ideal ⟨2, ![K, N]⟩ φ₂)
    (r : Fin R) (j : Fin N) :
    matmul D prec lhs rhs (constant (F := Ideal) ⟨2, ![R, N]⟩ .f32 0x00000000#32) (ix2 r j)
      = ∑ k : Fin K, lhs (ix2 r k) * rhs (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 k j := funext fun a => Fin.ext (by
    match a with
    | ⟨0, _⟩ => exact (hr0 _ _).trans hk
    | ⟨1, _⟩ => exact hr1 _ _)
  rw [el, er]

/-- The `[1024, 10]` by `[10, 128]` product of the kernel into a zero accumulator, read at `(r, j)`. -/
theorem matmul_10_128_apply {φ₁ φ₂ : FTy} (lhs : FVec Ideal S1024x10 φ₁) (rhs : FVec Ideal S10x128 φ₂) (r : Fin 1024) (j : Fin 128) :
    matmul dot_S1024x10_S10x128_S1024x128_1_0_0_1_n_n none lhs rhs (constant (F := Ideal) S1024x128 .f32 0x00000000#32) (ix2 r j)
      = ∑ k : Fin 10, lhs (ix2 r k) * rhs (ix2 k j) :=
  matmul_zero_apply dot_S1024x10_S10x128_S1024x128_1_0_0_1_n_n rfl rfl
    (fun j q => by
      unfold DotDims.lhsIdx
      rw [dif_neg (show ¬(0 : Fin S1024x10.rank) ∈ dot_S1024x10_S10x128_S1024x128_1_0_0_1_n_n.lhsBatch by decide),
        dif_pos (show (0 : Fin S1024x10.rank) ∈ dot_S1024x10_S10x128_S1024x128_1_0_0_1_n_n.lhsNonContracting by decide)]
      rfl)
    (fun j q => dot_S1024x10_S10x128_S1024x128_1_0_0_1_n_n.lhsIdx_val_of_single rfl j q)
    (fun j q => dot_S1024x10_S10x128_S1024x128_1_0_0_1_n_n.rhsIdx_val_of_single rfl j q)
    (fun j q => by
      unfold DotDims.rhsIdx
      rw [dif_neg (show ¬(1 : Fin S10x128.rank) ∈ dot_S1024x10_S10x128_S1024x128_1_0_0_1_n_n.rhsBatch by decide),
        dif_pos (show (1 : Fin S10x128.rank) ∈ dot_S1024x10_S10x128_S1024x128_1_0_0_1_n_n.rhsNonContracting by decide)]
      rfl)
    none lhs rhs r j

/-- The `[1024, 128]` by `[128, 128]` product of the kernel into a zero accumulator, read at `(r, j)`. -/
theorem matmul_128_128_apply {φ₁ φ₂ : FTy} (lhs : FVec Ideal S1024x128 φ₁) (rhs : FVec Ideal S128x128 φ₂) (r : Fin 1024) (j : Fin 128) :
    matmul dot_S1024x128_S128x128_S1024x128_1_0_0_1_n_n none lhs rhs (constant (F := Ideal) S1024x128 .f32 0x00000000#32) (ix2 r j)
      = ∑ k : Fin 128, lhs (ix2 r k) * rhs (ix2 k j) :=
  matmul_zero_apply dot_S1024x128_S128x128_S1024x128_1_0_0_1_n_n rfl rfl
    (fun j q => by
      unfold DotDims.lhsIdx
      rw [dif_neg (show ¬(0 : Fin S1024x128.rank) ∈ dot_S1024x128_S128x128_S1024x128_1_0_0_1_n_n.lhsBatch by decide),
        dif_pos (show (0 : Fin S1024x128.rank) ∈ dot_S1024x128_S128x128_S1024x128_1_0_0_1_n_n.lhsNonContracting by decide)]
      rfl)
    (fun j q => dot_S1024x128_S128x128_S1024x128_1_0_0_1_n_n.lhsIdx_val_of_single rfl j q)
    (fun j q => dot_S1024x128_S128x128_S1024x128_1_0_0_1_n_n.rhsIdx_val_of_single rfl j q)
    (fun j q => by
      unfold DotDims.rhsIdx
      rw [dif_neg (show ¬(1 : Fin S128x128.rank) ∈ dot_S1024x128_S128x128_S1024x128_1_0_0_1_n_n.rhsBatch by decide),
        dif_pos (show (1 : Fin S128x128.rank) ∈ dot_S1024x128_S128x128_S1024x128_1_0_0_1_n_n.rhsNonContracting by decide)]
      rfl)
    none lhs rhs r j

/-- The `[1024, 2]` by `[2, 64]` product of the kernel into a zero accumulator, read at `(r, j)`. -/
theorem matmul_2_64_apply {φ₁ φ₂ : FTy} (lhs : FVec Ideal S1024x2 φ₁) (rhs : FVec Ideal S2x64 φ₂) (r : Fin 1024) (j : Fin 64) :
    matmul dot_S1024x2_S2x64_S1024x64_1_0_0_1_n_n none lhs rhs (constant (F := Ideal) S1024x64 .f32 0x00000000#32) (ix2 r j)
      = ∑ k : Fin 2, lhs (ix2 r k) * rhs (ix2 k j) :=
  matmul_zero_apply dot_S1024x2_S2x64_S1024x64_1_0_0_1_n_n rfl rfl
    (fun j q => by
      unfold DotDims.lhsIdx
      rw [dif_neg (show ¬(0 : Fin S1024x2.rank) ∈ dot_S1024x2_S2x64_S1024x64_1_0_0_1_n_n.lhsBatch by decide),
        dif_pos (show (0 : Fin S1024x2.rank) ∈ dot_S1024x2_S2x64_S1024x64_1_0_0_1_n_n.lhsNonContracting by decide)]
      rfl)
    (fun j q => dot_S1024x2_S2x64_S1024x64_1_0_0_1_n_n.lhsIdx_val_of_single rfl j q)
    (fun j q => dot_S1024x2_S2x64_S1024x64_1_0_0_1_n_n.rhsIdx_val_of_single rfl j q)
    (fun j q => by
      unfold DotDims.rhsIdx
      rw [dif_neg (show ¬(1 : Fin S2x64.rank) ∈ dot_S1024x2_S2x64_S1024x64_1_0_0_1_n_n.rhsBatch by decide),
        dif_pos (show (1 : Fin S2x64.rank) ∈ dot_S1024x2_S2x64_S1024x64_1_0_0_1_n_n.rhsNonContracting by decide)]
      rfl)
    none lhs rhs r j

/-- The `[1024, 640]` by `[640, 256]` product of the kernel into a zero accumulator, read at `(r, j)`. -/
theorem matmul_640_256_apply {φ₁ φ₂ : FTy} (lhs : FVec Ideal S1024x640 φ₁) (rhs : FVec Ideal S640x256 φ₂) (r : Fin 1024) (j : Fin 256) :
    matmul dot_S1024x640_S640x256_S1024x256_1_0_0_1_n_n none lhs rhs (constant (F := Ideal) S1024x256 .f32 0x00000000#32) (ix2 r j)
      = ∑ k : Fin 640, lhs (ix2 r k) * rhs (ix2 k j) :=
  matmul_zero_apply dot_S1024x640_S640x256_S1024x256_1_0_0_1_n_n rfl rfl
    (fun j q => by
      unfold DotDims.lhsIdx
      rw [dif_neg (show ¬(0 : Fin S1024x640.rank) ∈ dot_S1024x640_S640x256_S1024x256_1_0_0_1_n_n.lhsBatch by decide),
        dif_pos (show (0 : Fin S1024x640.rank) ∈ dot_S1024x640_S640x256_S1024x256_1_0_0_1_n_n.lhsNonContracting by decide)]
      rfl)
    (fun j q => dot_S1024x640_S640x256_S1024x256_1_0_0_1_n_n.lhsIdx_val_of_single rfl j q)
    (fun j q => dot_S1024x640_S640x256_S1024x256_1_0_0_1_n_n.rhsIdx_val_of_single rfl j q)
    (fun j q => by
      unfold DotDims.rhsIdx
      rw [dif_neg (show ¬(1 : Fin S640x256.rank) ∈ dot_S1024x640_S640x256_S1024x256_1_0_0_1_n_n.rhsBatch by decide),
        dif_pos (show (1 : Fin S640x256.rank) ∈ dot_S1024x640_S640x256_S1024x256_1_0_0_1_n_n.rhsNonContracting by decide)]
      rfl)
    none lhs rhs r j

/-- The `[1024, 256]` by `[256, 256]` product of the kernel into a zero accumulator, read at `(r, j)`. -/
theorem matmul_256_256_apply {φ₁ φ₂ : FTy} (lhs : FVec Ideal S1024x256 φ₁) (rhs : FVec Ideal S256x256 φ₂) (r : Fin 1024) (j : Fin 256) :
    matmul dot_S1024x256_S256x256_S1024x256_1_0_0_1_n_n none lhs rhs (constant (F := Ideal) S1024x256 .f32 0x00000000#32) (ix2 r j)
      = ∑ k : Fin 256, lhs (ix2 r k) * rhs (ix2 k j) :=
  matmul_zero_apply dot_S1024x256_S256x256_S1024x256_1_0_0_1_n_n rfl rfl
    (fun j q => by
      unfold DotDims.lhsIdx
      rw [dif_neg (show ¬(0 : Fin S1024x256.rank) ∈ dot_S1024x256_S256x256_S1024x256_1_0_0_1_n_n.lhsBatch by decide),
        dif_pos (show (0 : Fin S1024x256.rank) ∈ dot_S1024x256_S256x256_S1024x256_1_0_0_1_n_n.lhsNonContracting by decide)]
      rfl)
    (fun j q => dot_S1024x256_S256x256_S1024x256_1_0_0_1_n_n.lhsIdx_val_of_single rfl j q)
    (fun j q => dot_S1024x256_S256x256_S1024x256_1_0_0_1_n_n.rhsIdx_val_of_single rfl j q)
    (fun j q => by
      unfold DotDims.rhsIdx
      rw [dif_neg (show ¬(1 : Fin S256x256.rank) ∈ dot_S1024x256_S256x256_S1024x256_1_0_0_1_n_n.rhsBatch by decide),
        dif_pos (show (1 : Fin S256x256.rank) ∈ dot_S1024x256_S256x256_S1024x256_1_0_0_1_n_n.rhsNonContracting by decide)]
      rfl)
    none lhs rhs r j

/-- The `[1024, 256]` by `[256, 64]` product of the kernel into a zero accumulator, read at `(r, j)`. -/
theorem matmul_256_64_apply {φ₁ φ₂ : FTy} (lhs : FVec Ideal S1024x256 φ₁) (rhs : FVec Ideal S256x64 φ₂) (r : Fin 1024) (j : Fin 64) :
    matmul dot_S1024x256_S256x64_S1024x64_1_0_0_1_n_n none lhs rhs (constant (F := Ideal) S1024x64 .f32 0x00000000#32) (ix2 r j)
      = ∑ k : Fin 256, lhs (ix2 r k) * rhs (ix2 k j) :=
  matmul_zero_apply dot_S1024x256_S256x64_S1024x64_1_0_0_1_n_n rfl rfl
    (fun j q => by
      unfold DotDims.lhsIdx
      rw [dif_neg (show ¬(0 : Fin S1024x256.rank) ∈ dot_S1024x256_S256x64_S1024x64_1_0_0_1_n_n.lhsBatch by decide),
        dif_pos (show (0 : Fin S1024x256.rank) ∈ dot_S1024x256_S256x64_S1024x64_1_0_0_1_n_n.lhsNonContracting by decide)]
      rfl)
    (fun j q => dot_S1024x256_S256x64_S1024x64_1_0_0_1_n_n.lhsIdx_val_of_single rfl j q)
    (fun j q => dot_S1024x256_S256x64_S1024x64_1_0_0_1_n_n.rhsIdx_val_of_single rfl j q)
    (fun j q => by
      unfold DotDims.rhsIdx
      rw [dif_neg (show ¬(1 : Fin S256x64.rank) ∈ dot_S1024x256_S256x64_S1024x64_1_0_0_1_n_n.rhsBatch by decide),
        dif_pos (show (1 : Fin S256x64.rank) ∈ dot_S1024x256_S256x64_S1024x64_1_0_0_1_n_n.rhsNonContracting by decide)]
      rfl)
    none lhs rhs r j

/-- The lane sum of a `[1024, 64]` block kept as a `[1024, 1]` column. -/
def colSum64 (X : FVec Ideal S1024x64 .f32) : FVec Ideal S1024x1 .f32 :=
  shapeCast S1024x1 (multiReduction .add [1] S1024 X 0x00000000#32 reduces_S1024x64_S1024 (.inl rfl) rfl) shapeCasts_S1024_S1024x1

/-- The kernel's lane sum and column cast of a `[1024, 64]` block is that column. -/
theorem colSum64_fold (X : FVec Ideal S1024x64 .f32) (hφ : FKind.Formats .f32) (hacc : (0x00000000#32 : BitVec 32) = 0x00000000#32) :
    shapeCast S1024x1 (multiReduction .add [1] S1024 X 0x00000000#32 reduces_S1024x64_S1024 hφ hacc) shapeCasts_S1024_S1024x1
      = colSum64 X := rfl

/-- The column's entry in row `r` is the finite sum of row `r` of the block. -/
theorem colSum64_apply (X : FVec Ideal S1024x64 .f32) (r : Fin 1024) (u : Fin 1) :
    colSum64 X (ix2 r u) = ∑ k : Fin 64, X (ix2 r k) := by
  unfold colSum64
  rw [shapeCast_a_a1_apply, laneSum_apply]

/-- The lane sum of a `[1024, 128]` block kept as a `[1024, 1]` column. -/
def colSum128 (X : FVec Ideal S1024x128 .f32) : FVec Ideal S1024x1 .f32 :=
  shapeCast S1024x1 (multiReduction .add [1] S1024 X 0x00000000#32 reduces_S1024x128_S1024 (.inl rfl) rfl) shapeCasts_S1024_S1024x1

/-- The kernel's lane sum and column cast of a `[1024, 128]` block is that column. -/
theorem colSum128_fold (X : FVec Ideal S1024x128 .f32) (hφ : FKind.Formats .f32) (hacc : (0x00000000#32 : BitVec 32) = 0x00000000#32) :
    shapeCast S1024x1 (multiReduction .add [1] S1024 X 0x00000000#32 reduces_S1024x128_S1024 hφ hacc) shapeCasts_S1024_S1024x1
      = colSum128 X := rfl

/-- The column's entry in row `r` is the finite sum of row `r` of the block. -/
theorem colSum128_apply (X : FVec Ideal S1024x128 .f32) (r : Fin 1024) (u : Fin 1) :
    colSum128 X (ix2 r u) = ∑ k : Fin 128, X (ix2 r k) := by
  unfold colSum128
  rw [shapeCast_a_a1_apply, laneSum_apply]

/-- The lane sum of a `[1024, 256]` block kept as a `[1024, 1]` column. -/
def colSum256 (X : FVec Ideal S1024x256 .f32) : FVec Ideal S1024x1 .f32 :=
  shapeCast S1024x1 (multiReduction .add [1] S1024 X 0x00000000#32 reduces_S1024x256_S1024 (.inl rfl) rfl) shapeCasts_S1024_S1024x1

/-- The kernel's lane sum and column cast of a `[1024, 256]` block is that column. -/
theorem colSum256_fold (X : FVec Ideal S1024x256 .f32) (hφ : FKind.Formats .f32) (hacc : (0x00000000#32 : BitVec 32) = 0x00000000#32) :
    shapeCast S1024x1 (multiReduction .add [1] S1024 X 0x00000000#32 reduces_S1024x256_S1024 hφ hacc) shapeCasts_S1024_S1024x1
      = colSum256 X := rfl

/-- The column's entry in row `r` is the finite sum of row `r` of the block. -/
theorem colSum256_apply (X : FVec Ideal S1024x256 .f32) (r : Fin 1024) (u : Fin 1) :
    colSum256 X (ix2 r u) = ∑ k : Fin 256, X (ix2 r k) := by
  unfold colSum256
  rw [shapeCast_a_a1_apply, laneSum_apply]

/-- Three blocks of 448, 128 and 64 lanes laid side by side, read at `(r, k)`: the rows `r` of the three laid side by
    side (`Cert.RowSpec.joined`), at `k`. -/
theorem concat3_apply (a : FVec Ideal S1024x448 .f32) (h : FVec Ideal S1024x128 .f32) (p : FVec Ideal S1024x64 .f32)
    (r : Fin 1024) (k : Fin 640) :
    concatenate S1024x640 1 [⟨S1024x448, a⟩, ⟨S1024x128, h⟩, ⟨S1024x64, p⟩]
        concatenates_S1024x448_S1024x128_S1024x64_S1024x640_d1 (ix2 r k)
      = joined (fun k' => a (ix2 r k')) (fun k' => h (ix2 r k')) (fun k' => p (ix2 r k')) k := by
  unfold joined
  by_cases h1 : k.val < 448
  · rw [dif_pos h1]
    exact concatenate_apply_piece 1 _ _ (ix2 r k) 0 (by show (0 : ℕ) < 3; omega) S1024x448 a rfl rfl 0 rfl (ix2 r ⟨k.val, h1⟩)
      (fun b hb => by
        match b with
        | ⟨0, _⟩ => rfl
        | ⟨1, _⟩ => exact absurd rfl hb)
      (by show 0 + k.val = k.val; omega)
  · rw [dif_neg h1]
    by_cases h2 : k.val < 576
    · rw [dif_pos h2]
      exact concatenate_apply_piece 1 _ _ (ix2 r k) 1 (by show (1 : ℕ) < 3; omega) S1024x128 h rfl rfl 448 rfl
        (ix2 r ⟨k.val - 448, by omega⟩)
        (fun b hb => by
          match b with
          | ⟨0, _⟩ => rfl
          | ⟨1, _⟩ => exact absurd rfl hb)
        (by show 448 + (k.val - 448) = k.val; omega)
    · rw [dif_neg h2]
      exact concatenate_apply_piece 1 _ _ (ix2 r k) 2 (by show (2 : ℕ) < 3; omega) S1024x64 p rfl rfl 576 rfl
        (ix2 r ⟨k.val - 576, by have := k.isLt; omega⟩)
        (fun b hb => by
          match b with
          | ⟨0, _⟩ => rfl
          | ⟨1, _⟩ => exact absurd rfl hb)
        (by show 576 + (k.val - 576) = k.val; omega)

/-- Two blocks of 64 lanes laid side by side, read at `(r, k)`: the rows `r` of the two laid side by side
    (`Cert.RowSpec.heads`), at `k`. -/
theorem concat2_apply (d e : FVec Ideal S1024x64 .f32) (r : Fin 1024) (k : Fin 128) :
    concatenate S1024x128 1 [⟨S1024x64, d⟩, ⟨S1024x64, e⟩] concatenates_S1024x64_S1024x64_S1024x128_d1 (ix2 r k)
      = heads (fun k' => d (ix2 r k')) (fun k' => e (ix2 r k')) k := by
  unfold heads
  by_cases h1 : k.val < 64
  · rw [dif_pos h1]
    exact concatenate_apply_piece 1 _ _ (ix2 r k) 0 (by show (0 : ℕ) < 2; omega) S1024x64 d rfl rfl 0 rfl (ix2 r ⟨k.val, h1⟩)
      (fun b hb => by
        match b with
        | ⟨0, _⟩ => rfl
        | ⟨1, _⟩ => exact absurd rfl hb)
      (by show 0 + k.val = k.val; omega)
  · rw [dif_neg h1]
    exact concatenate_apply_piece 1 _ _ (ix2 r k) 1 (by show (1 : ℕ) < 2; omega) S1024x64 e rfl rfl 64 rfl
      (ix2 r ⟨k.val - 64, by have := k.isLt; omega⟩)
      (fun b hb => by
        match b with
        | ⟨0, _⟩ => rfl
        | ⟨1, _⟩ => exact absurd rfl hb)
      (by show 64 + (k.val - 64) = k.val; omega)

/-- Layer normalisation of a row with its mean given: `(x − μ) · rsqrt(mean((x − μ)²) + 1e-5) · g + b`. -/
def normGiven {N : Nat} (μ : EReal) (c : BitVec 32) (g b : Fin N → EReal) (x : Fin N → EReal) : Fin N → EReal := fun j =>
  (x j - μ) * Ideal.rsqrt (mean c (fun j' => (x j' - μ) * (x j' - μ)) + Ideal.ofBits .f32 0x3727C5AC#32) * g j + b j

/-- Layer normalisation is the same with the row's own mean given. -/
theorem norm_eq_normGiven {N : Nat} (c : BitVec 32) (g b : Fin N → EReal) (x : Fin N → EReal) :
    norm c g b x = normGiven (mean c x) c g b x := rfl

end Cert.KerOps

end
-- ==== Proof.KerMlp.lean ====
/-
  The two dense layers of the kernel's histogram encoder and the dense layer of its preference encoder, one row of the
  block at a time.

  Each encoder layer is a matrix product with the weights plus the bias, max(·, 0), and a layer normalisation: the
  row's mean, the mean of the squared deviations, the deviations times the reciprocal square root of that mean plus a
  small literal, times the gain, plus the shift.  Read at row r these are `Cert.RowSpec.dense`, `relu` and `norm` of
  row r of the layer's input block.  The preference encoder's product and bias alone are `dense` of the preference row.
-/
import proofs.«101865_j10033043603499_2_alg».proof.KernelIdeal
import proofs.«101865_j10033043603499_2_alg».proof.Proof.Gen.KernelIdeal.Skeleton
import proofs.«101865_j10033043603499_2_alg».proof.Proof.RowSpec
import proofs.«101865_j10033043603499_2_alg».proof.Proof.KerHist
import proofs.«101865_j10033043603499_2_alg».proof.Proof.KerOps
import Idealize.ShloMosaic.Lib.ValueIdx
import Idealize.ShloMosaic.Lib.ValueLayout
import Idealize.ShloMosaic.Lib.Pipeline.Value
import Idealize.ShloMosaic.PureOps.Ideal.Laws

noncomputable section

namespace Cert.KerMlp

open Idealize.ShloMosaic Idealize.ShloMosaic.ValueIdx Cert.KernelIdeal Cert.KernelIdeal.Gen Cert.RowSpec Cert.KerOps

/-- The first encoder layer as a function of the normalised histogram block: the statements of the payload that
    follow the histogram's normalisation. -/
def encFirst (v97 : FVec Ideal S1024x10 .f32) (v98 : Vec Ideal S10x128 .f32) (v99 v108 v109 : Vec Ideal S128 .f32) :
    FVec Ideal S1024x128 .f32 :=
  have v100 : FVec Ideal S1024x10 .bf16 := truncf .bf16 v97 bitsLt_bf16_f32
  have v101 : FVec Ideal S10x128 .bf16 := truncf .bf16 v98 bitsLt_bf16_f32
  have cst_22 : FVec Ideal S1024x128 .f32 := constant S1024x128 .f32 0x00000000#32
  have v102 : FVec Ideal S1024x128 .f32 := matmul dot_S1024x10_S10x128_S1024x128_1_0_0_1_n_n none v100 v101 cst_22
  have v103 : FVec Ideal S1x128 .f32 := shapeCast S1x128 v99 shapeCasts_S128_S1x128
  have v104 : FVec Ideal S1024x128 .f32 := broadcastTo S1024x128 v103 broadcasts_S1x128_S1024x128
  have v105 : FVec Ideal S1024x128 .f32 := addf v102 v104
  have cst_23 : Ideal .f32 := Scalar.ofBits .f32 0x00000000#32
  have v106 : FVec Ideal S1024x128 .f32 := broadcast S1024x128 cst_23
  have v107 : FVec Ideal S1024x128 .f32 := maximumf v105 v106
  have v110 : FVec Ideal S1024 .f32 := multiReduction .add [1] S1024 v107 0x00000000#32 reduces_S1024x128_S1024 (.inl rfl) rfl
  have v111 : FVec Ideal S1024x1 .f32 := shapeCast S1024x1 v110 shapeCasts_S1024_S1024x1
  have cst_27 : Ideal .f32 := Scalar.ofBits .f32 0x43000000#32
  have v112 : FVec Ideal S1024x1 .f32 := broadcast S1024x1 cst_27
  have v113 : FVec Ideal S1024x1 .f32 := divf v111 v112
  have v114 : FVec Ideal S1024x128 .f32 := broadcastTo S1024x128 v113 broadcasts_S1024x1_S1024x128
  have v115 : FVec Ideal S1024x128 .f32 := subf v107 v114
  have v116 : FVec Ideal S1024x128 .f32 := mulf v115 v115
  have v117 : FVec Ideal S1024 .f32 := multiReduction .add [1] S1024 v116 0x00000000#32 reduces_S1024x128_S1024 (.inl rfl) rfl
  have v118 : FVec Ideal S1024x1 .f32 := shapeCast S1024x1 v117 shapeCasts_S1024_S1024x1
  have cst_29 : Ideal .f32 := Scalar.ofBits .f32 0x43000000#32
  have v119 : FVec Ideal S1024x1 .f32 := broadcast S1024x1 cst_29
  have v120 : FVec Ideal S1024x1 .f32 := divf v118 v119
  have v121 : FVec Ideal S1024x128 .f32 := broadcastTo S1024x128 v113 broadcasts_S1024x1_S1024x128
  have v122 : FVec Ideal S1024x128 .f32 := subf v107 v121
  have cst_30 : Ideal .f32 := Scalar.ofBits .f32 0x3727C5AC#32
  have v123 : FVec Ideal S1024x1 .f32 := broadcast S1024x1 cst_30
  have v124 : FVec Ideal S1024x1 .f32 := addf v120 v123
  have v125 : FVec Ideal S1024x1 .f32 := rsqrt v124
  have v126 : FVec Ideal S1024x128 .f32 := broadcastTo S1024x128 v125 broadcasts_S1024x1_S1024x128
  have v127 : FVec Ideal S1024x128 .f32 := mulf v122 v126
  have v128 : FVec Ideal S1x128 .f32 := shapeCast S1x128 v108 shapeCasts_S128_S1x128
  have v129 : FVec Ideal S1024x128 .f32 := broadcastTo S1024x128 v128 broadcasts_S1x128_S1024x128
  have v130 : FVec Ideal S1024x128 .f32 := mulf v127 v129
  have v131 : FVec Ideal S1x128 .f32 := shapeCast S1x128 v109 shapeCasts_S128_S1x128
  have v132 : FVec Ideal S1024x128 .f32 := broadcastTo S1024x128 v131 broadcasts_S1x128_S1024x128
  have v133 : FVec Ideal S1024x128 .f32 := addf v130 v132
  v133

/-- The payload is the first encoder layer applied to the normalised histogram block. -/
theorem pay17_eq (v27 v34 v41 v48 v55 v62 v69 v76 v83 : FVec Ideal S1024x1 .f32) (v89 : FVec Ideal S1024 .f32)
    (v98 : Vec Ideal S10x128 .f32) (v99 v108 v109 : Vec Ideal S128 .f32) :
    k0_pay17 (F := Ideal) v27 v34 v41 v48 v55 v62 v69 v76 v83 v89 v98 v99 v108 v109
      = encFirst (Cert.KerHist.histFront v27 v34 v41 v48 v55 v62 v69 v76 v83 v89) v98 v99 v108 v109 := rfl

/-- Row `r` of the first encoder layer: dense, max(·, 0), layer normalisation of row `r` of its input. -/
theorem encFirst_row (v97 : FVec Ideal S1024x10 .f32) (v98 : Vec Ideal S10x128 .f32) (v99 v108 v109 : Vec Ideal S128 .f32)
    (r : Fin 1024) :
    row2 (encFirst v97 v98 v99 v108 v109) r
      = RowSpec.norm 0x43000000#32 (vec1 v108) (vec1 v109) (relu (dense (row2 v98) (vec1 v99) (row2 v97 r))) := by
  funext j
  unfold encFirst
  simp only []
  repeat rw [colSum128_fold]
  simp only [row2, vec1, RowSpec.norm, mean, relu, dense, addf_apply, subf_apply, mulf_apply, divf_apply, maximumf_apply,
    rsqrt_apply, broadcast_apply, truncf_apply, matmul_10_128_apply, broadcastTo_1b_ab_apply, shapeCast_a_1a_apply,
    broadcastTo_a1_ab_apply, colSum128_apply]
  rfl

/-- Row `r` of the payload that ends the first encoder layer. -/
theorem pay17_row (v27 v34 v41 v48 v55 v62 v69 v76 v83 : FVec Ideal S1024x1 .f32) (v89 : FVec Ideal S1024 .f32)
    (v98 : Vec Ideal S10x128 .f32) (v99 v108 v109 : Vec Ideal S128 .f32) (r : Fin 1024) :
    row2 (k0_pay17 (F := Ideal) v27 v34 v41 v48 v55 v62 v69 v76 v83 v89 v98 v99 v108 v109) r
      = RowSpec.norm 0x43000000#32 (vec1 v108) (vec1 v109) (relu (dense (row2 v98) (vec1 v99)
          (row2 (Cert.KerHist.histFront v27 v34 v41 v48 v55 v62 v69 v76 v83 v89) r))) := by
  rw [pay17_eq]
  exact encFirst_row _ v98 v99 v108 v109 r

/-- Row `r` of the second encoder layer: dense, max(·, 0), layer normalisation of row `r` of its input. -/
theorem pay18_row (v133 : FVec Ideal S1024x128 .f32) (v134 : Vec Ideal S128x128 .f32) (v135 v144 v145 : Vec Ideal S128 .f32)
    (r : Fin 1024) :
    row2 (k0_pay18 (F := Ideal) v133 v134 v135 v144 v145) r
      = RowSpec.norm 0x43000000#32 (vec1 v144) (vec1 v145) (relu (dense (row2 v134) (vec1 v135) (row2 v133 r))) := by
  funext j
  unfold k0_pay18
  simp only []
  repeat rw [colSum128_fold]
  simp only [row2, vec1, RowSpec.norm, mean, relu, dense, addf_apply, subf_apply, mulf_apply, divf_apply, maximumf_apply,
    rsqrt_apply, broadcast_apply, truncf_apply, matmul_128_128_apply, broadcastTo_1b_ab_apply, shapeCast_a_1a_apply,
    broadcastTo_a1_ab_apply, colSum128_apply]
  rfl

/-- Row `r` of the preference encoder's product and bias: dense of row `r` of the preference block. -/
theorem pay19_row (v1 : Vec Ideal S1024x2 .f32) (v170 : Vec Ideal S2x64 .f32) (v171 : Vec Ideal S64 .f32) (r : Fin 1024) :
    row2 (k0_pay19 (F := Ideal) v1 v170 v171) r = dense (row2 v170) (vec1 v171) (row2 v1 r) := by
  funext j
  unfold k0_pay19
  simp only [row2, vec1, dense, addf_apply, truncf_apply, matmul_2_64_apply, broadcastTo_1b_ab_apply, shapeCast_a_1a_apply]

end Cert.KerMlp

end
-- ==== Proof.KerTrunk.lean ====
/-
  The trunk part of the kernel's body, one row of the block at a time.

  After the histogram features and the preference features the body lays the 448 remaining observation entries, the 128
  histogram features and the 64 preference features side by side, and sends the 640 entries through two dense layers,
  each followed by max(·, 0) and a layer normalisation (256 wide), and through two linear heads of 64 outputs laid side
  by side.  The body computes each layer normalisation in pieces: the mean column, the centred block, the variance
  column, and then (centred · rsqrt(variance + 1e-5)) · g + b.  This module reads each of those pieces at row `r` as the
  corresponding piece of the row function of `Cert.RowSpec` (`dense`, `relu`, `mean`, `norm`, `joined`, `heads`), over
  arbitrary blocks of the right shapes, and composes the last pieces: from the first layer's block and its mean column
  to the result row.

  Every sum is a finite sum over the lanes or over the contraction index; a format change is the identity; no
  finiteness is needed.
-/
import proofs.«101865_j10033043603499_2_alg».proof.KernelIdeal
import proofs.«101865_j10033043603499_2_alg».proof.Proof.Gen.KernelIdeal.Skeleton
import proofs.«101865_j10033043603499_2_alg».proof.Proof.RowSpec
import proofs.«101865_j10033043603499_2_alg».proof.Proof.KerHist
import Idealize.ShloMosaic.Lib.ValueIdx
import Idealize.ShloMosaic.Lib.ValueLayout
import Idealize.ShloMosaic.Lib.Pipeline.Value
import Idealize.ShloMosaic.PureOps.Ideal.Laws

noncomputable section

namespace Cert.KerTrunk

open Idealize.ShloMosaic Idealize.ShloMosaic.ValueIdx Cert.KernelIdeal Cert.KernelIdeal.Gen Cert.RowSpec Cert.KerHist

variable {α : Type}

/-- A vector `[n]` cast to the row `[1, n]` and broadcast over `a` rows reads, at `(r, j)`, the vector at `j`. -/
theorem rowBcast_apply {a n : ℕ} (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (r : Fin a) (j : Fin n) :
    broadcastTo ⟨2, ![a, n]⟩ (shapeCast ⟨2, ![1, n]⟩ v h1) h2 (ix2 r j) = vec1 v j :=
  (broadcastTo_1b_ab_apply _ h2 r j).trans (shapeCast_a_1a_apply v h1 0 j)

/-- The lane sum of a [1024, 256] block at row `r` is the sum over the 256 lanes. -/
theorem laneSum256_apply (x : FVec Ideal S1024x256 .f32) (r : Fin 1024) :
    multiReduction (F := Ideal) .add [1] S1024 x 0x00000000#32 reduces_S1024x256_S1024 (.inl rfl) rfl (ix1 r)
      = ∑ s : Fin 256, x (ix2 r s) := by
  refine (Ideal.multiReduction_add_single x 0x00000000#32 reduces_S1024x256_S1024 (.inl rfl) rfl (ix1 r)).trans ?_
  refine Finset.sum_congr rfl fun s _ => congrArg x ?_
  funext a
  match a with
  | ⟨0, _⟩ => rfl
  | ⟨1, _⟩ => rfl

/-- The keepdims mean column of a [1024, 64] block: the row's sum over the literal `c`. -/
theorem meanCol64_apply (x : FVec Ideal S1024x64 .f32) (c : BitVec 32) (r : Fin 1024) (u : Fin 1) :
    divf (shapeCast S1024x1 (multiReduction (F := Ideal) .add [1] S1024 x 0x00000000#32 reduces_S1024x64_S1024 (.inl rfl) rfl)
        shapeCasts_S1024_S1024x1) (broadcast S1024x1 (Scalar.ofBits .f32 c)) (ix2 r u) = mean c (row2 x r) := by
  refine (divf_apply _ _ _).trans ?_
  refine congrArg₂ Ideal.div ?_ rfl
  exact (shapeCast_a_a1_apply _ shapeCasts_S1024_S1024x1 r u).trans (laneSum64_apply x r)

/-- The keepdims mean column of a [1024, 256] block: the row's sum over the literal `c`. -/
theorem meanCol256_apply (x : FVec Ideal S1024x256 .f32) (c : BitVec 32) (r : Fin 1024) (u : Fin 1) :
    divf (shapeCast S1024x1 (multiReduction (F := Ideal) .add [1] S1024 x 0x00000000#32 reduces_S1024x256_S1024 (.inl rfl) rfl)
        shapeCasts_S1024_S1024x1) (broadcast S1024x1 (Scalar.ofBits .f32 c)) (ix2 r u) = mean c (row2 x r) := by
  refine (divf_apply _ _ _).trans ?_
  refine congrArg₂ Ideal.div ?_ rfl
  exact (shapeCast_a_a1_apply _ shapeCasts_S1024_S1024x1 r u).trans (laneSum256_apply x r)

/-- The operand indices of the [1024, 640] × [640, 256] product at output index `i` and contraction index `q`, by coordinates. -/
theorem lhs0_640_256 (i : S1024x256.Idx) (q : dot_S1024x640_S640x256_S1024x256_1_0_0_1_n_n.contr.Idx) : (dot_S1024x640_S640x256_S1024x256_1_0_0_1_n_n.lhsIdx i q 0).val = (i 0).val := by
  unfold DotDims.lhsIdx
  rw [dif_neg (show ¬(0 : Fin S1024x640.rank) ∈ dot_S1024x640_S640x256_S1024x256_1_0_0_1_n_n.lhsBatch by decide),
    dif_pos (show (0 : Fin S1024x640.rank) ∈ dot_S1024x640_S640x256_S1024x256_1_0_0_1_n_n.lhsNonContracting by decide)]
  rfl
theorem lhs1_640_256 (i : S1024x256.Idx) (q : dot_S1024x640_S640x256_S1024x256_1_0_0_1_n_n.contr.Idx) : (dot_S1024x640_S640x256_S1024x256_1_0_0_1_n_n.lhsIdx i q 1).val = (q ⟨0, by decide⟩).val :=
  dot_S1024x640_S640x256_S1024x256_1_0_0_1_n_n.lhsIdx_val_of_single rfl i q
theorem rhs0_640_256 (i : S1024x256.Idx) (q : dot_S1024x640_S640x256_S1024x256_1_0_0_1_n_n.contr.Idx) : (dot_S1024x640_S640x256_S1024x256_1_0_0_1_n_n.rhsIdx i q 0).val = (q ⟨0, by decide⟩).val :=
  dot_S1024x640_S640x256_S1024x256_1_0_0_1_n_n.rhsIdx_val_of_single rfl i q
theorem rhs1_640_256 (i : S1024x256.Idx) (q : dot_S1024x640_S640x256_S1024x256_1_0_0_1_n_n.contr.Idx) : (dot_S1024x640_S640x256_S1024x256_1_0_0_1_n_n.rhsIdx i q 1).val = (i 1).val := by
  unfold DotDims.rhsIdx
  rw [dif_neg (show ¬(1 : Fin S640x256.rank) ∈ dot_S1024x640_S640x256_S1024x256_1_0_0_1_n_n.rhsBatch by decide),
    dif_pos (show (1 : Fin S640x256.rank) ∈ dot_S1024x640_S640x256_S1024x256_1_0_0_1_n_n.rhsNonContracting by decide)]
  rfl

/-- The first trunk product read at `(r, j)`: the sum over the 640 inputs. -/
theorem matmul_640_256_apply (x : FVec Ideal S1024x640 .bf16) (w : FVec Ideal S640x256 .bf16) (r : Fin 1024) (j : Fin 256) :
    matmul dot_S1024x640_S640x256_S1024x256_1_0_0_1_n_n none x w (constant (F := Ideal) S1024x256 .f32 0x00000000#32) (ix2 r j)
      = ∑ k : Fin 640, x (ix2 r k) * w (ix2 k j) := by
  refine (Ideal.matmul_constant_zero_apply dot_S1024x640_S640x256_S1024x256_1_0_0_1_n_n none x w (ix2 r j)).trans ?_
  rw [← Equiv.sum_comp (contrEquiv1 dot_S1024x640_S640x256_S1024x256_1_0_0_1_n_n 640 rfl rfl).symm]
  refine Finset.sum_congr rfl fun k _ => ?_
  have hk := contrEquiv1_symm_val dot_S1024x640_S640x256_S1024x256_1_0_0_1_n_n 640 rfl rfl k
  have el : dot_S1024x640_S640x256_S1024x256_1_0_0_1_n_n.lhsIdx (ix2 r j) ((contrEquiv1 dot_S1024x640_S640x256_S1024x256_1_0_0_1_n_n 640 rfl rfl).symm k) = ix2 r k :=
    funext fun a => Fin.ext (by
      match a with
      | ⟨0, _⟩ => exact lhs0_640_256 _ _
      | ⟨1, _⟩ => exact (lhs1_640_256 _ _).trans hk)
  have er : dot_S1024x640_S640x256_S1024x256_1_0_0_1_n_n.rhsIdx (ix2 r j) ((contrEquiv1 dot_S1024x640_S640x256_S1024x256_1_0_0_1_n_n 640 rfl rfl).symm k) = ix2 k j :=
    funext fun a => Fin.ext (by
      match a with
      | ⟨0, _⟩ => exact (rhs0_640_256 _ _).trans hk
      | ⟨1, _⟩ => exact rhs1_640_256 _ _)
  rw [el, er]

/-- The operand indices of the [1024, 256] × [256, 256] product at output index `i` and contraction index `q`, by coordinates. -/
theorem lhs0_256_256 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem lhs1_256_256 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs0_256_256 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs1_256_256 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The second trunk product read at `(r, j)`: the sum over the 256 inputs. -/
theorem matmul_256_256_apply (x : FVec Ideal S1024x256 .bf16) (w : FVec Ideal S256x256 .bf16) (r : Fin 1024) (j : Fin 256) :
    matmul dot_S1024x256_S256x256_S1024x256_1_0_0_1_n_n none x w (constant (F := Ideal) S1024x256 .f32 0x00000000#32) (ix2 r j)
      = ∑ k : Fin 256, x (ix2 r k) * w (ix2 k j) := by
  refine (Ideal.matmul_constant_zero_apply dot_S1024x256_S256x256_S1024x256_1_0_0_1_n_n none x w (ix2 r j)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r j) ((contrEquiv1 dot_S1024x256_S256x256_S1024x256_1_0_0_1_n_n 256 rfl rfl).symm k) = ix2 r k :=
    funext fun a => Fin.ext (by
      match a with
      | ⟨0, _⟩ => exact lhs0_256_256 _ _
      | ⟨1, _⟩ => exact (lhs1_256_256 _ _).trans hk)
  have er : dot_S1024x256_S256x256_S1024x256_1_0_0_1_n_n.rhsIdx (ix2 r j) ((contrEquiv1 dot_S1024x256_S256x256_S1024x256_1_0_0_1_n_n 256 rfl rfl).symm k) = ix2 k j :=
    funext fun a => Fin.ext (by
      match a with
      | ⟨0, _⟩ => exact (rhs0_256_256 _ _).trans hk
      | ⟨1, _⟩ => exact rhs1_256_256 _ _)
  rw [el, er]

/-- The operand indices of the [1024, 256] × [256, 64] product at output index `i` and contraction index `q`, by coordinates. -/
theorem lhs0_256_64 (i : S1024x64.Idx) (q : dot_S1024x256_S256x64_S1024x64_1_0_0_1_n_n.contr.Idx) : (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem lhs1_256_64 (i : S1024x64.Idx) (q : dot_S1024x256_S256x64_S1024x64_1_0_0_1_n_n.contr.Idx) : (dot_S1024x256_S256x64_S1024x64_1_0_0_1_n_n.lhsIdx i q 1).val = (q ⟨0, by decide⟩).val :=
  dot_S1024x256_S256x64_S1024x64_1_0_0_1_n_n.lhsIdx_val_of_single rfl i q
theorem rhs0_256_64 (i : S1024x64.Idx) (q : dot_S1024x256_S256x64_S1024x64_1_0_0_1_n_n.contr.Idx) : (dot_S1024x256_S256x64_S1024x64_1_0_0_1_n_n.rhsIdx i q 0).val = (q ⟨0, by decide⟩).val :=
  dot_S1024x256_S256x64_S1024x64_1_0_0_1_n_n.rhsIdx_val_of_single rfl i q
theorem rhs1_256_64 (i : S1024x64.Idx) (q : dot_S1024x256_S256x64_S1024x64_1_0_0_1_n_n.contr.Idx) : (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- A head's product read at `(r, j)`: the sum over the 256 inputs. -/
theorem matmul_256_64_apply (x : FVec Ideal S1024x256 .bf16) (w : FVec Ideal S256x64 .bf16) (r : Fin 1024) (j : Fin 64) :
    matmul dot_S1024x256_S256x64_S1024x64_1_0_0_1_n_n none x w (constant (F := Ideal) S1024x64 .f32 0x00000000#32) (ix2 r j)
      = ∑ k : Fin 256, x (ix2 r k) * w (ix2 k j) := by
  refine (Ideal.matmul_constant_zero_apply dot_S1024x256_S256x64_S1024x64_1_0_0_1_n_n none x w (ix2 r j)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r j) ((contrEquiv1 dot_S1024x256_S256x64_S1024x64_1_0_0_1_n_n 256 rfl rfl).symm k) = ix2 r k :=
    funext fun a => Fin.ext (by
      match a with
      | ⟨0, _⟩ => exact lhs0_256_64 _ _
      | ⟨1, _⟩ => exact (lhs1_256_64 _ _).trans hk)
  have er : dot_S1024x256_S256x64_S1024x64_1_0_0_1_n_n.rhsIdx (ix2 r j) ((contrEquiv1 dot_S1024x256_S256x64_S1024x64_1_0_0_1_n_n 256 rfl rfl).symm k) = ix2 k j :=
    funext fun a => Fin.ext (by
      match a with
      | ⟨0, _⟩ => exact (rhs0_256_64 _ _).trans hk
      | ⟨1, _⟩ => exact rhs1_256_64 _ _)
  rw [el, er]

/-- The three feature blocks laid side by side: row `r` is the row function's `joined` of the three rows. -/
theorem joined_apply (a : FVec Ideal S1024x448 .f32) (h : FVec Ideal S1024x128 .f32) (p : FVec Ideal S1024x64 .f32)
    (r : Fin 1024) (k : Fin 640) :
    concatenate S1024x640 1 [⟨S1024x448, a⟩, ⟨S1024x128, h⟩, ⟨S1024x64, p⟩]
        concatenates_S1024x448_S1024x128_S1024x64_S1024x640_d1 (ix2 r k)
      = joined (row2 a r) (row2 h r) (row2 p r) k := by
  have hk := k.isLt
  unfold joined
  by_cases h1 : k.val < 448
  · rw [dif_pos h1]
    exact concatenate_apply_piece (t := S1024x640) (1 : Fin 2) [⟨S1024x448, a⟩, ⟨S1024x128, h⟩, ⟨S1024x64, p⟩] concatenates_S1024x448_S1024x128_S1024x64_S1024x640_d1
      (ix2 r k) 0 (by show (0 : ℕ) < 3; omega) S1024x448 a rfl rfl 0 rfl (ix2 r (⟨k.val, h1⟩ : Fin 448))
      (fun b hb => by
        match b with
        | ⟨0, _⟩ => rfl
        | ⟨1, _⟩ => exact absurd rfl hb)
      (by show 0 + k.val = k.val; omega)
  · rw [dif_neg h1]
    by_cases h2 : k.val < 576
    · rw [dif_pos h2]
      exact concatenate_apply_piece (t := S1024x640) (1 : Fin 2) [⟨S1024x448, a⟩, ⟨S1024x128, h⟩, ⟨S1024x64, p⟩] concatenates_S1024x448_S1024x128_S1024x64_S1024x640_d1
        (ix2 r k) 1 (by show (1 : ℕ) < 3; omega) S1024x128 h rfl rfl 448 rfl (ix2 r (⟨k.val - 448, by omega⟩ : Fin 128))
        (fun b hb => by
          match b with
          | ⟨0, _⟩ => rfl
          | ⟨1, _⟩ => exact absurd rfl hb)
        (by show 448 + (k.val - 448) = k.val; omega)
    · rw [dif_neg h2]
      exact concatenate_apply_piece (t := S1024x640) (1 : Fin 2) [⟨S1024x448, a⟩, ⟨S1024x128, h⟩, ⟨S1024x64, p⟩] concatenates_S1024x448_S1024x128_S1024x64_S1024x640_d1
        (ix2 r k) 2 (by show (2 : ℕ) < 3; omega) S1024x64 p rfl rfl 576 rfl (ix2 r (⟨k.val - 576, by omega⟩ : Fin 64))
        (fun b hb => by
          match b with
          | ⟨0, _⟩ => rfl
          | ⟨1, _⟩ => exact absurd rfl hb)
        (by show 576 + (k.val - 576) = k.val; omega)

/-- The two head blocks laid side by side: row `r` is the row function's `heads` of the two rows. -/
theorem heads_apply (d e : FVec Ideal S1024x64 .f32) (r : Fin 1024) (k : Fin 128) :
    concatenate S1024x128 1 [⟨S1024x64, d⟩, ⟨S1024x64, e⟩] concatenates_S1024x64_S1024x64_S1024x128_d1 (ix2 r k)
      = heads (row2 d r) (row2 e r) k := by
  have hk := k.isLt
  unfold heads
  by_cases h1 : k.val < 64
  · rw [dif_pos h1]
    refine concatenate_pair_apply_left (t := S1024x128) (s₁ := S1024x64) (s₂ := S1024x64) (1 : Fin 2) d e
      concatenates_S1024x64_S1024x64_S1024x128_d1 (ix2 r k) rfl (ix2 r (⟨k.val, h1⟩ : Fin 64)) ?_
    intro b
    match b with
    | ⟨0, _⟩ => rfl
    | ⟨1, _⟩ => rfl
  · rw [dif_neg h1]
    refine concatenate_pair_apply_right (t := S1024x128) (s₁ := S1024x64) (s₂ := S1024x64) (1 : Fin 2) d e
      concatenates_S1024x64_S1024x64_S1024x128_d1 (ix2 r k) rfl rfl (ix2 r (⟨k.val - 64, by omega⟩ : Fin 64)) ?_ ?_
    · intro b hb
      match b with
      | ⟨0, _⟩ => rfl
      | ⟨1, _⟩ => exact absurd rfl hb
    · show (k.val - 64) + 64 = k.val
      omega

/-- Layer normalisation of a row with the mean given: (x − μ) · rsqrt(mean of (x − μ)² + 1e-5) · g + b. -/
def normAt {N : Nat} (c : BitVec 32) (g b : Fin N → EReal) (x : Fin N → EReal) (μ : EReal) : Fin N → EReal := fun j =>
  (x j - μ) * Ideal.rsqrt (mean c (fun j' => (x j' - μ) * (x j' - μ)) + Ideal.ofBits .f32 0x3727C5AC#32) * g j + b j

/-- The row function's layer normalisation is the one with the mean given, at the row's mean. -/
theorem norm_eq_normAt {N : Nat} (c : BitVec 32) (g b : Fin N → EReal) (x : Fin N → EReal) :
    norm c g b x = normAt c g b x (mean c x) := rfl

/-- The first trunk layer before its normalisation, row by row: the three feature rows side by side (the preference
    features being the layer normalisation of max of the two given blocks) through the dense layer and max(·, 0). -/
theorem pay21_row (v5 : FVec Ideal S1024x448 .f32) (v169 : FVec Ideal S1024x128 .f32) (v177 v178 : FVec Ideal S1024x64 .f32)
    (v180 v181 : Vec Ideal S64 .f32) (v207 : Vec Ideal S640x256 .f32) (v208 : Vec Ideal S256 .f32) (r : Fin 1024) :
    row2 (k0_pay21 (F := Ideal) v5 v169 v177 v178 v180 v181 v207 v208) r
      = relu (dense (row2 v207) (vec1 v208) (joined (row2 v5 r) (row2 v169 r)
          (norm 0x42800000#32 (vec1 v180) (vec1 v181) (fun j => max (row2 v177 r j) (row2 v178 r j))))) := by
  funext j
  show k0_pay21 v5 v169 v177 v178 v180 v181 v207 v208 (ix2 r j) = _
  unfold k0_pay21
  refine (maximumf_apply _ _ _).trans ?_
  refine congrArg₂ max ?_ rfl
  refine (addf_apply _ _ _).trans ?_
  refine congrArg₂ (· + ·) ?_ (rowBcast_apply v208 _ _ r j)
  refine (matmul_640_256_apply _ _ r j).trans ?_
  refine Finset.sum_congr rfl fun k _ => congrArg₂ (· * ·) ?_ rfl
  refine (truncf_apply (ψ := .bf16) (φ := .f32) _ bitsLt_bf16_f32 (ix2 r k)).trans ?_
  refine (joined_apply _ _ _ r k).trans ?_
  refine congrArg (fun p => joined (row2 v5 r) (row2 v169 r) p k) ?_
  funext s
  have hμ : ∀ (s' : Fin 64) (u : Fin 1), broadcastTo S1024x64
      (divf (shapeCast S1024x1 (multiReduction (F := Ideal) .add [1] S1024 (maximumf v177 v178) 0x00000000#32
        reduces_S1024x64_S1024 (.inl rfl) rfl) shapeCasts_S1024_S1024x1) (broadcast S1024x1 (Scalar.ofBits .f32 0x42800000#32)))
      broadcasts_S1024x1_S1024x64 (ix2 r s') = mean 0x42800000#32 (fun j => max (row2 v177 r j) (row2 v178 r j)) := fun s' u =>
    (broadcastTo_a1_ab_apply _ _ r s' (0 : Fin 1)).trans (meanCol64_apply (maximumf v177 v178) _ r 0)
  refine (addf_apply _ _ _).trans ?_
  refine congrArg₂ (· + ·) ?_ (rowBcast_apply v181 _ _ r s)
  refine (mulf_apply _ _ _).trans ?_
  refine congrArg₂ (· * ·) ?_ (rowBcast_apply v180 _ _ r s)
  refine (mulf_apply _ _ _).trans ?_
  refine congrArg₂ (· * ·) ?_ ?_
  · refine (subf_apply _ _ _).trans ?_
    exact congrArg₂ (· - ·) rfl (hμ s 0)
  · refine (broadcastTo_a1_ab_apply _ _ r s (0 : Fin 1)).trans ?_
    refine congrArg Ideal.rsqrt ?_
    refine (addf_apply _ _ _).trans ?_
    refine congrArg₂ (· + ·) ?_ rfl
    refine (meanCol64_apply _ _ r 0).trans ?_
    refine congrArg (mean 0x42800000#32) ?_
    funext j'
    refine (mulf_apply _ _ _).trans ?_
    have e := (subf_apply (maximumf v177 v178) _ (ix2 r j')).trans (congrArg₂ (· - ·) rfl (hμ j' 0))
    exact congrArg₂ (· * ·) e e

/-- Its mean column. -/
theorem pay22_row (v5 : FVec Ideal S1024x448 .f32) (v169 : FVec Ideal S1024x128 .f32) (v177 v178 : FVec Ideal S1024x64 .f32)
    (v180 v181 : Vec Ideal S64 .f32) (v207 : Vec Ideal S640x256 .f32) (v208 : Vec Ideal S256 .f32) (r : Fin 1024) (u : Fin 1) :
    k0_pay22 (F := Ideal) v5 v169 v177 v178 v180 v181 v207 v208 (ix2 r u) = mean 0x43800000#32 (row2 (k0_pay21 (F := Ideal) v5 v169 v177 v178 v180 v181 v207 v208) r) := by
  unfold k0_pay22
  exact meanCol256_apply _ _ r u

/-- The second trunk layer before its normalisation, row by row, from the first layer's block and its mean column: the
    layer normalisation with that mean, through the dense layer and max(·, 0). -/
theorem pay23_row (v216 : FVec Ideal S1024x256 .f32) (v217 v218 : Vec Ideal S256 .f32) (v222 : FVec Ideal S1024x1 .f32)
    (v243 : Vec Ideal S256x256 .f32) (v244 : Vec Ideal S256 .f32) (r : Fin 1024) :
    row2 (k0_pay23 (F := Ideal) v216 v217 v218 v222 v243 v244) r
      = relu (dense (row2 v243) (vec1 v244)
          (normAt 0x43800000#32 (vec1 v217) (vec1 v218) (row2 v216 r) (v222 (ix2 r (0 : Fin 1))))) := by
  funext j
  show k0_pay23 v216 v217 v218 v222 v243 v244 (ix2 r j) = _
  unfold k0_pay23
  refine (maximumf_apply _ _ _).trans ?_
  refine congrArg₂ max ?_ rfl
  refine (addf_apply _ _ _).trans ?_
  refine congrArg₂ (· + ·) ?_ (rowBcast_apply v244 _ _ r j)
  refine (matmul_256_256_apply _ _ r j).trans ?_
  refine Finset.sum_congr rfl fun k _ => congrArg₂ (· * ·) ?_ rfl
  refine (truncf_apply (ψ := .bf16) (φ := .f32) _ bitsLt_bf16_f32 (ix2 r k)).trans ?_
  have hμ : ∀ s' : Fin 256, broadcastTo S1024x256 v222 broadcasts_S1024x1_S1024x256 (ix2 r s') = v222 (ix2 r (0 : Fin 1)) :=
    fun s' => broadcastTo_a1_ab_apply _ _ r s' (0 : Fin 1)
  refine (addf_apply _ _ _).trans ?_
  refine congrArg₂ (· + ·) ?_ (rowBcast_apply v218 _ _ r k)
  refine (mulf_apply _ _ _).trans ?_
  refine congrArg₂ (· * ·) ?_ (rowBcast_apply v217 _ _ r k)
  refine (mulf_apply _ _ _).trans ?_
  refine congrArg₂ (· * ·) ?_ ?_
  · refine (subf_apply _ _ _).trans ?_
    exact congrArg₂ (· - ·) rfl (hμ k)
  · refine (broadcastTo_a1_ab_apply _ _ r k (0 : Fin 1)).trans ?_
    refine congrArg Ideal.rsqrt ?_
    refine (addf_apply _ _ _).trans ?_
    refine congrArg₂ (· + ·) ?_ rfl
    refine (meanCol256_apply _ _ r 0).trans ?_
    refine congrArg (mean 0x43800000#32) ?_
    funext j'
    refine (mulf_apply _ _ _).trans ?_
    have e := (subf_apply v216 _ (ix2 r j')).trans (congrArg₂ (· - ·) rfl (hμ j'))
    exact congrArg₂ (· * ·) e e

/-- Its mean column. -/
theorem pay24_row (v216 : FVec Ideal S1024x256 .f32) (v217 v218 : Vec Ideal S256 .f32) (v222 : FVec Ideal S1024x1 .f32)
    (v243 : Vec Ideal S256x256 .f32) (v244 : Vec Ideal S256 .f32) (r : Fin 1024) (u : Fin 1) :
    k0_pay24 (F := Ideal) v216 v217 v218 v222 v243 v244 (ix2 r u) = mean 0x43800000#32 (row2 (k0_pay23 (F := Ideal) v216 v217 v218 v222 v243 v244) r) := by
  unfold k0_pay24
  exact meanCol256_apply _ _ r u

/-- The centred second layer, row by row. -/
theorem pay26_row (v216 : FVec Ideal S1024x256 .f32) (v217 v218 : Vec Ideal S256 .f32) (v222 : FVec Ideal S1024x1 .f32)
    (v243 : Vec Ideal S256x256 .f32) (v244 : Vec Ideal S256 .f32) (r : Fin 1024) :
    row2 (k0_pay26 (F := Ideal) v216 v217 v218 v222 v243 v244) r
      = fun j => row2 (k0_pay23 (F := Ideal) v216 v217 v218 v222 v243 v244) r j - k0_pay24 (F := Ideal) v216 v217 v218 v222 v243 v244 (ix2 r (0 : Fin 1)) := by
  funext j
  show k0_pay26 v216 v217 v218 v222 v243 v244 (ix2 r j) = _
  unfold k0_pay26
  refine (subf_apply _ _ _).trans ?_
  exact congrArg₂ (· - ·) rfl (broadcastTo_a1_ab_apply _ _ r j (0 : Fin 1))

/-- The variance column of the second layer: the mean of the squared centred entries. -/
theorem pay25_row (v216 : FVec Ideal S1024x256 .f32) (v217 v218 : Vec Ideal S256 .f32) (v222 : FVec Ideal S1024x1 .f32)
    (v243 : Vec Ideal S256x256 .f32) (v244 : Vec Ideal S256 .f32) (r : Fin 1024) (u : Fin 1) :
    k0_pay25 (F := Ideal) v216 v217 v218 v222 v243 v244 (ix2 r u)
      = mean 0x43800000#32 (fun j =>
          (row2 (k0_pay23 (F := Ideal) v216 v217 v218 v222 v243 v244) r j - k0_pay24 (F := Ideal) v216 v217 v218 v222 v243 v244 (ix2 r (0 : Fin 1)))
            * (row2 (k0_pay23 (F := Ideal) v216 v217 v218 v222 v243 v244) r j - k0_pay24 (F := Ideal) v216 v217 v218 v222 v243 v244 (ix2 r (0 : Fin 1)))) := by
  unfold k0_pay25
  refine (meanCol256_apply _ _ r u).trans ?_
  refine congrArg (mean 0x43800000#32) ?_
  funext j
  refine (mulf_apply _ _ _).trans ?_
  have e := (subf_apply (k0_pay23 (F := Ideal) v216 v217 v218 v222 v243 v244) _ (ix2 r j)).trans
    (congrArg₂ (· - ·) rfl (broadcastTo_a1_ab_apply (k0_pay24 (F := Ideal) v216 v217 v218 v222 v243 v244) broadcasts_S1024x1_S1024x256 r j (0 : Fin 1)))
  exact congrArg₂ (· * ·) e e

/-- The two heads, row by row, from the centred block, the variance column and the literal added to it: both dense
    layers applied to (centred · rsqrt(variance + literal)) · g + b, laid side by side. -/
theorem pay1_row (v253 v254 : Vec Ideal S256 .f32) (v265 : FVec Ideal S1024x1 .f32) (v267 : FVec Ideal S1024x256 .f32) (cst : Ideal .f32)
    (v279 : Vec Ideal S256x64 .f32) (v280 : Vec Ideal S64 .f32) (v287 : Vec Ideal S256x64 .f32) (v288 : Vec Ideal S64 .f32) (r : Fin 1024) :
    row2 (k0_pay1 (F := Ideal) v253 v254 v265 v267 cst v279 v280 v287 v288) r
      = heads
          (dense (row2 v279) (vec1 v280)
            (fun j => row2 v267 r j * Ideal.rsqrt (v265 (ix2 r (0 : Fin 1)) + cst) * vec1 v253 j + vec1 v254 j))
          (dense (row2 v287) (vec1 v288)
            (fun j => row2 v267 r j * Ideal.rsqrt (v265 (ix2 r (0 : Fin 1)) + cst) * vec1 v253 j + vec1 v254 j)) := by
  funext k
  show k0_pay1 v253 v254 v265 v267 cst v279 v280 v287 v288 (ix2 r k) = _
  unfold k0_pay1
  refine (heads_apply _ _ r k).trans ?_
  refine congrArg₂ (fun d e => heads d e k) ?_ ?_
  · funext j
    refine (addf_apply _ _ _).trans ?_
    refine congrArg₂ (· + ·) ?_ (rowBcast_apply v280 _ _ r j)
    refine (matmul_256_64_apply _ _ r j).trans ?_
    refine Finset.sum_congr rfl fun k' _ => congrArg₂ (· * ·) ?_ rfl
    refine (truncf_apply (ψ := .bf16) (φ := .f32) _ bitsLt_bf16_f32 (ix2 r k')).trans ?_
    refine (addf_apply _ _ _).trans ?_
    refine congrArg₂ (· + ·) ?_ (rowBcast_apply v254 _ _ r k')
    refine (mulf_apply _ _ _).trans ?_
    refine congrArg₂ (· * ·) ?_ (rowBcast_apply v253 _ _ r k')
    refine (mulf_apply _ _ _).trans ?_
    refine congrArg₂ (· * ·) rfl ?_
    exact broadcastTo_a1_ab_apply _ _ r k' (0 : Fin 1)
  · funext j
    refine (addf_apply _ _ _).trans ?_
    refine congrArg₂ (· + ·) ?_ (rowBcast_apply v288 _ _ r j)
    refine (matmul_256_64_apply _ _ r j).trans ?_
    refine Finset.sum_congr rfl fun k' _ => congrArg₂ (· * ·) ?_ rfl
    refine (truncf_apply (ψ := .bf16) (φ := .f32) _ bitsLt_bf16_f32 (ix2 r k')).trans ?_
    refine (addf_apply _ _ _).trans ?_
    refine congrArg₂ (· + ·) ?_ (rowBcast_apply v254 _ _ r k')
    refine (mulf_apply _ _ _).trans ?_
    refine congrArg₂ (· * ·) ?_ (rowBcast_apply v253 _ _ r k')
    refine (mulf_apply _ _ _).trans ?_
    refine congrArg₂ (· * ·) rfl ?_
    exact broadcastTo_a1_ab_apply _ _ r k' (0 : Fin 1)

/-- The composition: from the first layer's block with its mean column, the second layer, its normalisation and the two
    heads, row by row, as the row function nests them. -/
theorem tail_row (v216 : FVec Ideal S1024x256 .f32) (v217 v218 : Vec Ideal S256 .f32) (v222 : FVec Ideal S1024x1 .f32)
    (v243 : Vec Ideal S256x256 .f32) (v244 : Vec Ideal S256 .f32) (v253 v254 : Vec Ideal S256 .f32)
    (v279 : Vec Ideal S256x64 .f32) (v280 : Vec Ideal S64 .f32) (v287 : Vec Ideal S256x64 .f32) (v288 : Vec Ideal S64 .f32)
    (r : Fin 1024) (h222 : v222 (ix2 r (0 : Fin 1)) = mean 0x43800000#32 (row2 v216 r)) :
    row2 (k0_pay1 (F := Ideal) v253 v254 (k0_pay25 v216 v217 v218 v222 v243 v244) (k0_pay26 v216 v217 v218 v222 v243 v244)
        (Ideal.ofBits .f32 0x3727C5AC#32) v279 v280 v287 v288) r
      = heads
          (dense (row2 v279) (vec1 v280) (norm 0x43800000#32 (vec1 v253) (vec1 v254)
            (relu (dense (row2 v243) (vec1 v244) (norm 0x43800000#32 (vec1 v217) (vec1 v218) (row2 v216 r))))))
          (dense (row2 v287) (vec1 v288) (norm 0x43800000#32 (vec1 v253) (vec1 v254)
            (relu (dense (row2 v243) (vec1 v244) (norm 0x43800000#32 (vec1 v217) (vec1 v218) (row2 v216 r)))))) := by
  have hY : row2 (k0_pay23 (F := Ideal) v216 v217 v218 v222 v243 v244) r
      = relu (dense (row2 v243) (vec1 v244) (norm 0x43800000#32 (vec1 v217) (vec1 v218) (row2 v216 r))) := by
    rw [pay23_row, h222, norm_eq_normAt]
  have hZ : (fun j => row2 (k0_pay26 (F := Ideal) v216 v217 v218 v222 v243 v244) r j
        * Ideal.rsqrt (k0_pay25 (F := Ideal) v216 v217 v218 v222 v243 v244 (ix2 r (0 : Fin 1)) + Ideal.ofBits .f32 0x3727C5AC#32) * vec1 v253 j + vec1 v254 j)
      = norm 0x43800000#32 (vec1 v253) (vec1 v254)
          (relu (dense (row2 v243) (vec1 v244) (norm 0x43800000#32 (vec1 v217) (vec1 v218) (row2 v216 r)))) := by
    rw [pay26_row, pay25_row, pay24_row, hY]
    rfl
  rw [pay1_row, hZ]

/-- The whole trunk, row by row: from the remaining observation entries, the histogram features and the two blocks whose
    maximum is normalised into the preference features, through both trunk layers to the two heads side by side. -/
theorem trunk_row (v5 : FVec Ideal S1024x448 .f32) (v169 : FVec Ideal S1024x128 .f32) (v177 v178 : FVec Ideal S1024x64 .f32)
    (v180 v181 : Vec Ideal S64 .f32) (v207 : Vec Ideal S640x256 .f32) (v208 : Vec Ideal S256 .f32)
    (v217 v218 : Vec Ideal S256 .f32) (v243 : Vec Ideal S256x256 .f32) (v244 : Vec Ideal S256 .f32) (v253 v254 : Vec Ideal S256 .f32)
    (v279 : Vec Ideal S256x64 .f32) (v280 : Vec Ideal S64 .f32) (v287 : Vec Ideal S256x64 .f32) (v288 : Vec Ideal S64 .f32)
    (r : Fin 1024) :
    row2 (k0_pay1 (F := Ideal) v253 v254
        (k0_pay25 (k0_pay21 v5 v169 v177 v178 v180 v181 v207 v208) v217 v218 (k0_pay22 v5 v169 v177 v178 v180 v181 v207 v208) v243 v244)
        (k0_pay26 (k0_pay21 v5 v169 v177 v178 v180 v181 v207 v208) v217 v218 (k0_pay22 v5 v169 v177 v178 v180 v181 v207 v208) v243 v244)
        (Ideal.ofBits .f32 0x3727C5AC#32) v279 v280 v287 v288) r
      = heads
          (dense (row2 v279) (vec1 v280) (norm 0x43800000#32 (vec1 v253) (vec1 v254)
            (relu (dense (row2 v243) (vec1 v244) (norm 0x43800000#32 (vec1 v217) (vec1 v218)
              (relu (dense (row2 v207) (vec1 v208) (joined (row2 v5 r) (row2 v169 r)
                (norm 0x42800000#32 (vec1 v180) (vec1 v181) (fun j => max (row2 v177 r j) (row2 v178 r j)))))))))))
          (dense (row2 v287) (vec1 v288) (norm 0x43800000#32 (vec1 v253) (vec1 v254)
            (relu (dense (row2 v243) (vec1 v244) (norm 0x43800000#32 (vec1 v217) (vec1 v218)
              (relu (dense (row2 v207) (vec1 v208) (joined (row2 v5 r) (row2 v169 r)
                (norm 0x42800000#32 (vec1 v180) (vec1 v181) (fun j => max (row2 v177 r j) (row2 v178 r j))))))))))) := by
  rw [tail_row (k0_pay21 v5 v169 v177 v178 v180 v181 v207 v208) v217 v218 (k0_pay22 v5 v169 v177 v178 v180 v181 v207 v208) v243 v244 v253 v254 v279 v280 v287 v288 r
    (pay22_row v5 v169 v177 v178 v180 v181 v207 v208 r 0), pay21_row]

end Cert.KerTrunk

end
-- ==== Proof.KerRows.lean ====
/-
  Row `r` of what the kernel's body leaves in its output block is the result row of row `r` of the observation
  block and row `r` of the preference block (`Cert.RowSpec.resultRow`), with the weights read off the weight blocks.
-/
import proofs.«101865_j10033043603499_2_alg».proof.KernelIdeal
import proofs.«101865_j10033043603499_2_alg».proof.Proof.Gen.KernelIdeal.Skeleton
import proofs.«101865_j10033043603499_2_alg».proof.Proof.Gen.KernelIdeal.Frame
import proofs.«101865_j10033043603499_2_alg».proof.Proof.RowSpec
import proofs.«101865_j10033043603499_2_alg».proof.Proof.KerHist
import proofs.«101865_j10033043603499_2_alg».proof.Proof.KerMlp
import proofs.«101865_j10033043603499_2_alg».proof.Proof.KerTrunk
import Idealize.ShloMosaic.Lib.ValueIdx
import Idealize.ShloMosaic.Lib.ValueLayout
import Idealize.ShloMosaic.Lib.Pipeline.Value
import Idealize.ShloMosaic.PureOps.Ideal.Laws

noncomputable section

namespace Cert.KerRows

open Idealize.ShloMosaic Idealize.ShloMosaic.ValueIdx Cert.KernelIdeal Cert.KernelIdeal.Gen Cert.RowSpec

/-- The offsets of a whole rank-2 block are zero. -/
theorem offsets2_zero : (![0, 0] : Fin 2 → Nat) = fun _ => 0 := funext fun a => by fin_cases a <;> rfl

/-- The offset of a whole rank-1 block is zero. -/
theorem offsets1_zero : (![0] : Fin 1 → Nat) = fun _ => 0 := funext fun a => by fin_cases a; rfl

/-- Every row of the zero block the preference encoder's max(·, 0) compares with is the zero row. -/
theorem zero_row (r : Fin 1024) : row2 (k0_pay20 (F := Ideal)) r = fun _ => Ideal.ofBits .f32 0x00000000#32 := rfl

/-- Row `r` of the output block the body leaves, as the row function of the input blocks' rows `r`. -/
theorem out_row (x0 : Vec Ideal S1024x512 .f32) (x1 : Vec Ideal S1024x2 .f32) (x2 : Vec Ideal S10x128 .f32) (x3 x4 x5 : Vec Ideal S128 .f32)
    (x6 : Vec Ideal S128x128 .f32) (x7 x8 x9 : Vec Ideal S128 .f32) (x10 : Vec Ideal S2x64 .f32) (x11 x12 x13 : Vec Ideal S64 .f32)
    (x14 : Vec Ideal S640x256 .f32) (x15 x16 x17 : Vec Ideal S256 .f32) (x18 : Vec Ideal S256x256 .f32) (x19 x20 x21 : Vec Ideal S256 .f32)
    (x22 : Vec Ideal S256x64 .f32) (x23 : Vec Ideal S64 .f32) (x24 : Vec Ideal S256x64 .f32) (x25 : Vec Ideal S64 .f32) (r : Fin 1024) :
    row2 (out0_26 (F := Ideal) x0 x1 x2 x3 x4 x5 x6 x7 x8 x9 x10 x11 x12 x13 x14 x15 x16 x17 x18 x19 x20 x21 x22 x23 x24 x25) r
      = resultRow (weightsOf x2 x3 x4 x5 x6 x7 x8 x9 x10 x11 x12 x13 x14 x15 x16 x17 x18 x19 x20 x21 x22 x23 x24 x25) (row2 x0 r) (row2 x1 r) := by
  unfold out0_26
  rw [View.canon_unit_zero offsets2_zero]
  simp only [View.ld_unit_zero (S := S1024x512) offsets2_zero,
    View.ld_unit_zero (S := S1024x2) offsets2_zero,
    View.ld_unit_zero (S := S10x128) offsets2_zero,
    View.ld_unit_zero (S := S128x128) offsets2_zero,
    View.ld_unit_zero (S := S2x64) offsets2_zero,
    View.ld_unit_zero (S := S640x256) offsets2_zero,
    View.ld_unit_zero (S := S256x256) offsets2_zero,
    View.ld_unit_zero (S := S256x64) offsets2_zero,
    View.ld_unit_zero (S := S128) offsets1_zero,
    View.ld_unit_zero (S := S64) offsets1_zero,
    View.ld_unit_zero (S := S256) offsets1_zero]
  -- the trunk's second half and the heads, given that the mean column handed to it is the mean of the first half's rows
  refine (Cert.KerTrunk.tail_row _ x16 x17 _ x18 x19 x20 x21 x22 x23 x24 x25 r
    (Cert.KerTrunk.pay22_row _ _ _ _ x12 x13 x14 x15 r (0 : Fin 1))).trans ?_
  -- the trunk's first half over the three joined pieces, then the two encoders and the histogram
  rw [Cert.KerTrunk.pay21_row, Cert.KerMlp.pay18_row, Cert.KerMlp.pay17_row, Cert.KerHist.hist_row, Cert.KerHist.rest_row,
    Cert.KerMlp.pay19_row, zero_row]
  rfl

end Cert.KerRows

end
-- ==== Proof.KerBlocks.lean ====
/-
  Which part of each argument array a grid point reads.  The kernel runs at 64 grid points; at point `t` the
  observation and preference windows hold rows 1024·t … 1024·t + 1023 of their arrays (block index (t, 0)), and every
  weight window holds its whole array (block index 0 on every axis).  The printed index maps are decided once over the
  64 points; from them each window's block is read off its array.
-/
import proofs.«101865_j10033043603499_2_alg».proof.KernelIdeal
import proofs.«101865_j10033043603499_2_alg».proof.Proof.Gen.KernelIdeal.Launch
import proofs.«101865_j10033043603499_2_alg».proof.Proof.Gen.KernelIdeal.Points
import proofs.«101865_j10033043603499_2_alg».proof.Proof.Gen.KernelIdeal.Frame
import proofs.«101865_j10033043603499_2_alg».proof.Proof.RowSpec
import Idealize.ShloMosaic.Lib.ValueIdx
import Idealize.ShloMosaic.Lib.Pipeline.Value

set_option maxRecDepth 16384

noncomputable section

namespace Cert.KerBlocks

open Idealize.ShloMosaic Idealize.ShloMosaic.TcCoe Idealize.ShloMosaic.ValueIdx Idealize.SL.Sem
open Cert.KernelIdeal Cert.KernelIdeal.Gen Cert.RowSpec

variable (m : (ℓ : Loc nD τ sig) → Buf (Elt Ideal) ℓ)

/-! ## The printed index maps, decided once over the 64 grid points -/

/-- The observation, preference and output windows are at block `(t, 0)` at point `t`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_26.index t (0 : Fin 2) = t.val ∧ win0_26.index t (1 : Fin 2) = 0 :=
  (by decide +kernel : ∀ t : Fin grid0.N, _)

/-- Weight window 2 stays at block (0, 0). -/
theorem idx_w2 : ∀ t : Fin cfg0.N, win0_2.index t (0 : Fin 2) = 0 ∧ win0_2.index t (1 : Fin 2) = 0 :=
  (by decide +kernel : ∀ t : Fin grid0.N, _)
/-- Weight window 3 stays at block 0. -/
theorem idx_w3 : ∀ t : Fin cfg0.N, win0_3.index t (0 : Fin 1) = 0 :=
  (by decide +kernel : ∀ t : Fin grid0.N, _)
/-- Weight window 4 stays at block 0. -/
theorem idx_w4 : ∀ t : Fin cfg0.N, win0_4.index t (0 : Fin 1) = 0 :=
  (by decide +kernel : ∀ t : Fin grid0.N, _)
/-- Weight window 5 stays at block 0. -/
theorem idx_w5 : ∀ t : Fin cfg0.N, win0_5.index t (0 : Fin 1) = 0 :=
  (by decide +kernel : ∀ t : Fin grid0.N, _)
/-- Weight window 6 stays at block (0, 0). -/
theorem idx_w6 : ∀ t : Fin cfg0.N, win0_6.index t (0 : Fin 2) = 0 ∧ win0_6.index t (1 : Fin 2) = 0 :=
  (by decide +kernel : ∀ t : Fin grid0.N, _)
/-- Weight window 7 stays at block 0. -/
theorem idx_w7 : ∀ t : Fin cfg0.N, win0_7.index t (0 : Fin 1) = 0 :=
  (by decide +kernel : ∀ t : Fin grid0.N, _)
/-- Weight window 8 stays at block 0. -/
theorem idx_w8 : ∀ t : Fin cfg0.N, win0_8.index t (0 : Fin 1) = 0 :=
  (by decide +kernel : ∀ t : Fin grid0.N, _)
/-- Weight window 9 stays at block 0. -/
theorem idx_w9 : ∀ t : Fin cfg0.N, win0_9.index t (0 : Fin 1) = 0 :=
  (by decide +kernel : ∀ t : Fin grid0.N, _)
/-- Weight window 10 stays at block (0, 0). -/
theorem idx_w10 : ∀ t : Fin cfg0.N, win0_10.index t (0 : Fin 2) = 0 ∧ win0_10.index t (1 : Fin 2) = 0 :=
  (by decide +kernel : ∀ t : Fin grid0.N, _)
/-- Weight window 11 stays at block 0. -/
theorem idx_w11 : ∀ t : Fin cfg0.N, win0_11.index t (0 : Fin 1) = 0 :=
  (by decide +kernel : ∀ t : Fin grid0.N, _)
/-- Weight window 12 stays at block 0. -/
theorem idx_w12 : ∀ t : Fin cfg0.N, win0_12.index t (0 : Fin 1) = 0 :=
  (by decide +kernel : ∀ t : Fin grid0.N, _)
/-- Weight window 13 stays at block 0. -/
theorem idx_w13 : ∀ t : Fin cfg0.N, win0_13.index t (0 : Fin 1) = 0 :=
  (by decide +kernel : ∀ t : Fin grid0.N, _)
/-- Weight window 14 stays at block (0, 0). -/
theorem idx_w14 : ∀ t : Fin cfg0.N, win0_14.index t (0 : Fin 2) = 0 ∧ win0_14.index t (1 : Fin 2) = 0 :=
  (by decide +kernel : ∀ t : Fin grid0.N, _)
/-- Weight window 15 stays at block 0. -/
theorem idx_w15 : ∀ t : Fin cfg0.N, win0_15.index t (0 : Fin 1) = 0 :=
  (by decide +kernel : ∀ t : Fin grid0.N, _)
/-- Weight window 16 stays at block 0. -/
theorem idx_w16 : ∀ t : Fin cfg0.N, win0_16.index t (0 : Fin 1) = 0 :=
  (by decide +kernel : ∀ t : Fin grid0.N, _)
/-- Weight window 17 stays at block 0. -/
theorem idx_w17 : ∀ t : Fin cfg0.N, win0_17.index t (0 : Fin 1) = 0 :=
  (by decide +kernel : ∀ t : Fin grid0.N, _)
/-- Weight window 18 stays at block (0, 0). -/
theorem idx_w18 : ∀ t : Fin cfg0.N, win0_18.index t (0 : Fin 2) = 0 ∧ win0_18.index t (1 : Fin 2) = 0 :=
  (by decide +kernel : ∀ t : Fin grid0.N, _)
/-- Weight window 19 stays at block 0. -/
theorem idx_w19 : ∀ t : Fin cfg0.N, win0_19.index t (0 : Fin 1) = 0 :=
  (by decide +kernel : ∀ t : Fin grid0.N, _)
/-- Weight window 20 stays at block 0. -/
theorem idx_w20 : ∀ t : Fin cfg0.N, win0_20.index t (0 : Fin 1) = 0 :=
  (by decide +kernel : ∀ t : Fin grid0.N, _)
/-- Weight window 21 stays at block 0. -/
theorem idx_w21 : ∀ t : Fin cfg0.N, win0_21.index t (0 : Fin 1) = 0 :=
  (by decide +kernel : ∀ t : Fin grid0.N, _)
/-- Weight window 22 stays at block (0, 0). -/
theorem idx_w22 : ∀ t : Fin cfg0.N, win0_22.index t (0 : Fin 2) = 0 ∧ win0_22.index t (1 : Fin 2) = 0 :=
  (by decide +kernel : ∀ t : Fin grid0.N, _)
/-- Weight window 23 stays at block 0. -/
theorem idx_w23 : ∀ t : Fin cfg0.N, win0_23.index t (0 : Fin 1) = 0 :=
  (by decide +kernel : ∀ t : Fin grid0.N, _)
/-- Weight window 24 stays at block (0, 0). -/
theorem idx_w24 : ∀ t : Fin cfg0.N, win0_24.index t (0 : Fin 2) = 0 ∧ win0_24.index t (1 : Fin 2) = 0 :=
  (by decide +kernel : ∀ t : Fin grid0.N, _)
/-- Weight window 25 stays at block 0. -/
theorem idx_w25 : ∀ t : Fin cfg0.N, win0_25.index t (0 : Fin 1) = 0 :=
  (by decide +kernel : ∀ t : Fin grid0.N, _)

/-! ## Each window's block, read off its array -/

/-- The block of weight window 2 is its whole array, at every point. -/
theorem blk2 (c : Dev nD) (t : Fin cfg0.N) : (iblk m c 2 t : Vec Ideal S10x128 .f32) = V m c main_arg2 := by
  funext y
  show V m c main_arg2 (((cfg0.win 2).blk t).view.emb y) = V m c main_arg2 y
  obtain ⟨e0, e1⟩ := idx_w2 t
  refine congrArg _ (funext fun a => Fin.ext ?_)
  match a with
  | ⟨0, _⟩ => show win0_2.index t (0 : Fin 2) * 10 + 1 * (y 0).val = (y 0).val; omega
  | ⟨1, _⟩ => show win0_2.index t (1 : Fin 2) * 128 + 1 * (y 1).val = (y 1).val; omega
/-- The block of weight window 3 is its whole array, at every point. -/
theorem blk3 (c : Dev nD) (t : Fin cfg0.N) : (iblk m c 3 t : Vec Ideal S128 .f32) = V m c main_arg3 := by
  funext y
  show V m c main_arg3 (((cfg0.win 3).blk t).view.emb y) = V m c main_arg3 y
  have e0 := idx_w3 t
  refine congrArg _ (funext fun a => Fin.ext ?_)
  match a with
  | ⟨0, _⟩ => show win0_3.index t (0 : Fin 1) * 128 + 1 * (y 0).val = (y 0).val; omega
/-- The block of weight window 4 is its whole array, at every point. -/
theorem blk4 (c : Dev nD) (t : Fin cfg0.N) : (iblk m c 4 t : Vec Ideal S128 .f32) = V m c main_arg4 := by
  funext y
  show V m c main_arg4 (((cfg0.win 4).blk t).view.emb y) = V m c main_arg4 y
  have e0 := idx_w4 t
  refine congrArg _ (funext fun a => Fin.ext ?_)
  match a with
  | ⟨0, _⟩ => show win0_4.index t (0 : Fin 1) * 128 + 1 * (y 0).val = (y 0).val; omega
/-- The block of weight window 5 is its whole array, at every point. -/
theorem blk5 (c : Dev nD) (t : Fin cfg0.N) : (iblk m c 5 t : Vec Ideal S128 .f32) = V m c main_arg5 := by
  funext y
  show V m c main_arg5 (((cfg0.win 5).blk t).view.emb y) = V m c main_arg5 y
  have e0 := idx_w5 t
  refine congrArg _ (funext fun a => Fin.ext ?_)
  match a with
  | ⟨0, _⟩ => show win0_5.index t (0 : Fin 1) * 128 + 1 * (y 0).val = (y 0).val; omega
/-- The block of weight window 6 is its whole array, at every point. -/
theorem blk6 (c : Dev nD) (t : Fin cfg0.N) : (iblk m c 6 t : Vec Ideal S128x128 .f32) = V m c main_arg6 := by
  funext y
  show V m c main_arg6 (((cfg0.win 6).blk t).view.emb y) = V m c main_arg6 y
  obtain ⟨e0, e1⟩ := idx_w6 t
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega
/-- The block of weight window 7 is its whole array, at every point. -/
theorem blk7 (c : Dev nD) (t : Fin cfg0.N) : (iblk m c 7 t : Vec Ideal S128 .f32) = V m c main_arg7 := by
  funext y
  show V m c main_arg7 (((cfg0.win 7).blk t).view.emb y) = V m c main_arg7 y
  have e0 := idx_w7 t
  refine congrArg _ (funext fun a => Fin.ext ?_)
  match a with
  | ⟨0, _⟩ => show win0_7.index t (0 : Fin 1) * 128 + 1 * (y 0).val = (y 0).val; omega
/-- The block of weight window 8 is its whole array, at every point. -/
theorem blk8 (c : Dev nD) (t : Fin cfg0.N) : (iblk m c 8 t : Vec Ideal S128 .f32) = V m c main_arg8 := by
  funext y
  show V m c main_arg8 (((cfg0.win 8).blk t).view.emb y) = V m c main_arg8 y
  have e0 := idx_w8 t
  refine congrArg _ (funext fun a => Fin.ext ?_)
  match a with
  | ⟨0, _⟩ => show win0_8.index t (0 : Fin 1) * 128 + 1 * (y 0).val = (y 0).val; omega
/-- The block of weight window 9 is its whole array, at every point. -/
theorem blk9 (c : Dev nD) (t : Fin cfg0.N) : (iblk m c 9 t : Vec Ideal S128 .f32) = V m c main_arg9 := by
  funext y
  show V m c main_arg9 (((cfg0.win 9).blk t).view.emb y) = V m c main_arg9 y
  have e0 := idx_w9 t
  refine congrArg _ (funext fun a => Fin.ext ?_)
  match a with
  | ⟨0, _⟩ => show win0_9.index t (0 : Fin 1) * 128 + 1 * (y 0).val = (y 0).val; omega
/-- The block of weight window 10 is its whole array, at every point. -/
theorem blk10 (c : Dev nD) (t : Fin cfg0.N) : (iblk m c 10 t : Vec Ideal S2x64 .f32) = V m c main_arg10 := by
  funext y
  show V m c main_arg10 (((cfg0.win 10).blk t).view.emb y) = V m c main_arg10 y
  obtain ⟨e0, e1⟩ := idx_w10 t
  refine congrArg _ (funext fun a => Fin.ext ?_)
  match a with
  | ⟨0, _⟩ => show win0_10.index t (0 : Fin 2) * 2 + 1 * (y 0).val = (y 0).val; omega
  | ⟨1, _⟩ => show win0_10.index t (1 : Fin 2) * 64 + 1 * (y 1).val = (y 1).val; omega
/-- The block of weight window 11 is its whole array, at every point. -/
theorem blk11 (c : Dev nD) (t : Fin cfg0.N) : (iblk m c 11 t : Vec Ideal S64 .f32) = V m c main_arg11 := by
  funext y
  show V m c main_arg11 (((cfg0.win 11).blk t).view.emb y) = V m c main_arg11 y
  have e0 := idx_w11 t
  refine congrArg _ (funext fun a => Fin.ext ?_)
  match a with
  | ⟨0, _⟩ => show win0_11.index t (0 : Fin 1) * 64 + 1 * (y 0).val = (y 0).val; omega
/-- The block of weight window 12 is its whole array, at every point. -/
theorem blk12 (c : Dev nD) (t : Fin cfg0.N) : (iblk m c 12 t : Vec Ideal S64 .f32) = V m c main_arg12 := by
  funext y
  show V m c main_arg12 (((cfg0.win 12).blk t).view.emb y) = V m c main_arg12 y
  have e0 := idx_w12 t
  refine congrArg _ (funext fun a => Fin.ext ?_)
  match a with
  | ⟨0, _⟩ => show win0_12.index t (0 : Fin 1) * 64 + 1 * (y 0).val = (y 0).val; omega
/-- The block of weight window 13 is its whole array, at every point. -/
theorem blk13 (c : Dev nD) (t : Fin cfg0.N) : (iblk m c 13 t : Vec Ideal S64 .f32) = V m c main_arg13 := by
  funext y
  show V m c main_arg13 (((cfg0.win 13).blk t).view.emb y) = V m c main_arg13 y
  have e0 := idx_w13 t
  refine congrArg _ (funext fun a => Fin.ext ?_)
  match a with
  | ⟨0, _⟩ => show win0_13.index t (0 : Fin 1) * 64 + 1 * (y 0).val = (y 0).val; omega
/-- The block of weight window 14 is its whole array, at every point. -/
theorem blk14 (c : Dev nD) (t : Fin cfg0.N) : (iblk m c 14 t : Vec Ideal S640x256 .f32) = V m c main_arg14 := by
  funext y
  show V m c main_arg14 (((cfg0.win 14).blk t).view.emb y) = V m c main_arg14 y
  obtain ⟨e0, e1⟩ := idx_w14 t
  refine congrArg _ (funext fun a => Fin.ext ?_)
  match a with
  | ⟨0, _⟩ => show win0_14.index t (0 : Fin 2) * 640 + 1 * (y 0).val = (y 0).val; omega
  | ⟨1, _⟩ => show win0_14.index t (1 : Fin 2) * 256 + 1 * (y 1).val = (y 1).val; omega
/-- The block of weight window 15 is its whole array, at every point. -/
theorem blk15 (c : Dev nD) (t : Fin cfg0.N) : (iblk m c 15 t : Vec Ideal S256 .f32) = V m c main_arg15 := by
  funext y
  show V m c main_arg15 (((cfg0.win 15).blk t).view.emb y) = V m c main_arg15 y
  have e0 := idx_w15 t
  refine congrArg _ (funext fun a => Fin.ext ?_)
  match a with
  | ⟨0, _⟩ => show win0_15.index t (0 : Fin 1) * 256 + 1 * (y 0).val = (y 0).val; omega
/-- The block of weight window 16 is its whole array, at every point. -/
theorem blk16 (c : Dev nD) (t : Fin cfg0.N) : (iblk m c 16 t : Vec Ideal S256 .f32) = V m c main_arg16 := by
  funext y
  show V m c main_arg16 (((cfg0.win 16).blk t).view.emb y) = V m c main_arg16 y
  have e0 := idx_w16 t
  refine congrArg _ (funext fun a => Fin.ext ?_)
  match a with
  | ⟨0, _⟩ => show win0_16.index t (0 : Fin 1) * 256 + 1 * (y 0).val = (y 0).val; omega
/-- The block of weight window 17 is its whole array, at every point. -/
theorem blk17 (c : Dev nD) (t : Fin cfg0.N) : (iblk m c 17 t : Vec Ideal S256 .f32) = V m c main_arg17 := by
  funext y
  show V m c main_arg17 (((cfg0.win 17).blk t).view.emb y) = V m c main_arg17 y
  have e0 := idx_w17 t
  refine congrArg _ (funext fun a => Fin.ext ?_)
  match a with
  | ⟨0, _⟩ => show win0_17.index t (0 : Fin 1) * 256 + 1 * (y 0).val = (y 0).val; omega
/-- The block of weight window 18 is its whole array, at every point. -/
theorem blk18 (c : Dev nD) (t : Fin cfg0.N) : (iblk m c 18 t : Vec Ideal S256x256 .f32) = V m c main_arg18 := by
  funext y
  show V m c main_arg18 (((cfg0.win 18).blk t).view.emb y) = V m c main_arg18 y
  obtain ⟨e0, e1⟩ := idx_w18 t
  refine congrArg _ (funext fun a => Fin.ext ?_)
  match a with
  | ⟨0, _⟩ => show win0_18.index t (0 : Fin 2) * 256 + 1 * (y 0).val = (y 0).val; omega
  | ⟨1, _⟩ => show win0_18.index t (1 : Fin 2) * 256 + 1 * (y 1).val = (y 1).val; omega
/-- The block of weight window 19 is its whole array, at every point. -/
theorem blk19 (c : Dev nD) (t : Fin cfg0.N) : (iblk m c 19 t : Vec Ideal S256 .f32) = V m c main_arg19 := by
  funext y
  show V m c main_arg19 (((cfg0.win 19).blk t).view.emb y) = V m c main_arg19 y
  have e0 := idx_w19 t
  refine congrArg _ (funext fun a => Fin.ext ?_)
  match a with
  | ⟨0, _⟩ => show win0_19.index t (0 : Fin 1) * 256 + 1 * (y 0).val = (y 0).val; omega
/-- The block of weight window 20 is its whole array, at every point. -/
theorem blk20 (c : Dev nD) (t : Fin cfg0.N) : (iblk m c 20 t : Vec Ideal S256 .f32) = V m c main_arg20 := by
  funext y
  show V m c main_arg20 (((cfg0.win 20).blk t).view.emb y) = V m c main_arg20 y
  have e0 := idx_w20 t
  refine congrArg _ (funext fun a => Fin.ext ?_)
  match a with
  | ⟨0, _⟩ => show win0_20.index t (0 : Fin 1) * 256 + 1 * (y 0).val = (y 0).val; omega
/-- The block of weight window 21 is its whole array, at every point. -/
theorem blk21 (c : Dev nD) (t : Fin cfg0.N) : (iblk m c 21 t : Vec Ideal S256 .f32) = V m c main_arg21 := by
  funext y
  show V m c main_arg21 (((cfg0.win 21).blk t).view.emb y) = V m c main_arg21 y
  have e0 := idx_w21 t
  refine congrArg _ (funext fun a => Fin.ext ?_)
  match a with
  | ⟨0, _⟩ => show win0_21.index t (0 : Fin 1) * 256 + 1 * (y 0).val = (y 0).val; omega
/-- The block of weight window 22 is its whole array, at every point. -/
theorem blk22 (c : Dev nD) (t : Fin cfg0.N) : (iblk m c 22 t : Vec Ideal S256x64 .f32) = V m c main_arg22 := by
  funext y
  show V m c main_arg22 (((cfg0.win 22).blk t).view.emb y) = V m c main_arg22 y
  obtain ⟨e0, e1⟩ := idx_w22 t
  refine congrArg _ (funext fun a => Fin.ext ?_)
  match a with
  | ⟨0, _⟩ => show win0_22.index t (0 : Fin 2) * 256 + 1 * (y 0).val = (y 0).val; omega
  | ⟨1, _⟩ => show win0_22.index t (1 : Fin 2) * 64 + 1 * (y 1).val = (y 1).val; omega
/-- The block of weight window 23 is its whole array, at every point. -/
theorem blk23 (c : Dev nD) (t : Fin cfg0.N) : (iblk m c 23 t : Vec Ideal S64 .f32) = V m c main_arg23 := by
  funext y
  show V m c main_arg23 (((cfg0.win 23).blk t).view.emb y) = V m c main_arg23 y
  have e0 := idx_w23 t
  refine congrArg _ (funext fun a => Fin.ext ?_)
  match a with
  | ⟨0, _⟩ => show win0_23.index t (0 : Fin 1) * 64 + 1 * (y 0).val = (y 0).val; omega
/-- The block of weight window 24 is its whole array, at every point. -/
theorem blk24 (c : Dev nD) (t : Fin cfg0.N) : (iblk m c 24 t : Vec Ideal S256x64 .f32) = V m c main_arg24 := by
  funext y
  show V m c main_arg24 (((cfg0.win 24).blk t).view.emb y) = V m c main_arg24 y
  obtain ⟨e0, e1⟩ := idx_w24 t
  refine congrArg _ (funext fun a => Fin.ext ?_)
  match a with
  | ⟨0, _⟩ => show win0_24.index t (0 : Fin 2) * 256 + 1 * (y 0).val = (y 0).val; omega
  | ⟨1, _⟩ => show win0_24.index t (1 : Fin 2) * 64 + 1 * (y 1).val = (y 1).val; omega
/-- The block of weight window 25 is its whole array, at every point. -/
theorem blk25 (c : Dev nD) (t : Fin cfg0.N) : (iblk m c 25 t : Vec Ideal S64 .f32) = V m c main_arg25 := by
  funext y
  show V m c main_arg25 (((cfg0.win 25).blk t).view.emb y) = V m c main_arg25 y
  have e0 := idx_w25 t
  refine congrArg _ (funext fun a => Fin.ext ?_)
  match a with
  | ⟨0, _⟩ => show win0_25.index t (0 : Fin 1) * 64 + 1 * (y 0).val = (y 0).val; omega

/-- A grid point's number is below 64. -/
theorem point_lt (t : Fin cfg0.N) : t.val < 64 := lt_of_lt_of_eq t.isLt N_0

/-- Row `a` of the observation block at point `t` is row `1024·t + a` of the observation array. -/
theorem blk0_row (c : Dev nD) (t : Fin cfg0.N) (a : Fin 1024) :
    row2 (iblk m c 0 t : Vec Ideal S1024x512 .f32) a
      = row2 (V m c main_arg0 : (⟨2, ![65536, 512]⟩ : Shape).Idx → EReal) ⟨1024 * t.val + a.val, by have := point_lt t; omega⟩ := by
  funext k
  show V m c main_arg0 (((cfg0.win 0).blk t).view.emb (ix2 a k)) = V m c main_arg0 (ix2 ⟨1024 * t.val + a.val, _⟩ k)
  obtain ⟨e0, e1, -, -, -, -⟩ := idx_rows t
  refine congrArg _ (funext fun d => Fin.ext ?_)
  match d with
  | ⟨0, _⟩ => show win0_0.index t (0 : Fin 2) * 1024 + 1 * a.val = 1024 * t.val + a.val; omega
  | ⟨1, _⟩ => show win0_0.index t (1 : Fin 2) * 512 + 1 * k.val = k.val; omega

/-- Row `a` of the preference block at point `t` is row `1024·t + a` of the preference array. -/
theorem blk1_row (c : Dev nD) (t : Fin cfg0.N) (a : Fin 1024) :
    row2 (iblk m c 1 t : Vec Ideal S1024x2 .f32) a
      = row2 (V m c main_arg1 : (⟨2, ![65536, 2]⟩ : Shape).Idx → EReal) ⟨1024 * t.val + a.val, by have := point_lt t; omega⟩ := by
  funext k
  show V m c main_arg1 (((cfg0.win 1).blk t).view.emb (ix2 a k)) = V m c main_arg1 (ix2 ⟨1024 * t.val + a.val, _⟩ k)
  obtain ⟨-, -, e0, e1, -, -⟩ := idx_rows t
  refine congrArg _ (funext fun d => Fin.ext ?_)
  match d with
  | ⟨0, _⟩ => show win0_1.index t (0 : Fin 2) * 1024 + 1 * a.val = 1024 * t.val + a.val; omega
  | ⟨1, _⟩ => show win0_1.index t (1 : Fin 2) * 2 + 1 * k.val = k.val; omega

end Cert.KerBlocks

end
-- ==== Proof.KerArray.lean ====
/-
  From blocks to the array.  The kernel runs at 64 grid points; at point `t` it reads rows
  1024·t … 1024·t + 1023 of the observation and preference arrays and the whole of every weight array, and writes
  rows 1024·t … 1024·t + 1023 of its [65536, 128] output.  Row by row the block it writes is the row function of the
  blocks it reads, so what point `t` writes back is block `t` of ONE whole-array function of the argument arrays
  (`Cert.RowSpec.outArr`); the 64 blocks tile the output (row `i` lies in block `i / 1024`), hence after the region the
  output array IS that function.
-/
import proofs.«101865_j10033043603499_2_alg».proof.KernelIdeal
import proofs.«101865_j10033043603499_2_alg».proof.Proof.Gen.KernelIdeal.Launch
import proofs.«101865_j10033043603499_2_alg».proof.Proof.Gen.KernelIdeal.Points
import proofs.«101865_j10033043603499_2_alg».proof.Proof.Gen.KernelIdeal.Frame
import proofs.«101865_j10033043603499_2_alg».proof.Proof.RowSpec
import proofs.«101865_j10033043603499_2_alg».proof.Proof.KerRows
import proofs.«101865_j10033043603499_2_alg».proof.Proof.KerBlocks
import Idealize.ShloMosaic.Lib.ValueIdx
import Idealize.ShloMosaic.Lib.Pipeline.Value

set_option maxRecDepth 16384

noncomputable section

namespace Cert.KerArray

open Idealize.ShloMosaic Idealize.ShloMosaic.TcCoe Idealize.ShloMosaic.ValueIdx Idealize.SL.Sem
open Cert.KernelIdeal Cert.KernelIdeal.Gen Cert.RowSpec Cert.KerBlocks

variable (m : (ℓ : Loc nD τ sig) → Buf (Elt Ideal) ℓ)

/-! ## What a point writes back, and the array after the region -/

/-- The weights of the row function, read off the weight arrays as the region finds them. -/
def weights (c : Dev nD) : Weights :=
  weightsOf (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25)

/-- The whole-array function the output ends at. -/
def outG (c : Dev nD) : (⟨2, ![65536, 128]⟩ : Shape).Idx → EReal :=
  outArr (weights m c) (V m c main_arg0) (V m c main_arg1)

/-- Entry (a, k) of the block the body leaves at point `t` is entry (1024·t + a, k) of `outG`: row `a` of the block
    is the row function of rows `a` of the observation and preference blocks, which are rows 1024·t + a of the arrays,
    and of the weight blocks, which are the weight arrays. -/
theorem out_entry (c : Dev nD) (t : Fin cfg0.N) (a : Fin 1024) (k : Fin 128) :
    out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 a k)
      = outG m c (ix2 ⟨1024 * t.val + a.val, by have := point_lt t; omega⟩ k) := by
  have h := congrFun (Cert.KerRows.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) a) k
  rw [row2_apply] at h
  refine h.trans ?_
  rw [blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk0_row m c t a, blk1_row m c t a]
  unfold outG outArr weights
  rfl

/-- WHAT POINT `t` WRITES BACK is block `t` of `outG`. -/
theorem flushed_eq (c : Dev nD) (t : Fin cfg0.N) :
    (dats m 0 c).flushed 26 t = ((cfg0.win 26).blk t).view.read (Elt Ideal) (outG m c) := by
  show (cfg0.win 26).cut (grid0.coords t) ((dats m 0 c).after 26 t) = _
  rw [after0_26]
  funext j
  have hj0 : (j 0).val < 1024 := (j 0).isLt
  have hj1 : (j 1).val < 128 := (j 1).isLt
  obtain ⟨-, -, -, -, e0, e1⟩ := idx_rows t
  refine Eq.trans ?_ ((out_entry m c t ⟨(j 0).val, hj0⟩ ⟨(j 1).val, hj1⟩).trans ?_)
  · show out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) j = out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 ⟨(j 0).val, hj0⟩ ⟨(j 1).val, hj1⟩)
    refine congrArg _ (funext fun d => Fin.ext ?_)
    match d with
    | ⟨0, _⟩ => rfl
    | ⟨1, _⟩ => rfl
  · show outG m c (ix2 ⟨1024 * t.val + (j 0).val, _⟩ ⟨(j 1).val, hj1⟩) = outG m c (((cfg0.win 26).blk t).view.emb j)
    refine congrArg _ (funext fun d => Fin.ext ?_)
    match d with
    | ⟨0, _⟩ => show 1024 * t.val + (j 0).val = win0_26.index t (0 : Fin 2) * 1024 + 1 * (j 0).val; omega
    | ⟨1, _⟩ => show (j 1).val = win0_26.index t (1 : Fin 2) * 128 + 1 * (j 1).val; omega

/-- An index of the output array is in point `t`'s block iff each coordinate is in the block's range on its axis. -/
theorem mem_blk (t : Fin cfg0.N) (i : S65536x128.Idx) :
    i ∈ ((cfg0.win 26).blk t).view.set ↔ ∀ a : Fin 2, win0_26.index t a * S1024x128.size a ≤ (i a).val ∧ (i a).val < win0_26.index t a * S1024x128.size a + S1024x128.size a := by
  show i ∈ ((View.whole main_v0).slice (win0_26.rect t)).set ↔ _
  rw [View.set_slice_whole, Rect.mem_set_unit]
  exact Iff.rfl

/-- Every index of the output array lies in the block of the point `row / 1024`. -/
theorem cover (i : S65536x128.Idx) : ∃ t : Fin cfg0.N, (cfg0.win 26).flush t = true ∧ i ∈ ((cfg0.win 26).blk t).view.set := by
  have hi0 : (i 0).val < 65536 := (i 0).isLt
  have hi1 : (i 1).val < 128 := (i 1).isLt
  refine ⟨⟨(i 0).val / 1024, lt_of_lt_of_eq (by omega : (i 0).val / 1024 < 64) N_0.symm⟩, flush0_26 _, ?_⟩
  rw [mem_blk]
  obtain ⟨-, -, -, -, e0, e1⟩ := idx_rows ⟨(i 0).val / 1024, lt_of_lt_of_eq (by omega : (i 0).val / 1024 < 64) N_0.symm⟩
  intro a
  match a with
  | ⟨0, _⟩ => show win0_26.index _ (0 : Fin 2) * 1024 ≤ (i 0).val ∧ (i 0).val < win0_26.index _ (0 : Fin 2) * 1024 + 1024; rw [e0]; show (i 0).val / 1024 * 1024 ≤ (i 0).val ∧ (i 0).val < (i 0).val / 1024 * 1024 + 1024; omega
  | ⟨1, _⟩ => show win0_26.index _ (1 : Fin 2) * 128 ≤ (i 1).val ∧ (i 1).val < win0_26.index _ (1 : Fin 2) * 128 + 128; rw [e1]; omega

/-- THE OUTPUT ARRAY after the region is `outG`. -/
theorem final (c : Dev nD) : (dats m 0 c).arrAt 26 cfg0.N = outG m c :=
  (dats m 0 c).arrAt_eq_of_cover 26 (outG m c) (fun t _ => flushed_eq m c t) (cover)

end Cert.KerArray

end
-- ==== Proof.KerTail.lean ====
/-
  After the region.  The program re-lays the kernel's [65536, 128] output as [65536, 2, 64] (row-major: entry
  (r, h, a) is entry (r, 64·h + a)) and swaps the last two axes, so its result, a [65536, 64, 2] array, holds at
  (r, a, h) the kernel output's entry (r, 64·h + a): output `a` of head `h` of row `r` (`Cert.RowSpec.result`).
  With the output array known (`Cert.KerArray.final`) this gives the program's run with its result named.
-/
import proofs.«101865_j10033043603499_2_alg».proof.KernelIdeal
import proofs.«101865_j10033043603499_2_alg».proof.Proof.Gen.KernelIdeal.Launch
import proofs.«101865_j10033043603499_2_alg».proof.Proof.Gen.KernelIdeal.Frame
import proofs.«101865_j10033043603499_2_alg».proof.Proof.RowSpec
import proofs.«101865_j10033043603499_2_alg».proof.Proof.KerArray
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KerTail

open Idealize.ShloMosaic Idealize.ShloMosaic.TcCoe Idealize.ShloMosaic.ValueIdx Idealize.SL.Sem Idealize.ShloMosaic.StableHlo
open Cert.KernelIdeal Cert.KernelIdeal.Gen Cert.RowSpec Cert.KerArray

variable (m : (ℓ : Loc nD τ sig) → Buf (Elt Ideal) ℓ) (ρ : Dev nD → PrngReg)

/-- A [65536, 128] array re-laid as [65536, 2, 64] and its last two axes swapped reads, at (r, a, h), the array's
    entry (r, 64·h + a). -/
theorem relaid_apply (x : S65536x128.Idx → EReal) (h1 : S65536x128.ShapeCasts S65536x2x64)
    (h2 : S65536x2x64.Transposes [0, 2, 1] S65536x64x2) (r : Fin 65536) (a : Fin 64) (h : Fin 2) :
    transpose S65536x64x2 [0, 2, 1] (shapeCast S65536x2x64 x h1) h2 (ix3 r a h)
      = x (ix2 r ⟨64 * h.val + a.val, by have := a.isLt; have := h.isLt; omega⟩) := by
  refine (transpose_ix3_021_apply (shapeCast S65536x2x64 x h1) h2 r a h).trans ?_
  refine shapeCast_apply x h1 (ix3 r h a) (ix2 r ⟨64 * h.val + a.val, _⟩) ?_
  rw [Shape.rowMajor_val_two, Shape.rowMajor_val_three]
  show r.val * 128 + (64 * h.val + a.val) = (r.val * 2 + h.val) * 64 + a.val
  omega

/-- The result buffer is no window's array and is not scoped: it is among the buffers the lines after the region leave. -/
theorem v2_rest : main_v2 ∈ Pipeline.restRefs sig (cfgs 0).spec :=
  Pipeline.mem_restRefs_of main_v2 rfl (fun w => by fin_cases w <;> decide)

/-- THE RESULT after the lines that follow the region: the batch of result rows as a [65536, 64, 2] array. -/
theorem tail_value (c : Dev nD) :
    Pipeline.afterTail₀ cfgs (dats m) 0 (V0 m) [hostOps1] c main_v2
      = result (weights m c) (V m c main_arg0) (V m c main_arg1) := by
  unfold Pipeline.afterTail₀
  show StableHlo.after hostOps1 _ (Proc.devRef .tc main_v2) = _
  after_results
  show transpose S65536x64x2 [0, 2, 1]
      (shapeCast S65536x2x64
        (Pipeline.withArrays (cfgs 0).spec c (V0 m c) (fun w => (dats m 0 c).arrAt w (cfgs 0).N) (Proc.tc.devRef main_v0))
        shapeCasts_S65536x128_S65536x2x64)
      transposes_S65536x2x64_S65536x64x2_0_2_1 = _
  have e : Pipeline.withArrays (cfgs 0).spec c (V0 m c) (fun w => (dats m 0 c).arrAt w (cfgs 0).N) (Proc.tc.devRef main_v0)
      = outG m c :=
    (Pipeline.withArrays_arr spec0 launch0.win.arr_inj c (V0 m c) (fun w => (dats m 0 c).arrAt w (cfgs 0).N) 26).trans (final m c)
  rw [e]
  funext i
  obtain ⟨r, a, h, rfl⟩ : ∃ (r : Fin 65536) (a : Fin 64) (h : Fin 2), i = ix3 r a h := ⟨i 0, i 1, i 2, eq_ix3 i⟩
  refine (relaid_apply (outG m c) _ _ r a h).trans ?_
  rfl

set_option maxHeartbeats 4000000 in
/-- THE KERNEL PROGRAM'S RUN, with its result named: every weakly fair execution terminates, the result buffer holds the
    batch of result rows as a [65536, 64, 2] array, and the argument arrays are unchanged (the frame run's post read at
    the result and at each argument). -/
theorem run : θ_run defs (onTc (τ := τ) (main (F := Ideal))) ⟨m, fun _ => 0, ρ⟩ (fun r => ∀ c : Dev nD,
      r.2.mem ((c.tc : Thread nD τ).loc main_v2) = result (weights m c) (V m c main_arg0) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_v2 v2_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c))),
      ((h c).1 20).trans (((dats m 0 c).arrAt_in 20 rfl _).trans ((A_eq m c 20).trans (V_main_arg20 m c))),
      ((h c).1 21).trans (((dats m 0 c).arrAt_in 21 rfl _).trans ((A_eq m c 21).trans (V_main_arg21 m c))),
      ((h c).1 22).trans (((dats m 0 c).arrAt_in 22 rfl _).trans ((A_eq m c 22).trans (V_main_arg22 m c))),
      ((h c).1 23).trans (((dats m 0 c).arrAt_in 23 rfl _).trans ((A_eq m c 23).trans (V_main_arg23 m c))),
      ((h c).1 24).trans (((dats m 0 c).arrAt_in 24 rfl _).trans ((A_eq m c 24).trans (V_main_arg24 m c))),
      ((h c).1 25).trans (((dats m 0 c).arrAt_in 25 rfl _).trans ((A_eq m c 25).trans (V_main_arg25 m c)))⟩) (run_main m ρ)

end Cert.KerTail

end
-- ==== Proof.RefRunHand.lean ====
/-
  The reference program is a straight line of 236 host operations, each writing a buffer of its own from the whole
  contents of its operand buffers.  After the line, each buffer holds its operation's function of what its operands
  held when the operation ran; no operation writes a buffer twice, and none writes an argument buffer.  Walking the
  line once from the front, the contents of every buffer still to be read are known as the stage functions of the 26
  argument arrays, so the result buffer ends at the last stage of those arrays and the argument buffers are unchanged.
-/
import proofs.«101865_j10033043603499_2_alg».proof.ReferenceIdeal
import proofs.«101865_j10033043603499_2_alg».proof.Proof.Gen.ReferenceIdeal
import proofs.«101865_j10033043603499_2_alg».proof.Proof.RefStages
import Idealize.ShloMosaic.Lib.StableHlo.Run
import Idealize.ShloMosaic.Lib.Pipeline.Regions

noncomputable section

namespace Cert.RefRunHand

open Cert.ReferenceIdeal Cert.ReferenceIdeal.Gen Cert.ReferenceIdeal.Read Idealize.ShloMosaic Idealize.ShloMosaic.TcCoe Idealize.SL.Sem Idealize.ShloMosaic.StableHlo Idealize.ShloMosaic.Pipeline

variable {F : FTy → Type} [FloatOps F]

/-- @main's 236 operations, in order (a called function's operations stand in its call's place, spelt `TRef.…`). -/
abbrev ops : List (HloOp τ sig (Elt F)) :=
  [ unary main_arg0 main_v0 ((extractStridedSlice S65536x64 ![0, 68] · slices_S65536x512_S65536x64_0_68) : (⟨S65536x512, .f32⟩ : BufTy).Contents (Elt F) → (⟨S65536x64, .f32⟩ : BufTy).Contents (Elt F)),
    unary main_arg0 main_v1 ((extractStridedSlice S65536x68 ![0, 0] · slices_S65536x512_S65536x68_0_0) : (⟨S65536x512, .f32⟩ : BufTy).Contents (Elt F) → (⟨S65536x68, .f32⟩ : BufTy).Contents (Elt F)),
    unary main_arg0 main_v2 ((extractStridedSlice S65536x380 ![0, 132] · slices_S65536x512_S65536x380_0_132) : (⟨S65536x512, .f32⟩ : BufTy).Contents (Elt F) → (⟨S65536x380, .f32⟩ : BufTy).Contents (Elt F)),
    binary main_v1 main_v2 main_v3 ((fun a b => concatenate S65536x448 1 [⟨S65536x68, a⟩, ⟨S65536x380, b⟩] concatenates_S65536x68_S65536x380_S65536x448_d1) : (⟨S65536x68, .f32⟩ : BufTy).Contents (Elt F) → (⟨S65536x380, .f32⟩ : BufTy).Contents (Elt F) → (⟨S65536x448, .f32⟩ : BufTy).Contents (Elt F)),
    nullary main_cst (constant S_ .f32 0x3F800000#32),
    unary main_cst main_v4 (broadcastInDim S65536x64 ![] bcast_S_S65536x64 : (⟨S_, .f32⟩ : BufTy).Contents (Elt F) → (⟨S65536x64, .f32⟩ : BufTy).Contents (Elt F)),
    binary main_v0 main_v4 main_v5 (mulf : (⟨S65536x64, .f32⟩ : BufTy).Contents (Elt F) → (⟨S65536x64, .f32⟩ : BufTy).Contents (Elt F) → (⟨S65536x64, .f32⟩ : BufTy).Contents (Elt F)),
    unary main_v5 main_v6 (Host.floor : (⟨S65536x64, .f32⟩ : BufTy).Contents (Elt F) → (⟨S65536x64, .f32⟩ : BufTy).Contents (Elt F)),
    unary main_v6 main_v7 (fptosi 32 : (⟨S65536x64, .f32⟩ : BufTy).Contents (Elt F) → (⟨S65536x64, .i32⟩ : BufTy).Contents (Elt F)),
    nullary main_c (constantI S_ 32 0#32),
    nullary main_c_0 (constantI S_ 32 9#32),
    TRef.unary (TRef.of (T := ⟨S_, .i32⟩) main_c) (TRef.of (T := ⟨S_, .i32⟩) main_call0_v0) id,
    TRef.unary (TRef.of (T := ⟨S_, .i32⟩) main_call0_v0) (TRef.of (T := ⟨S65536x64, .i32⟩) main_call0_v1) (broadcastInDim S65536x64 ![] bcast_S_S65536x64),
    TRef.binary (TRef.of (T := ⟨S65536x64, .i32⟩) main_call0_v1) (TRef.of (T := ⟨S65536x64, .i32⟩) main_v7) (TRef.of (T := ⟨S65536x64, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S65536x64, .i32⟩) main_call0_v4) (broadcastInDim S65536x64 ![] bcast_S_S65536x64),
    TRef.binary (TRef.of (T := ⟨S65536x64, .i32⟩) main_call0_v4) (TRef.of (T := ⟨S65536x64, .i32⟩) main_call0_v2) (TRef.of (T := ⟨S65536x64, .i32⟩) main_v8) minsi,
    nullary main_cst_1 (constant S_ .f32 0x00000000#32),
    unary main_cst_1 main_v9 (broadcastInDim S65536x64 ![] bcast_S_S65536x64 : (⟨S_, .f32⟩ : BufTy).Contents (Elt F) → (⟨S65536x64, .f32⟩ : BufTy).Contents (Elt F)),
    binary main_v0 main_v9 main_v10 (cmpf .oge : (⟨S65536x64, .f32⟩ : BufTy).Contents (Elt F) → (⟨S65536x64, .f32⟩ : BufTy).Contents (Elt F) → (⟨S65536x64, .i1⟩ : BufTy).Contents (Elt F)),
    nullary main_cst_2 (constant S_ .f32 0x41200000#32),
    unary main_cst_2 main_v11 (broadcastInDim S65536x64 ![] bcast_S_S65536x64 : (⟨S_, .f32⟩ : BufTy).Contents (Elt F) → (⟨S65536x64, .f32⟩ : BufTy).Contents (Elt F)),
    binary main_v0 main_v11 main_v12 (cmpf .ole : (⟨S65536x64, .f32⟩ : BufTy).Contents (Elt F) → (⟨S65536x64, .f32⟩ : BufTy).Contents (Elt F) → (⟨S65536x64, .i1⟩ : BufTy).Contents (Elt F)),
    binary main_v10 main_v12 main_v13 (andi : (⟨S65536x64, .i1⟩ : BufTy).Contents (Elt F) → (⟨S65536x64, .i1⟩ : BufTy).Contents (Elt F) → (⟨S65536x64, .i1⟩ : BufTy).Contents (Elt F)),
    unary main_v13 main_v14 (uitofp .f32 : (⟨S65536x64, .i1⟩ : BufTy).Contents (Elt F) → (⟨S65536x64, .f32⟩ : BufTy).Contents (Elt F)),
    TRef.unary (TRef.of (T := ⟨S65536x64, .i32⟩) main_v8) (TRef.of (T := ⟨S65536x64x1, .i32⟩) main_call1_v0) (broadcastInDim S65536x64x1 ![0, 1] bcast_S65536x64_S65536x64x1_0_1),
    TRef.nullary (TRef.of (T := ⟨S1x1x10, .i32⟩) main_call1_v1) (iotaInDim S1x1x10 32 2),
    TRef.unary (TRef.of (T := ⟨S65536x64x1, .i32⟩) main_call1_v0) (TRef.of (T := ⟨S65536x64x10, .i32⟩) main_call1_v2) (broadcastInDim S65536x64x10 ![0, 1, 2] bcast_S65536x64x1_S65536x64x10_0_1_2),
    TRef.unary (TRef.of (T := ⟨S1x1x10, .i32⟩) main_call1_v1) (TRef.of (T := ⟨S65536x64x10, .i32⟩) main_call1_v3) (broadcastInDim S65536x64x10 ![0, 1, 2] bcast_S1x1x10_S65536x64x10_0_1_2),
    TRef.binary (TRef.of (T := ⟨S65536x64x10, .i32⟩) main_call1_v2) (TRef.of (T := ⟨S65536x64x10, .i32⟩) main_call1_v3) (TRef.of (T := ⟨S65536x64x10, .i1⟩) main_call1_v4) (cmpi .eq),
    TRef.unary (TRef.of (T := ⟨S65536x64x10, .i1⟩) main_call1_v4) (TRef.of (T := ⟨S65536x64x10, .f32⟩) main_v15) (uitofp .f32),
    unary main_v14 main_v16 (broadcastInDim S65536x64x1 ![0, 1] bcast_S65536x64_S65536x64x1_0_1 : (⟨S65536x64, .f32⟩ : BufTy).Contents (Elt F) → (⟨S65536x64x1, .f32⟩ : BufTy).Contents (Elt F)),
    unary main_v16 main_v17 (broadcastInDim S65536x64x10 ![0, 1, 2] bcast_S65536x64x1_S65536x64x10_0_1_2 : (⟨S65536x64x1, .f32⟩ : BufTy).Contents (Elt F) → (⟨S65536x64x10, .f32⟩ : BufTy).Contents (Elt F)),
    binary main_v15 main_v17 main_v18 (mulf : (⟨S65536x64x10, .f32⟩ : BufTy).Contents (Elt F) → (⟨S65536x64x10, .f32⟩ : BufTy).Contents (Elt F) → (⟨S65536x64x10, .f32⟩ : BufTy).Contents (Elt F)),
    nullary main_cst_3 (constant S_ .f32 0x00000000#32),
    binary main_v18 main_cst_3 main_v19 ((fun x v => Host.reduceAdd x v reducesTo_S65536x64x10_S65536x10_d1 h_S_) : (⟨S65536x64x10, .f32⟩ : BufTy).Contents (Elt F) → (⟨S_, .f32⟩ : BufTy).Contents (Elt F) → (⟨S65536x10, .f32⟩ : BufTy).Contents (Elt F)),
    nullary main_cst_4 (constant S_ .f32 0x00000000#32),
    binary main_v19 main_cst_4 main_v20 ((fun x v => Host.reduceAdd x v reducesTo_S65536x10_S65536_d1 h_S_) : (⟨S65536x10, .f32⟩ : BufTy).Contents (Elt F) → (⟨S_, .f32⟩ : BufTy).Contents (Elt F) → (⟨S65536, .f32⟩ : BufTy).Contents (Elt F)),
    unary main_v20 main_v21 (broadcastInDim S65536x1 ![0] bcast_S65536_S65536x1_0 : (⟨S65536, .f32⟩ : BufTy).Contents (Elt F) → (⟨S65536x1, .f32⟩ : BufTy).Contents (Elt F)),
    nullary main_cst_5 (constant S_ .f32 0x322BCC77#32),
    unary main_cst_5 main_v22 (broadcastInDim S65536x1 ![] bcast_S_S65536x1 : (⟨S_, .f32⟩ : BufTy).Contents (Elt F) → (⟨S65536x1, .f32⟩ : BufTy).Contents (Elt F)),
    binary main_v21 main_v22 main_v23 (addf : (⟨S65536x1, .f32⟩ : BufTy).Contents (Elt F) → (⟨S65536x1, .f32⟩ : BufTy).Contents (Elt F) → (⟨S65536x1, .f32⟩ : BufTy).Contents (Elt F)),
    unary main_v23 main_v24 (broadcastInDim S65536x10 ![0, 1] bcast_S65536x1_S65536x10_0_1 : (⟨S65536x1, .f32⟩ : BufTy).Contents (Elt F) → (⟨S65536x10, .f32⟩ : BufTy).Contents (Elt F)),
    binary main_v19 main_v24 main_v25 (Host.divf : (⟨S65536x10, .f32⟩ : BufTy).Contents (Elt F) → (⟨S65536x10, .f32⟩ : BufTy).Contents (Elt F) → (⟨S65536x10, .f32⟩ : BufTy).Contents (Elt F)),
    binary main_v25 main_arg2 main_v26 ((fun l r => Host.dotGeneral dot_S65536x10_S10x128_S65536x128_1_0_0_1_n_n none l r) : (⟨S65536x10, .f32⟩ : BufTy).Contents (Elt F) → (⟨S10x128, .f32⟩ : BufTy).Contents (Elt F) → (⟨S65536x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S65536x128 ![0, 1] bcast_S1x128_S65536x128_0_1 : (⟨S1x128, .f32⟩ : BufTy).Contents (Elt F) → (⟨S65536x128, .f32⟩ : BufTy).Contents (Elt F)),
    binary main_v26 main_v28 main_v29 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x128, .f32⟩) main_call2_v0) (broadcastInDim S65536x128 ![] bcast_S_S65536x128),
    TRef.binary (TRef.of (T := ⟨S65536x128, .f32⟩) main_v29) (TRef.of (T := ⟨S65536x128, .f32⟩) main_call2_v0) (TRef.of (T := ⟨S65536x128, .f32⟩) main_v30) maximumf,
    nullary main_cst_6 (constant S_ .f32 0x00000000#32),
    binary main_v30 main_cst_6 main_v31 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v31 main_v32 (broadcastInDim S65536x1 ![0] bcast_S65536_S65536x1_0 : (⟨S65536, .f32⟩ : BufTy).Contents (Elt F) → (⟨S65536x1, .f32⟩ : BufTy).Contents (Elt F)),
    nullary main_cst_7 (constant S_ .f32 0x43000000#32),
    unary main_cst_7 main_v33 (broadcastInDim S65536x1 ![] bcast_S_S65536x1 : (⟨S_, .f32⟩ : BufTy).Contents (Elt F) → (⟨S65536x1, .f32⟩ : BufTy).Contents (Elt F)),
    binary main_v32 main_v33 main_v34 (Host.divf : (⟨S65536x1, .f32⟩ : BufTy).Contents (Elt F) → (⟨S65536x1, .f32⟩ : BufTy).Contents (Elt F) → (⟨S65536x1, .f32⟩ : BufTy).Contents (Elt F)),
    unary main_v34 main_v35 (broadcastInDim S65536x128 ![0, 1] bcast_S65536x1_S65536x128_0_1 : (⟨S65536x1, .f32⟩ : BufTy).Contents (Elt F) → (⟨S65536x128, .f32⟩ : BufTy).Contents (Elt F)),
    binary main_v30 main_v35 main_v36 (subf : (⟨S65536x128, .f32⟩ : BufTy).Contents (Elt F) → (⟨S65536x128, .f32⟩ : BufTy).Contents (Elt F) → (⟨S65536x128, .f32⟩ : BufTy).Contents (Elt F)),
    binary main_v36 main_v36 main_v37 (mulf : (⟨S65536x128, .f32⟩ : BufTy).Contents (Elt F) → (⟨S65536x128, .f32⟩ : BufTy).Contents (Elt F) → (⟨S65536x128, .f32⟩ : BufTy).Contents (Elt F)),
    nullary main_cst_8 (constant S_ .f32 0x00000000#32),
    binary main_v37 main_cst_8 main_v38 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v38 main_v39 (broadcastInDim S65536x1 ![0] bcast_S65536_S65536x1_0 : (⟨S65536, .f32⟩ : BufTy).Contents (Elt F) → (⟨S65536x1, .f32⟩ : BufTy).Contents (Elt F)),
    nullary main_cst_9 (constant S_ .f32 0x43000000#32),
    unary main_cst_9 main_v40 (broadcastInDim S65536x1 ![] bcast_S_S65536x1 : (⟨S_, .f32⟩ : BufTy).Contents (Elt F) → (⟨S65536x1, .f32⟩ : BufTy).Contents (Elt F)),
    binary main_v39 main_v40 main_v41 (Host.divf : (⟨S65536x1, .f32⟩ : BufTy).Contents (Elt F) → (⟨S65536x1, .f32⟩ : BufTy).Contents (Elt F) → (⟨S65536x1, .f32⟩ : BufTy).Contents (Elt F)),
    unary main_v34 main_v42 (broadcastInDim S65536x128 ![0, 1] bcast_S65536x1_S65536x128_0_1 : (⟨S65536x1, .f32⟩ : BufTy).Contents (Elt F) → (⟨S65536x128, .f32⟩ : BufTy).Contents (Elt F)),
    binary main_v30 main_v42 main_v43 (subf : (⟨S65536x128, .f32⟩ : BufTy).Contents (Elt F) → (⟨S65536x128, .f32⟩ : BufTy).Contents (Elt F) → (⟨S65536x128, .f32⟩ : BufTy).Contents (Elt F)),
    nullary main_cst_10 (constant S_ .f32 0x3727C5AC#32),
    unary main_cst_10 main_v44 (broadcastInDim S65536x1 ![] bcast_S_S65536x1 : (⟨S_, .f32⟩ : BufTy).Contents (Elt F) → (⟨S65536x1, .f32⟩ : BufTy).Contents (Elt F)),
    binary main_v41 main_v44 main_v45 (addf : (⟨S65536x1, .f32⟩ : BufTy).Contents (Elt F) → (⟨S65536x1, .f32⟩ : BufTy).Contents (Elt F) → (⟨S65536x1, .f32⟩ : BufTy).Contents (Elt F)),
    unary main_v45 main_v46 (Host.rsqrt : (⟨S65536x1, .f32⟩ : BufTy).Contents (Elt F) → (⟨S65536x1, .f32⟩ : BufTy).Contents (Elt F)),
    unary main_v46 main_v47 (broadcastInDim S65536x128 ![0, 1] bcast_S65536x1_S65536x128_0_1 : (⟨S65536x1, .f32⟩ : BufTy).Contents (Elt F) → (⟨S65536x128, .f32⟩ : BufTy).Contents (Elt F)),
    binary main_v43 main_v47 main_v48 (mulf : (⟨S65536x128, .f32⟩ : BufTy).Contents (Elt F) → (⟨S65536x128, .f32⟩ : BufTy).Contents (Elt F) → (⟨S65536x128, .f32⟩ : BufTy).Contents (Elt F)),
    unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S65536x128 ![0, 1] bcast_S1x128_S65536x128_0_1 : (⟨S1x128, .f32⟩ : BufTy).Contents (Elt F) → (⟨S65536x128, .f32⟩ : BufTy).Contents (Elt F)),
    binary main_v48 main_v50 main_v51 (mulf : (⟨S65536x128, .f32⟩ : BufTy).Contents (Elt F) → (⟨S65536x128, .f32⟩ : BufTy).Contents (Elt F) → (⟨S65536x128, .f32⟩ : BufTy).Contents (Elt F)),
    unary main_arg5 main_v52 (broadcastInDim S1x128 ![1] bcast_S128_S1x128_1 : (⟨S128, .f32⟩ : BufTy).Contents (Elt F) → (⟨S1x128, .f32⟩ : BufTy).Contents (Elt F)),
    unary main_v52 main_v53 (broadcastInDim S65536x128 ![0, 1] bcast_S1x128_S65536x128_0_1 : (⟨S1x128, .f32⟩ : BufTy).Contents (Elt F) → (⟨S65536x128, .f32⟩ : BufTy).Contents (Elt F)),
    binary main_v51 main_v53 main_v54 (addf : (⟨S65536x128, .f32⟩ : BufTy).Contents (Elt F) → (⟨S65536x128, .f32⟩ : BufTy).Contents (Elt F) → (⟨S65536x128, .f32⟩ : BufTy).Contents (Elt F)),
    binary main_v54 main_arg6 main_v55 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S65536x128 ![0, 1] bcast_S1x128_S65536x128_0_1 : (⟨S1x128, .f32⟩ : BufTy).Contents (Elt F) → (⟨S65536x128, .f32⟩ : BufTy).Contents (Elt F)),
    binary main_v55 main_v57 main_v58 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x128, .f32⟩) main_call3_v0) (broadcastInDim S65536x128 ![] bcast_S_S65536x128),
    TRef.binary (TRef.of (T := ⟨S65536x128, .f32⟩) main_v58) (TRef.of (T := ⟨S65536x128, .f32⟩) main_call3_v0) (TRef.of (T := ⟨S65536x128, .f32⟩) main_v59) maximumf,
    nullary main_cst_11 (constant S_ .f32 0x00000000#32),
    binary main_v59 main_cst_11 main_v60 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v60 main_v61 (broadcastInDim S65536x1 ![0] bcast_S65536_S65536x1_0 : (⟨S65536, .f32⟩ : BufTy).Contents (Elt F) → (⟨S65536x1, .f32⟩ : BufTy).Contents (Elt F)),
    nullary main_cst_12 (constant S_ .f32 0x43000000#32),
    unary main_cst_12 main_v62 (broadcastInDim S65536x1 ![] bcast_S_S65536x1 : (⟨S_, .f32⟩ : BufTy).Contents (Elt F) → (⟨S65536x1, .f32⟩ : BufTy).Contents (Elt F)),
    binary main_v61 main_v62 main_v63 (Host.divf : (⟨S65536x1, .f32⟩ : BufTy).Contents (Elt F) → (⟨S65536x1, .f32⟩ : BufTy).Contents (Elt F) → (⟨S65536x1, .f32⟩ : BufTy).Contents (Elt F)),
    unary main_v63 main_v64 (broadcastInDim S65536x128 ![0, 1] bcast_S65536x1_S65536x128_0_1 : (⟨S65536x1, .f32⟩ : BufTy).Contents (Elt F) → (⟨S65536x128, .f32⟩ : BufTy).Contents (Elt F)),
    binary main_v59 main_v64 main_v65 (subf : (⟨S65536x128, .f32⟩ : BufTy).Contents (Elt F) → (⟨S65536x128, .f32⟩ : BufTy).Contents (Elt F) → (⟨S65536x128, .f32⟩ : BufTy).Contents (Elt F)),
    binary main_v65 main_v65 main_v66 (mulf : (⟨S65536x128, .f32⟩ : BufTy).Contents (Elt F) → (⟨S65536x128, .f32⟩ : BufTy).Contents (Elt F) → (⟨S65536x128, .f32⟩ : BufTy).Contents (Elt F)),
    nullary main_cst_13 (constant S_ .f32 0x00000000#32),
    binary main_v66 main_cst_13 main_v67 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v67 main_v68 (broadcastInDim S65536x1 ![0] bcast_S65536_S65536x1_0 : (⟨S65536, .f32⟩ : BufTy).Contents (Elt F) → (⟨S65536x1, .f32⟩ : BufTy).Contents (Elt F)),
    nullary main_cst_14 (constant S_ .f32 0x43000000#32),
    unary main_cst_14 main_v69 (broadcastInDim S65536x1 ![] bcast_S_S65536x1 : (⟨S_, .f32⟩ : BufTy).Contents (Elt F) → (⟨S65536x1, .f32⟩ : BufTy).Contents (Elt F)),
    binary main_v68 main_v69 main_v70 (Host.divf : (⟨S65536x1, .f32⟩ : BufTy).Contents (Elt F) → (⟨S65536x1, .f32⟩ : BufTy).Contents (Elt F) → (⟨S65536x1, .f32⟩ : BufTy).Contents (Elt F)),
    unary main_v63 main_v71 (broadcastInDim S65536x128 ![0, 1] bcast_S65536x1_S65536x128_0_1 : (⟨S65536x1, .f32⟩ : BufTy).Contents (Elt F) → (⟨S65536x128, .f32⟩ : BufTy).Contents (Elt F)),
    binary main_v59 main_v71 main_v72 (subf : (⟨S65536x128, .f32⟩ : BufTy).Contents (Elt F) → (⟨S65536x128, .f32⟩ : BufTy).Contents (Elt F) → (⟨S65536x128, .f32⟩ : BufTy).Contents (Elt F)),
    nullary main_cst_15 (constant S_ .f32 0x3727C5AC#32),
    unary main_cst_15 main_v73 (broadcastInDim S65536x1 ![] bcast_S_S65536x1 : (⟨S_, .f32⟩ : BufTy).Contents (Elt F) → (⟨S65536x1, .f32⟩ : BufTy).Contents (Elt F)),
    binary main_v70 main_v73 main_v74 (addf : (⟨S65536x1, .f32⟩ : BufTy).Contents (Elt F) → (⟨S65536x1, .f32⟩ : BufTy).Contents (Elt F) → (⟨S65536x1, .f32⟩ : BufTy).Contents (Elt F)),
    unary main_v74 main_v75 (Host.rsqrt : (⟨S65536x1, .f32⟩ : BufTy).Contents (Elt F) → (⟨S65536x1, .f32⟩ : BufTy).Contents (Elt F)),
    unary main_v75 main_v76 (broadcastInDim S65536x128 ![0, 1] bcast_S65536x1_S65536x128_0_1 : (⟨S65536x1, .f32⟩ : BufTy).Contents (Elt F) → (⟨S65536x128, .f32⟩ : BufTy).Contents (Elt F)),
    binary main_v72 main_v76 main_v77 (mulf : (⟨S65536x128, .f32⟩ : BufTy).Contents (Elt F) → (⟨S65536x128, .f32⟩ : BufTy).Contents (Elt F) → (⟨S65536x128, .f32⟩ : BufTy).Contents (Elt F)),
    unary main_arg8 main_v78 (broadcastInDim S1x128 ![1] bcast_S128_S1x128_1 : (⟨S128, .f32⟩ : BufTy).Contents (Elt F) → (⟨S1x128, .f32⟩ : BufTy).Contents (Elt F)),
    unary main_v78 main_v79 (broadcastInDim S65536x128 ![0, 1] bcast_S1x128_S65536x128_0_1 : (⟨S1x128, .f32⟩ : BufTy).Contents (Elt F) → (⟨S65536x128, .f32⟩ : BufTy).Contents (Elt F)),
    binary main_v77 main_v79 main_v80 (mulf : (⟨S65536x128, .f32⟩ : BufTy).Contents (Elt F) → (⟨S65536x128, .f32⟩ : BufTy).Contents (Elt F) → (⟨S65536x128, .f32⟩ : BufTy).Contents (Elt F)),
    unary main_arg9 main_v81 (broadcastInDim S1x128 ![1] bcast_S128_S1x128_1 : (⟨S128, .f32⟩ : BufTy).Contents (Elt F) → (⟨S1x128, .f32⟩ : BufTy).Contents (Elt F)),
    unary main_v81 main_v82 (broadcastInDim S65536x128 ![0, 1] bcast_S1x128_S65536x128_0_1 : (⟨S1x128, .f32⟩ : BufTy).Contents (Elt F) → (⟨S65536x128, .f32⟩ : BufTy).Contents (Elt F)),
    binary main_v80 main_v82 main_v83 (addf : (⟨S65536x128, .f32⟩ : BufTy).Contents (Elt F) → (⟨S65536x128, .f32⟩ : BufTy).Contents (Elt F) → (⟨S65536x128, .f32⟩ : BufTy).Contents (Elt F)),
    binary main_arg1 main_arg10 main_v84 ((fun l r => Host.dotGeneral dot_S65536x2_S2x64_S65536x64_1_0_0_1_n_n none l r) : (⟨S65536x2, .f32⟩ : BufTy).Contents (Elt F) → (⟨S2x64, .f32⟩ : BufTy).Contents (Elt F) → (⟨S65536x64, .f32⟩ : BufTy).Contents (Elt F)),
    unary main_arg11 main_v85 (broadcastInDim S1x64 ![1] bcast_S64_S1x64_1 : (⟨S64, .f32⟩ : BufTy).Contents (Elt F) → (⟨S1x64, .f32⟩ : BufTy).Contents (Elt F)),
    unary main_v85 main_v86 (broadcastInDim S65536x64 ![0, 1] bcast_S1x64_S65536x64_0_1 : (⟨S1x64, .f32⟩ : BufTy).Contents (Elt F) → (⟨S65536x64, .f32⟩ : BufTy).Contents (Elt F)),
    binary main_v84 main_v86 main_v87 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x64, .f32⟩) main_call4_v0) (broadcastInDim S65536x64 ![] bcast_S_S65536x64),
    TRef.binary (TRef.of (T := ⟨S65536x64, .f32⟩) main_v87) (TRef.of (T := ⟨S65536x64, .f32⟩) main_call4_v0) (TRef.of (T := ⟨S65536x64, .f32⟩) main_v88) maximumf,
    nullary main_cst_16 (constant S_ .f32 0x00000000#32),
    binary main_v88 main_cst_16 main_v89 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v89 main_v90 (broadcastInDim S65536x1 ![0] bcast_S65536_S65536x1_0 : (⟨S65536, .f32⟩ : BufTy).Contents (Elt F) → (⟨S65536x1, .f32⟩ : BufTy).Contents (Elt F)),
    nullary main_cst_17 (constant S_ .f32 0x42800000#32),
    unary main_cst_17 main_v91 (broadcastInDim S65536x1 ![] bcast_S_S65536x1 : (⟨S_, .f32⟩ : BufTy).Contents (Elt F) → (⟨S65536x1, .f32⟩ : BufTy).Contents (Elt F)),
    binary main_v90 main_v91 main_v92 (Host.divf : (⟨S65536x1, .f32⟩ : BufTy).Contents (Elt F) → (⟨S65536x1, .f32⟩ : BufTy).Contents (Elt F) → (⟨S65536x1, .f32⟩ : BufTy).Contents (Elt F)),
    unary main_v92 main_v93 (broadcastInDim S65536x64 ![0, 1] bcast_S65536x1_S65536x64_0_1 : (⟨S65536x1, .f32⟩ : BufTy).Contents (Elt F) → (⟨S65536x64, .f32⟩ : BufTy).Contents (Elt F)),
    binary main_v88 main_v93 main_v94 (subf : (⟨S65536x64, .f32⟩ : BufTy).Contents (Elt F) → (⟨S65536x64, .f32⟩ : BufTy).Contents (Elt F) → (⟨S65536x64, .f32⟩ : BufTy).Contents (Elt F)),
    binary main_v94 main_v94 main_v95 (mulf : (⟨S65536x64, .f32⟩ : BufTy).Contents (Elt F) → (⟨S65536x64, .f32⟩ : BufTy).Contents (Elt F) → (⟨S65536x64, .f32⟩ : BufTy).Contents (Elt F)),
    nullary main_cst_18 (constant S_ .f32 0x00000000#32),
    binary main_v95 main_cst_18 main_v96 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v96 main_v97 (broadcastInDim S65536x1 ![0] bcast_S65536_S65536x1_0 : (⟨S65536, .f32⟩ : BufTy).Contents (Elt F) → (⟨S65536x1, .f32⟩ : BufTy).Contents (Elt F)),
    nullary main_cst_19 (constant S_ .f32 0x42800000#32),
    unary main_cst_19 main_v98 (broadcastInDim S65536x1 ![] bcast_S_S65536x1 : (⟨S_, .f32⟩ : BufTy).Contents (Elt F) → (⟨S65536x1, .f32⟩ : BufTy).Contents (Elt F)),
    binary main_v97 main_v98 main_v99 (Host.divf : (⟨S65536x1, .f32⟩ : BufTy).Contents (Elt F) → (⟨S65536x1, .f32⟩ : BufTy).Contents (Elt F) → (⟨S65536x1, .f32⟩ : BufTy).Contents (Elt F)),
    unary main_v92 main_v100 (broadcastInDim S65536x64 ![0, 1] bcast_S65536x1_S65536x64_0_1 : (⟨S65536x1, .f32⟩ : BufTy).Contents (Elt F) → (⟨S65536x64, .f32⟩ : BufTy).Contents (Elt F)),
    binary main_v88 main_v100 main_v101 (subf : (⟨S65536x64, .f32⟩ : BufTy).Contents (Elt F) → (⟨S65536x64, .f32⟩ : BufTy).Contents (Elt F) → (⟨S65536x64, .f32⟩ : BufTy).Contents (Elt F)),
    nullary main_cst_20 (constant S_ .f32 0x3727C5AC#32),
    unary main_cst_20 main_v102 (broadcastInDim S65536x1 ![] bcast_S_S65536x1 : (⟨S_, .f32⟩ : BufTy).Contents (Elt F) → (⟨S65536x1, .f32⟩ : BufTy).Contents (Elt F)),
    binary main_v99 main_v102 main_v103 (addf : (⟨S65536x1, .f32⟩ : BufTy).Contents (Elt F) → (⟨S65536x1, .f32⟩ : BufTy).Contents (Elt F) → (⟨S65536x1, .f32⟩ : BufTy).Contents (Elt F)),
    unary main_v103 main_v104 (Host.rsqrt : (⟨S65536x1, .f32⟩ : BufTy).Contents (Elt F) → (⟨S65536x1, .f32⟩ : BufTy).Contents (Elt F)),
    unary main_v104 main_v105 (broadcastInDim S65536x64 ![0, 1] bcast_S65536x1_S65536x64_0_1 : (⟨S65536x1, .f32⟩ : BufTy).Contents (Elt F) → (⟨S65536x64, .f32⟩ : BufTy).Contents (Elt F)),
    binary main_v101 main_v105 main_v106 (mulf : (⟨S65536x64, .f32⟩ : BufTy).Contents (Elt F) → (⟨S65536x64, .f32⟩ : BufTy).Contents (Elt F) → (⟨S65536x64, .f32⟩ : BufTy).Contents (Elt F)),
    unary main_arg12 main_v107 (broadcastInDim S1x64 ![1] bcast_S64_S1x64_1 : (⟨S64, .f32⟩ : BufTy).Contents (Elt F) → (⟨S1x64, .f32⟩ : BufTy).Contents (Elt F)),
    unary main_v107 main_v108 (broadcastInDim S65536x64 ![0, 1] bcast_S1x64_S65536x64_0_1 : (⟨S1x64, .f32⟩ : BufTy).Contents (Elt F) → (⟨S65536x64, .f32⟩ : BufTy).Contents (Elt F)),
    binary main_v106 main_v108 main_v109 (mulf : (⟨S65536x64, .f32⟩ : BufTy).Contents (Elt F) → (⟨S65536x64, .f32⟩ : BufTy).Contents (Elt F) → (⟨S65536x64, .f32⟩ : BufTy).Contents (Elt F)),
    unary main_arg13 main_v110 (broadcastInDim S1x64 ![1] bcast_S64_S1x64_1 : (⟨S64, .f32⟩ : BufTy).Contents (Elt F) → (⟨S1x64, .f32⟩ : BufTy).Contents (Elt F)),
    unary main_v110 main_v111 (broadcastInDim S65536x64 ![0, 1] bcast_S1x64_S65536x64_0_1 : (⟨S1x64, .f32⟩ : BufTy).Contents (Elt F) → (⟨S65536x64, .f32⟩ : BufTy).Contents (Elt F)),
    binary main_v109 main_v111 main_v112 (addf : (⟨S65536x64, .f32⟩ : BufTy).Contents (Elt F) → (⟨S65536x64, .f32⟩ : BufTy).Contents (Elt F) → (⟨S65536x64, .f32⟩ : BufTy).Contents (Elt F)),
    nary ![main_v3, main_v83, main_v112] main_v113 (fun u => concatenate S65536x640 1 [⟨S65536x448, u 0⟩, ⟨S65536x128, u 1⟩, ⟨S65536x64, u 2⟩] concatenates_S65536x448_S65536x128_S65536x64_S65536x640_d1),
    binary main_v113 main_arg14 main_v114 ((fun l r => Host.dotGeneral dot_S65536x640_S640x256_S65536x256_1_0_0_1_n_n none l r) : (⟨S65536x640, .f32⟩ : BufTy).Contents (Elt F) → (⟨S640x256, .f32⟩ : BufTy).Contents (Elt F) → (⟨S65536x256, .f32⟩ : BufTy).Contents (Elt F)),
    unary main_arg15 main_v115 (broadcastInDim S1x256 ![1] bcast_S256_S1x256_1 : (⟨S256, .f32⟩ : BufTy).Contents (Elt F) → (⟨S1x256, .f32⟩ : BufTy).Contents (Elt F)),
    unary main_v115 main_v116 (broadcastInDim S65536x256 ![0, 1] bcast_S1x256_S65536x256_0_1 : (⟨S1x256, .f32⟩ : BufTy).Contents (Elt F) → (⟨S65536x256, .f32⟩ : BufTy).Contents (Elt F)),
    binary main_v114 main_v116 main_v117 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x256, .f32⟩) main_call5_v0) (broadcastInDim S65536x256 ![] bcast_S_S65536x256),
    TRef.binary (TRef.of (T := ⟨S65536x256, .f32⟩) main_v117) (TRef.of (T := ⟨S65536x256, .f32⟩) main_call5_v0) (TRef.of (T := ⟨S65536x256, .f32⟩) main_v118) maximumf,
    nullary main_cst_21 (constant S_ .f32 0x00000000#32),
    binary main_v118 main_cst_21 main_v119 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v119 main_v120 (broadcastInDim S65536x1 ![0] bcast_S65536_S65536x1_0 : (⟨S65536, .f32⟩ : BufTy).Contents (Elt F) → (⟨S65536x1, .f32⟩ : BufTy).Contents (Elt F)),
    nullary main_cst_22 (constant S_ .f32 0x43800000#32),
    unary main_cst_22 main_v121 (broadcastInDim S65536x1 ![] bcast_S_S65536x1 : (⟨S_, .f32⟩ : BufTy).Contents (Elt F) → (⟨S65536x1, .f32⟩ : BufTy).Contents (Elt F)),
    binary main_v120 main_v121 main_v122 (Host.divf : (⟨S65536x1, .f32⟩ : BufTy).Contents (Elt F) → (⟨S65536x1, .f32⟩ : BufTy).Contents (Elt F) → (⟨S65536x1, .f32⟩ : BufTy).Contents (Elt F)),
    unary main_v122 main_v123 (broadcastInDim S65536x256 ![0, 1] bcast_S65536x1_S65536x256_0_1 : (⟨S65536x1, .f32⟩ : BufTy).Contents (Elt F) → (⟨S65536x256, .f32⟩ : BufTy).Contents (Elt F)),
    binary main_v118 main_v123 main_v124 (subf : (⟨S65536x256, .f32⟩ : BufTy).Contents (Elt F) → (⟨S65536x256, .f32⟩ : BufTy).Contents (Elt F) → (⟨S65536x256, .f32⟩ : BufTy).Contents (Elt F)),
    binary main_v124 main_v124 main_v125 (mulf : (⟨S65536x256, .f32⟩ : BufTy).Contents (Elt F) → (⟨S65536x256, .f32⟩ : BufTy).Contents (Elt F) → (⟨S65536x256, .f32⟩ : BufTy).Contents (Elt F)),
    nullary main_cst_23 (constant S_ .f32 0x00000000#32),
    binary main_v125 main_cst_23 main_v126 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v126 main_v127 (broadcastInDim S65536x1 ![0] bcast_S65536_S65536x1_0 : (⟨S65536, .f32⟩ : BufTy).Contents (Elt F) → (⟨S65536x1, .f32⟩ : BufTy).Contents (Elt F)),
    nullary main_cst_24 (constant S_ .f32 0x43800000#32),
    unary main_cst_24 main_v128 (broadcastInDim S65536x1 ![] bcast_S_S65536x1 : (⟨S_, .f32⟩ : BufTy).Contents (Elt F) → (⟨S65536x1, .f32⟩ : BufTy).Contents (Elt F)),
    binary main_v127 main_v128 main_v129 (Host.divf : (⟨S65536x1, .f32⟩ : BufTy).Contents (Elt F) → (⟨S65536x1, .f32⟩ : BufTy).Contents (Elt F) → (⟨S65536x1, .f32⟩ : BufTy).Contents (Elt F)),
    unary main_v122 main_v130 (broadcastInDim S65536x256 ![0, 1] bcast_S65536x1_S65536x256_0_1 : (⟨S65536x1, .f32⟩ : BufTy).Contents (Elt F) → (⟨S65536x256, .f32⟩ : BufTy).Contents (Elt F)),
    binary main_v118 main_v130 main_v131 (subf : (⟨S65536x256, .f32⟩ : BufTy).Contents (Elt F) → (⟨S65536x256, .f32⟩ : BufTy).Contents (Elt F) → (⟨S65536x256, .f32⟩ : BufTy).Contents (Elt F)),
    nullary main_cst_25 (constant S_ .f32 0x3727C5AC#32),
    unary main_cst_25 main_v132 (broadcastInDim S65536x1 ![] bcast_S_S65536x1 : (⟨S_, .f32⟩ : BufTy).Contents (Elt F) → (⟨S65536x1, .f32⟩ : BufTy).Contents (Elt F)),
    binary main_v129 main_v132 main_v133 (addf : (⟨S65536x1, .f32⟩ : BufTy).Contents (Elt F) → (⟨S65536x1, .f32⟩ : BufTy).Contents (Elt F) → (⟨S65536x1, .f32⟩ : BufTy).Contents (Elt F)),
    unary main_v133 main_v134 (Host.rsqrt : (⟨S65536x1, .f32⟩ : BufTy).Contents (Elt F) → (⟨S65536x1, .f32⟩ : BufTy).Contents (Elt F)),
    unary main_v134 main_v135 (broadcastInDim S65536x256 ![0, 1] bcast_S65536x1_S65536x256_0_1 : (⟨S65536x1, .f32⟩ : BufTy).Contents (Elt F) → (⟨S65536x256, .f32⟩ : BufTy).Contents (Elt F)),
    binary main_v131 main_v135 main_v136 (mulf : (⟨S65536x256, .f32⟩ : BufTy).Contents (Elt F) → (⟨S65536x256, .f32⟩ : BufTy).Contents (Elt F) → (⟨S65536x256, .f32⟩ : BufTy).Contents (Elt F)),
    unary main_arg16 main_v137 (broadcastInDim S1x256 ![1] bcast_S256_S1x256_1 : (⟨S256, .f32⟩ : BufTy).Contents (Elt F) → (⟨S1x256, .f32⟩ : BufTy).Contents (Elt F)),
    unary main_v137 main_v138 (broadcastInDim S65536x256 ![0, 1] bcast_S1x256_S65536x256_0_1 : (⟨S1x256, .f32⟩ : BufTy).Contents (Elt F) → (⟨S65536x256, .f32⟩ : BufTy).Contents (Elt F)),
    binary main_v136 main_v138 main_v139 (mulf : (⟨S65536x256, .f32⟩ : BufTy).Contents (Elt F) → (⟨S65536x256, .f32⟩ : BufTy).Contents (Elt F) → (⟨S65536x256, .f32⟩ : BufTy).Contents (Elt F)),
    unary main_arg17 main_v140 (broadcastInDim S1x256 ![1] bcast_S256_S1x256_1 : (⟨S256, .f32⟩ : BufTy).Contents (Elt F) → (⟨S1x256, .f32⟩ : BufTy).Contents (Elt F)),
    unary main_v140 main_v141 (broadcastInDim S65536x256 ![0, 1] bcast_S1x256_S65536x256_0_1 : (⟨S1x256, .f32⟩ : BufTy).Contents (Elt F) → (⟨S65536x256, .f32⟩ : BufTy).Contents (Elt F)),
    binary main_v139 main_v141 main_v142 (addf : (⟨S65536x256, .f32⟩ : BufTy).Contents (Elt F) → (⟨S65536x256, .f32⟩ : BufTy).Contents (Elt F) → (⟨S65536x256, .f32⟩ : BufTy).Contents (Elt F)),
    binary main_v142 main_arg18 main_v143 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg19 main_v144 (broadcastInDim S1x256 ![1] bcast_S256_S1x256_1 : (⟨S256, .f32⟩ : BufTy).Contents (Elt F) → (⟨S1x256, .f32⟩ : BufTy).Contents (Elt F)),
    unary main_v144 main_v145 (broadcastInDim S65536x256 ![0, 1] bcast_S1x256_S65536x256_0_1 : (⟨S1x256, .f32⟩ : BufTy).Contents (Elt F) → (⟨S65536x256, .f32⟩ : BufTy).Contents (Elt F)),
    binary main_v143 main_v145 main_v146 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x256, .f32⟩) main_call6_v0) (broadcastInDim S65536x256 ![] bcast_S_S65536x256),
    TRef.binary (TRef.of (T := ⟨S65536x256, .f32⟩) main_v146) (TRef.of (T := ⟨S65536x256, .f32⟩) main_call6_v0) (TRef.of (T := ⟨S65536x256, .f32⟩) main_v147) maximumf,
    nullary main_cst_26 (constant S_ .f32 0x00000000#32),
    binary main_v147 main_cst_26 main_v148 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v148 main_v149 (broadcastInDim S65536x1 ![0] bcast_S65536_S65536x1_0 : (⟨S65536, .f32⟩ : BufTy).Contents (Elt F) → (⟨S65536x1, .f32⟩ : BufTy).Contents (Elt F)),
    nullary main_cst_27 (constant S_ .f32 0x43800000#32),
    unary main_cst_27 main_v150 (broadcastInDim S65536x1 ![] bcast_S_S65536x1 : (⟨S_, .f32⟩ : BufTy).Contents (Elt F) → (⟨S65536x1, .f32⟩ : BufTy).Contents (Elt F)),
    binary main_v149 main_v150 main_v151 (Host.divf : (⟨S65536x1, .f32⟩ : BufTy).Contents (Elt F) → (⟨S65536x1, .f32⟩ : BufTy).Contents (Elt F) → (⟨S65536x1, .f32⟩ : BufTy).Contents (Elt F)),
    unary main_v151 main_v152 (broadcastInDim S65536x256 ![0, 1] bcast_S65536x1_S65536x256_0_1 : (⟨S65536x1, .f32⟩ : BufTy).Contents (Elt F) → (⟨S65536x256, .f32⟩ : BufTy).Contents (Elt F)),
    binary main_v147 main_v152 main_v153 (subf : (⟨S65536x256, .f32⟩ : BufTy).Contents (Elt F) → (⟨S65536x256, .f32⟩ : BufTy).Contents (Elt F) → (⟨S65536x256, .f32⟩ : BufTy).Contents (Elt F)),
    binary main_v153 main_v153 main_v154 (mulf : (⟨S65536x256, .f32⟩ : BufTy).Contents (Elt F) → (⟨S65536x256, .f32⟩ : BufTy).Contents (Elt F) → (⟨S65536x256, .f32⟩ : BufTy).Contents (Elt F)),
    nullary main_cst_28 (constant S_ .f32 0x00000000#32),
    binary main_v154 main_cst_28 main_v155 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v155 main_v156 (broadcastInDim S65536x1 ![0] bcast_S65536_S65536x1_0 : (⟨S65536, .f32⟩ : BufTy).Contents (Elt F) → (⟨S65536x1, .f32⟩ : BufTy).Contents (Elt F)),
    nullary main_cst_29 (constant S_ .f32 0x43800000#32),
    unary main_cst_29 main_v157 (broadcastInDim S65536x1 ![] bcast_S_S65536x1 : (⟨S_, .f32⟩ : BufTy).Contents (Elt F) → (⟨S65536x1, .f32⟩ : BufTy).Contents (Elt F)),
    binary main_v156 main_v157 main_v158 (Host.divf : (⟨S65536x1, .f32⟩ : BufTy).Contents (Elt F) → (⟨S65536x1, .f32⟩ : BufTy).Contents (Elt F) → (⟨S65536x1, .f32⟩ : BufTy).Contents (Elt F)),
    unary main_v151 main_v159 (broadcastInDim S65536x256 ![0, 1] bcast_S65536x1_S65536x256_0_1 : (⟨S65536x1, .f32⟩ : BufTy).Contents (Elt F) → (⟨S65536x256, .f32⟩ : BufTy).Contents (Elt F)),
    binary main_v147 main_v159 main_v160 (subf : (⟨S65536x256, .f32⟩ : BufTy).Contents (Elt F) → (⟨S65536x256, .f32⟩ : BufTy).Contents (Elt F) → (⟨S65536x256, .f32⟩ : BufTy).Contents (Elt F)),
    nullary main_cst_30 (constant S_ .f32 0x3727C5AC#32),
    unary main_cst_30 main_v161 (broadcastInDim S65536x1 ![] bcast_S_S65536x1 : (⟨S_, .f32⟩ : BufTy).Contents (Elt F) → (⟨S65536x1, .f32⟩ : BufTy).Contents (Elt F)),
    binary main_v158 main_v161 main_v162 (addf : (⟨S65536x1, .f32⟩ : BufTy).Contents (Elt F) → (⟨S65536x1, .f32⟩ : BufTy).Contents (Elt F) → (⟨S65536x1, .f32⟩ : BufTy).Contents (Elt F)),
    unary main_v162 main_v163 (Host.rsqrt : (⟨S65536x1, .f32⟩ : BufTy).Contents (Elt F) → (⟨S65536x1, .f32⟩ : BufTy).Contents (Elt F)),
    unary main_v163 main_v164 (broadcastInDim S65536x256 ![0, 1] bcast_S65536x1_S65536x256_0_1 : (⟨S65536x1, .f32⟩ : BufTy).Contents (Elt F) → (⟨S65536x256, .f32⟩ : BufTy).Contents (Elt F)),
    binary main_v160 main_v164 main_v165 (mulf : (⟨S65536x256, .f32⟩ : BufTy).Contents (Elt F) → (⟨S65536x256, .f32⟩ : BufTy).Contents (Elt F) → (⟨S65536x256, .f32⟩ : BufTy).Contents (Elt F)),
    unary main_arg20 main_v166 (broadcastInDim S1x256 ![1] bcast_S256_S1x256_1 : (⟨S256, .f32⟩ : BufTy).Contents (Elt F) → (⟨S1x256, .f32⟩ : BufTy).Contents (Elt F)),
    unary main_v166 main_v167 (broadcastInDim S65536x256 ![0, 1] bcast_S1x256_S65536x256_0_1 : (⟨S1x256, .f32⟩ : BufTy).Contents (Elt F) → (⟨S65536x256, .f32⟩ : BufTy).Contents (Elt F)),
    binary main_v165 main_v167 main_v168 (mulf : (⟨S65536x256, .f32⟩ : BufTy).Contents (Elt F) → (⟨S65536x256, .f32⟩ : BufTy).Contents (Elt F) → (⟨S65536x256, .f32⟩ : BufTy).Contents (Elt F)),
    unary main_arg21 main_v169 (broadcastInDim S1x256 ![1] bcast_S256_S1x256_1 : (⟨S256, .f32⟩ : BufTy).Contents (Elt F) → (⟨S1x256, .f32⟩ : BufTy).Contents (Elt F)),
    unary main_v169 main_v170 (broadcastInDim S65536x256 ![0, 1] bcast_S1x256_S65536x256_0_1 : (⟨S1x256, .f32⟩ : BufTy).Contents (Elt F) → (⟨S65536x256, .f32⟩ : BufTy).Contents (Elt F)),
    binary main_v168 main_v170 main_v171 (addf : (⟨S65536x256, .f32⟩ : BufTy).Contents (Elt F) → (⟨S65536x256, .f32⟩ : BufTy).Contents (Elt F) → (⟨S65536x256, .f32⟩ : BufTy).Contents (Elt F)),
    binary main_v171 main_arg22 main_v172 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg23 main_v173 (broadcastInDim S1x64 ![1] bcast_S64_S1x64_1 : (⟨S64, .f32⟩ : BufTy).Contents (Elt F) → (⟨S1x64, .f32⟩ : BufTy).Contents (Elt F)),
    unary main_v173 main_v174 (broadcastInDim S65536x64 ![0, 1] bcast_S1x64_S65536x64_0_1 : (⟨S1x64, .f32⟩ : BufTy).Contents (Elt F) → (⟨S65536x64, .f32⟩ : BufTy).Contents (Elt F)),
    binary main_v172 main_v174 main_v175 (addf : (⟨S65536x64, .f32⟩ : BufTy).Contents (Elt F) → (⟨S65536x64, .f32⟩ : BufTy).Contents (Elt F) → (⟨S65536x64, .f32⟩ : BufTy).Contents (Elt F)),
    binary main_v171 main_arg24 main_v176 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg25 main_v177 (broadcastInDim S1x64 ![1] bcast_S64_S1x64_1 : (⟨S64, .f32⟩ : BufTy).Contents (Elt F) → (⟨S1x64, .f32⟩ : BufTy).Contents (Elt F)),
    unary main_v177 main_v178 (broadcastInDim S65536x64 ![0, 1] bcast_S1x64_S65536x64_0_1 : (⟨S1x64, .f32⟩ : BufTy).Contents (Elt F) → (⟨S65536x64, .f32⟩ : BufTy).Contents (Elt F)),
    binary main_v176 main_v178 main_v179 (addf : (⟨S65536x64, .f32⟩ : BufTy).Contents (Elt F) → (⟨S65536x64, .f32⟩ : BufTy).Contents (Elt F) → (⟨S65536x64, .f32⟩ : BufTy).Contents (Elt F)),
    unary main_v175 main_v180 (broadcastInDim S65536x64x1 ![0, 1] bcast_S65536x64_S65536x64x1_0_1 : (⟨S65536x64, .f32⟩ : BufTy).Contents (Elt F) → (⟨S65536x64x1, .f32⟩ : BufTy).Contents (Elt F)),
    unary main_v179 main_v181 (broadcastInDim S65536x64x1 ![0, 1] bcast_S65536x64_S65536x64x1_0_1 : (⟨S65536x64, .f32⟩ : BufTy).Contents (Elt F) → (⟨S65536x64x1, .f32⟩ : BufTy).Contents (Elt F)),
    binary main_v180 main_v181 main_v182 ((fun a b => concatenate S65536x64x2 2 [⟨S65536x64x1, a⟩, ⟨S65536x64x1, b⟩] concatenates_S65536x64x1_S65536x64x1_S65536x64x2_d2) : (⟨S65536x64x1, .f32⟩ : BufTy).Contents (Elt F) → (⟨S65536x64x1, .f32⟩ : BufTy).Contents (Elt F) → (⟨S65536x64x2, .f32⟩ : BufTy).Contents (Elt F)) ]

theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub ..⟩

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- What the line leaves: the result buffer at the last stage of the argument arrays, the argument buffers as they were. -/
def Post (V W : Valuation τ sig (Elt F)) : Prop :=
  W (Proc.devRef (τ := τ) .tc main_v182) = val_main_v182 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) (V (Proc.devRef (τ := τ) .tc main_arg24)) (V (Proc.devRef (τ := τ) .tc main_arg25))
    ∧ ∀ r ∈ argRefs, W (Proc.devRef .tc r) = V (Proc.devRef .tc r)

/-! One operation of the line: afterwards its result buffer holds its function of the operands' contents and every
    other buffer what it held. -/

theorem step_nullary {V0 : Valuation τ sig (Elt F)} {y : Ref sig .tc} {v : y.ty.Contents (Elt F)} {hy}
    {rest : List (HloOp τ sig (Elt F))} {V : Valuation τ sig (Elt F)}
    (H : ∀ V' : Valuation τ sig (Elt F), V' (Proc.devRef .tc y) = v →
      (∀ r : Ref sig .tc, r ≠ y → V' (Proc.devRef .tc r) = V (Proc.devRef .tc r)) → Post V0 (after rest V')) :
    Post V0 (after (nullary y v hy :: rest) V) :=
  H _ (nullary_result y v hy V) (fun r h => nullary_result_ne y v hy V h)

theorem step_unary {V0 : Valuation τ sig (Elt F)} {x y : Ref sig .tc} {f : x.ty.Contents (Elt F) → y.ty.Contents (Elt F)} {hx hy}
    {rest : List (HloOp τ sig (Elt F))} {V : Valuation τ sig (Elt F)}
    (H : ∀ V' : Valuation τ sig (Elt F), V' (Proc.devRef .tc y) = f (V (Proc.devRef .tc x)) →
      (∀ r : Ref sig .tc, r ≠ y → V' (Proc.devRef .tc r) = V (Proc.devRef .tc r)) → Post V0 (after rest V')) :
    Post V0 (after (unary x y f hx hy :: rest) V) :=
  H _ (unary_result x y f hx hy V) (fun r h => unary_result_ne x y f hx hy V h)

theorem step_binary {V0 : Valuation τ sig (Elt F)} {a b y : Ref sig .tc}
    {f : a.ty.Contents (Elt F) → b.ty.Contents (Elt F) → y.ty.Contents (Elt F)} {ha hb hy}
    {rest : List (HloOp τ sig (Elt F))} {V : Valuation τ sig (Elt F)}
    (H : ∀ V' : Valuation τ sig (Elt F), V' (Proc.devRef .tc y) = f (V (Proc.devRef .tc a)) (V (Proc.devRef .tc b)) →
      (∀ r : Ref sig .tc, r ≠ y → V' (Proc.devRef .tc r) = V (Proc.devRef .tc r)) → Post V0 (after rest V')) :
    Post V0 (after (binary a b y f ha hb hy :: rest) V) :=
  H _ (binary_result a b y f ha hb hy V) (fun r h => binary_result_ne a b y f ha hb hy V h)

theorem step_nary {V0 : Valuation τ sig (Elt F)} {n : Nat} {xs : Fin n → Ref sig .tc} {y : Ref sig .tc}
    {f : ((k : Fin n) → (xs k).ty.Contents (Elt F)) → y.ty.Contents (Elt F)} {hxs hy}
    {rest : List (HloOp τ sig (Elt F))} {V : Valuation τ sig (Elt F)}
    (H : ∀ V' : Valuation τ sig (Elt F), V' (Proc.devRef .tc y) = f (fun k => V (Proc.devRef .tc (xs k))) →
      (∀ r : Ref sig .tc, r ≠ y → V' (Proc.devRef .tc r) = V (Proc.devRef .tc r)) → Post V0 (after rest V')) :
    Post V0 (after (nary xs y f hxs hy :: rest) V) :=
  H _ (nary_result xs y f hxs hy V) (fun r h => nary_result_ne (y := y) xs f hxs hy V h)

set_option maxHeartbeats 40000000 in
/-- The whole line, from any contents. -/
theorem after_post (V : Valuation τ sig (Elt F)) : Post V (after (ops (F := F)) V) := by
  unfold ops
  have hA : ∀ r ∈ argRefs, V (Proc.devRef (τ := τ) .tc r) = V (Proc.devRef .tc r) := fun _ _ => rfl
  -- unary main_arg0 → main_v0
  refine step_unary (fun V1 e n => ?_)
  have h_main_v0 : V1 (Proc.devRef (τ := τ) .tc main_v0) = val_main_v0 (F := F) (V (Proc.devRef (τ := τ) .tc main_arg0)) := by
    rw [e, hA main_arg0 (by decide)]
    rfl
  replace hA : ∀ r ∈ argRefs, V1 (Proc.devRef (τ := τ) .tc r) = V (Proc.devRef .tc r) :=
    fun r hr => (n r (ne_of_mem_of_not_mem hr (by decide))).trans (hA r hr)
  clear e n
  -- unary main_arg0 → main_v1
  refine step_unary (fun V2 e n => ?_)
  have h_main_v1 : V2 (Proc.devRef (τ := τ) .tc main_v1) = val_main_v1 (F := F) (V (Proc.devRef (τ := τ) .tc main_arg0)) := by
    rw [e, hA main_arg0 (by decide)]
    rfl
  replace h_main_v0 : V2 (Proc.devRef (τ := τ) .tc main_v0) = val_main_v0 (F := F) (V (Proc.devRef (τ := τ) .tc main_arg0)) := (n main_v0 (by decide)).trans h_main_v0
  replace hA : ∀ r ∈ argRefs, V2 (Proc.devRef (τ := τ) .tc r) = V (Proc.devRef .tc r) :=
    fun r hr => (n r (ne_of_mem_of_not_mem hr (by decide))).trans (hA r hr)
  clear e n
  -- unary main_arg0 → main_v2
  refine step_unary (fun V3 e n => ?_)
  have h_main_v2 : V3 (Proc.devRef (τ := τ) .tc main_v2) = val_main_v2 (F := F) (V (Proc.devRef (τ := τ) .tc main_arg0)) := by
    rw [e, hA main_arg0 (by decide)]
    rfl
  replace h_main_v0 : V3 (Proc.devRef (τ := τ) .tc main_v0) = val_main_v0 (F := F) (V (Proc.devRef (τ := τ) .tc main_arg0)) := (n main_v0 (by decide)).trans h_main_v0
  replace h_main_v1 : V3 (Proc.devRef (τ := τ) .tc main_v1) = val_main_v1 (F := F) (V (Proc.devRef (τ := τ) .tc main_arg0)) := (n main_v1 (by decide)).trans h_main_v1
  replace hA : ∀ r ∈ argRefs, V3 (Proc.devRef (τ := τ) .tc r) = V (Proc.devRef .tc r) :=
    fun r hr => (n r (ne_of_mem_of_not_mem hr (by decide))).trans (hA r hr)
  clear e n
  -- binary main_v1 main_v2 → main_v3
  refine step_binary (fun V4 e n => ?_)
  have h_main_v3 : V4 (Proc.devRef (τ := τ) .tc main_v3) = val_main_v3 (F := F) (V (Proc.devRef (τ := τ) .tc main_arg0)) := by
    rw [e, h_main_v1, h_main_v2]
    rfl
  replace h_main_v0 : V4 (Proc.devRef (τ := τ) .tc main_v0) = val_main_v0 (F := F) (V (Proc.devRef (τ := τ) .tc main_arg0)) := (n main_v0 (by decide)).trans h_main_v0
  clear h_main_v1
  clear h_main_v2
  replace hA : ∀ r ∈ argRefs, V4 (Proc.devRef (τ := τ) .tc r) = V (Proc.devRef .tc r) :=
    fun r hr => (n r (ne_of_mem_of_not_mem hr (by decide))).trans (hA r hr)
  clear e n
  -- nullary  → main_cst
  refine step_nullary (fun V5 e n => ?_)
  have h_main_cst : V5 (Proc.devRef (τ := τ) .tc main_cst) = val_main_cst (F := F) := e
  replace h_main_v0 : V5 (Proc.devRef (τ := τ) .tc main_v0) = val_main_v0 (F := F) (V (Proc.devRef (τ := τ) .tc main_arg0)) := (n main_v0 (by decide)).trans h_main_v0
  replace h_main_v3 : V5 (Proc.devRef (τ := τ) .tc main_v3) = val_main_v3 (F := F) (V (Proc.devRef (τ := τ) .tc main_arg0)) := (n main_v3 (by decide)).trans h_main_v3
  replace hA : ∀ r ∈ argRefs, V5 (Proc.devRef (τ := τ) .tc r) = V (Proc.devRef .tc r) :=
    fun r hr => (n r (ne_of_mem_of_not_mem hr (by decide))).trans (hA r hr)
  clear e n
  -- unary main_cst → main_v4
  refine step_unary (fun V6 e n => ?_)
  have h_main_v4 : V6 (Proc.devRef (τ := τ) .tc main_v4) = val_main_v4 (F := F) := by
    rw [e, h_main_cst]
    rfl
  replace h_main_v0 : V6 (Proc.devRef (τ := τ) .tc main_v0) = val_main_v0 (F := F) (V (Proc.devRef (τ := τ) .tc main_arg0)) := (n main_v0 (by decide)).trans h_main_v0
  replace h_main_v3 : V6 (Proc.devRef (τ := τ) .tc main_v3) = val_main_v3 (F := F) (V (Proc.devRef (τ := τ) .tc main_arg0)) := (n main_v3 (by decide)).trans h_main_v3
  clear h_main_cst
  replace hA : ∀ r ∈ argRefs, V6 (Proc.devRef (τ := τ) .tc r) = V (Proc.devRef .tc r) :=
    fun r hr => (n r (ne_of_mem_of_not_mem hr (by decide))).trans (hA r hr)
  clear e n
  -- binary main_v0 main_v4 → main_v5
  refine step_binary (fun V7 e n => ?_)
  have h_main_v5 : V7 (Proc.devRef (τ := τ) .tc main_v5) = val_main_v5 (F := F) (V (Proc.devRef (τ := τ) .tc main_arg0)) := by
    rw [e, h_main_v0, h_main_v4]
    rfl
  replace h_main_v0 : V7 (Proc.devRef (τ := τ) .tc main_v0) = val_main_v0 (F := F) (V (Proc.devRef (τ := τ) .tc main_arg0)) := (n main_v0 (by decide)).trans h_main_v0
  replace h_main_v3 : V7 (Proc.devRef (τ := τ) .tc main_v3) = val_main_v3 (F := F) (V (Proc.devRef (τ := τ) .tc main_arg0)) := (n main_v3 (by decide)).trans h_main_v3
  clear h_main_v4
  replace hA : ∀ r ∈ argRefs, V7 (Proc.devRef (τ := τ) .tc r) = V (Proc.devRef .tc r) :=
    fun r hr => (n r (ne_of_mem_of_not_mem hr (by decide))).trans (hA r hr)
  clear e n
  -- unary main_v5 → main_v6
  refine step_unary (fun V8 e n => ?_)
  have h_main_v6 : V8 (Proc.devRef (τ := τ) .tc main_v6) = val_main_v6 (F := F) (V (Proc.devRef (τ := τ) .tc main_arg0)) := by
    rw [e, h_main_v5]
    rfl
  replace h_main_v0 : V8 (Proc.devRef (τ := τ) .tc main_v0) = val_main_v0 (F := F) (V (Proc.devRef (τ := τ) .tc main_arg0)) := (n main_v0 (by decide)).trans h_main_v0
  replace h_main_v3 : V8 (Proc.devRef (τ := τ) .tc main_v3) = val_main_v3 (F := F) (V (Proc.devRef (τ := τ) .tc main_arg0)) := (n main_v3 (by decide)).trans h_main_v3
  clear h_main_v5
  replace hA : ∀ r ∈ argRefs, V8 (Proc.devRef (τ := τ) .tc r) = V (Proc.devRef .tc r) :=
    fun r hr => (n r (ne_of_mem_of_not_mem hr (by decide))).trans (hA r hr)
  clear e n
  -- unary main_v6 → main_v7
  refine step_unary (fun V9 e n => ?_)
  have h_main_v7 : V9 (Proc.devRef (τ := τ) .tc main_v7) = val_main_v7 (F := F) (V (Proc.devRef (τ := τ) .tc main_arg0)) := by
    rw [e, h_main_v6]
    rfl
  replace h_main_v0 : V9 (Proc.devRef (τ := τ) .tc main_v0) = val_main_v0 (F := F) (V (Proc.devRef (τ := τ) .tc main_arg0)) := (n main_v0 (by decide)).trans h_main_v0
  replace h_main_v3 : V9 (Proc.devRef (τ := τ) .tc main_v3) = val_main_v3 (F := F) (V (Proc.devRef (τ := τ) .tc main_arg0)) := (n main_v3 (by decide)).trans h_main_v3
  clear h_main_v6
  replace hA : ∀ r ∈ argRefs, V9 (Proc.devRef (τ := τ) .tc r) = V (Proc.devRef .tc r) :=
    fun r hr => (n r (ne_of_mem_of_not_mem hr (by decide))).trans (hA r hr)
  clear e n
  -- nullary  → main_c
  refine step_nullary (fun V10 e n => ?_)
  have h_main_c : V10 (Proc.devRef (τ := τ) .tc main_c) = val_main_c (F := F) := e
  replace h_main_v0 : V10 (Proc.devRef (τ := τ) .tc main_v0) = val_main_v0 (F := F) (V (Proc.devRef (τ := τ) .tc main_arg0)) := (n main_v0 (by decide)).trans h_main_v0
  replace h_main_v3 : V10 (Proc.devRef (τ := τ) .tc main_v3) = val_main_v3 (F := F) (V (Proc.devRef (τ := τ) .tc main_arg0)) := (n main_v3 (by decide)).trans h_main_v3
  replace h_main_v7 : V10 (Proc.devRef (τ := τ) .tc main_v7) = val_main_v7 (F := F) (V (Proc.devRef (τ := τ) .tc main_arg0)) := (n main_v7 (by decide)).trans h_main_v7
  replace hA : ∀ r ∈ argRefs, V10 (Proc.devRef (τ := τ) .tc r) = V (Proc.devRef .tc r) :=
    fun r hr => (n r (ne_of_mem_of_not_mem hr (by decide))).trans (hA r hr)
  clear e n
  -- nullary  → main_c_0
  refine step_nullary (fun V11 e n => ?_)
  have h_main_c_0 : V11 (Proc.devRef (τ := τ) .tc main_c_0) = val_main_c_0 (F := F) := e
  replace h_main_v0 : V11 (Proc.devRef (τ := τ) .tc main_v0) = val_main_v0 (F := F) (V (Proc.devRef (τ := τ) .tc main_arg0)) := (n main_v0 (by decide)).trans h_main_v0
  replace h_main_v3 : V11 (Proc.devRef (τ := τ) .tc main_v3) = val_main_v3 (F := F) (V (Proc.devRef (τ := τ) .tc main_arg0)) := (n main_v3 (by decide)).trans h_main_v3
  replace h_main_v7 : V11 (Proc.devRef (τ := τ) .tc main_v7) = val_main_v7 (F := F) (V (Proc.devRef (τ := τ) .tc main_arg0)) := (n main_v7 (by decide)).trans h_main_v7
  replace h_main_c : V11 (Proc.devRef (τ := τ) .tc main_c) = val_main_c (F := F) := (n main_c (by decide)).trans h_main_c
  replace hA : ∀ r ∈ argRefs, V11 (Proc.devRef (τ := τ) .tc r) = V (Proc.devRef .tc r) :=
    fun r hr => (n r (ne_of_mem_of_not_mem hr (by decide))).trans (hA r hr)
  clear e n
  -- unary main_c → main_call0_v0
  refine step_unary (fun V12 e n => ?_)
  have h_main_call0_v0 : V12 (Proc.devRef (τ := τ) .tc main_call0_v0) = val_main_call0_v0 (F := F) := by
    rw [e, h_main_c]
    rfl
  replace h_main_v0 : V12 (Proc.devRef (τ := τ) .tc main_v0) = val_main_v0 (F := F) (V (Proc.devRef (τ := τ) .tc main_arg0)) := (n main_v0 (by decide)).trans h_main_v0
  replace h_main_v3 : V12 (Proc.devRef (τ := τ) .tc main_v3) = val_main_v3 (F := F) (V (Proc.devRef (τ := τ) .tc main_arg0)) := (n main_v3 (by decide)).trans h_main_v3
  replace h_main_v7 : V12 (Proc.devRef (τ := τ) .tc main_v7) = val_main_v7 (F := F) (V (Proc.devRef (τ := τ) .tc main_arg0)) := (n main_v7 (by decide)).trans h_main_v7
  clear h_main_c
  replace h_main_c_0 : V12 (Proc.devRef (τ := τ) .tc main_c_0) = val_main_c_0 (F := F) := (n main_c_0 (by decide)).trans h_main_c_0
  replace hA : ∀ r ∈ argRefs, V12 (Proc.devRef (τ := τ) .tc r) = V (Proc.devRef .tc r) :=
    fun r hr => (n r (ne_of_mem_of_not_mem hr (by decide))).trans (hA r hr)
  clear e n
  -- unary main_call0_v0 → main_call0_v1
  refine step_unary (fun V13 e n => ?_)
  have h_main_call0_v1 : V13 (Proc.devRef (τ := τ) .tc main_call0_v1) = val_main_call0_v1 (F := F) := by
    rw [e, h_main_call0_v0]
    rfl
  replace h_main_v0 : V13 (Proc.devRef (τ := τ) .tc main_v0) = val_main_v0 (F := F) (V (Proc.devRef (τ := τ) .tc main_arg0)) := (n main_v0 (by decide)).trans h_main_v0
  replace h_main_v3 : V13 (Proc.devRef (τ := τ) .tc main_v3) = val_main_v3 (F := F) (V (Proc.devRef (τ := τ) .tc main_arg0)) := (n main_v3 (by decide)).trans h_main_v3
  replace h_main_v7 : V13 (Proc.devRef (τ := τ) .tc main_v7) = val_main_v7 (F := F) (V (Proc.devRef (τ := τ) .tc main_arg0)) := (n main_v7 (by decide)).trans h_main_v7
  replace h_main_c_0 : V13 (Proc.devRef (τ := τ) .tc main_c_0) = val_main_c_0 (F := F) := (n main_c_0 (by decide)).trans h_main_c_0
  clear h_main_call0_v0
  replace hA : ∀ r ∈ argRefs, V13 (Proc.devRef (τ := τ) .tc r) = V (Proc.devRef .tc r) :=
    fun r hr => (n r (ne_of_mem_of_not_mem hr (by decide))).trans (hA r hr)
  clear e n
  -- binary main_call0_v1 main_v7 → main_call0_v2
  refine step_binary (fun V14 e n => ?_)
  have h_main_call0_v2 : V14 (Proc.devRef (τ := τ) .tc main_call0_v2) = val_main_call0_v2 (F := F) (V (Proc.devRef (τ := τ) .tc main_arg0)) := by
    rw [e, h_main_call0_v1, h_main_v7]
    rfl
  replace h_main_v0 : V14 (Proc.devRef (τ := τ) .tc main_v0) = val_main_v0 (F := F) (V (Proc.devRef (τ := τ) .tc main_arg0)) := (n main_v0 (by decide)).trans h_main_v0
  replace h_main_v3 : V14 (Proc.devRef (τ := τ) .tc main_v3) = val_main_v3 (F := F) (V (Proc.devRef (τ := τ) .tc main_arg0)) := (n main_v3 (by decide)).trans h_main_v3
  clear h_main_v7
  replace h_main_c_0 : V14 (Proc.devRef (τ := τ) .tc main_c_0) = val_main_c_0 (F := F) := (n main_c_0 (by decide)).trans h_main_c_0
  clear h_main_call0_v1
  replace hA : ∀ r ∈ argRefs, V14 (Proc.devRef (τ := τ) .tc r) = V (Proc.devRef .tc r) :=
    fun r hr => (n r (ne_of_mem_of_not_mem hr (by decide))).trans (hA r hr)
  clear e n
  -- unary main_c_0 → main_call0_v3
  refine step_unary (fun V15 e n => ?_)
  have h_main_call0_v3 : V15 (Proc.devRef (τ := τ) .tc main_call0_v3) = val_main_call0_v3 (F := F) := by
    rw [e, h_main_c_0]
    rfl
  replace h_main_v0 : V15 (Proc.devRef (τ := τ) .tc main_v0) = val_main_v0 (F := F) (V (Proc.devRef (τ := τ) .tc main_arg0)) := (n main_v0 (by decide)).trans h_main_v0
  replace h_main_v3 : V15 (Proc.devRef (τ := τ) .tc main_v3) = val_main_v3 (F := F) (V (Proc.devRef (τ := τ) .tc main_arg0)) := (n main_v3 (by decide)).trans h_main_v3
  clear h_main_c_0
  replace h_main_call0_v2 : V15 (Proc.devRef (τ := τ) .tc main_call0_v2) = val_main_call0_v2 (F := F) (V (Proc.devRef (τ := τ) .tc main_arg0)) := (n main_call0_v2 (by decide)).trans h_main_call0_v2
  replace hA : ∀ r ∈ argRefs, V15 (Proc.devRef (τ := τ) .tc r) = V (Proc.devRef .tc r) :=
    fun r hr => (n r (ne_of_mem_of_not_mem hr (by decide))).trans (hA r hr)
  clear e n
  -- unary main_call0_v3 → main_call0_v4
  refine step_unary (fun V16 e n => ?_)
  have h_main_call0_v4 : V16 (Proc.devRef (τ := τ) .tc main_call0_v4) = val_main_call0_v4 (F := F) := by
    rw [e, h_main_call0_v3]
    rfl
  replace h_main_v0 : V16 (Proc.devRef (τ := τ) .tc main_v0) = val_main_v0 (F := F) (V (Proc.devRef (τ := τ) .tc main_arg0)) := (n main_v0 (by decide)).trans h_main_v0
  replace h_main_v3 : V16 (Proc.devRef (τ := τ) .tc main_v3) = val_main_v3 (F := F) (V (Proc.devRef (τ := τ) .tc main_arg0)) := (n main_v3 (by decide)).trans h_main_v3
  replace h_main_call0_v2 : V16 (Proc.devRef (τ := τ) .tc main_call0_v2) = val_main_call0_v2 (F := F) (V (Proc.devRef (τ := τ) .tc main_arg0)) := (n main_call0_v2 (by decide)).trans h_main_call0_v2
  clear h_main_call0_v3
  replace hA : ∀ r ∈ argRefs, V16 (Proc.devRef (τ := τ) .tc r) = V (Proc.devRef .tc r) :=
    fun r hr => (n r (ne_of_mem_of_not_mem hr (by decide))).trans (hA r hr)
  clear e n
  -- binary main_call0_v4 main_call0_v2 → main_v8
  refine step_binary (fun V17 e n => ?_)
  have h_main_v8 : V17 (Proc.devRef (τ := τ) .tc main_v8) = val_main_v8 (F := F) (V (Proc.devRef (τ := τ) .tc main_arg0)) := by
    rw [e, h_main_call0_v4, h_main_call0_v2]
    rfl
  replace h_main_v0 : V17 (Proc.devRef (τ := τ) .tc main_v0) = val_main_v0 (F := F) (V (Proc.devRef (τ := τ) .tc main_arg0)) := (n main_v0 (by decide)).trans h_main_v0
  replace h_main_v3 : V17 (Proc.devRef (τ := τ) .tc main_v3) = val_main_v3 (F := F) (V (Proc.devRef (τ := τ) .tc main_arg0)) := (n main_v3 (by decide)).trans h_main_v3
  clear h_main_call0_v2
  clear h_main_call0_v4
  replace hA : ∀ r ∈ argRefs, V17 (Proc.devRef (τ := τ) .tc r) = V (Proc.devRef .tc r) :=
    fun r hr => (n r (ne_of_mem_of_not_mem hr (by decide))).trans (hA r hr)
  clear e n
  -- nullary  → main_cst_1
  refine step_nullary (fun V18 e n => ?_)
  have h_main_cst_1 : V18 (Proc.devRef (τ := τ) .tc main_cst_1) = val_main_cst_1 (F := F) := e
  replace h_main_v0 : V18 (Proc.devRef (τ := τ) .tc main_v0) = val_main_v0 (F := F) (V (Proc.devRef (τ := τ) .tc main_arg0)) := (n main_v0 (by decide)).trans h_main_v0
  replace h_main_v3 : V18 (Proc.devRef (τ := τ) .tc main_v3) = val_main_v3 (F := F) (V (Proc.devRef (τ := τ) .tc main_arg0)) := (n main_v3 (by decide)).trans h_main_v3
  replace h_main_v8 : V18 (Proc.devRef (τ := τ) .tc main_v8) = val_main_v8 (F := F) (V (Proc.devRef (τ := τ) .tc main_arg0)) := (n main_v8 (by decide)).trans h_main_v8
  replace hA : ∀ r ∈ argRefs, V18 (Proc.devRef (τ := τ) .tc r) = V (Proc.devRef .tc r) :=
    fun r hr => (n r (ne_of_mem_of_not_mem hr (by decide))).trans (hA r hr)
  clear e n
  -- unary main_cst_1 → main_v9
  refine step_unary (fun V19 e n => ?_)
  have h_main_v9 : V19 (Proc.devRef (τ := τ) .tc main_v9) = val_main_v9 (F := F) := by
    rw [e, h_main_cst_1]
    rfl
  replace h_main_v0 : V19 (Proc.devRef (τ := τ) .tc main_v0) = val_main_v0 (F := F) (V (Proc.devRef (τ := τ) .tc main_arg0)) := (n main_v0 (by decide)).trans h_main_v0
  replace h_main_v3 : V19 (Proc.devRef (τ := τ) .tc main_v3) = val_main_v3 (F := F) (V (Proc.devRef (τ := τ) .tc main_arg0)) := (n main_v3 (by decide)).trans h_main_v3
  replace h_main_v8 : V19 (Proc.devRef (τ := τ) .tc main_v8) = val_main_v8 (F := F) (V (Proc.devRef (τ := τ) .tc main_arg0)) := (n main_v8 (by decide)).trans h_main_v8
  clear h_main_cst_1
  replace hA : ∀ r ∈ argRefs, V19 (Proc.devRef (τ := τ) .tc r) = V (Proc.devRef .tc r) :=
    fun r hr => (n r (ne_of_mem_of_not_mem hr (by decide))).trans (hA r hr)
  clear e n
  -- binary main_v0 main_v9 → main_v10
  refine step_binary (fun V20 e n => ?_)
  have h_main_v10 : V20 (Proc.devRef (τ := τ) .tc main_v10) = val_main_v10 (F := F) (V (Proc.devRef (τ := τ) .tc main_arg0)) := by
    rw [e, h_main_v0, h_main_v9]
    rfl
  replace h_main_v0 : V20 (Proc.devRef (τ := τ) .tc main_v0) = val_main_v0 (F := F) (V (Proc.devRef (τ := τ) .tc main_arg0)) := (n main_v0 (by decide)).trans h_main_v0
  replace h_main_v3 : V20 (Proc.devRef (τ := τ) .tc main_v3) = val_main_v3 (F := F) (V (Proc.devRef (τ := τ) .tc main_arg0)) := (n main_v3 (by decide)).trans h_main_v3
  replace h_main_v8 : V20 (Proc.devRef (τ := τ) .tc main_v8) = val_main_v8 (F := F) (V (Proc.devRef (τ := τ) .tc main_arg0)) := (n main_v8 (by decide)).trans h_main_v8
  clear h_main_v9
  replace hA : ∀ r ∈ argRefs, V20 (Proc.devRef (τ := τ) .tc r) = V (Proc.devRef .tc r) :=
    fun r hr => (n r (ne_of_mem_of_not_mem hr (by decide))).trans (hA r hr)
  clear e n
  -- nullary  → main_cst_2
  refine step_nullary (fun V21 e n => ?_)
  have h_main_cst_2 : V21 (Proc.devRef (τ := τ) .tc main_cst_2) = val_main_cst_2 (F := F) := e
  replace h_main_v0 : V21 (Proc.devRef (τ := τ) .tc main_v0) = val_main_v0 (F := F) (V (Proc.devRef (τ := τ) .tc main_arg0)) := (n main_v0 (by decide)).trans h_main_v0
  replace h_main_v3 : V21 (Proc.devRef (τ := τ) .tc main_v3) = val_main_v3 (F := F) (V (Proc.devRef (τ := τ) .tc main_arg0)) := (n main_v3 (by decide)).trans h_main_v3
  replace h_main_v8 : V21 (Proc.devRef (τ := τ) .tc main_v8) = val_main_v8 (F := F) (V (Proc.devRef (τ := τ) .tc main_arg0)) := (n main_v8 (by decide)).trans h_main_v8
  replace h_main_v10 : V21 (Proc.devRef (τ := τ) .tc main_v10) = val_main_v10 (F := F) (V (Proc.devRef (τ := τ) .tc main_arg0)) := (n main_v10 (by decide)).trans h_main_v10
  replace hA : ∀ r ∈ argRefs, V21 (Proc.devRef (τ := τ) .tc r) = V (Proc.devRef .tc r) :=
    fun r hr => (n r (ne_of_mem_of_not_mem hr (by decide))).trans (hA r hr)
  clear e n
  -- unary main_cst_2 → main_v11
  refine step_unary (fun V22 e n => ?_)
  have h_main_v11 : V22 (Proc.devRef (τ := τ) .tc main_v11) = val_main_v11 (F := F) := by
    rw [e, h_main_cst_2]
    rfl
  replace h_main_v0 : V22 (Proc.devRef (τ := τ) .tc main_v0) = val_main_v0 (F := F) (V (Proc.devRef (τ := τ) .tc main_arg0)) := (n main_v0 (by decide)).trans h_main_v0
  replace h_main_v3 : V22 (Proc.devRef (τ := τ) .tc main_v3) = val_main_v3 (F := F) (V (Proc.devRef (τ := τ) .tc main_arg0)) := (n main_v3 (by decide)).trans h_main_v3
  replace h_main_v8 : V22 (Proc.devRef (τ := τ) .tc main_v8) = val_main_v8 (F := F) (V (Proc.devRef (τ := τ) .tc main_arg0)) := (n main_v8 (by decide)).trans h_main_v8
  replace h_main_v10 : V22 (Proc.devRef (τ := τ) .tc main_v10) = val_main_v10 (F := F) (V (Proc.devRef (τ := τ) .tc main_arg0)) := (n main_v10 (by decide)).trans h_main_v10
  clear h_main_cst_2
  replace hA : ∀ r ∈ argRefs, V22 (Proc.devRef (τ := τ) .tc r) = V (Proc.devRef .tc r) :=
    fun r hr => (n r (ne_of_mem_of_not_mem hr (by decide))).trans (hA r hr)
  clear e n
  -- binary main_v0 main_v11 → main_v12
  refine step_binary (fun V23 e n => ?_)
  have h_main_v12 : V23 (Proc.devRef (τ := τ) .tc main_v12) = val_main_v12 (F := F) (V (Proc.devRef (τ := τ) .tc main_arg0)) := by
    rw [e, h_main_v0, h_main_v11]
    rfl
  clear h_main_v0
  replace h_main_v3 : V23 (Proc.devRef (τ := τ) .tc main_v3) = val_main_v3 (F := F) (V (Proc.devRef (τ := τ) .tc main_arg0)) := (n main_v3 (by decide)).trans h_main_v3
  replace h_main_v8 : V23 (Proc.devRef (τ := τ) .tc main_v8) = val_main_v8 (F := F) (V (Proc.devRef (τ := τ) .tc main_arg0)) := (n main_v8 (by decide)).trans h_main_v8
  replace h_main_v10 : V23 (Proc.devRef (τ := τ) .tc main_v10) = val_main_v10 (F := F) (V (Proc.devRef (τ := τ) .tc main_arg0)) := (n main_v10 (by decide)).trans h_main_v10
  clear h_main_v11
  replace hA : ∀ r ∈ argRefs, V23 (Proc.devRef (τ := τ) .tc r) = V (Proc.devRef .tc r) :=
    fun r hr => (n r (ne_of_mem_of_not_mem hr (by decide))).trans (hA r hr)
  clear e n
  -- binary main_v10 main_v12 → main_v13
  refine step_binary (fun V24 e n => ?_)
  have h_main_v13 : V24 (Proc.devRef (τ := τ) .tc main_v13) = val_main_v13 (F := F) (V (Proc.devRef (τ := τ) .tc main_arg0)) := by
    rw [e, h_main_v10, h_main_v12]
    rfl
  replace h_main_v3 : V24 (Proc.devRef (τ := τ) .tc main_v3) = val_main_v3 (F := F) (V (Proc.devRef (τ := τ) .tc main_arg0)) := (n main_v3 (by decide)).trans h_main_v3
  replace h_main_v8 : V24 (Proc.devRef (τ := τ) .tc main_v8) = val_main_v8 (F := F) (V (Proc.devRef (τ := τ) .tc main_arg0)) := (n main_v8 (by decide)).trans h_main_v8
  clear h_main_v10
  clear h_main_v12
  replace hA : ∀ r ∈ argRefs, V24 (Proc.devRef (τ := τ) .tc r) = V (Proc.devRef .tc r) :=
    fun r hr => (n r (ne_of_mem_of_not_mem hr (by decide))).trans (hA r hr)
  clear e n
  -- unary main_v13 → main_v14
  refine step_unary (fun V25 e n => ?_)
  have h_main_v14 : V25 (Proc.devRef (τ := τ) .tc main_v14) = val_main_v14 (F := F) (V (Proc.devRef (τ := τ) .tc main_arg0)) := by
    rw [e, h_main_v13]
    rfl
  replace h_main_v3 : V25 (Proc.devRef (τ := τ) .tc main_v3) = val_main_v3 (F := F) (V (Proc.devRef (τ := τ) .tc main_arg0)) := (n main_v3 (by decide)).trans h_main_v3
  replace h_main_v8 : V25 (Proc.devRef (τ := τ) .tc main_v8) = val_main_v8 (F := F) (V (Proc.devRef (τ := τ) .tc main_arg0)) := (n main_v8 (by decide)).trans h_main_v8
  clear h_main_v13
  replace hA : ∀ r ∈ argRefs, V25 (Proc.devRef (τ := τ) .tc r) = V (Proc.devRef .tc r) :=
    fun r hr => (n r (ne_of_mem_of_not_mem hr (by decide))).trans (hA r hr)
  clear e n
  -- unary main_v8 → main_call1_v0
  refine step_unary (fun V26 e n => ?_)
  have h_main_call1_v0 : V26 (Proc.devRef (τ := τ) .tc main_call1_v0) = val_main_call1_v0 (F := F) (V (Proc.devRef (τ := τ) .tc main_arg0)) := by
    rw [e, h_main_v8]
    rfl
  replace h_main_v3 : V26 (Proc.devRef (τ := τ) .tc main_v3) = val_main_v3 (F := F) (V (Proc.devRef (τ := τ) .tc main_arg0)) := (n main_v3 (by decide)).trans h_main_v3
  clear h_main_v8
  replace h_main_v14 : V26 (Proc.devRef (τ := τ) .tc main_v14) = val_main_v14 (F := F) (V (Proc.devRef (τ := τ) .tc main_arg0)) := (n main_v14 (by decide)).trans h_main_v14
  replace hA : ∀ r ∈ argRefs, V26 (Proc.devRef (τ := τ) .tc r) = V (Proc.devRef .tc r) :=
    fun r hr => (n r (ne_of_mem_of_not_mem hr (by decide))).trans (hA r hr)
  clear e n
  -- nullary  → main_call1_v1
  refine step_nullary (fun V27 e n => ?_)
  have h_main_call1_v1 : V27 (Proc.devRef (τ := τ) .tc main_call1_v1) = val_main_call1_v1 (F := F) := e
  replace h_main_v3 : V27 (Proc.devRef (τ := τ) .tc main_v3) = val_main_v3 (F := F) (V (Proc.devRef (τ := τ) .tc main_arg0)) := (n main_v3 (by decide)).trans h_main_v3
  replace h_main_v14 : V27 (Proc.devRef (τ := τ) .tc main_v14) = val_main_v14 (F := F) (V (Proc.devRef (τ := τ) .tc main_arg0)) := (n main_v14 (by decide)).trans h_main_v14
  replace h_main_call1_v0 : V27 (Proc.devRef (τ := τ) .tc main_call1_v0) = val_main_call1_v0 (F := F) (V (Proc.devRef (τ := τ) .tc main_arg0)) := (n main_call1_v0 (by decide)).trans h_main_call1_v0
  replace hA : ∀ r ∈ argRefs, V27 (Proc.devRef (τ := τ) .tc r) = V (Proc.devRef .tc r) :=
    fun r hr => (n r (ne_of_mem_of_not_mem hr (by decide))).trans (hA r hr)
  clear e n
  -- unary main_call1_v0 → main_call1_v2
  refine step_unary (fun V28 e n => ?_)
  have h_main_call1_v2 : V28 (Proc.devRef (τ := τ) .tc main_call1_v2) = val_main_call1_v2 (F := F) (V (Proc.devRef (τ := τ) .tc main_arg0)) := by
    rw [e, h_main_call1_v0]
    rfl
  replace h_main_v3 : V28 (Proc.devRef (τ := τ) .tc main_v3) = val_main_v3 (F := F) (V (Proc.devRef (τ := τ) .tc main_arg0)) := (n main_v3 (by decide)).trans h_main_v3
  replace h_main_v14 : V28 (Proc.devRef (τ := τ) .tc main_v14) = val_main_v14 (F := F) (V (Proc.devRef (τ := τ) .tc main_arg0)) := (n main_v14 (by decide)).trans h_main_v14
  clear h_main_call1_v0
  replace h_main_call1_v1 : V28 (Proc.devRef (τ := τ) .tc main_call1_v1) = val_main_call1_v1 (F := F) := (n main_call1_v1 (by decide)).trans h_main_call1_v1
  replace hA : ∀ r ∈ argRefs, V28 (Proc.devRef (τ := τ) .tc r) = V (Proc.devRef .tc r) :=
    fun r hr => (n r (ne_of_mem_of_not_mem hr (by decide))).trans (hA r hr)
  clear e n
  -- unary main_call1_v1 → main_call1_v3
  refine step_unary (fun V29 e n => ?_)
  have h_main_call1_v3 : V29 (Proc.devRef (τ := τ) .tc main_call1_v3) = val_main_call1_v3 (F := F) := by
    rw [e, h_main_call1_v1]
    rfl
  replace h_main_v3 : V29 (Proc.devRef (τ := τ) .tc main_v3) = val_main_v3 (F := F) (V (Proc.devRef (τ := τ) .tc main_arg0)) := (n main_v3 (by decide)).trans h_main_v3
  replace h_main_v14 : V29 (Proc.devRef (τ := τ) .tc main_v14) = val_main_v14 (F := F) (V (Proc.devRef (τ := τ) .tc main_arg0)) := (n main_v14 (by decide)).trans h_main_v14
  clear h_main_call1_v1
  replace h_main_call1_v2 : V29 (Proc.devRef (τ := τ) .tc main_call1_v2) = val_main_call1_v2 (F := F) (V (Proc.devRef (τ := τ) .tc main_arg0)) := (n main_call1_v2 (by decide)).trans h_main_call1_v2
  replace hA : ∀ r ∈ argRefs, V29 (Proc.devRef (τ := τ) .tc r) = V (Proc.devRef .tc r) :=
    fun r hr => (n r (ne_of_mem_of_not_mem hr (by decide))).trans (hA r hr)
  clear e n
  -- binary main_call1_v2 main_call1_v3 → main_call1_v4
  refine step_binary (fun V30 e n => ?_)
  have h_main_call1_v4 : V30 (Proc.devRef (τ := τ) .tc main_call1_v4) = val_main_call1_v4 (F := F) (V (Proc.devRef (τ := τ) .tc main_arg0)) := by
    rw [e, h_main_call1_v2, h_main_call1_v3]
    rfl
  replace h_main_v3 : V30 (Proc.devRef (τ := τ) .tc main_v3) = val_main_v3 (F := F) (V (Proc.devRef (τ := τ) .tc main_arg0)) := (n main_v3 (by decide)).trans h_main_v3
  replace h_main_v14 : V30 (Proc.devRef (τ := τ) .tc main_v14) = val_main_v14 (F := F) (V (Proc.devRef (τ := τ) .tc main_arg0)) := (n main_v14 (by decide)).trans h_main_v14
  clear h_main_call1_v2
  clear h_main_call1_v3
  replace hA : ∀ r ∈ argRefs, V30 (Proc.devRef (τ := τ) .tc r) = V (Proc.devRef .tc r) :=
    fun r hr => (n r (ne_of_mem_of_not_mem hr (by decide))).trans (hA r hr)
  clear e n
  -- unary main_call1_v4 → main_v15
  refine step_unary (fun V31 e n => ?_)
  have h_main_v15 : V31 (Proc.devRef (τ := τ) .tc main_v15) = val_main_v15 (F := F) (V (Proc.devRef (τ := τ) .tc main_arg0)) := by
    rw [e, h_main_call1_v4]
    rfl
  replace h_main_v3 : V31 (Proc.devRef (τ := τ) .tc main_v3) = val_main_v3 (F := F) (V (Proc.devRef (τ := τ) .tc main_arg0)) := (n main_v3 (by decide)).trans h_main_v3
  replace h_main_v14 : V31 (Proc.devRef (τ := τ) .tc main_v14) = val_main_v14 (F := F) (V (Proc.devRef (τ := τ) .tc main_arg0)) := (n main_v14 (by decide)).trans h_main_v14
  clear h_main_call1_v4
  replace hA : ∀ r ∈ argRefs, V31 (Proc.devRef (τ := τ) .tc r) = V (Proc.devRef .tc r) :=
    fun r hr => (n r (ne_of_mem_of_not_mem hr (by decide))).trans (hA r hr)
  clear e n
  -- unary main_v14 → main_v16
  refine step_unary (fun V32 e n => ?_)
  have h_main_v16 : V32 (Proc.devRef (τ := τ) .tc main_v16) = val_main_v16 (F := F) (V (Proc.devRef (τ := τ) .tc main_arg0)) := by
    rw [e, h_main_v14]
    rfl
  replace h_main_v3 : V32 (Proc.devRef (τ := τ) .tc main_v3) = val_main_v3 (F := F) (V (Proc.devRef (τ := τ) .tc main_arg0)) := (n main_v3 (by decide)).trans h_main_v3
  clear h_main_v14
  replace h_main_v15 : V32 (Proc.devRef (τ := τ) .tc main_v15) = val_main_v15 (F := F) (V (Proc.devRef (τ := τ) .tc main_arg0)) := (n main_v15 (by decide)).trans h_main_v15
  replace hA : ∀ r ∈ argRefs, V32 (Proc.devRef (τ := τ) .tc r) = V (Proc.devRef .tc r) :=
    fun r hr => (n r (ne_of_mem_of_not_mem hr (by decide))).trans (hA r hr)
  clear e n
  -- unary main_v16 → main_v17
  refine step_unary (fun V33 e n => ?_)
  have h_main_v17 : V33 (Proc.devRef (τ := τ) .tc main_v17) = val_main_v17 (F := F) (V (Proc.devRef (τ := τ) .tc main_arg0)) := by
    rw [e, h_main_v16]
    rfl
  replace h_main_v3 : V33 (Proc.devRef (τ := τ) .tc main_v3) = val_main_v3 (F := F) (V (Proc.devRef (τ := τ) .tc main_arg0)) := (n main_v3 (by decide)).trans h_main_v3
  replace h_main_v15 : V33 (Proc.devRef (τ := τ) .tc main_v15) = val_main_v15 (F := F) (V (Proc.devRef (τ := τ) .tc main_arg0)) := (n main_v15 (by decide)).trans h_main_v15
  clear h_main_v16
  replace hA : ∀ r ∈ argRefs, V33 (Proc.devRef (τ := τ) .tc r) = V (Proc.devRef .tc r) :=
    fun r hr => (n r (ne_of_mem_of_not_mem hr (by decide))).trans (hA r hr)
  clear e n
  -- binary main_v15 main_v17 → main_v18
  refine step_binary (fun V34 e n => ?_)
  have h_main_v18 : V34 (Proc.devRef (τ := τ) .tc main_v18) = val_main_v18 (F := F) (V (Proc.devRef (τ := τ) .tc main_arg0)) := by
    rw [e, h_main_v15, h_main_v17]
    rfl
  replace h_main_v3 : V34 (Proc.devRef (τ := τ) .tc main_v3) = val_main_v3 (F := F) (V (Proc.devRef (τ := τ) .tc main_arg0)) := (n main_v3 (by decide)).trans h_main_v3
  clear h_main_v15
  clear h_main_v17
  replace hA : ∀ r ∈ argRefs, V34 (Proc.devRef (τ := τ) .tc r) = V (Proc.devRef .tc r) :=
    fun r hr => (n r (ne_of_mem_of_not_mem hr (by decide))).trans (hA r hr)
  clear e n
  -- nullary  → main_cst_3
  refine step_nullary (fun V35 e n => ?_)
  have h_main_cst_3 : V35 (Proc.devRef (τ := τ) .tc main_cst_3) = val_main_cst_3 (F := F) := e
  replace h_main_v3 : V35 (Proc.devRef (τ := τ) .tc main_v3) = val_main_v3 (F := F) (V (Proc.devRef (τ := τ) .tc main_arg0)) := (n main_v3 (by decide)).trans h_main_v3
  replace h_main_v18 : V35 (Proc.devRef (τ := τ) .tc main_v18) = val_main_v18 (F := F) (V (Proc.devRef (τ := τ) .tc main_arg0)) := (n main_v18 (by decide)).trans h_main_v18
  replace hA : ∀ r ∈ argRefs, V35 (Proc.devRef (τ := τ) .tc r) = V (Proc.devRef .tc r) :=
    fun r hr => (n r (ne_of_mem_of_not_mem hr (by decide))).trans (hA r hr)
  clear e n
  -- binary main_v18 main_cst_3 → main_v19
  refine step_binary (fun V36 e n => ?_)
  have h_main_v19 : V36 (Proc.devRef (τ := τ) .tc main_v19) = val_main_v19 (F := F) (V (Proc.devRef (τ := τ) .tc main_arg0)) := by
    rw [e, h_main_v18, h_main_cst_3]
    rfl
  replace h_main_v3 : V36 (Proc.devRef (τ := τ) .tc main_v3) = val_main_v3 (F := F) (V (Proc.devRef (τ := τ) .tc main_arg0)) := (n main_v3 (by decide)).trans h_main_v3
  clear h_main_v18
  clear h_main_cst_3
  replace hA : ∀ r ∈ argRefs, V36 (Proc.devRef (τ := τ) .tc r) = V (Proc.devRef .tc r) :=
    fun r hr => (n r (ne_of_mem_of_not_mem hr (by decide))).trans (hA r hr)
  clear e n
  -- nullary  → main_cst_4
  refine step_nullary (fun V37 e n => ?_)
  have h_main_cst_4 : V37 (Proc.devRef (τ := τ) .tc main_cst_4) = val_main_cst_4 (F := F) := e
  replace h_main_v3 : V37 (Proc.devRef (τ := τ) .tc main_v3) = val_main_v3 (F := F) (V (Proc.devRef (τ := τ) .tc main_arg0)) := (n main_v3 (by decide)).trans h_main_v3
  replace h_main_v19 : V37 (Proc.devRef (τ := τ) .tc main_v19) = val_main_v19 (F := F) (V (Proc.devRef (τ := τ) .tc main_arg0)) := (n main_v19 (by decide)).trans h_main_v19
  replace hA : ∀ r ∈ argRefs, V37 (Proc.devRef (τ := τ) .tc r) = V (Proc.devRef .tc r) :=
    fun r hr => (n r (ne_of_mem_of_not_mem hr (by decide))).trans (hA r hr)
  clear e n
  -- binary main_v19 main_cst_4 → main_v20
  refine step_binary (fun V38 e n => ?_)
  have h_main_v20 : V38 (Proc.devRef (τ := τ) .tc main_v20) = val_main_v20 (F := F) (V (Proc.devRef (τ := τ) .tc main_arg0)) := by
    rw [e, h_main_v19, h_main_cst_4]
    rfl
  replace h_main_v3 : V38 (Proc.devRef (τ := τ) .tc main_v3) = val_main_v3 (F := F) (V (Proc.devRef (τ := τ) .tc main_arg0)) := (n main_v3 (by decide)).trans h_main_v3
  replace h_main_v19 : V38 (Proc.devRef (τ := τ) .tc main_v19) = val_main_v19 (F := F) (V (Proc.devRef (τ := τ) .tc main_arg0)) := (n main_v19 (by decide)).trans h_main_v19
  clear h_main_cst_4
  replace hA : ∀ r ∈ argRefs, V38 (Proc.devRef (τ := τ) .tc r) = V (Proc.devRef .tc r) :=
    fun r hr => (n r (ne_of_mem_of_not_mem hr (by decide))).trans (hA r hr)
  clear e n
  -- unary main_v20 → main_v21
  refine step_unary (fun V39 e n => ?_)
  have h_main_v21 : V39 (Proc.devRef (τ := τ) .tc main_v21) = val_main_v21 (F := F) (V (Proc.devRef (τ := τ) .tc main_arg0)) := by
    rw [e, h_main_v20]
    rfl
  replace h_main_v3 : V39 (Proc.devRef (τ := τ) .tc main_v3) = val_main_v3 (F := F) (V (Proc.devRef (τ := τ) .tc main_arg0)) := (n main_v3 (by decide)).trans h_main_v3
  replace h_main_v19 : V39 (Proc.devRef (τ := τ) .tc main_v19) = val_main_v19 (F := F) (V (Proc.devRef (τ := τ) .tc main_arg0)) := (n main_v19 (by decide)).trans h_main_v19
  clear h_main_v20
  replace hA : ∀ r ∈ argRefs, V39 (Proc.devRef (τ := τ) .tc r) = V (Proc.devRef .tc r) :=
    fun r hr => (n r (ne_of_mem_of_not_mem hr (by decide))).trans (hA r hr)
  clear e n
  -- nullary  → main_cst_5
  refine step_nullary (fun V40 e n => ?_)
  have h_main_cst_5 : V40 (Proc.devRef (τ := τ) .tc main_cst_5) = val_main_cst_5 (F := F) := e
  replace h_main_v3 : V40 (Proc.devRef (τ := τ) .tc main_v3) = val_main_v3 (F := F) (V (Proc.devRef (τ := τ) .tc main_arg0)) := (n main_v3 (by decide)).trans h_main_v3
  replace h_main_v19 : V40 (Proc.devRef (τ := τ) .tc main_v19) = val_main_v19 (F := F) (V (Proc.devRef (τ := τ) .tc main_arg0)) := (n main_v19 (by decide)).trans h_main_v19
  replace h_main_v21 : V40 (Proc.devRef (τ := τ) .tc main_v21) = val_main_v21 (F := F) (V (Proc.devRef (τ := τ) .tc main_arg0)) := (n main_v21 (by decide)).trans h_main_v21
  replace hA : ∀ r ∈ argRefs, V40 (Proc.devRef (τ := τ) .tc r) = V (Proc.devRef .tc r) :=
    fun r hr => (n r (ne_of_mem_of_not_mem hr (by decide))).trans (hA r hr)
  clear e n
  -- unary main_cst_5 → main_v22
  refine step_unary (fun V41 e n => ?_)
  have h_main_v22 : V41 (Proc.devRef (τ := τ) .tc main_v22) = val_main_v22 (F := F) := by
    rw [e, h_main_cst_5]
    rfl
  replace h_main_v3 : V41 (Proc.devRef (τ := τ) .tc main_v3) = val_main_v3 (F := F) (V (Proc.devRef (τ := τ) .tc main_arg0)) := (n main_v3 (by decide)).trans h_main_v3
  replace h_main_v19 : V41 (Proc.devRef (τ := τ) .tc main_v19) = val_main_v19 (F := F) (V (Proc.devRef (τ := τ) .tc main_arg0)) := (n main_v19 (by decide)).trans h_main_v19
  replace h_main_v21 : V41 (Proc.devRef (τ := τ) .tc main_v21) = val_main_v21 (F := F) (V (Proc.devRef (τ := τ) .tc main_arg0)) := (n main_v21 (by decide)).trans h_main_v21
  clear h_main_cst_5
  replace hA : ∀ r ∈ argRefs, V41 (Proc.devRef (τ := τ) .tc r) = V (Proc.devRef .tc r) :=
    fun r hr => (n r (ne_of_mem_of_not_mem hr (by decide))).trans (hA r hr)
  clear e n
  -- binary main_v21 main_v22 → main_v23
  refine step_binary (fun V42 e n => ?_)
  have h_main_v23 : V42 (Proc.devRef (τ := τ) .tc main_v23) = val_main_v23 (F := F) (V (Proc.devRef (τ := τ) .tc main_arg0)) := by
    rw [e, h_main_v21, h_main_v22]
    rfl
  replace h_main_v3 : V42 (Proc.devRef (τ := τ) .tc main_v3) = val_main_v3 (F := F) (V (Proc.devRef (τ := τ) .tc main_arg0)) := (n main_v3 (by decide)).trans h_main_v3
  replace h_main_v19 : V42 (Proc.devRef (τ := τ) .tc main_v19) = val_main_v19 (F := F) (V (Proc.devRef (τ := τ) .tc main_arg0)) := (n main_v19 (by decide)).trans h_main_v19
  clear h_main_v21
  clear h_main_v22
  replace hA : ∀ r ∈ argRefs, V42 (Proc.devRef (τ := τ) .tc r) = V (Proc.devRef .tc r) :=
    fun r hr => (n r (ne_of_mem_of_not_mem hr (by decide))).trans (hA r hr)
  clear e n
  -- unary main_v23 → main_v24
  refine step_unary (fun V43 e n => ?_)
  have h_main_v24 : V43 (Proc.devRef (τ := τ) .tc main_v24) = val_main_v24 (F := F) (V (Proc.devRef (τ := τ) .tc main_arg0)) := by
    rw [e, h_main_v23]
    rfl
  replace h_main_v3 : V43 (Proc.devRef (τ := τ) .tc main_v3) = val_main_v3 (F := F) (V (Proc.devRef (τ := τ) .tc main_arg0)) := (n main_v3 (by decide)).trans h_main_v3
  replace h_main_v19 : V43 (Proc.devRef (τ := τ) .tc main_v19) = val_main_v19 (F := F) (V (Proc.devRef (τ := τ) .tc main_arg0)) := (n main_v19 (by decide)).trans h_main_v19
  clear h_main_v23
  replace hA : ∀ r ∈ argRefs, V43 (Proc.devRef (τ := τ) .tc r) = V (Proc.devRef .tc r) :=
    fun r hr => (n r (ne_of_mem_of_not_mem hr (by decide))).trans (hA r hr)
  clear e n
  -- binary main_v19 main_v24 → main_v25
  refine step_binary (fun V44 e n => ?_)
  have h_main_v25 : V44 (Proc.devRef (τ := τ) .tc main_v25) = val_main_v25 (F := F) (V (Proc.devRef (τ := τ) .tc main_arg0)) := by
    rw [e, h_main_v19, h_main_v24]
    rfl
  replace h_main_v3 : V44 (Proc.devRef (τ := τ) .tc main_v3) = val_main_v3 (F := F) (V (Proc.devRef (τ := τ) .tc main_arg0)) := (n main_v3 (by decide)).trans h_main_v3
  clear h_main_v19
  clear h_main_v24
  replace hA : ∀ r ∈ argRefs, V44 (Proc.devRef (τ := τ) .tc r) = V (Proc.devRef .tc r) :=
    fun r hr => (n r (ne_of_mem_of_not_mem hr (by decide))).trans (hA r hr)
  clear e n
  -- binary main_v25 main_arg2 → main_v26
  refine step_binary (fun V45 e n => ?_)
  have h_main_v26 : V45 (Proc.devRef (τ := τ) .tc main_v26) = val_main_v26 (F := F) (V (Proc.devRef (τ := τ) .tc main_arg0)) (V (Proc.devRef (τ := τ) .tc main_arg2)) := by
    rw [e, h_main_v25, hA main_arg2 (by decide)]
    rfl
  replace h_main_v3 : V45 (Proc.devRef (τ := τ) .tc main_v3) = val_main_v3 (F := F) (V (Proc.devRef (τ := τ) .tc main_arg0)) := (n main_v3 (by decide)).trans h_main_v3
  clear h_main_v25
  replace hA : ∀ r ∈ argRefs, V45 (Proc.devRef (τ := τ) .tc r) = V (Proc.devRef .tc r) :=
    fun r hr => (n r (ne_of_mem_of_not_mem hr (by decide))).trans (hA r hr)
  clear e n
  -- unary main_arg3 → main_v27
  refine step_unary (fun V46 e n => ?_)
  have h_main_v27 : V46 (Proc.devRef (τ := τ) .tc main_v27) = val_main_v27 (F := F) (V (Proc.devRef (τ := τ) .tc main_arg3)) := by
    rw [e, hA main_arg3 (by decide)]
    rfl
  replace h_main_v3 : V46 (Proc.devRef (τ := τ) .tc main_v3) = val_main_v3 (F := F) (V (Proc.devRef (τ := τ) .tc main_arg0)) := (n main_v3 (by decide)).trans h_main_v3
  replace h_main_v26 : V46 (Proc.devRef (τ := τ) .tc main_v26) = val_main_v26 (F := F) (V (Proc.devRef (τ := τ) .tc main_arg0)) (V (Proc.devRef (τ := τ) .tc main_arg2)) := (n main_v26 (by decide)).trans h_main_v26
  replace hA : ∀ r ∈ argRefs, V46 (Proc.devRef (τ := τ) .tc r) = V (Proc.devRef .tc r) :=
    fun r hr => (n r (ne_of_mem_of_not_mem hr (by decide))).trans (hA r hr)
  clear e n
  -- unary main_v27 → main_v28
  refine step_unary (fun V47 e n => ?_)
  have h_main_v28 : V47 (Proc.devRef (τ := τ) .tc main_v28) = val_main_v28 (F := F) (V (Proc.devRef (τ := τ) .tc main_arg3)) := by
    rw [e, h_main_v27]
    rfl
  replace h_main_v3 : V47 (Proc.devRef (τ := τ) .tc main_v3) = val_main_v3 (F := F) (V (Proc.devRef (τ := τ) .tc main_arg0)) := (n main_v3 (by decide)).trans h_main_v3
  replace h_main_v26 : V47 (Proc.devRef (τ := τ) .tc main_v26) = val_main_v26 (F := F) (V (Proc.devRef (τ := τ) .tc main_arg0)) (V (Proc.devRef (τ := τ) .tc main_arg2)) := (n main_v26 (by decide)).trans h_main_v26
  clear h_main_v27
  replace hA : ∀ r ∈ argRefs, V47 (Proc.devRef (τ := τ) .tc r) = V (Proc.devRef .tc r) :=
    fun r hr => (n r (ne_of_mem_of_not_mem hr (by decide))).trans (hA r hr)
  clear e n
  -- binary main_v26 main_v28 → main_v29
  refine step_binary (fun V48 e n => ?_)
  have h_main_v29 : V48 (Proc.devRef (τ := τ) .tc main_v29) = val_main_v29 (F := F) (V (Proc.devRef (τ := τ) .tc main_arg0)) (V (Proc.devRef (τ := τ) .tc main_arg2)) (V (Proc.devRef (τ := τ) .tc main_arg3)) := by
    rw [e, h_main_v26, h_main_v28]
    rfl
  replace h_main_v3 : V48 (Proc.devRef (τ := τ) .tc main_v3) = val_main_v3 (F := F) (V (Proc.devRef (τ := τ) .tc main_arg0)) := (n main_v3 (by decide)).trans h_main_v3
  clear h_main_v26
  clear h_main_v28
  replace hA : ∀ r ∈ argRefs, V48 (Proc.devRef (τ := τ) .tc r) = V (Proc.devRef .tc r) :=
    fun r hr => (n r (ne_of_mem_of_not_mem hr (by decide))).trans (hA r hr)
  clear e n
  -- nullary  → main_call2_cst
  refine step_nullary (fun V49 e n => ?_)
  have h_main_call2_cst : V49 (Proc.devRef (τ := τ) .tc main_call2_cst) = val_main_call2_cst (F := F) := e
  replace h_main_v3 : V49 (Proc.devRef (τ := τ) .tc main_v3) = val_main_v3 (F := F) (V (Proc.devRef (τ := τ) .tc main_arg0)) := (n main_v3 (by decide)).trans h_main_v3
  replace h_main_v29 : V49 (Proc.devRef (τ := τ) .tc main_v29) = val_main_v29 (F := F) (V (Proc.devRef (τ := τ) .tc main_arg0)) (V (Proc.devRef (τ := τ) .tc main_arg2)) (V (Proc.devRef (τ := τ) .tc main_arg3)) := (n main_v29 (by decide)).trans h_main_v29
  replace hA : ∀ r ∈ argRefs, V49 (Proc.devRef (τ := τ) .tc r) = V (Proc.devRef .tc r) :=
    fun r hr => (n r (ne_of_mem_of_not_mem hr (by decide))).trans (hA r hr)
  clear e n
  -- unary main_call2_cst → main_call2_v0
  refine step_unary (fun V50 e n => ?_)
  have h_main_call2_v0 : V50 (Proc.devRef (τ := τ) .tc main_call2_v0) = val_main_call2_v0 (F := F) := by
    rw [e, h_main_call2_cst]
    rfl
  replace h_main_v3 : V50 (Proc.devRef (τ := τ) .tc main_v3) = val_main_v3 (F := F) (V (Proc.devRef (τ := τ) .tc main_arg0)) := (n main_v3 (by decide)).trans h_main_v3
  replace h_main_v29 : V50 (Proc.devRef (τ := τ) .tc main_v29) = val_main_v29 (F := F) (V (Proc.devRef (τ := τ) .tc main_arg0)) (V (Proc.devRef (τ := τ) .tc main_arg2)) (V (Proc.devRef (τ := τ) .tc main_arg3)) := (n main_v29 (by decide)).trans h_main_v29
  clear h_main_call2_cst
  replace hA : ∀ r ∈ argRefs, V50 (Proc.devRef (τ := τ) .tc r) = V (Proc.devRef .tc r) :=
    fun r hr => (n r (ne_of_mem_of_not_mem hr (by decide))).trans (hA r hr)
  clear e n
  -- binary main_v29 main_call2_v0 → main_v30
  refine step_binary (fun V51 e n => ?_)
  have h_main_v30 : V51 (Proc.devRef (τ := τ) .tc main_v30) = val_main_v30 (F := F) (V (Proc.devRef (τ := τ) .tc main_arg0)) (V (Proc.devRef (τ := τ) .tc main_arg2)) (V (Proc.devRef (τ := τ) .tc main_arg3)) := by
    rw [e, h_main_v29, h_main_call2_v0]
    rfl
  replace h_main_v3 : V51 (Proc.devRef (τ := τ) .tc main_v3) = val_main_v3 (F := F) (V (Proc.devRef (τ := τ) .tc main_arg0)) := (n main_v3 (by decide)).trans h_main_v3
  clear h_main_v29
  clear h_main_call2_v0
  replace hA : ∀ r ∈ argRefs, V51 (Proc.devRef (τ := τ) .tc r) = V (Proc.devRef .tc r) :=
    fun r hr => (n r (ne_of_mem_of_not_mem hr (by decide))).trans (hA r hr)
  clear e n
  -- nullary  → main_cst_6
  refine step_nullary (fun V52 e n => ?_)
  have h_main_cst_6 : V52 (Proc.devRef (τ := τ) .tc main_cst_6) = val_main_cst_6 (F := F) := e
  replace h_main_v3 : V52 (Proc.devRef (τ := τ) .tc main_v3) = val_main_v3 (F := F) (V (Proc.devRef (τ := τ) .tc main_arg0)) := (n main_v3 (by decide)).trans h_main_v3
  replace h_main_v30 : V52 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace hA : ∀ r ∈ argRefs, V52 (Proc.devRef (τ := τ) .tc r) = V (Proc.devRef .tc r) :=
    fun r hr => (n r (ne_of_mem_of_not_mem hr (by decide))).trans (hA r hr)
  clear e n
  -- binary main_v30 main_cst_6 → main_v31
  refine step_binary (fun V53 e n => ?_)
  have h_main_v31 : V53 (Proc.devRef (τ := τ) .tc main_v31) = val_main_v31 (F := F) (V (Proc.devRef (τ := τ) .tc main_arg0)) (V (Proc.devRef (τ := τ) .tc main_arg2)) (V (Proc.devRef (τ := τ) .tc main_arg3)) := by
    rw [e, h_main_v30, h_main_cst_6]
    rfl
  replace h_main_v3 : V53 (Proc.devRef (τ := τ) .tc main_v3) = val_main_v3 (F := F) (V (Proc.devRef (τ := τ) .tc main_arg0)) := (n main_v3 (by decide)).trans h_main_v3
  replace h_main_v30 : V53 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  clear h_main_cst_6
  replace hA : ∀ r ∈ argRefs, V53 (Proc.devRef (τ := τ) .tc r) = V (Proc.devRef .tc r) :=
    fun r hr => (n r (ne_of_mem_of_not_mem hr (by decide))).trans (hA r hr)
  clear e n
  -- unary main_v31 → main_v32
  refine step_unary (fun V54 e n => ?_)
  have h_main_v32 : V54 (Proc.devRef (τ := τ) .tc main_v32) = val_main_v32 (F := F) (V (Proc.devRef (τ := τ) .tc main_arg0)) (V (Proc.devRef (τ := τ) .tc main_arg2)) (V (Proc.devRef (τ := τ) .tc main_arg3)) := by
    rw [e, h_main_v31]
    rfl
  replace h_main_v3 : V54 (Proc.devRef (τ := τ) .tc main_v3) = val_main_v3 (F := F) (V (Proc.devRef (τ := τ) .tc main_arg0)) := (n main_v3 (by decide)).trans h_main_v3
  replace h_main_v30 : V54 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  clear h_main_v31
  replace hA : ∀ r ∈ argRefs, V54 (Proc.devRef (τ := τ) .tc r) = V (Proc.devRef .tc r) :=
    fun r hr => (n r (ne_of_mem_of_not_mem hr (by decide))).trans (hA r hr)
  clear e n
  -- nullary  → main_cst_7
  refine step_nullary (fun V55 e n => ?_)
  have h_main_cst_7 : V55 (Proc.devRef (τ := τ) .tc main_cst_7) = val_main_cst_7 (F := F) := e
  replace h_main_v3 : V55 (Proc.devRef (τ := τ) .tc main_v3) = val_main_v3 (F := F) (V (Proc.devRef (τ := τ) .tc main_arg0)) := (n main_v3 (by decide)).trans h_main_v3
  replace h_main_v30 : V55 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v32 : V55 (Proc.devRef (τ := τ) .tc main_v32) = val_main_v32 (F := F) (V (Proc.devRef (τ := τ) .tc main_arg0)) (V (Proc.devRef (τ := τ) .tc main_arg2)) (V (Proc.devRef (τ := τ) .tc main_arg3)) := (n main_v32 (by decide)).trans h_main_v32
  replace hA : ∀ r ∈ argRefs, V55 (Proc.devRef (τ := τ) .tc r) = V (Proc.devRef .tc r) :=
    fun r hr => (n r (ne_of_mem_of_not_mem hr (by decide))).trans (hA r hr)
  clear e n
  -- unary main_cst_7 → main_v33
  refine step_unary (fun V56 e n => ?_)
  have h_main_v33 : V56 (Proc.devRef (τ := τ) .tc main_v33) = val_main_v33 (F := F) := by
    rw [e, h_main_cst_7]
    rfl
  replace h_main_v3 : V56 (Proc.devRef (τ := τ) .tc main_v3) = val_main_v3 (F := F) (V (Proc.devRef (τ := τ) .tc main_arg0)) := (n main_v3 (by decide)).trans h_main_v3
  replace h_main_v30 : V56 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v32 : V56 (Proc.devRef (τ := τ) .tc main_v32) = val_main_v32 (F := F) (V (Proc.devRef (τ := τ) .tc main_arg0)) (V (Proc.devRef (τ := τ) .tc main_arg2)) (V (Proc.devRef (τ := τ) .tc main_arg3)) := (n main_v32 (by decide)).trans h_main_v32
  clear h_main_cst_7
  replace hA : ∀ r ∈ argRefs, V56 (Proc.devRef (τ := τ) .tc r) = V (Proc.devRef .tc r) :=
    fun r hr => (n r (ne_of_mem_of_not_mem hr (by decide))).trans (hA r hr)
  clear e n
  -- binary main_v32 main_v33 → main_v34
  refine step_binary (fun V57 e n => ?_)
  have h_main_v34 : V57 (Proc.devRef (τ := τ) .tc main_v34) = val_main_v34 (F := F) (V (Proc.devRef (τ := τ) .tc main_arg0)) (V (Proc.devRef (τ := τ) .tc main_arg2)) (V (Proc.devRef (τ := τ) .tc main_arg3)) := by
    rw [e, h_main_v32, h_main_v33]
    rfl
  replace h_main_v3 : V57 (Proc.devRef (τ := τ) .tc main_v3) = val_main_v3 (F := F) (V (Proc.devRef (τ := τ) .tc main_arg0)) := (n main_v3 (by decide)).trans h_main_v3
  replace h_main_v30 : V57 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  clear h_main_v32
  clear h_main_v33
  replace hA : ∀ r ∈ argRefs, V57 (Proc.devRef (τ := τ) .tc r) = V (Proc.devRef .tc r) :=
    fun r hr => (n r (ne_of_mem_of_not_mem hr (by decide))).trans (hA r hr)
  clear e n
  -- unary main_v34 → main_v35
  refine step_unary (fun V58 e n => ?_)
  have h_main_v35 : V58 (Proc.devRef (τ := τ) .tc main_v35) = val_main_v35 (F := F) (V (Proc.devRef (τ := τ) .tc main_arg0)) (V (Proc.devRef (τ := τ) .tc main_arg2)) (V (Proc.devRef (τ := τ) .tc main_arg3)) := by
    rw [e, h_main_v34]
    rfl
  replace h_main_v3 : V58 (Proc.devRef (τ := τ) .tc main_v3) = val_main_v3 (F := F) (V (Proc.devRef (τ := τ) .tc main_arg0)) := (n main_v3 (by decide)).trans h_main_v3
  replace h_main_v30 : V58 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V58 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  replace hA : ∀ r ∈ argRefs, V58 (Proc.devRef (τ := τ) .tc r) = V (Proc.devRef .tc r) :=
    fun r hr => (n r (ne_of_mem_of_not_mem hr (by decide))).trans (hA r hr)
  clear e n
  -- binary main_v30 main_v35 → main_v36
  refine step_binary (fun V59 e n => ?_)
  have h_main_v36 : V59 (Proc.devRef (τ := τ) .tc main_v36) = val_main_v36 (F := F) (V (Proc.devRef (τ := τ) .tc main_arg0)) (V (Proc.devRef (τ := τ) .tc main_arg2)) (V (Proc.devRef (τ := τ) .tc main_arg3)) := by
    rw [e, h_main_v30, h_main_v35]
    rfl
  replace h_main_v3 : V59 (Proc.devRef (τ := τ) .tc main_v3) = val_main_v3 (F := F) (V (Proc.devRef (τ := τ) .tc main_arg0)) := (n main_v3 (by decide)).trans h_main_v3
  replace h_main_v30 : V59 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V59 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  clear h_main_v35
  replace hA : ∀ r ∈ argRefs, V59 (Proc.devRef (τ := τ) .tc r) = V (Proc.devRef .tc r) :=
    fun r hr => (n r (ne_of_mem_of_not_mem hr (by decide))).trans (hA r hr)
  clear e n
  -- binary main_v36 main_v36 → main_v37
  refine step_binary (fun V60 e n => ?_)
  have h_main_v37 : V60 (Proc.devRef (τ := τ) .tc main_v37) = val_main_v37 (F := F) (V (Proc.devRef (τ := τ) .tc main_arg0)) (V (Proc.devRef (τ := τ) .tc main_arg2)) (V (Proc.devRef (τ := τ) .tc main_arg3)) := by
    rw [e, h_main_v36]
    rfl
  replace h_main_v3 : V60 (Proc.devRef (τ := τ) .tc main_v3) = val_main_v3 (F := F) (V (Proc.devRef (τ := τ) .tc main_arg0)) := (n main_v3 (by decide)).trans h_main_v3
  replace h_main_v30 : V60 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V60 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  clear h_main_v36
  replace hA : ∀ r ∈ argRefs, V60 (Proc.devRef (τ := τ) .tc r) = V (Proc.devRef .tc r) :=
    fun r hr => (n r (ne_of_mem_of_not_mem hr (by decide))).trans (hA r hr)
  clear e n
  -- nullary  → main_cst_8
  refine step_nullary (fun V61 e n => ?_)
  have h_main_cst_8 : V61 (Proc.devRef (τ := τ) .tc main_cst_8) = val_main_cst_8 (F := F) := e
  replace h_main_v3 : V61 (Proc.devRef (τ := τ) .tc main_v3) = val_main_v3 (F := F) (V (Proc.devRef (τ := τ) .tc main_arg0)) := (n main_v3 (by decide)).trans h_main_v3
  replace h_main_v30 : V61 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V61 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  replace h_main_v37 : V61 (Proc.devRef (τ := τ) .tc main_v37) = val_main_v37 (F := F) (V (Proc.devRef (τ := τ) .tc main_arg0)) (V (Proc.devRef (τ := τ) .tc main_arg2)) (V (Proc.devRef (τ := τ) .tc main_arg3)) := (n main_v37 (by decide)).trans h_main_v37
  replace hA : ∀ r ∈ argRefs, V61 (Proc.devRef (τ := τ) .tc r) = V (Proc.devRef .tc r) :=
    fun r hr => (n r (ne_of_mem_of_not_mem hr (by decide))).trans (hA r hr)
  clear e n
  -- binary main_v37 main_cst_8 → main_v38
  refine step_binary (fun V62 e n => ?_)
  have h_main_v38 : V62 (Proc.devRef (τ := τ) .tc main_v38) = val_main_v38 (F := F) (V (Proc.devRef (τ := τ) .tc main_arg0)) (V (Proc.devRef (τ := τ) .tc main_arg2)) (V (Proc.devRef (τ := τ) .tc main_arg3)) := by
    rw [e, h_main_v37, h_main_cst_8]
    rfl
  replace h_main_v3 : V62 (Proc.devRef (τ := τ) .tc main_v3) = val_main_v3 (F := F) (V (Proc.devRef (τ := τ) .tc main_arg0)) := (n main_v3 (by decide)).trans h_main_v3
  replace h_main_v30 : V62 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V62 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  clear h_main_v37
  clear h_main_cst_8
  replace hA : ∀ r ∈ argRefs, V62 (Proc.devRef (τ := τ) .tc r) = V (Proc.devRef .tc r) :=
    fun r hr => (n r (ne_of_mem_of_not_mem hr (by decide))).trans (hA r hr)
  clear e n
  -- unary main_v38 → main_v39
  refine step_unary (fun V63 e n => ?_)
  have h_main_v39 : V63 (Proc.devRef (τ := τ) .tc main_v39) = val_main_v39 (F := F) (V (Proc.devRef (τ := τ) .tc main_arg0)) (V (Proc.devRef (τ := τ) .tc main_arg2)) (V (Proc.devRef (τ := τ) .tc main_arg3)) := by
    rw [e, h_main_v38]
    rfl
  replace h_main_v3 : V63 (Proc.devRef (τ := τ) .tc main_v3) = val_main_v3 (F := F) (V (Proc.devRef (τ := τ) .tc main_arg0)) := (n main_v3 (by decide)).trans h_main_v3
  replace h_main_v30 : V63 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V63 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  clear h_main_v38
  replace hA : ∀ r ∈ argRefs, V63 (Proc.devRef (τ := τ) .tc r) = V (Proc.devRef .tc r) :=
    fun r hr => (n r (ne_of_mem_of_not_mem hr (by decide))).trans (hA r hr)
  clear e n
  -- nullary  → main_cst_9
  refine step_nullary (fun V64 e n => ?_)
  have h_main_cst_9 : V64 (Proc.devRef (τ := τ) .tc main_cst_9) = val_main_cst_9 (F := F) := e
  replace h_main_v3 : V64 (Proc.devRef (τ := τ) .tc main_v3) = val_main_v3 (F := F) (V (Proc.devRef (τ := τ) .tc main_arg0)) := (n main_v3 (by decide)).trans h_main_v3
  replace h_main_v30 : V64 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V64 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  replace h_main_v39 : V64 (Proc.devRef (τ := τ) .tc main_v39) = val_main_v39 (F := F) (V (Proc.devRef (τ := τ) .tc main_arg0)) (V (Proc.devRef (τ := τ) .tc main_arg2)) (V (Proc.devRef (τ := τ) .tc main_arg3)) := (n main_v39 (by decide)).trans h_main_v39
  replace hA : ∀ r ∈ argRefs, V64 (Proc.devRef (τ := τ) .tc r) = V (Proc.devRef .tc r) :=
    fun r hr => (n r (ne_of_mem_of_not_mem hr (by decide))).trans (hA r hr)
  clear e n
  -- unary main_cst_9 → main_v40
  refine step_unary (fun V65 e n => ?_)
  have h_main_v40 : V65 (Proc.devRef (τ := τ) .tc main_v40) = val_main_v40 (F := F) := by
    rw [e, h_main_cst_9]
    rfl
  replace h_main_v3 : V65 (Proc.devRef (τ := τ) .tc main_v3) = val_main_v3 (F := F) (V (Proc.devRef (τ := τ) .tc main_arg0)) := (n main_v3 (by decide)).trans h_main_v3
  replace h_main_v30 : V65 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V65 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  replace h_main_v39 : V65 (Proc.devRef (τ := τ) .tc main_v39) = val_main_v39 (F := F) (V (Proc.devRef (τ := τ) .tc main_arg0)) (V (Proc.devRef (τ := τ) .tc main_arg2)) (V (Proc.devRef (τ := τ) .tc main_arg3)) := (n main_v39 (by decide)).trans h_main_v39
  clear h_main_cst_9
  replace hA : ∀ r ∈ argRefs, V65 (Proc.devRef (τ := τ) .tc r) = V (Proc.devRef .tc r) :=
    fun r hr => (n r (ne_of_mem_of_not_mem hr (by decide))).trans (hA r hr)
  clear e n
  -- binary main_v39 main_v40 → main_v41
  refine step_binary (fun V66 e n => ?_)
  have h_main_v41 : V66 (Proc.devRef (τ := τ) .tc main_v41) = val_main_v41 (F := F) (V (Proc.devRef (τ := τ) .tc main_arg0)) (V (Proc.devRef (τ := τ) .tc main_arg2)) (V (Proc.devRef (τ := τ) .tc main_arg3)) := by
    rw [e, h_main_v39, h_main_v40]
    rfl
  replace h_main_v3 : V66 (Proc.devRef (τ := τ) .tc main_v3) = val_main_v3 (F := F) (V (Proc.devRef (τ := τ) .tc main_arg0)) := (n main_v3 (by decide)).trans h_main_v3
  replace h_main_v30 : V66 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  replace h_main_v34 : V66 (Proc.devRef (τ := τ) .tc main_v34) = val_main_v34 (F := F) (V (Proc.devRef (τ := τ) .tc main_arg0)) (V (Proc.devRef (τ := τ) .tc main_arg2)) (V (Proc.devRef (τ := τ) .tc main_arg3)) := (n main_v34 (by decide)).trans h_main_v34
  clear h_main_v39
  clear h_main_v40
  replace hA : ∀ r ∈ argRefs, V66 (Proc.devRef (τ := τ) .tc r) = V (Proc.devRef .tc r) :=
    fun r hr => (n r (ne_of_mem_of_not_mem hr (by decide))).trans (hA r hr)
  clear e n
  -- unary main_v34 → main_v42
  refine step_unary (fun V67 e n => ?_)
  have h_main_v42 : V67 (Proc.devRef (τ := τ) .tc main_v42) = val_main_v42 (F := F) (V (Proc.devRef (τ := τ) .tc main_arg0)) (V (Proc.devRef (τ := τ) .tc main_arg2)) (V (Proc.devRef (τ := τ) .tc main_arg3)) := by
    rw [e, h_main_v34]
    rfl
  replace h_main_v3 : V67 (Proc.devRef (τ := τ) .tc main_v3) = val_main_v3 (F := F) (V (Proc.devRef (τ := τ) .tc main_arg0)) := (n main_v3 (by decide)).trans h_main_v3
  replace h_main_v30 : V67 (Proc.devRef (τ := τ) .tc main_v30) = val_main_v30 (F := F) (V (Proc.devRef (τ := τ) .tc main_arg0)) (V (Proc.devRef (τ := τ) .tc main_arg2)) (V (Proc.devRef (τ := τ) .tc main_arg3)) := (n main_v30 (by decide)).trans h_main_v30
  clear h_main_v34
  replace h_main_v41 : V67 (Proc.devRef (τ := τ) .tc main_v41) = val_main_v41 (F := F) (V (Proc.devRef (τ := τ) .tc main_arg0)) (V (Proc.devRef (τ := τ) .tc main_arg2)) (V (Proc.devRef (τ := τ) .tc main_arg3)) := (n main_v41 (by decide)).trans h_main_v41
  replace hA : ∀ r ∈ argRefs, V67 (Proc.devRef (τ := τ) .tc r) = V (Proc.devRef .tc r) :=
    fun r hr => (n r (ne_of_mem_of_not_mem hr (by decide))).trans (hA r hr)
  clear e n
  -- binary main_v30 main_v42 → main_v43
  refine step_binary (fun V68 e n => ?_)
  have h_main_v43 : V68 (Proc.devRef (τ := τ) .tc main_v43) = val_main_v43 (F := F) (V (Proc.devRef (τ := τ) .tc main_arg0)) (V (Proc.devRef (τ := τ) .tc main_arg2)) (V (Proc.devRef (τ := τ) .tc main_arg3)) := by
    rw [e, h_main_v30, h_main_v42]
    rfl
  replace h_main_v3 : V68 (Proc.devRef (τ := τ) .tc main_v3) = val_main_v3 (F := F) (V (Proc.devRef (τ := τ) .tc main_arg0)) := (n main_v3 (by decide)).trans h_main_v3
  clear h_main_v30
  replace h_main_v41 : V68 (Proc.devRef (τ := τ) .tc main_v41) = val_main_v41 (F := F) (V (Proc.devRef (τ := τ) .tc main_arg0)) (V (Proc.devRef (τ := τ) .tc main_arg2)) (V (Proc.devRef (τ := τ) .tc main_arg3)) := (n main_v41 (by decide)).trans h_main_v41
  clear h_main_v42
  replace hA : ∀ r ∈ argRefs, V68 (Proc.devRef (τ := τ) .tc r) = V (Proc.devRef .tc r) :=
    fun r hr => (n r (ne_of_mem_of_not_mem hr (by decide))).trans (hA r hr)
  clear e n
  -- nullary  → main_cst_10
  refine step_nullary (fun V69 e n => ?_)
  have h_main_cst_10 : V69 (Proc.devRef (τ := τ) .tc main_cst_10) = val_main_cst_10 (F := F) := e
  replace h_main_v3 : V69 (Proc.devRef (τ := τ) .tc main_v3) = val_main_v3 (F := F) (V (Proc.devRef (τ := τ) .tc main_arg0)) := (n main_v3 (by decide)).trans h_main_v3
  replace h_main_v41 : V69 (Proc.devRef (τ := τ) .tc main_v41) = val_main_v41 (F := F) (V (Proc.devRef (τ := τ) .tc main_arg0)) (V (Proc.devRef (τ := τ) .tc main_arg2)) (V (Proc.devRef (τ := τ) .tc main_arg3)) := (n main_v41 (by decide)).trans h_main_v41
  replace h_main_v43 : V69 (Proc.devRef (τ := τ) .tc main_v43) = val_main_v43 (F := F) (V (Proc.devRef (τ := τ) .tc main_arg0)) (V (Proc.devRef (τ := τ) .tc main_arg2)) (V (Proc.devRef (τ := τ) .tc main_arg3)) := (n main_v43 (by decide)).trans h_main_v43
  replace hA : ∀ r ∈ argRefs, V69 (Proc.devRef (τ := τ) .tc r) = V (Proc.devRef .tc r) :=
    fun r hr => (n r (ne_of_mem_of_not_mem hr (by decide))).trans (hA r hr)
  clear e n
  -- unary main_cst_10 → main_v44
  refine step_unary (fun V70 e n => ?_)
  have h_main_v44 : V70 (Proc.devRef (τ := τ) .tc main_v44) = val_main_v44 (F := F) := by
    rw [e, h_main_cst_10]
    rfl
  replace h_main_v3 : V70 (Proc.devRef (τ := τ) .tc main_v3) = val_main_v3 (F := F) (V (Proc.devRef (τ := τ) .tc main_arg0)) := (n main_v3 (by decide)).trans h_main_v3
  replace h_main_v41 : V70 (Proc.devRef (τ := τ) .tc main_v41) = val_main_v41 (F := F) (V (Proc.devRef (τ := τ) .tc main_arg0)) (V (Proc.devRef (τ := τ) .tc main_arg2)) (V (Proc.devRef (τ := τ) .tc main_arg3)) := (n main_v41 (by decide)).trans h_main_v41
  replace h_main_v43 : V70 (Proc.devRef (τ := τ) .tc main_v43) = val_main_v43 (F := F) (V (Proc.devRef (τ := τ) .tc main_arg0)) (V (Proc.devRef (τ := τ) .tc main_arg2)) (V (Proc.devRef (τ := τ) .tc main_arg3)) := (n main_v43 (by decide)).trans h_main_v43
  clear h_main_cst_10
  replace hA : ∀ r ∈ argRefs, V70 (Proc.devRef (τ := τ) .tc r) = V (Proc.devRef .tc r) :=
    fun r hr => (n r (ne_of_mem_of_not_mem hr (by decide))).trans (hA r hr)
  clear e n
  -- binary main_v41 main_v44 → main_v45
  refine step_binary (fun V71 e n => ?_)
  have h_main_v45 : V71 (Proc.devRef (τ := τ) .tc main_v45) = val_main_v45 (F := F) (V (Proc.devRef (τ := τ) .tc main_arg0)) (V (Proc.devRef (τ := τ) .tc main_arg2)) (V (Proc.devRef (τ := τ) .tc main_arg3)) := by
    rw [e, h_main_v41, h_main_v44]
    rfl
  replace h_main_v3 : V71 (Proc.devRef (τ := τ) .tc main_v3) = val_main_v3 (F := F) (V (Proc.devRef (τ := τ) .tc main_arg0)) := (n main_v3 (by decide)).trans h_main_v3
  clear h_main_v41
  replace h_main_v43 : V71 (Proc.devRef (τ := τ) .tc main_v43) = val_main_v43 (F := F) (V (Proc.devRef (τ := τ) .tc main_arg0)) (V (Proc.devRef (τ := τ) .tc main_arg2)) (V (Proc.devRef (τ := τ) .tc main_arg3)) := (n main_v43 (by decide)).trans h_main_v43
  clear h_main_v44
  replace hA : ∀ r ∈ argRefs, V71 (Proc.devRef (τ := τ) .tc r) = V (Proc.devRef .tc r) :=
    fun r hr => (n r (ne_of_mem_of_not_mem hr (by decide))).trans (hA r hr)
  clear e n
  -- unary main_v45 → main_v46
  refine step_unary (fun V72 e n => ?_)
  have h_main_v46 : V72 (Proc.devRef (τ := τ) .tc main_v46) = val_main_v46 (F := F) (V (Proc.devRef (τ := τ) .tc main_arg0)) (V (Proc.devRef (τ := τ) .tc main_arg2)) (V (Proc.devRef (τ := τ) .tc main_arg3)) := by
    rw [e, h_main_v45]
    rfl
  replace h_main_v3 : V72 (Proc.devRef (τ := τ) .tc main_v3) = val_main_v3 (F := F) (V (Proc.devRef (τ := τ) .tc main_arg0)) := (n main_v3 (by decide)).trans h_main_v3
  replace h_main_v43 : V72 (Proc.devRef (τ := τ) .tc main_v43) = val_main_v43 (F := F) (V (Proc.devRef (τ := τ) .tc main_arg0)) (V (Proc.devRef (τ := τ) .tc main_arg2)) (V (Proc.devRef (τ := τ) .tc main_arg3)) := (n main_v43 (by decide)).trans h_main_v43
  clear h_main_v45
  replace hA : ∀ r ∈ argRefs, V72 (Proc.devRef (τ := τ) .tc r) = V (Proc.devRef .tc r) :=
    fun r hr => (n r (ne_of_mem_of_not_mem hr (by decide))).trans (hA r hr)
  clear e n
  -- unary main_v46 → main_v47
  refine step_unary (fun V73 e n => ?_)
  have h_main_v47 : V73 (Proc.devRef (τ := τ) .tc main_v47) = val_main_v47 (F := F) (V (Proc.devRef (τ := τ) .tc main_arg0)) (V (Proc.devRef (τ := τ) .tc main_arg2)) (V (Proc.devRef (τ := τ) .tc main_arg3)) := by
    rw [e, h_main_v46]
    rfl
  replace h_main_v3 : V73 (Proc.devRef (τ := τ) .tc main_v3) = val_main_v3 (F := F) (V (Proc.devRef (τ := τ) .tc main_arg0)) := (n main_v3 (by decide)).trans h_main_v3
  replace h_main_v43 : V73 (Proc.devRef (τ := τ) .tc main_v43) = val_main_v43 (F := F) (V (Proc.devRef (τ := τ) .tc main_arg0)) (V (Proc.devRef (τ := τ) .tc main_arg2)) (V (Proc.devRef (τ := τ) .tc main_arg3)) := (n main_v43 (by decide)).trans h_main_v43
  clear h_main_v46
  replace hA : ∀ r ∈ argRefs, V73 (Proc.devRef (τ := τ) .tc r) = V (Proc.devRef .tc r) :=
    fun r hr => (n r (ne_of_mem_of_not_mem hr (by decide))).trans (hA r hr)
  clear e n
  -- binary main_v43 main_v47 → main_v48
  refine step_binary (fun V74 e n => ?_)
  have h_main_v48 : V74 (Proc.devRef (τ := τ) .tc main_v48) = val_main_v48 (F := F) (V (Proc.devRef (τ := τ) .tc main_arg0)) (V (Proc.devRef (τ := τ) .tc main_arg2)) (V (Proc.devRef (τ := τ) .tc main_arg3)) := by
    rw [e, h_main_v43, h_main_v47]
    rfl
  replace h_main_v3 : V74 (Proc.devRef (τ := τ) .tc main_v3) = val_main_v3 (F := F) (V (Proc.devRef (τ := τ) .tc main_arg0)) := (n main_v3 (by decide)).trans h_main_v3
  clear h_main_v43
  clear h_main_v47
  replace hA : ∀ r ∈ argRefs, V74 (Proc.devRef (τ := τ) .tc r) = V (Proc.devRef .tc r) :=
    fun r hr => (n r (ne_of_mem_of_not_mem hr (by decide))).trans (hA r hr)
  clear e n
  -- unary main_arg4 → main_v49
  refine step_unary (fun V75 e n => ?_)
  have h_main_v49 : V75 (Proc.devRef (τ := τ) .tc main_v49) = val_main_v49 (F := F) (V (Proc.devRef (τ := τ) .tc main_arg4)) := by
    rw [e, hA main_arg4 (by decide)]
    rfl
  replace h_main_v3 : V75 (Proc.devRef (τ := τ) .tc main_v3) = val_main_v3 (F := F) (V (Proc.devRef (τ := τ) .tc main_arg0)) := (n main_v3 (by decide)).trans h_main_v3
  replace h_main_v48 : V75 (Proc.devRef (τ := τ) .tc main_v48) = val_main_v48 (F := F) (V (Proc.devRef (τ := τ) .tc main_arg0)) (V (Proc.devRef (τ := τ) .tc main_arg2)) (V (Proc.devRef (τ := τ) .tc main_arg3)) := (n main_v48 (by decide)).trans h_main_v48
  replace hA : ∀ r ∈ argRefs, V75 (Proc.devRef (τ := τ) .tc r) = V (Proc.devRef .tc r) :=
    fun r hr => (n r (ne_of_mem_of_not_mem hr (by decide))).trans (hA r hr)
  clear e n
  -- unary main_v49 → main_v50
  refine step_unary (fun V76 e n => ?_)
  have h_main_v50 : V76 (Proc.devRef (τ := τ) .tc main_v50) = val_main_v50 (F := F) (V (Proc.devRef (τ := τ) .tc main_arg4)) := by
    rw [e, h_main_v49]
    rfl
  replace h_main_v3 : V76 (Proc.devRef (τ := τ) .tc main_v3) = val_main_v3 (F := F) (V (Proc.devRef (τ := τ) .tc main_arg0)) := (n main_v3 (by decide)).trans h_main_v3
  replace h_main_v48 : V76 (Proc.devRef (τ := τ) .tc main_v48) = val_main_v48 (F := F) (V (Proc.devRef (τ := τ) .tc main_arg0)) (V (Proc.devRef (τ := τ) .tc main_arg2)) (V (Proc.devRef (τ := τ) .tc main_arg3)) := (n main_v48 (by decide)).trans h_main_v48
  clear h_main_v49
  replace hA : ∀ r ∈ argRefs, V76 (Proc.devRef (τ := τ) .tc r) = V (Proc.devRef .tc r) :=
    fun r hr => (n r (ne_of_mem_of_not_mem hr (by decide))).trans (hA r hr)
  clear e n
  -- binary main_v48 main_v50 → main_v51
  refine step_binary (fun V77 e n => ?_)
  have h_main_v51 : V77 (Proc.devRef (τ := τ) .tc main_v51) = val_main_v51 (F := F) (V (Proc.devRef (τ := τ) .tc main_arg0)) (V (Proc.devRef (τ := τ) .tc main_arg2)) (V (Proc.devRef (τ := τ) .tc main_arg3)) (V (Proc.devRef (τ := τ) .tc main_arg4)) := by
    rw [e, h_main_v48, h_main_v50]
    rfl
  replace h_main_v3 : V77 (Proc.devRef (τ := τ) .tc main_v3) = val_main_v3 (F := F) (V (Proc.devRef (τ := τ) .tc main_arg0)) := (n main_v3 (by decide)).trans h_main_v3
  clear h_main_v48
  clear h_main_v50
  replace hA : ∀ r ∈ argRefs, V77 (Proc.devRef (τ := τ) .tc r) = V (Proc.devRef .tc r) :=
    fun r hr => (n r (ne_of_mem_of_not_mem hr (by decide))).trans (hA r hr)
  clear e n
  -- unary main_arg5 → main_v52
  refine step_unary (fun V78 e n => ?_)
  have h_main_v52 : V78 (Proc.devRef (τ := τ) .tc main_v52) = val_main_v52 (F := F) (V (Proc.devRef (τ := τ) .tc main_arg5)) := by
    rw [e, hA main_arg5 (by decide)]
    rfl
  replace h_main_v3 : V78 (Proc.devRef (τ := τ) .tc main_v3) = val_main_v3 (F := F) (V (Proc.devRef (τ := τ) .tc main_arg0)) := (n main_v3 (by decide)).trans h_main_v3
  replace h_main_v51 : V78 (Proc.devRef (τ := τ) .tc main_v51) = val_main_v51 (F := F) (V (Proc.devRef (τ := τ) .tc main_arg0)) (V (Proc.devRef (τ := τ) .tc main_arg2)) (V (Proc.devRef (τ := τ) .tc main_arg3)) (V (Proc.devRef (τ := τ) .tc main_arg4)) := (n main_v51 (by decide)).trans h_main_v51
  replace hA : ∀ r ∈ argRefs, V78 (Proc.devRef (τ := τ) .tc r) = V (Proc.devRef .tc r) :=
    fun r hr => (n r (ne_of_mem_of_not_mem hr (by decide))).trans (hA r hr)
  clear e n
  -- unary main_v52 → main_v53
  refine step_unary (fun V79 e n => ?_)
  have h_main_v53 : V79 (Proc.devRef (τ := τ) .tc main_v53) = val_main_v53 (F := F) (V (Proc.devRef (τ := τ) .tc main_arg5)) := by
    rw [e, h_main_v52]
    rfl
  replace h_main_v3 : V79 (Proc.devRef (τ := τ) .tc main_v3) = val_main_v3 (F := F) (V (Proc.devRef (τ := τ) .tc main_arg0)) := (n main_v3 (by decide)).trans h_main_v3
  replace h_main_v51 : V79 (Proc.devRef (τ := τ) .tc main_v51) = val_main_v51 (F := F) (V (Proc.devRef (τ := τ) .tc main_arg0)) (V (Proc.devRef (τ := τ) .tc main_arg2)) (V (Proc.devRef (τ := τ) .tc main_arg3)) (V (Proc.devRef (τ := τ) .tc main_arg4)) := (n main_v51 (by decide)).trans h_main_v51
  clear h_main_v52
  replace hA : ∀ r ∈ argRefs, V79 (Proc.devRef (τ := τ) .tc r) = V (Proc.devRef .tc r) :=
    fun r hr => (n r (ne_of_mem_of_not_mem hr (by decide))).trans (hA r hr)
  clear e n
  -- binary main_v51 main_v53 → main_v54
  refine step_binary (fun V80 e n => ?_)
  have h_main_v54 : V80 (Proc.devRef (τ := τ) .tc main_v54) = val_main_v54 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) := by
    rw [e, h_main_v51, h_main_v53]
    rfl
  replace h_main_v3 : V80 (Proc.devRef (τ := τ) .tc main_v3) = val_main_v3 (F := F) (V (Proc.devRef (τ := τ) .tc main_arg0)) := (n main_v3 (by decide)).trans h_main_v3
  clear h_main_v51
  clear h_main_v53
  replace hA : ∀ r ∈ argRefs, V80 (Proc.devRef (τ := τ) .tc r) = V (Proc.devRef .tc r) :=
    fun r hr => (n r (ne_of_mem_of_not_mem hr (by decide))).trans (hA r hr)
  clear e n
  -- binary main_v54 main_arg6 → main_v55
  refine step_binary (fun V81 e n => ?_)
  have h_main_v55 : V81 (Proc.devRef (τ := τ) .tc main_v55) = val_main_v55 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) := by
    rw [e, h_main_v54, hA main_arg6 (by decide)]
    rfl
  replace h_main_v3 : V81 (Proc.devRef (τ := τ) .tc main_v3) = val_main_v3 (F := F) (V (Proc.devRef (τ := τ) .tc main_arg0)) := (n main_v3 (by decide)).trans h_main_v3
  clear h_main_v54
  replace hA : ∀ r ∈ argRefs, V81 (Proc.devRef (τ := τ) .tc r) = V (Proc.devRef .tc r) :=
    fun r hr => (n r (ne_of_mem_of_not_mem hr (by decide))).trans (hA r hr)
  clear e n
  -- unary main_arg7 → main_v56
  refine step_unary (fun V82 e n => ?_)
  have h_main_v56 : V82 (Proc.devRef (τ := τ) .tc main_v56) = val_main_v56 (F := F) (V (Proc.devRef (τ := τ) .tc main_arg7)) := by
    rw [e, hA main_arg7 (by decide)]
    rfl
  replace h_main_v3 : V82 (Proc.devRef (τ := τ) .tc main_v3) = val_main_v3 (F := F) (V (Proc.devRef (τ := τ) .tc main_arg0)) := (n main_v3 (by decide)).trans h_main_v3
  replace h_main_v55 : V82 (Proc.devRef (τ := τ) .tc main_v55) = val_main_v55 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) := (n main_v55 (by decide)).trans h_main_v55
  replace hA : ∀ r ∈ argRefs, V82 (Proc.devRef (τ := τ) .tc r) = V (Proc.devRef .tc r) :=
    fun r hr => (n r (ne_of_mem_of_not_mem hr (by decide))).trans (hA r hr)
  clear e n
  -- unary main_v56 → main_v57
  refine step_unary (fun V83 e n => ?_)
  have h_main_v57 : V83 (Proc.devRef (τ := τ) .tc main_v57) = val_main_v57 (F := F) (V (Proc.devRef (τ := τ) .tc main_arg7)) := by
    rw [e, h_main_v56]
    rfl
  replace h_main_v3 : V83 (Proc.devRef (τ := τ) .tc main_v3) = val_main_v3 (F := F) (V (Proc.devRef (τ := τ) .tc main_arg0)) := (n main_v3 (by decide)).trans h_main_v3
  replace h_main_v55 : V83 (Proc.devRef (τ := τ) .tc main_v55) = val_main_v55 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) := (n main_v55 (by decide)).trans h_main_v55
  clear h_main_v56
  replace hA : ∀ r ∈ argRefs, V83 (Proc.devRef (τ := τ) .tc r) = V (Proc.devRef .tc r) :=
    fun r hr => (n r (ne_of_mem_of_not_mem hr (by decide))).trans (hA r hr)
  clear e n
  -- binary main_v55 main_v57 → main_v58
  refine step_binary (fun V84 e n => ?_)
  have h_main_v58 : V84 (Proc.devRef (τ := τ) .tc main_v58) = val_main_v58 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v55, h_main_v57]
    rfl
  replace h_main_v3 : V84 (Proc.devRef (τ := τ) .tc main_v3) = val_main_v3 (F := F) (V (Proc.devRef (τ := τ) .tc main_arg0)) := (n main_v3 (by decide)).trans h_main_v3
  clear h_main_v55
  clear h_main_v57
  replace hA : ∀ r ∈ argRefs, V84 (Proc.devRef (τ := τ) .tc r) = V (Proc.devRef .tc r) :=
    fun r hr => (n r (ne_of_mem_of_not_mem hr (by decide))).trans (hA r hr)
  clear e n
  -- nullary  → main_call3_cst
  refine step_nullary (fun V85 e n => ?_)
  have h_main_call3_cst : V85 (Proc.devRef (τ := τ) .tc main_call3_cst) = val_main_call3_cst (F := F) := e
  replace h_main_v3 : V85 (Proc.devRef (τ := τ) .tc main_v3) = val_main_v3 (F := F) (V (Proc.devRef (τ := τ) .tc main_arg0)) := (n main_v3 (by decide)).trans h_main_v3
  replace h_main_v58 : V85 (Proc.devRef (τ := τ) .tc main_v58) = val_main_v58 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v58 (by decide)).trans h_main_v58
  replace hA : ∀ r ∈ argRefs, V85 (Proc.devRef (τ := τ) .tc r) = V (Proc.devRef .tc r) :=
    fun r hr => (n r (ne_of_mem_of_not_mem hr (by decide))).trans (hA r hr)
  clear e n
  -- unary main_call3_cst → main_call3_v0
  refine step_unary (fun V86 e n => ?_)
  have h_main_call3_v0 : V86 (Proc.devRef (τ := τ) .tc main_call3_v0) = val_main_call3_v0 (F := F) := by
    rw [e, h_main_call3_cst]
    rfl
  replace h_main_v3 : V86 (Proc.devRef (τ := τ) .tc main_v3) = val_main_v3 (F := F) (V (Proc.devRef (τ := τ) .tc main_arg0)) := (n main_v3 (by decide)).trans h_main_v3
  replace h_main_v58 : V86 (Proc.devRef (τ := τ) .tc main_v58) = val_main_v58 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v58 (by decide)).trans h_main_v58
  clear h_main_call3_cst
  replace hA : ∀ r ∈ argRefs, V86 (Proc.devRef (τ := τ) .tc r) = V (Proc.devRef .tc r) :=
    fun r hr => (n r (ne_of_mem_of_not_mem hr (by decide))).trans (hA r hr)
  clear e n
  -- binary main_v58 main_call3_v0 → main_v59
  refine step_binary (fun V87 e n => ?_)
  have h_main_v59 : V87 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v58, h_main_call3_v0]
    rfl
  replace h_main_v3 : V87 (Proc.devRef (τ := τ) .tc main_v3) = val_main_v3 (F := F) (V (Proc.devRef (τ := τ) .tc main_arg0)) := (n main_v3 (by decide)).trans h_main_v3
  clear h_main_v58
  clear h_main_call3_v0
  replace hA : ∀ r ∈ argRefs, V87 (Proc.devRef (τ := τ) .tc r) = V (Proc.devRef .tc r) :=
    fun r hr => (n r (ne_of_mem_of_not_mem hr (by decide))).trans (hA r hr)
  clear e n
  -- nullary  → main_cst_11
  refine step_nullary (fun V88 e n => ?_)
  have h_main_cst_11 : V88 (Proc.devRef (τ := τ) .tc main_cst_11) = val_main_cst_11 (F := F) := e
  replace h_main_v3 : V88 (Proc.devRef (τ := τ) .tc main_v3) = val_main_v3 (F := F) (V (Proc.devRef (τ := τ) .tc main_arg0)) := (n main_v3 (by decide)).trans h_main_v3
  replace h_main_v59 : V88 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace hA : ∀ r ∈ argRefs, V88 (Proc.devRef (τ := τ) .tc r) = V (Proc.devRef .tc r) :=
    fun r hr => (n r (ne_of_mem_of_not_mem hr (by decide))).trans (hA r hr)
  clear e n
  -- binary main_v59 main_cst_11 → main_v60
  refine step_binary (fun V89 e n => ?_)
  have h_main_v60 : V89 (Proc.devRef (τ := τ) .tc main_v60) = val_main_v60 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v59, h_main_cst_11]
    rfl
  replace h_main_v3 : V89 (Proc.devRef (τ := τ) .tc main_v3) = val_main_v3 (F := F) (V (Proc.devRef (τ := τ) .tc main_arg0)) := (n main_v3 (by decide)).trans h_main_v3
  replace h_main_v59 : V89 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  clear h_main_cst_11
  replace hA : ∀ r ∈ argRefs, V89 (Proc.devRef (τ := τ) .tc r) = V (Proc.devRef .tc r) :=
    fun r hr => (n r (ne_of_mem_of_not_mem hr (by decide))).trans (hA r hr)
  clear e n
  -- unary main_v60 → main_v61
  refine step_unary (fun V90 e n => ?_)
  have h_main_v61 : V90 (Proc.devRef (τ := τ) .tc main_v61) = val_main_v61 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v60]
    rfl
  replace h_main_v3 : V90 (Proc.devRef (τ := τ) .tc main_v3) = val_main_v3 (F := F) (V (Proc.devRef (τ := τ) .tc main_arg0)) := (n main_v3 (by decide)).trans h_main_v3
  replace h_main_v59 : V90 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  clear h_main_v60
  replace hA : ∀ r ∈ argRefs, V90 (Proc.devRef (τ := τ) .tc r) = V (Proc.devRef .tc r) :=
    fun r hr => (n r (ne_of_mem_of_not_mem hr (by decide))).trans (hA r hr)
  clear e n
  -- nullary  → main_cst_12
  refine step_nullary (fun V91 e n => ?_)
  have h_main_cst_12 : V91 (Proc.devRef (τ := τ) .tc main_cst_12) = val_main_cst_12 (F := F) := e
  replace h_main_v3 : V91 (Proc.devRef (τ := τ) .tc main_v3) = val_main_v3 (F := F) (V (Proc.devRef (τ := τ) .tc main_arg0)) := (n main_v3 (by decide)).trans h_main_v3
  replace h_main_v59 : V91 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v61 : V91 (Proc.devRef (τ := τ) .tc main_v61) = val_main_v61 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v61 (by decide)).trans h_main_v61
  replace hA : ∀ r ∈ argRefs, V91 (Proc.devRef (τ := τ) .tc r) = V (Proc.devRef .tc r) :=
    fun r hr => (n r (ne_of_mem_of_not_mem hr (by decide))).trans (hA r hr)
  clear e n
  -- unary main_cst_12 → main_v62
  refine step_unary (fun V92 e n => ?_)
  have h_main_v62 : V92 (Proc.devRef (τ := τ) .tc main_v62) = val_main_v62 (F := F) := by
    rw [e, h_main_cst_12]
    rfl
  replace h_main_v3 : V92 (Proc.devRef (τ := τ) .tc main_v3) = val_main_v3 (F := F) (V (Proc.devRef (τ := τ) .tc main_arg0)) := (n main_v3 (by decide)).trans h_main_v3
  replace h_main_v59 : V92 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v61 : V92 (Proc.devRef (τ := τ) .tc main_v61) = val_main_v61 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v61 (by decide)).trans h_main_v61
  clear h_main_cst_12
  replace hA : ∀ r ∈ argRefs, V92 (Proc.devRef (τ := τ) .tc r) = V (Proc.devRef .tc r) :=
    fun r hr => (n r (ne_of_mem_of_not_mem hr (by decide))).trans (hA r hr)
  clear e n
  -- binary main_v61 main_v62 → main_v63
  refine step_binary (fun V93 e n => ?_)
  have h_main_v63 : V93 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v61, h_main_v62]
    rfl
  replace h_main_v3 : V93 (Proc.devRef (τ := τ) .tc main_v3) = val_main_v3 (F := F) (V (Proc.devRef (τ := τ) .tc main_arg0)) := (n main_v3 (by decide)).trans h_main_v3
  replace h_main_v59 : V93 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  clear h_main_v61
  clear h_main_v62
  replace hA : ∀ r ∈ argRefs, V93 (Proc.devRef (τ := τ) .tc r) = V (Proc.devRef .tc r) :=
    fun r hr => (n r (ne_of_mem_of_not_mem hr (by decide))).trans (hA r hr)
  clear e n
  -- unary main_v63 → main_v64
  refine step_unary (fun V94 e n => ?_)
  have h_main_v64 : V94 (Proc.devRef (τ := τ) .tc main_v64) = val_main_v64 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v63]
    rfl
  replace h_main_v3 : V94 (Proc.devRef (τ := τ) .tc main_v3) = val_main_v3 (F := F) (V (Proc.devRef (τ := τ) .tc main_arg0)) := (n main_v3 (by decide)).trans h_main_v3
  replace h_main_v59 : V94 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V94 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  replace hA : ∀ r ∈ argRefs, V94 (Proc.devRef (τ := τ) .tc r) = V (Proc.devRef .tc r) :=
    fun r hr => (n r (ne_of_mem_of_not_mem hr (by decide))).trans (hA r hr)
  clear e n
  -- binary main_v59 main_v64 → main_v65
  refine step_binary (fun V95 e n => ?_)
  have h_main_v65 : V95 (Proc.devRef (τ := τ) .tc main_v65) = val_main_v65 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v59, h_main_v64]
    rfl
  replace h_main_v3 : V95 (Proc.devRef (τ := τ) .tc main_v3) = val_main_v3 (F := F) (V (Proc.devRef (τ := τ) .tc main_arg0)) := (n main_v3 (by decide)).trans h_main_v3
  replace h_main_v59 : V95 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V95 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  clear h_main_v64
  replace hA : ∀ r ∈ argRefs, V95 (Proc.devRef (τ := τ) .tc r) = V (Proc.devRef .tc r) :=
    fun r hr => (n r (ne_of_mem_of_not_mem hr (by decide))).trans (hA r hr)
  clear e n
  -- binary main_v65 main_v65 → main_v66
  refine step_binary (fun V96 e n => ?_)
  have h_main_v66 : V96 (Proc.devRef (τ := τ) .tc main_v66) = val_main_v66 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v65]
    rfl
  replace h_main_v3 : V96 (Proc.devRef (τ := τ) .tc main_v3) = val_main_v3 (F := F) (V (Proc.devRef (τ := τ) .tc main_arg0)) := (n main_v3 (by decide)).trans h_main_v3
  replace h_main_v59 : V96 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V96 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  clear h_main_v65
  replace hA : ∀ r ∈ argRefs, V96 (Proc.devRef (τ := τ) .tc r) = V (Proc.devRef .tc r) :=
    fun r hr => (n r (ne_of_mem_of_not_mem hr (by decide))).trans (hA r hr)
  clear e n
  -- nullary  → main_cst_13
  refine step_nullary (fun V97 e n => ?_)
  have h_main_cst_13 : V97 (Proc.devRef (τ := τ) .tc main_cst_13) = val_main_cst_13 (F := F) := e
  replace h_main_v3 : V97 (Proc.devRef (τ := τ) .tc main_v3) = val_main_v3 (F := F) (V (Proc.devRef (τ := τ) .tc main_arg0)) := (n main_v3 (by decide)).trans h_main_v3
  replace h_main_v59 : V97 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V97 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  replace h_main_v66 : V97 (Proc.devRef (τ := τ) .tc main_v66) = val_main_v66 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v66 (by decide)).trans h_main_v66
  replace hA : ∀ r ∈ argRefs, V97 (Proc.devRef (τ := τ) .tc r) = V (Proc.devRef .tc r) :=
    fun r hr => (n r (ne_of_mem_of_not_mem hr (by decide))).trans (hA r hr)
  clear e n
  -- binary main_v66 main_cst_13 → main_v67
  refine step_binary (fun V98 e n => ?_)
  have h_main_v67 : V98 (Proc.devRef (τ := τ) .tc main_v67) = val_main_v67 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v66, h_main_cst_13]
    rfl
  replace h_main_v3 : V98 (Proc.devRef (τ := τ) .tc main_v3) = val_main_v3 (F := F) (V (Proc.devRef (τ := τ) .tc main_arg0)) := (n main_v3 (by decide)).trans h_main_v3
  replace h_main_v59 : V98 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V98 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  clear h_main_v66
  clear h_main_cst_13
  replace hA : ∀ r ∈ argRefs, V98 (Proc.devRef (τ := τ) .tc r) = V (Proc.devRef .tc r) :=
    fun r hr => (n r (ne_of_mem_of_not_mem hr (by decide))).trans (hA r hr)
  clear e n
  -- unary main_v67 → main_v68
  refine step_unary (fun V99 e n => ?_)
  have h_main_v68 : V99 (Proc.devRef (τ := τ) .tc main_v68) = val_main_v68 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v67]
    rfl
  replace h_main_v3 : V99 (Proc.devRef (τ := τ) .tc main_v3) = val_main_v3 (F := F) (V (Proc.devRef (τ := τ) .tc main_arg0)) := (n main_v3 (by decide)).trans h_main_v3
  replace h_main_v59 : V99 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V99 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  clear h_main_v67
  replace hA : ∀ r ∈ argRefs, V99 (Proc.devRef (τ := τ) .tc r) = V (Proc.devRef .tc r) :=
    fun r hr => (n r (ne_of_mem_of_not_mem hr (by decide))).trans (hA r hr)
  clear e n
  -- nullary  → main_cst_14
  refine step_nullary (fun V100 e n => ?_)
  have h_main_cst_14 : V100 (Proc.devRef (τ := τ) .tc main_cst_14) = val_main_cst_14 (F := F) := e
  replace h_main_v3 : V100 (Proc.devRef (τ := τ) .tc main_v3) = val_main_v3 (F := F) (V (Proc.devRef (τ := τ) .tc main_arg0)) := (n main_v3 (by decide)).trans h_main_v3
  replace h_main_v59 : V100 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V100 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  replace h_main_v68 : V100 (Proc.devRef (τ := τ) .tc main_v68) = val_main_v68 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v68 (by decide)).trans h_main_v68
  replace hA : ∀ r ∈ argRefs, V100 (Proc.devRef (τ := τ) .tc r) = V (Proc.devRef .tc r) :=
    fun r hr => (n r (ne_of_mem_of_not_mem hr (by decide))).trans (hA r hr)
  clear e n
  -- unary main_cst_14 → main_v69
  refine step_unary (fun V101 e n => ?_)
  have h_main_v69 : V101 (Proc.devRef (τ := τ) .tc main_v69) = val_main_v69 (F := F) := by
    rw [e, h_main_cst_14]
    rfl
  replace h_main_v3 : V101 (Proc.devRef (τ := τ) .tc main_v3) = val_main_v3 (F := F) (V (Proc.devRef (τ := τ) .tc main_arg0)) := (n main_v3 (by decide)).trans h_main_v3
  replace h_main_v59 : V101 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V101 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  replace h_main_v68 : V101 (Proc.devRef (τ := τ) .tc main_v68) = val_main_v68 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v68 (by decide)).trans h_main_v68
  clear h_main_cst_14
  replace hA : ∀ r ∈ argRefs, V101 (Proc.devRef (τ := τ) .tc r) = V (Proc.devRef .tc r) :=
    fun r hr => (n r (ne_of_mem_of_not_mem hr (by decide))).trans (hA r hr)
  clear e n
  -- binary main_v68 main_v69 → main_v70
  refine step_binary (fun V102 e n => ?_)
  have h_main_v70 : V102 (Proc.devRef (τ := τ) .tc main_v70) = val_main_v70 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v68, h_main_v69]
    rfl
  replace h_main_v3 : V102 (Proc.devRef (τ := τ) .tc main_v3) = val_main_v3 (F := F) (V (Proc.devRef (τ := τ) .tc main_arg0)) := (n main_v3 (by decide)).trans h_main_v3
  replace h_main_v59 : V102 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  replace h_main_v63 : V102 (Proc.devRef (τ := τ) .tc main_v63) = val_main_v63 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v63 (by decide)).trans h_main_v63
  clear h_main_v68
  clear h_main_v69
  replace hA : ∀ r ∈ argRefs, V102 (Proc.devRef (τ := τ) .tc r) = V (Proc.devRef .tc r) :=
    fun r hr => (n r (ne_of_mem_of_not_mem hr (by decide))).trans (hA r hr)
  clear e n
  -- unary main_v63 → main_v71
  refine step_unary (fun V103 e n => ?_)
  have h_main_v71 : V103 (Proc.devRef (τ := τ) .tc main_v71) = val_main_v71 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v63]
    rfl
  replace h_main_v3 : V103 (Proc.devRef (τ := τ) .tc main_v3) = val_main_v3 (F := F) (V (Proc.devRef (τ := τ) .tc main_arg0)) := (n main_v3 (by decide)).trans h_main_v3
  replace h_main_v59 : V103 (Proc.devRef (τ := τ) .tc main_v59) = val_main_v59 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v59 (by decide)).trans h_main_v59
  clear h_main_v63
  replace h_main_v70 : V103 (Proc.devRef (τ := τ) .tc main_v70) = val_main_v70 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v70 (by decide)).trans h_main_v70
  replace hA : ∀ r ∈ argRefs, V103 (Proc.devRef (τ := τ) .tc r) = V (Proc.devRef .tc r) :=
    fun r hr => (n r (ne_of_mem_of_not_mem hr (by decide))).trans (hA r hr)
  clear e n
  -- binary main_v59 main_v71 → main_v72
  refine step_binary (fun V104 e n => ?_)
  have h_main_v72 : V104 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v59, h_main_v71]
    rfl
  replace h_main_v3 : V104 (Proc.devRef (τ := τ) .tc main_v3) = val_main_v3 (F := F) (V (Proc.devRef (τ := τ) .tc main_arg0)) := (n main_v3 (by decide)).trans h_main_v3
  clear h_main_v59
  replace h_main_v70 : V104 (Proc.devRef (τ := τ) .tc main_v70) = val_main_v70 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v70 (by decide)).trans h_main_v70
  clear h_main_v71
  replace hA : ∀ r ∈ argRefs, V104 (Proc.devRef (τ := τ) .tc r) = V (Proc.devRef .tc r) :=
    fun r hr => (n r (ne_of_mem_of_not_mem hr (by decide))).trans (hA r hr)
  clear e n
  -- nullary  → main_cst_15
  refine step_nullary (fun V105 e n => ?_)
  have h_main_cst_15 : V105 (Proc.devRef (τ := τ) .tc main_cst_15) = val_main_cst_15 (F := F) := e
  replace h_main_v3 : V105 (Proc.devRef (τ := τ) .tc main_v3) = val_main_v3 (F := F) (V (Proc.devRef (τ := τ) .tc main_arg0)) := (n main_v3 (by decide)).trans h_main_v3
  replace h_main_v70 : V105 (Proc.devRef (τ := τ) .tc main_v70) = val_main_v70 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v70 (by decide)).trans h_main_v70
  replace h_main_v72 : V105 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v72 (by decide)).trans h_main_v72
  replace hA : ∀ r ∈ argRefs, V105 (Proc.devRef (τ := τ) .tc r) = V (Proc.devRef .tc r) :=
    fun r hr => (n r (ne_of_mem_of_not_mem hr (by decide))).trans (hA r hr)
  clear e n
  -- unary main_cst_15 → main_v73
  refine step_unary (fun V106 e n => ?_)
  have h_main_v73 : V106 (Proc.devRef (τ := τ) .tc main_v73) = val_main_v73 (F := F) := by
    rw [e, h_main_cst_15]
    rfl
  replace h_main_v3 : V106 (Proc.devRef (τ := τ) .tc main_v3) = val_main_v3 (F := F) (V (Proc.devRef (τ := τ) .tc main_arg0)) := (n main_v3 (by decide)).trans h_main_v3
  replace h_main_v70 : V106 (Proc.devRef (τ := τ) .tc main_v70) = val_main_v70 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v70 (by decide)).trans h_main_v70
  replace h_main_v72 : V106 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v72 (by decide)).trans h_main_v72
  clear h_main_cst_15
  replace hA : ∀ r ∈ argRefs, V106 (Proc.devRef (τ := τ) .tc r) = V (Proc.devRef .tc r) :=
    fun r hr => (n r (ne_of_mem_of_not_mem hr (by decide))).trans (hA r hr)
  clear e n
  -- binary main_v70 main_v73 → main_v74
  refine step_binary (fun V107 e n => ?_)
  have h_main_v74 : V107 (Proc.devRef (τ := τ) .tc main_v74) = val_main_v74 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v70, h_main_v73]
    rfl
  replace h_main_v3 : V107 (Proc.devRef (τ := τ) .tc main_v3) = val_main_v3 (F := F) (V (Proc.devRef (τ := τ) .tc main_arg0)) := (n main_v3 (by decide)).trans h_main_v3
  clear h_main_v70
  replace h_main_v72 : V107 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v72 (by decide)).trans h_main_v72
  clear h_main_v73
  replace hA : ∀ r ∈ argRefs, V107 (Proc.devRef (τ := τ) .tc r) = V (Proc.devRef .tc r) :=
    fun r hr => (n r (ne_of_mem_of_not_mem hr (by decide))).trans (hA r hr)
  clear e n
  -- unary main_v74 → main_v75
  refine step_unary (fun V108 e n => ?_)
  have h_main_v75 : V108 (Proc.devRef (τ := τ) .tc main_v75) = val_main_v75 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v74]
    rfl
  replace h_main_v3 : V108 (Proc.devRef (τ := τ) .tc main_v3) = val_main_v3 (F := F) (V (Proc.devRef (τ := τ) .tc main_arg0)) := (n main_v3 (by decide)).trans h_main_v3
  replace h_main_v72 : V108 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v72 (by decide)).trans h_main_v72
  clear h_main_v74
  replace hA : ∀ r ∈ argRefs, V108 (Proc.devRef (τ := τ) .tc r) = V (Proc.devRef .tc r) :=
    fun r hr => (n r (ne_of_mem_of_not_mem hr (by decide))).trans (hA r hr)
  clear e n
  -- unary main_v75 → main_v76
  refine step_unary (fun V109 e n => ?_)
  have h_main_v76 : V109 (Proc.devRef (τ := τ) .tc main_v76) = val_main_v76 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v75]
    rfl
  replace h_main_v3 : V109 (Proc.devRef (τ := τ) .tc main_v3) = val_main_v3 (F := F) (V (Proc.devRef (τ := τ) .tc main_arg0)) := (n main_v3 (by decide)).trans h_main_v3
  replace h_main_v72 : V109 (Proc.devRef (τ := τ) .tc main_v72) = val_main_v72 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v72 (by decide)).trans h_main_v72
  clear h_main_v75
  replace hA : ∀ r ∈ argRefs, V109 (Proc.devRef (τ := τ) .tc r) = V (Proc.devRef .tc r) :=
    fun r hr => (n r (ne_of_mem_of_not_mem hr (by decide))).trans (hA r hr)
  clear e n
  -- binary main_v72 main_v76 → main_v77
  refine step_binary (fun V110 e n => ?_)
  have h_main_v77 : V110 (Proc.devRef (τ := τ) .tc main_v77) = val_main_v77 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
    rw [e, h_main_v72, h_main_v76]
    rfl
  replace h_main_v3 : V110 (Proc.devRef (τ := τ) .tc main_v3) = val_main_v3 (F := F) (V (Proc.devRef (τ := τ) .tc main_arg0)) := (n main_v3 (by decide)).trans h_main_v3
  clear h_main_v72
  clear h_main_v76
  replace hA : ∀ r ∈ argRefs, V110 (Proc.devRef (τ := τ) .tc r) = V (Proc.devRef .tc r) :=
    fun r hr => (n r (ne_of_mem_of_not_mem hr (by decide))).trans (hA r hr)
  clear e n
  -- unary main_arg8 → main_v78
  refine step_unary (fun V111 e n => ?_)
  have h_main_v78 : V111 (Proc.devRef (τ := τ) .tc main_v78) = val_main_v78 (F := F) (V (Proc.devRef (τ := τ) .tc main_arg8)) := by
    rw [e, hA main_arg8 (by decide)]
    rfl
  replace h_main_v3 : V111 (Proc.devRef (τ := τ) .tc main_v3) = val_main_v3 (F := F) (V (Proc.devRef (τ := τ) .tc main_arg0)) := (n main_v3 (by decide)).trans h_main_v3
  replace h_main_v77 : V111 (Proc.devRef (τ := τ) .tc main_v77) = val_main_v77 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v77 (by decide)).trans h_main_v77
  replace hA : ∀ r ∈ argRefs, V111 (Proc.devRef (τ := τ) .tc r) = V (Proc.devRef .tc r) :=
    fun r hr => (n r (ne_of_mem_of_not_mem hr (by decide))).trans (hA r hr)
  clear e n
  -- unary main_v78 → main_v79
  refine step_unary (fun V112 e n => ?_)
  have h_main_v79 : V112 (Proc.devRef (τ := τ) .tc main_v79) = val_main_v79 (F := F) (V (Proc.devRef (τ := τ) .tc main_arg8)) := by
    rw [e, h_main_v78]
    rfl
  replace h_main_v3 : V112 (Proc.devRef (τ := τ) .tc main_v3) = val_main_v3 (F := F) (V (Proc.devRef (τ := τ) .tc main_arg0)) := (n main_v3 (by decide)).trans h_main_v3
  replace h_main_v77 : V112 (Proc.devRef (τ := τ) .tc main_v77) = val_main_v77 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := (n main_v77 (by decide)).trans h_main_v77
  clear h_main_v78
  replace hA : ∀ r ∈ argRefs, V112 (Proc.devRef (τ := τ) .tc r) = V (Proc.devRef .tc r) :=
    fun r hr => (n r (ne_of_mem_of_not_mem hr (by decide))).trans (hA r hr)
  clear e n
  -- binary main_v77 main_v79 → main_v80
  refine step_binary (fun V113 e n => ?_)
  have h_main_v80 : V113 (Proc.devRef (τ := τ) .tc main_v80) = val_main_v80 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) := by
    rw [e, h_main_v77, h_main_v79]
    rfl
  replace h_main_v3 : V113 (Proc.devRef (τ := τ) .tc main_v3) = val_main_v3 (F := F) (V (Proc.devRef (τ := τ) .tc main_arg0)) := (n main_v3 (by decide)).trans h_main_v3
  clear h_main_v77
  clear h_main_v79
  replace hA : ∀ r ∈ argRefs, V113 (Proc.devRef (τ := τ) .tc r) = V (Proc.devRef .tc r) :=
    fun r hr => (n r (ne_of_mem_of_not_mem hr (by decide))).trans (hA r hr)
  clear e n
  -- unary main_arg9 → main_v81
  refine step_unary (fun V114 e n => ?_)
  have h_main_v81 : V114 (Proc.devRef (τ := τ) .tc main_v81) = val_main_v81 (F := F) (V (Proc.devRef (τ := τ) .tc main_arg9)) := by
    rw [e, hA main_arg9 (by decide)]
    rfl
  replace h_main_v3 : V114 (Proc.devRef (τ := τ) .tc main_v3) = val_main_v3 (F := F) (V (Proc.devRef (τ := τ) .tc main_arg0)) := (n main_v3 (by decide)).trans h_main_v3
  replace h_main_v80 : V114 (Proc.devRef (τ := τ) .tc main_v80) = val_main_v80 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) := (n main_v80 (by decide)).trans h_main_v80
  replace hA : ∀ r ∈ argRefs, V114 (Proc.devRef (τ := τ) .tc r) = V (Proc.devRef .tc r) :=
    fun r hr => (n r (ne_of_mem_of_not_mem hr (by decide))).trans (hA r hr)
  clear e n
  -- unary main_v81 → main_v82
  refine step_unary (fun V115 e n => ?_)
  have h_main_v82 : V115 (Proc.devRef (τ := τ) .tc main_v82) = val_main_v82 (F := F) (V (Proc.devRef (τ := τ) .tc main_arg9)) := by
    rw [e, h_main_v81]
    rfl
  replace h_main_v3 : V115 (Proc.devRef (τ := τ) .tc main_v3) = val_main_v3 (F := F) (V (Proc.devRef (τ := τ) .tc main_arg0)) := (n main_v3 (by decide)).trans h_main_v3
  replace h_main_v80 : V115 (Proc.devRef (τ := τ) .tc main_v80) = val_main_v80 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) := (n main_v80 (by decide)).trans h_main_v80
  clear h_main_v81
  replace hA : ∀ r ∈ argRefs, V115 (Proc.devRef (τ := τ) .tc r) = V (Proc.devRef .tc r) :=
    fun r hr => (n r (ne_of_mem_of_not_mem hr (by decide))).trans (hA r hr)
  clear e n
  -- binary main_v80 main_v82 → main_v83
  refine step_binary (fun V116 e n => ?_)
  have h_main_v83 : V116 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
    rw [e, h_main_v80, h_main_v82]
    rfl
  replace h_main_v3 : V116 (Proc.devRef (τ := τ) .tc main_v3) = val_main_v3 (F := F) (V (Proc.devRef (τ := τ) .tc main_arg0)) := (n main_v3 (by decide)).trans h_main_v3
  clear h_main_v80
  clear h_main_v82
  replace hA : ∀ r ∈ argRefs, V116 (Proc.devRef (τ := τ) .tc r) = V (Proc.devRef .tc r) :=
    fun r hr => (n r (ne_of_mem_of_not_mem hr (by decide))).trans (hA r hr)
  clear e n
  -- binary main_arg1 main_arg10 → main_v84
  refine step_binary (fun V117 e n => ?_)
  have h_main_v84 : V117 (Proc.devRef (τ := τ) .tc main_v84) = val_main_v84 (F := F) (V (Proc.devRef (τ := τ) .tc main_arg1)) (V (Proc.devRef (τ := τ) .tc main_arg10)) := by
    rw [e, hA main_arg1 (by decide), hA main_arg10 (by decide)]
    rfl
  replace h_main_v3 : V117 (Proc.devRef (τ := τ) .tc main_v3) = val_main_v3 (F := F) (V (Proc.devRef (τ := τ) .tc main_arg0)) := (n main_v3 (by decide)).trans h_main_v3
  replace h_main_v83 : V117 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace hA : ∀ r ∈ argRefs, V117 (Proc.devRef (τ := τ) .tc r) = V (Proc.devRef .tc r) :=
    fun r hr => (n r (ne_of_mem_of_not_mem hr (by decide))).trans (hA r hr)
  clear e n
  -- unary main_arg11 → main_v85
  refine step_unary (fun V118 e n => ?_)
  have h_main_v85 : V118 (Proc.devRef (τ := τ) .tc main_v85) = val_main_v85 (F := F) (V (Proc.devRef (τ := τ) .tc main_arg11)) := by
    rw [e, hA main_arg11 (by decide)]
    rfl
  replace h_main_v3 : V118 (Proc.devRef (τ := τ) .tc main_v3) = val_main_v3 (F := F) (V (Proc.devRef (τ := τ) .tc main_arg0)) := (n main_v3 (by decide)).trans h_main_v3
  replace h_main_v83 : V118 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v84 : V118 (Proc.devRef (τ := τ) .tc main_v84) = val_main_v84 (F := F) (V (Proc.devRef (τ := τ) .tc main_arg1)) (V (Proc.devRef (τ := τ) .tc main_arg10)) := (n main_v84 (by decide)).trans h_main_v84
  replace hA : ∀ r ∈ argRefs, V118 (Proc.devRef (τ := τ) .tc r) = V (Proc.devRef .tc r) :=
    fun r hr => (n r (ne_of_mem_of_not_mem hr (by decide))).trans (hA r hr)
  clear e n
  -- unary main_v85 → main_v86
  refine step_unary (fun V119 e n => ?_)
  have h_main_v86 : V119 (Proc.devRef (τ := τ) .tc main_v86) = val_main_v86 (F := F) (V (Proc.devRef (τ := τ) .tc main_arg11)) := by
    rw [e, h_main_v85]
    rfl
  replace h_main_v3 : V119 (Proc.devRef (τ := τ) .tc main_v3) = val_main_v3 (F := F) (V (Proc.devRef (τ := τ) .tc main_arg0)) := (n main_v3 (by decide)).trans h_main_v3
  replace h_main_v83 : V119 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v84 : V119 (Proc.devRef (τ := τ) .tc main_v84) = val_main_v84 (F := F) (V (Proc.devRef (τ := τ) .tc main_arg1)) (V (Proc.devRef (τ := τ) .tc main_arg10)) := (n main_v84 (by decide)).trans h_main_v84
  clear h_main_v85
  replace hA : ∀ r ∈ argRefs, V119 (Proc.devRef (τ := τ) .tc r) = V (Proc.devRef .tc r) :=
    fun r hr => (n r (ne_of_mem_of_not_mem hr (by decide))).trans (hA r hr)
  clear e n
  -- binary main_v84 main_v86 → main_v87
  refine step_binary (fun V120 e n => ?_)
  have h_main_v87 : V120 (Proc.devRef (τ := τ) .tc main_v87) = val_main_v87 (F := F) (V (Proc.devRef (τ := τ) .tc main_arg1)) (V (Proc.devRef (τ := τ) .tc main_arg10)) (V (Proc.devRef (τ := τ) .tc main_arg11)) := by
    rw [e, h_main_v84, h_main_v86]
    rfl
  replace h_main_v3 : V120 (Proc.devRef (τ := τ) .tc main_v3) = val_main_v3 (F := F) (V (Proc.devRef (τ := τ) .tc main_arg0)) := (n main_v3 (by decide)).trans h_main_v3
  replace h_main_v83 : V120 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v84
  clear h_main_v86
  replace hA : ∀ r ∈ argRefs, V120 (Proc.devRef (τ := τ) .tc r) = V (Proc.devRef .tc r) :=
    fun r hr => (n r (ne_of_mem_of_not_mem hr (by decide))).trans (hA r hr)
  clear e n
  -- nullary  → main_call4_cst
  refine step_nullary (fun V121 e n => ?_)
  have h_main_call4_cst : V121 (Proc.devRef (τ := τ) .tc main_call4_cst) = val_main_call4_cst (F := F) := e
  replace h_main_v3 : V121 (Proc.devRef (τ := τ) .tc main_v3) = val_main_v3 (F := F) (V (Proc.devRef (τ := τ) .tc main_arg0)) := (n main_v3 (by decide)).trans h_main_v3
  replace h_main_v83 : V121 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v87 : V121 (Proc.devRef (τ := τ) .tc main_v87) = val_main_v87 (F := F) (V (Proc.devRef (τ := τ) .tc main_arg1)) (V (Proc.devRef (τ := τ) .tc main_arg10)) (V (Proc.devRef (τ := τ) .tc main_arg11)) := (n main_v87 (by decide)).trans h_main_v87
  replace hA : ∀ r ∈ argRefs, V121 (Proc.devRef (τ := τ) .tc r) = V (Proc.devRef .tc r) :=
    fun r hr => (n r (ne_of_mem_of_not_mem hr (by decide))).trans (hA r hr)
  clear e n
  -- unary main_call4_cst → main_call4_v0
  refine step_unary (fun V122 e n => ?_)
  have h_main_call4_v0 : V122 (Proc.devRef (τ := τ) .tc main_call4_v0) = val_main_call4_v0 (F := F) := by
    rw [e, h_main_call4_cst]
    rfl
  replace h_main_v3 : V122 (Proc.devRef (τ := τ) .tc main_v3) = val_main_v3 (F := F) (V (Proc.devRef (τ := τ) .tc main_arg0)) := (n main_v3 (by decide)).trans h_main_v3
  replace h_main_v83 : V122 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v87 : V122 (Proc.devRef (τ := τ) .tc main_v87) = val_main_v87 (F := F) (V (Proc.devRef (τ := τ) .tc main_arg1)) (V (Proc.devRef (τ := τ) .tc main_arg10)) (V (Proc.devRef (τ := τ) .tc main_arg11)) := (n main_v87 (by decide)).trans h_main_v87
  clear h_main_call4_cst
  replace hA : ∀ r ∈ argRefs, V122 (Proc.devRef (τ := τ) .tc r) = V (Proc.devRef .tc r) :=
    fun r hr => (n r (ne_of_mem_of_not_mem hr (by decide))).trans (hA r hr)
  clear e n
  -- binary main_v87 main_call4_v0 → main_v88
  refine step_binary (fun V123 e n => ?_)
  have h_main_v88 : V123 (Proc.devRef (τ := τ) .tc main_v88) = val_main_v88 (F := F) (V (Proc.devRef (τ := τ) .tc main_arg1)) (V (Proc.devRef (τ := τ) .tc main_arg10)) (V (Proc.devRef (τ := τ) .tc main_arg11)) := by
    rw [e, h_main_v87, h_main_call4_v0]
    rfl
  replace h_main_v3 : V123 (Proc.devRef (τ := τ) .tc main_v3) = val_main_v3 (F := F) (V (Proc.devRef (τ := τ) .tc main_arg0)) := (n main_v3 (by decide)).trans h_main_v3
  replace h_main_v83 : V123 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v87
  clear h_main_call4_v0
  replace hA : ∀ r ∈ argRefs, V123 (Proc.devRef (τ := τ) .tc r) = V (Proc.devRef .tc r) :=
    fun r hr => (n r (ne_of_mem_of_not_mem hr (by decide))).trans (hA r hr)
  clear e n
  -- nullary  → main_cst_16
  refine step_nullary (fun V124 e n => ?_)
  have h_main_cst_16 : V124 (Proc.devRef (τ := τ) .tc main_cst_16) = val_main_cst_16 (F := F) := e
  replace h_main_v3 : V124 (Proc.devRef (τ := τ) .tc main_v3) = val_main_v3 (F := F) (V (Proc.devRef (τ := τ) .tc main_arg0)) := (n main_v3 (by decide)).trans h_main_v3
  replace h_main_v83 : V124 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V124 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace hA : ∀ r ∈ argRefs, V124 (Proc.devRef (τ := τ) .tc r) = V (Proc.devRef .tc r) :=
    fun r hr => (n r (ne_of_mem_of_not_mem hr (by decide))).trans (hA r hr)
  clear e n
  -- binary main_v88 main_cst_16 → main_v89
  refine step_binary (fun V125 e n => ?_)
  have h_main_v89 : V125 (Proc.devRef (τ := τ) .tc main_v89) = val_main_v89 (F := F) (V (Proc.devRef (τ := τ) .tc main_arg1)) (V (Proc.devRef (τ := τ) .tc main_arg10)) (V (Proc.devRef (τ := τ) .tc main_arg11)) := by
    rw [e, h_main_v88, h_main_cst_16]
    rfl
  replace h_main_v3 : V125 (Proc.devRef (τ := τ) .tc main_v3) = val_main_v3 (F := F) (V (Proc.devRef (τ := τ) .tc main_arg0)) := (n main_v3 (by decide)).trans h_main_v3
  replace h_main_v83 : V125 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V125 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  clear h_main_cst_16
  replace hA : ∀ r ∈ argRefs, V125 (Proc.devRef (τ := τ) .tc r) = V (Proc.devRef .tc r) :=
    fun r hr => (n r (ne_of_mem_of_not_mem hr (by decide))).trans (hA r hr)
  clear e n
  -- unary main_v89 → main_v90
  refine step_unary (fun V126 e n => ?_)
  have h_main_v90 : V126 (Proc.devRef (τ := τ) .tc main_v90) = val_main_v90 (F := F) (V (Proc.devRef (τ := τ) .tc main_arg1)) (V (Proc.devRef (τ := τ) .tc main_arg10)) (V (Proc.devRef (τ := τ) .tc main_arg11)) := by
    rw [e, h_main_v89]
    rfl
  replace h_main_v3 : V126 (Proc.devRef (τ := τ) .tc main_v3) = val_main_v3 (F := F) (V (Proc.devRef (τ := τ) .tc main_arg0)) := (n main_v3 (by decide)).trans h_main_v3
  replace h_main_v83 : V126 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V126 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  clear h_main_v89
  replace hA : ∀ r ∈ argRefs, V126 (Proc.devRef (τ := τ) .tc r) = V (Proc.devRef .tc r) :=
    fun r hr => (n r (ne_of_mem_of_not_mem hr (by decide))).trans (hA r hr)
  clear e n
  -- nullary  → main_cst_17
  refine step_nullary (fun V127 e n => ?_)
  have h_main_cst_17 : V127 (Proc.devRef (τ := τ) .tc main_cst_17) = val_main_cst_17 (F := F) := e
  replace h_main_v3 : V127 (Proc.devRef (τ := τ) .tc main_v3) = val_main_v3 (F := F) (V (Proc.devRef (τ := τ) .tc main_arg0)) := (n main_v3 (by decide)).trans h_main_v3
  replace h_main_v83 : V127 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V127 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v90 : V127 (Proc.devRef (τ := τ) .tc main_v90) = val_main_v90 (F := F) (V (Proc.devRef (τ := τ) .tc main_arg1)) (V (Proc.devRef (τ := τ) .tc main_arg10)) (V (Proc.devRef (τ := τ) .tc main_arg11)) := (n main_v90 (by decide)).trans h_main_v90
  replace hA : ∀ r ∈ argRefs, V127 (Proc.devRef (τ := τ) .tc r) = V (Proc.devRef .tc r) :=
    fun r hr => (n r (ne_of_mem_of_not_mem hr (by decide))).trans (hA r hr)
  clear e n
  -- unary main_cst_17 → main_v91
  refine step_unary (fun V128 e n => ?_)
  have h_main_v91 : V128 (Proc.devRef (τ := τ) .tc main_v91) = val_main_v91 (F := F) := by
    rw [e, h_main_cst_17]
    rfl
  replace h_main_v3 : V128 (Proc.devRef (τ := τ) .tc main_v3) = val_main_v3 (F := F) (V (Proc.devRef (τ := τ) .tc main_arg0)) := (n main_v3 (by decide)).trans h_main_v3
  replace h_main_v83 : V128 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V128 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v90 : V128 (Proc.devRef (τ := τ) .tc main_v90) = val_main_v90 (F := F) (V (Proc.devRef (τ := τ) .tc main_arg1)) (V (Proc.devRef (τ := τ) .tc main_arg10)) (V (Proc.devRef (τ := τ) .tc main_arg11)) := (n main_v90 (by decide)).trans h_main_v90
  clear h_main_cst_17
  replace hA : ∀ r ∈ argRefs, V128 (Proc.devRef (τ := τ) .tc r) = V (Proc.devRef .tc r) :=
    fun r hr => (n r (ne_of_mem_of_not_mem hr (by decide))).trans (hA r hr)
  clear e n
  -- binary main_v90 main_v91 → main_v92
  refine step_binary (fun V129 e n => ?_)
  have h_main_v92 : V129 (Proc.devRef (τ := τ) .tc main_v92) = val_main_v92 (F := F) (V (Proc.devRef (τ := τ) .tc main_arg1)) (V (Proc.devRef (τ := τ) .tc main_arg10)) (V (Proc.devRef (τ := τ) .tc main_arg11)) := by
    rw [e, h_main_v90, h_main_v91]
    rfl
  replace h_main_v3 : V129 (Proc.devRef (τ := τ) .tc main_v3) = val_main_v3 (F := F) (V (Proc.devRef (τ := τ) .tc main_arg0)) := (n main_v3 (by decide)).trans h_main_v3
  replace h_main_v83 : V129 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V129 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  clear h_main_v90
  clear h_main_v91
  replace hA : ∀ r ∈ argRefs, V129 (Proc.devRef (τ := τ) .tc r) = V (Proc.devRef .tc r) :=
    fun r hr => (n r (ne_of_mem_of_not_mem hr (by decide))).trans (hA r hr)
  clear e n
  -- unary main_v92 → main_v93
  refine step_unary (fun V130 e n => ?_)
  have h_main_v93 : V130 (Proc.devRef (τ := τ) .tc main_v93) = val_main_v93 (F := F) (V (Proc.devRef (τ := τ) .tc main_arg1)) (V (Proc.devRef (τ := τ) .tc main_arg10)) (V (Proc.devRef (τ := τ) .tc main_arg11)) := by
    rw [e, h_main_v92]
    rfl
  replace h_main_v3 : V130 (Proc.devRef (τ := τ) .tc main_v3) = val_main_v3 (F := F) (V (Proc.devRef (τ := τ) .tc main_arg0)) := (n main_v3 (by decide)).trans h_main_v3
  replace h_main_v83 : V130 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V130 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V130 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  replace hA : ∀ r ∈ argRefs, V130 (Proc.devRef (τ := τ) .tc r) = V (Proc.devRef .tc r) :=
    fun r hr => (n r (ne_of_mem_of_not_mem hr (by decide))).trans (hA r hr)
  clear e n
  -- binary main_v88 main_v93 → main_v94
  refine step_binary (fun V131 e n => ?_)
  have h_main_v94 : V131 (Proc.devRef (τ := τ) .tc main_v94) = val_main_v94 (F := F) (V (Proc.devRef (τ := τ) .tc main_arg1)) (V (Proc.devRef (τ := τ) .tc main_arg10)) (V (Proc.devRef (τ := τ) .tc main_arg11)) := by
    rw [e, h_main_v88, h_main_v93]
    rfl
  replace h_main_v3 : V131 (Proc.devRef (τ := τ) .tc main_v3) = val_main_v3 (F := F) (V (Proc.devRef (τ := τ) .tc main_arg0)) := (n main_v3 (by decide)).trans h_main_v3
  replace h_main_v83 : V131 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V131 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V131 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  clear h_main_v93
  replace hA : ∀ r ∈ argRefs, V131 (Proc.devRef (τ := τ) .tc r) = V (Proc.devRef .tc r) :=
    fun r hr => (n r (ne_of_mem_of_not_mem hr (by decide))).trans (hA r hr)
  clear e n
  -- binary main_v94 main_v94 → main_v95
  refine step_binary (fun V132 e n => ?_)
  have h_main_v95 : V132 (Proc.devRef (τ := τ) .tc main_v95) = val_main_v95 (F := F) (V (Proc.devRef (τ := τ) .tc main_arg1)) (V (Proc.devRef (τ := τ) .tc main_arg10)) (V (Proc.devRef (τ := τ) .tc main_arg11)) := by
    rw [e, h_main_v94]
    rfl
  replace h_main_v3 : V132 (Proc.devRef (τ := τ) .tc main_v3) = val_main_v3 (F := F) (V (Proc.devRef (τ := τ) .tc main_arg0)) := (n main_v3 (by decide)).trans h_main_v3
  replace h_main_v83 : V132 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V132 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V132 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  clear h_main_v94
  replace hA : ∀ r ∈ argRefs, V132 (Proc.devRef (τ := τ) .tc r) = V (Proc.devRef .tc r) :=
    fun r hr => (n r (ne_of_mem_of_not_mem hr (by decide))).trans (hA r hr)
  clear e n
  -- nullary  → main_cst_18
  refine step_nullary (fun V133 e n => ?_)
  have h_main_cst_18 : V133 (Proc.devRef (τ := τ) .tc main_cst_18) = val_main_cst_18 (F := F) := e
  replace h_main_v3 : V133 (Proc.devRef (τ := τ) .tc main_v3) = val_main_v3 (F := F) (V (Proc.devRef (τ := τ) .tc main_arg0)) := (n main_v3 (by decide)).trans h_main_v3
  replace h_main_v83 : V133 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V133 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V133 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  replace h_main_v95 : V133 (Proc.devRef (τ := τ) .tc main_v95) = val_main_v95 (F := F) (V (Proc.devRef (τ := τ) .tc main_arg1)) (V (Proc.devRef (τ := τ) .tc main_arg10)) (V (Proc.devRef (τ := τ) .tc main_arg11)) := (n main_v95 (by decide)).trans h_main_v95
  replace hA : ∀ r ∈ argRefs, V133 (Proc.devRef (τ := τ) .tc r) = V (Proc.devRef .tc r) :=
    fun r hr => (n r (ne_of_mem_of_not_mem hr (by decide))).trans (hA r hr)
  clear e n
  -- binary main_v95 main_cst_18 → main_v96
  refine step_binary (fun V134 e n => ?_)
  have h_main_v96 : V134 (Proc.devRef (τ := τ) .tc main_v96) = val_main_v96 (F := F) (V (Proc.devRef (τ := τ) .tc main_arg1)) (V (Proc.devRef (τ := τ) .tc main_arg10)) (V (Proc.devRef (τ := τ) .tc main_arg11)) := by
    rw [e, h_main_v95, h_main_cst_18]
    rfl
  replace h_main_v3 : V134 (Proc.devRef (τ := τ) .tc main_v3) = val_main_v3 (F := F) (V (Proc.devRef (τ := τ) .tc main_arg0)) := (n main_v3 (by decide)).trans h_main_v3
  replace h_main_v83 : V134 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V134 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V134 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  clear h_main_v95
  clear h_main_cst_18
  replace hA : ∀ r ∈ argRefs, V134 (Proc.devRef (τ := τ) .tc r) = V (Proc.devRef .tc r) :=
    fun r hr => (n r (ne_of_mem_of_not_mem hr (by decide))).trans (hA r hr)
  clear e n
  -- unary main_v96 → main_v97
  refine step_unary (fun V135 e n => ?_)
  have h_main_v97 : V135 (Proc.devRef (τ := τ) .tc main_v97) = val_main_v97 (F := F) (V (Proc.devRef (τ := τ) .tc main_arg1)) (V (Proc.devRef (τ := τ) .tc main_arg10)) (V (Proc.devRef (τ := τ) .tc main_arg11)) := by
    rw [e, h_main_v96]
    rfl
  replace h_main_v3 : V135 (Proc.devRef (τ := τ) .tc main_v3) = val_main_v3 (F := F) (V (Proc.devRef (τ := τ) .tc main_arg0)) := (n main_v3 (by decide)).trans h_main_v3
  replace h_main_v83 : V135 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V135 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V135 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  clear h_main_v96
  replace hA : ∀ r ∈ argRefs, V135 (Proc.devRef (τ := τ) .tc r) = V (Proc.devRef .tc r) :=
    fun r hr => (n r (ne_of_mem_of_not_mem hr (by decide))).trans (hA r hr)
  clear e n
  -- nullary  → main_cst_19
  refine step_nullary (fun V136 e n => ?_)
  have h_main_cst_19 : V136 (Proc.devRef (τ := τ) .tc main_cst_19) = val_main_cst_19 (F := F) := e
  replace h_main_v3 : V136 (Proc.devRef (τ := τ) .tc main_v3) = val_main_v3 (F := F) (V (Proc.devRef (τ := τ) .tc main_arg0)) := (n main_v3 (by decide)).trans h_main_v3
  replace h_main_v83 : V136 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V136 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V136 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  replace h_main_v97 : V136 (Proc.devRef (τ := τ) .tc main_v97) = val_main_v97 (F := F) (V (Proc.devRef (τ := τ) .tc main_arg1)) (V (Proc.devRef (τ := τ) .tc main_arg10)) (V (Proc.devRef (τ := τ) .tc main_arg11)) := (n main_v97 (by decide)).trans h_main_v97
  replace hA : ∀ r ∈ argRefs, V136 (Proc.devRef (τ := τ) .tc r) = V (Proc.devRef .tc r) :=
    fun r hr => (n r (ne_of_mem_of_not_mem hr (by decide))).trans (hA r hr)
  clear e n
  -- unary main_cst_19 → main_v98
  refine step_unary (fun V137 e n => ?_)
  have h_main_v98 : V137 (Proc.devRef (τ := τ) .tc main_v98) = val_main_v98 (F := F) := by
    rw [e, h_main_cst_19]
    rfl
  replace h_main_v3 : V137 (Proc.devRef (τ := τ) .tc main_v3) = val_main_v3 (F := F) (V (Proc.devRef (τ := τ) .tc main_arg0)) := (n main_v3 (by decide)).trans h_main_v3
  replace h_main_v83 : V137 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V137 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V137 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  replace h_main_v97 : V137 (Proc.devRef (τ := τ) .tc main_v97) = val_main_v97 (F := F) (V (Proc.devRef (τ := τ) .tc main_arg1)) (V (Proc.devRef (τ := τ) .tc main_arg10)) (V (Proc.devRef (τ := τ) .tc main_arg11)) := (n main_v97 (by decide)).trans h_main_v97
  clear h_main_cst_19
  replace hA : ∀ r ∈ argRefs, V137 (Proc.devRef (τ := τ) .tc r) = V (Proc.devRef .tc r) :=
    fun r hr => (n r (ne_of_mem_of_not_mem hr (by decide))).trans (hA r hr)
  clear e n
  -- binary main_v97 main_v98 → main_v99
  refine step_binary (fun V138 e n => ?_)
  have h_main_v99 : V138 (Proc.devRef (τ := τ) .tc main_v99) = val_main_v99 (F := F) (V (Proc.devRef (τ := τ) .tc main_arg1)) (V (Proc.devRef (τ := τ) .tc main_arg10)) (V (Proc.devRef (τ := τ) .tc main_arg11)) := by
    rw [e, h_main_v97, h_main_v98]
    rfl
  replace h_main_v3 : V138 (Proc.devRef (τ := τ) .tc main_v3) = val_main_v3 (F := F) (V (Proc.devRef (τ := τ) .tc main_arg0)) := (n main_v3 (by decide)).trans h_main_v3
  replace h_main_v83 : V138 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V138 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  replace h_main_v92 : V138 (Proc.devRef (τ := τ) .tc main_v92) = val_main_v92 (F := F) (V (Proc.devRef (τ := τ) .tc main_arg1)) (V (Proc.devRef (τ := τ) .tc main_arg10)) (V (Proc.devRef (τ := τ) .tc main_arg11)) := (n main_v92 (by decide)).trans h_main_v92
  clear h_main_v97
  clear h_main_v98
  replace hA : ∀ r ∈ argRefs, V138 (Proc.devRef (τ := τ) .tc r) = V (Proc.devRef .tc r) :=
    fun r hr => (n r (ne_of_mem_of_not_mem hr (by decide))).trans (hA r hr)
  clear e n
  -- unary main_v92 → main_v100
  refine step_unary (fun V139 e n => ?_)
  have h_main_v100 : V139 (Proc.devRef (τ := τ) .tc main_v100) = val_main_v100 (F := F) (V (Proc.devRef (τ := τ) .tc main_arg1)) (V (Proc.devRef (τ := τ) .tc main_arg10)) (V (Proc.devRef (τ := τ) .tc main_arg11)) := by
    rw [e, h_main_v92]
    rfl
  replace h_main_v3 : V139 (Proc.devRef (τ := τ) .tc main_v3) = val_main_v3 (F := F) (V (Proc.devRef (τ := τ) .tc main_arg0)) := (n main_v3 (by decide)).trans h_main_v3
  replace h_main_v83 : V139 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v88 : V139 (Proc.devRef (τ := τ) .tc main_v88) = val_main_v88 (F := F) (V (Proc.devRef (τ := τ) .tc main_arg1)) (V (Proc.devRef (τ := τ) .tc main_arg10)) (V (Proc.devRef (τ := τ) .tc main_arg11)) := (n main_v88 (by decide)).trans h_main_v88
  clear h_main_v92
  replace h_main_v99 : V139 (Proc.devRef (τ := τ) .tc main_v99) = val_main_v99 (F := F) (V (Proc.devRef (τ := τ) .tc main_arg1)) (V (Proc.devRef (τ := τ) .tc main_arg10)) (V (Proc.devRef (τ := τ) .tc main_arg11)) := (n main_v99 (by decide)).trans h_main_v99
  replace hA : ∀ r ∈ argRefs, V139 (Proc.devRef (τ := τ) .tc r) = V (Proc.devRef .tc r) :=
    fun r hr => (n r (ne_of_mem_of_not_mem hr (by decide))).trans (hA r hr)
  clear e n
  -- binary main_v88 main_v100 → main_v101
  refine step_binary (fun V140 e n => ?_)
  have h_main_v101 : V140 (Proc.devRef (τ := τ) .tc main_v101) = val_main_v101 (F := F) (V (Proc.devRef (τ := τ) .tc main_arg1)) (V (Proc.devRef (τ := τ) .tc main_arg10)) (V (Proc.devRef (τ := τ) .tc main_arg11)) := by
    rw [e, h_main_v88, h_main_v100]
    rfl
  replace h_main_v3 : V140 (Proc.devRef (τ := τ) .tc main_v3) = val_main_v3 (F := F) (V (Proc.devRef (τ := τ) .tc main_arg0)) := (n main_v3 (by decide)).trans h_main_v3
  replace h_main_v83 : V140 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v88
  replace h_main_v99 : V140 (Proc.devRef (τ := τ) .tc main_v99) = val_main_v99 (F := F) (V (Proc.devRef (τ := τ) .tc main_arg1)) (V (Proc.devRef (τ := τ) .tc main_arg10)) (V (Proc.devRef (τ := τ) .tc main_arg11)) := (n main_v99 (by decide)).trans h_main_v99
  clear h_main_v100
  replace hA : ∀ r ∈ argRefs, V140 (Proc.devRef (τ := τ) .tc r) = V (Proc.devRef .tc r) :=
    fun r hr => (n r (ne_of_mem_of_not_mem hr (by decide))).trans (hA r hr)
  clear e n
  -- nullary  → main_cst_20
  refine step_nullary (fun V141 e n => ?_)
  have h_main_cst_20 : V141 (Proc.devRef (τ := τ) .tc main_cst_20) = val_main_cst_20 (F := F) := e
  replace h_main_v3 : V141 (Proc.devRef (τ := τ) .tc main_v3) = val_main_v3 (F := F) (V (Proc.devRef (τ := τ) .tc main_arg0)) := (n main_v3 (by decide)).trans h_main_v3
  replace h_main_v83 : V141 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v99 : V141 (Proc.devRef (τ := τ) .tc main_v99) = val_main_v99 (F := F) (V (Proc.devRef (τ := τ) .tc main_arg1)) (V (Proc.devRef (τ := τ) .tc main_arg10)) (V (Proc.devRef (τ := τ) .tc main_arg11)) := (n main_v99 (by decide)).trans h_main_v99
  replace h_main_v101 : V141 (Proc.devRef (τ := τ) .tc main_v101) = val_main_v101 (F := F) (V (Proc.devRef (τ := τ) .tc main_arg1)) (V (Proc.devRef (τ := τ) .tc main_arg10)) (V (Proc.devRef (τ := τ) .tc main_arg11)) := (n main_v101 (by decide)).trans h_main_v101
  replace hA : ∀ r ∈ argRefs, V141 (Proc.devRef (τ := τ) .tc r) = V (Proc.devRef .tc r) :=
    fun r hr => (n r (ne_of_mem_of_not_mem hr (by decide))).trans (hA r hr)
  clear e n
  -- unary main_cst_20 → main_v102
  refine step_unary (fun V142 e n => ?_)
  have h_main_v102 : V142 (Proc.devRef (τ := τ) .tc main_v102) = val_main_v102 (F := F) := by
    rw [e, h_main_cst_20]
    rfl
  replace h_main_v3 : V142 (Proc.devRef (τ := τ) .tc main_v3) = val_main_v3 (F := F) (V (Proc.devRef (τ := τ) .tc main_arg0)) := (n main_v3 (by decide)).trans h_main_v3
  replace h_main_v83 : V142 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v99 : V142 (Proc.devRef (τ := τ) .tc main_v99) = val_main_v99 (F := F) (V (Proc.devRef (τ := τ) .tc main_arg1)) (V (Proc.devRef (τ := τ) .tc main_arg10)) (V (Proc.devRef (τ := τ) .tc main_arg11)) := (n main_v99 (by decide)).trans h_main_v99
  replace h_main_v101 : V142 (Proc.devRef (τ := τ) .tc main_v101) = val_main_v101 (F := F) (V (Proc.devRef (τ := τ) .tc main_arg1)) (V (Proc.devRef (τ := τ) .tc main_arg10)) (V (Proc.devRef (τ := τ) .tc main_arg11)) := (n main_v101 (by decide)).trans h_main_v101
  clear h_main_cst_20
  replace hA : ∀ r ∈ argRefs, V142 (Proc.devRef (τ := τ) .tc r) = V (Proc.devRef .tc r) :=
    fun r hr => (n r (ne_of_mem_of_not_mem hr (by decide))).trans (hA r hr)
  clear e n
  -- binary main_v99 main_v102 → main_v103
  refine step_binary (fun V143 e n => ?_)
  have h_main_v103 : V143 (Proc.devRef (τ := τ) .tc main_v103) = val_main_v103 (F := F) (V (Proc.devRef (τ := τ) .tc main_arg1)) (V (Proc.devRef (τ := τ) .tc main_arg10)) (V (Proc.devRef (τ := τ) .tc main_arg11)) := by
    rw [e, h_main_v99, h_main_v102]
    rfl
  replace h_main_v3 : V143 (Proc.devRef (τ := τ) .tc main_v3) = val_main_v3 (F := F) (V (Proc.devRef (τ := τ) .tc main_arg0)) := (n main_v3 (by decide)).trans h_main_v3
  replace h_main_v83 : V143 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v99
  replace h_main_v101 : V143 (Proc.devRef (τ := τ) .tc main_v101) = val_main_v101 (F := F) (V (Proc.devRef (τ := τ) .tc main_arg1)) (V (Proc.devRef (τ := τ) .tc main_arg10)) (V (Proc.devRef (τ := τ) .tc main_arg11)) := (n main_v101 (by decide)).trans h_main_v101
  clear h_main_v102
  replace hA : ∀ r ∈ argRefs, V143 (Proc.devRef (τ := τ) .tc r) = V (Proc.devRef .tc r) :=
    fun r hr => (n r (ne_of_mem_of_not_mem hr (by decide))).trans (hA r hr)
  clear e n
  -- unary main_v103 → main_v104
  refine step_unary (fun V144 e n => ?_)
  have h_main_v104 : V144 (Proc.devRef (τ := τ) .tc main_v104) = val_main_v104 (F := F) (V (Proc.devRef (τ := τ) .tc main_arg1)) (V (Proc.devRef (τ := τ) .tc main_arg10)) (V (Proc.devRef (τ := τ) .tc main_arg11)) := by
    rw [e, h_main_v103]
    rfl
  replace h_main_v3 : V144 (Proc.devRef (τ := τ) .tc main_v3) = val_main_v3 (F := F) (V (Proc.devRef (τ := τ) .tc main_arg0)) := (n main_v3 (by decide)).trans h_main_v3
  replace h_main_v83 : V144 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v101 : V144 (Proc.devRef (τ := τ) .tc main_v101) = val_main_v101 (F := F) (V (Proc.devRef (τ := τ) .tc main_arg1)) (V (Proc.devRef (τ := τ) .tc main_arg10)) (V (Proc.devRef (τ := τ) .tc main_arg11)) := (n main_v101 (by decide)).trans h_main_v101
  clear h_main_v103
  replace hA : ∀ r ∈ argRefs, V144 (Proc.devRef (τ := τ) .tc r) = V (Proc.devRef .tc r) :=
    fun r hr => (n r (ne_of_mem_of_not_mem hr (by decide))).trans (hA r hr)
  clear e n
  -- unary main_v104 → main_v105
  refine step_unary (fun V145 e n => ?_)
  have h_main_v105 : V145 (Proc.devRef (τ := τ) .tc main_v105) = val_main_v105 (F := F) (V (Proc.devRef (τ := τ) .tc main_arg1)) (V (Proc.devRef (τ := τ) .tc main_arg10)) (V (Proc.devRef (τ := τ) .tc main_arg11)) := by
    rw [e, h_main_v104]
    rfl
  replace h_main_v3 : V145 (Proc.devRef (τ := τ) .tc main_v3) = val_main_v3 (F := F) (V (Proc.devRef (τ := τ) .tc main_arg0)) := (n main_v3 (by decide)).trans h_main_v3
  replace h_main_v83 : V145 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v101 : V145 (Proc.devRef (τ := τ) .tc main_v101) = val_main_v101 (F := F) (V (Proc.devRef (τ := τ) .tc main_arg1)) (V (Proc.devRef (τ := τ) .tc main_arg10)) (V (Proc.devRef (τ := τ) .tc main_arg11)) := (n main_v101 (by decide)).trans h_main_v101
  clear h_main_v104
  replace hA : ∀ r ∈ argRefs, V145 (Proc.devRef (τ := τ) .tc r) = V (Proc.devRef .tc r) :=
    fun r hr => (n r (ne_of_mem_of_not_mem hr (by decide))).trans (hA r hr)
  clear e n
  -- binary main_v101 main_v105 → main_v106
  refine step_binary (fun V146 e n => ?_)
  have h_main_v106 : V146 (Proc.devRef (τ := τ) .tc main_v106) = val_main_v106 (F := F) (V (Proc.devRef (τ := τ) .tc main_arg1)) (V (Proc.devRef (τ := τ) .tc main_arg10)) (V (Proc.devRef (τ := τ) .tc main_arg11)) := by
    rw [e, h_main_v101, h_main_v105]
    rfl
  replace h_main_v3 : V146 (Proc.devRef (τ := τ) .tc main_v3) = val_main_v3 (F := F) (V (Proc.devRef (τ := τ) .tc main_arg0)) := (n main_v3 (by decide)).trans h_main_v3
  replace h_main_v83 : V146 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v101
  clear h_main_v105
  replace hA : ∀ r ∈ argRefs, V146 (Proc.devRef (τ := τ) .tc r) = V (Proc.devRef .tc r) :=
    fun r hr => (n r (ne_of_mem_of_not_mem hr (by decide))).trans (hA r hr)
  clear e n
  -- unary main_arg12 → main_v107
  refine step_unary (fun V147 e n => ?_)
  have h_main_v107 : V147 (Proc.devRef (τ := τ) .tc main_v107) = val_main_v107 (F := F) (V (Proc.devRef (τ := τ) .tc main_arg12)) := by
    rw [e, hA main_arg12 (by decide)]
    rfl
  replace h_main_v3 : V147 (Proc.devRef (τ := τ) .tc main_v3) = val_main_v3 (F := F) (V (Proc.devRef (τ := τ) .tc main_arg0)) := (n main_v3 (by decide)).trans h_main_v3
  replace h_main_v83 : V147 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v106 : V147 (Proc.devRef (τ := τ) .tc main_v106) = val_main_v106 (F := F) (V (Proc.devRef (τ := τ) .tc main_arg1)) (V (Proc.devRef (τ := τ) .tc main_arg10)) (V (Proc.devRef (τ := τ) .tc main_arg11)) := (n main_v106 (by decide)).trans h_main_v106
  replace hA : ∀ r ∈ argRefs, V147 (Proc.devRef (τ := τ) .tc r) = V (Proc.devRef .tc r) :=
    fun r hr => (n r (ne_of_mem_of_not_mem hr (by decide))).trans (hA r hr)
  clear e n
  -- unary main_v107 → main_v108
  refine step_unary (fun V148 e n => ?_)
  have h_main_v108 : V148 (Proc.devRef (τ := τ) .tc main_v108) = val_main_v108 (F := F) (V (Proc.devRef (τ := τ) .tc main_arg12)) := by
    rw [e, h_main_v107]
    rfl
  replace h_main_v3 : V148 (Proc.devRef (τ := τ) .tc main_v3) = val_main_v3 (F := F) (V (Proc.devRef (τ := τ) .tc main_arg0)) := (n main_v3 (by decide)).trans h_main_v3
  replace h_main_v83 : V148 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v106 : V148 (Proc.devRef (τ := τ) .tc main_v106) = val_main_v106 (F := F) (V (Proc.devRef (τ := τ) .tc main_arg1)) (V (Proc.devRef (τ := τ) .tc main_arg10)) (V (Proc.devRef (τ := τ) .tc main_arg11)) := (n main_v106 (by decide)).trans h_main_v106
  clear h_main_v107
  replace hA : ∀ r ∈ argRefs, V148 (Proc.devRef (τ := τ) .tc r) = V (Proc.devRef .tc r) :=
    fun r hr => (n r (ne_of_mem_of_not_mem hr (by decide))).trans (hA r hr)
  clear e n
  -- binary main_v106 main_v108 → main_v109
  refine step_binary (fun V149 e n => ?_)
  have h_main_v109 : V149 (Proc.devRef (τ := τ) .tc main_v109) = val_main_v109 (F := F) (V (Proc.devRef (τ := τ) .tc main_arg1)) (V (Proc.devRef (τ := τ) .tc main_arg10)) (V (Proc.devRef (τ := τ) .tc main_arg11)) (V (Proc.devRef (τ := τ) .tc main_arg12)) := by
    rw [e, h_main_v106, h_main_v108]
    rfl
  replace h_main_v3 : V149 (Proc.devRef (τ := τ) .tc main_v3) = val_main_v3 (F := F) (V (Proc.devRef (τ := τ) .tc main_arg0)) := (n main_v3 (by decide)).trans h_main_v3
  replace h_main_v83 : V149 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v106
  clear h_main_v108
  replace hA : ∀ r ∈ argRefs, V149 (Proc.devRef (τ := τ) .tc r) = V (Proc.devRef .tc r) :=
    fun r hr => (n r (ne_of_mem_of_not_mem hr (by decide))).trans (hA r hr)
  clear e n
  -- unary main_arg13 → main_v110
  refine step_unary (fun V150 e n => ?_)
  have h_main_v110 : V150 (Proc.devRef (τ := τ) .tc main_v110) = val_main_v110 (F := F) (V (Proc.devRef (τ := τ) .tc main_arg13)) := by
    rw [e, hA main_arg13 (by decide)]
    rfl
  replace h_main_v3 : V150 (Proc.devRef (τ := τ) .tc main_v3) = val_main_v3 (F := F) (V (Proc.devRef (τ := τ) .tc main_arg0)) := (n main_v3 (by decide)).trans h_main_v3
  replace h_main_v83 : V150 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v109 : V150 (Proc.devRef (τ := τ) .tc main_v109) = val_main_v109 (F := F) (V (Proc.devRef (τ := τ) .tc main_arg1)) (V (Proc.devRef (τ := τ) .tc main_arg10)) (V (Proc.devRef (τ := τ) .tc main_arg11)) (V (Proc.devRef (τ := τ) .tc main_arg12)) := (n main_v109 (by decide)).trans h_main_v109
  replace hA : ∀ r ∈ argRefs, V150 (Proc.devRef (τ := τ) .tc r) = V (Proc.devRef .tc r) :=
    fun r hr => (n r (ne_of_mem_of_not_mem hr (by decide))).trans (hA r hr)
  clear e n
  -- unary main_v110 → main_v111
  refine step_unary (fun V151 e n => ?_)
  have h_main_v111 : V151 (Proc.devRef (τ := τ) .tc main_v111) = val_main_v111 (F := F) (V (Proc.devRef (τ := τ) .tc main_arg13)) := by
    rw [e, h_main_v110]
    rfl
  replace h_main_v3 : V151 (Proc.devRef (τ := τ) .tc main_v3) = val_main_v3 (F := F) (V (Proc.devRef (τ := τ) .tc main_arg0)) := (n main_v3 (by decide)).trans h_main_v3
  replace h_main_v83 : V151 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  replace h_main_v109 : V151 (Proc.devRef (τ := τ) .tc main_v109) = val_main_v109 (F := F) (V (Proc.devRef (τ := τ) .tc main_arg1)) (V (Proc.devRef (τ := τ) .tc main_arg10)) (V (Proc.devRef (τ := τ) .tc main_arg11)) (V (Proc.devRef (τ := τ) .tc main_arg12)) := (n main_v109 (by decide)).trans h_main_v109
  clear h_main_v110
  replace hA : ∀ r ∈ argRefs, V151 (Proc.devRef (τ := τ) .tc r) = V (Proc.devRef .tc r) :=
    fun r hr => (n r (ne_of_mem_of_not_mem hr (by decide))).trans (hA r hr)
  clear e n
  -- binary main_v109 main_v111 → main_v112
  refine step_binary (fun V152 e n => ?_)
  have h_main_v112 : V152 (Proc.devRef (τ := τ) .tc main_v112) = val_main_v112 (F := F) (V (Proc.devRef (τ := τ) .tc main_arg1)) (V (Proc.devRef (τ := τ) .tc main_arg10)) (V (Proc.devRef (τ := τ) .tc main_arg11)) (V (Proc.devRef (τ := τ) .tc main_arg12)) (V (Proc.devRef (τ := τ) .tc main_arg13)) := by
    rw [e, h_main_v109, h_main_v111]
    rfl
  replace h_main_v3 : V152 (Proc.devRef (τ := τ) .tc main_v3) = val_main_v3 (F := F) (V (Proc.devRef (τ := τ) .tc main_arg0)) := (n main_v3 (by decide)).trans h_main_v3
  replace h_main_v83 : V152 (Proc.devRef (τ := τ) .tc main_v83) = val_main_v83 (F := F) (V (Proc.devRef (τ := τ) .tc main_arg0)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := (n main_v83 (by decide)).trans h_main_v83
  clear h_main_v109
  clear h_main_v111
  replace hA : ∀ r ∈ argRefs, V152 (Proc.devRef (τ := τ) .tc r) = V (Proc.devRef .tc r) :=
    fun r hr => (n r (ne_of_mem_of_not_mem hr (by decide))).trans (hA r hr)
  clear e n
  -- nary main_v3 main_v83 main_v112 → main_v113
  refine step_nary (fun V153 e n => ?_)
  have h_main_v113 : V153 (Proc.devRef (τ := τ) .tc main_v113) = val_main_v113 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) := by
    rw [e]
    show concatenate S65536x640 1 [⟨S65536x448, V152 (Proc.devRef (τ := τ) .tc main_v3)⟩, ⟨S65536x128, V152 (Proc.devRef (τ := τ) .tc main_v83)⟩, ⟨S65536x64, V152 (Proc.devRef (τ := τ) .tc main_v112)⟩] concatenates_S65536x448_S65536x128_S65536x64_S65536x640_d1 = _
    rw [h_main_v3, h_main_v83, h_main_v112]
    rfl
  clear h_main_v3
  clear h_main_v83
  clear h_main_v112
  replace hA : ∀ r ∈ argRefs, V153 (Proc.devRef (τ := τ) .tc r) = V (Proc.devRef .tc r) :=
    fun r hr => (n r (ne_of_mem_of_not_mem hr (by decide))).trans (hA r hr)
  clear e n
  -- binary main_v113 main_arg14 → main_v114
  refine step_binary (fun V154 e n => ?_)
  have h_main_v114 : V154 (Proc.devRef (τ := τ) .tc main_v114) = val_main_v114 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) := by
    rw [e, h_main_v113, hA main_arg14 (by decide)]
    rfl
  clear h_main_v113
  replace hA : ∀ r ∈ argRefs, V154 (Proc.devRef (τ := τ) .tc r) = V (Proc.devRef .tc r) :=
    fun r hr => (n r (ne_of_mem_of_not_mem hr (by decide))).trans (hA r hr)
  clear e n
  -- unary main_arg15 → main_v115
  refine step_unary (fun V155 e n => ?_)
  have h_main_v115 : V155 (Proc.devRef (τ := τ) .tc main_v115) = val_main_v115 (F := F) (V (Proc.devRef (τ := τ) .tc main_arg15)) := by
    rw [e, hA main_arg15 (by decide)]
    rfl
  replace h_main_v114 : V155 (Proc.devRef (τ := τ) .tc main_v114) = val_main_v114 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) := (n main_v114 (by decide)).trans h_main_v114
  replace hA : ∀ r ∈ argRefs, V155 (Proc.devRef (τ := τ) .tc r) = V (Proc.devRef .tc r) :=
    fun r hr => (n r (ne_of_mem_of_not_mem hr (by decide))).trans (hA r hr)
  clear e n
  -- unary main_v115 → main_v116
  refine step_unary (fun V156 e n => ?_)
  have h_main_v116 : V156 (Proc.devRef (τ := τ) .tc main_v116) = val_main_v116 (F := F) (V (Proc.devRef (τ := τ) .tc main_arg15)) := by
    rw [e, h_main_v115]
    rfl
  replace h_main_v114 : V156 (Proc.devRef (τ := τ) .tc main_v114) = val_main_v114 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) := (n main_v114 (by decide)).trans h_main_v114
  clear h_main_v115
  replace hA : ∀ r ∈ argRefs, V156 (Proc.devRef (τ := τ) .tc r) = V (Proc.devRef .tc r) :=
    fun r hr => (n r (ne_of_mem_of_not_mem hr (by decide))).trans (hA r hr)
  clear e n
  -- binary main_v114 main_v116 → main_v117
  refine step_binary (fun V157 e n => ?_)
  have h_main_v117 : V157 (Proc.devRef (τ := τ) .tc main_v117) = val_main_v117 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v114, h_main_v116]
    rfl
  clear h_main_v114
  clear h_main_v116
  replace hA : ∀ r ∈ argRefs, V157 (Proc.devRef (τ := τ) .tc r) = V (Proc.devRef .tc r) :=
    fun r hr => (n r (ne_of_mem_of_not_mem hr (by decide))).trans (hA r hr)
  clear e n
  -- nullary  → main_call5_cst
  refine step_nullary (fun V158 e n => ?_)
  have h_main_call5_cst : V158 (Proc.devRef (τ := τ) .tc main_call5_cst) = val_main_call5_cst (F := F) := e
  replace h_main_v117 : V158 (Proc.devRef (τ := τ) .tc main_v117) = val_main_v117 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v117 (by decide)).trans h_main_v117
  replace hA : ∀ r ∈ argRefs, V158 (Proc.devRef (τ := τ) .tc r) = V (Proc.devRef .tc r) :=
    fun r hr => (n r (ne_of_mem_of_not_mem hr (by decide))).trans (hA r hr)
  clear e n
  -- unary main_call5_cst → main_call5_v0
  refine step_unary (fun V159 e n => ?_)
  have h_main_call5_v0 : V159 (Proc.devRef (τ := τ) .tc main_call5_v0) = val_main_call5_v0 (F := F) := by
    rw [e, h_main_call5_cst]
    rfl
  replace h_main_v117 : V159 (Proc.devRef (τ := τ) .tc main_v117) = val_main_v117 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v117 (by decide)).trans h_main_v117
  clear h_main_call5_cst
  replace hA : ∀ r ∈ argRefs, V159 (Proc.devRef (τ := τ) .tc r) = V (Proc.devRef .tc r) :=
    fun r hr => (n r (ne_of_mem_of_not_mem hr (by decide))).trans (hA r hr)
  clear e n
  -- binary main_v117 main_call5_v0 → main_v118
  refine step_binary (fun V160 e n => ?_)
  have h_main_v118 : V160 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v117, h_main_call5_v0]
    rfl
  clear h_main_v117
  clear h_main_call5_v0
  replace hA : ∀ r ∈ argRefs, V160 (Proc.devRef (τ := τ) .tc r) = V (Proc.devRef .tc r) :=
    fun r hr => (n r (ne_of_mem_of_not_mem hr (by decide))).trans (hA r hr)
  clear e n
  -- nullary  → main_cst_21
  refine step_nullary (fun V161 e n => ?_)
  have h_main_cst_21 : V161 (Proc.devRef (τ := τ) .tc main_cst_21) = val_main_cst_21 (F := F) := e
  replace h_main_v118 : V161 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace hA : ∀ r ∈ argRefs, V161 (Proc.devRef (τ := τ) .tc r) = V (Proc.devRef .tc r) :=
    fun r hr => (n r (ne_of_mem_of_not_mem hr (by decide))).trans (hA r hr)
  clear e n
  -- binary main_v118 main_cst_21 → main_v119
  refine step_binary (fun V162 e n => ?_)
  have h_main_v119 : V162 (Proc.devRef (τ := τ) .tc main_v119) = val_main_v119 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v118, h_main_cst_21]
    rfl
  replace h_main_v118 : V162 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  clear h_main_cst_21
  replace hA : ∀ r ∈ argRefs, V162 (Proc.devRef (τ := τ) .tc r) = V (Proc.devRef .tc r) :=
    fun r hr => (n r (ne_of_mem_of_not_mem hr (by decide))).trans (hA r hr)
  clear e n
  -- unary main_v119 → main_v120
  refine step_unary (fun V163 e n => ?_)
  have h_main_v120 : V163 (Proc.devRef (τ := τ) .tc main_v120) = val_main_v120 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v119]
    rfl
  replace h_main_v118 : V163 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  clear h_main_v119
  replace hA : ∀ r ∈ argRefs, V163 (Proc.devRef (τ := τ) .tc r) = V (Proc.devRef .tc r) :=
    fun r hr => (n r (ne_of_mem_of_not_mem hr (by decide))).trans (hA r hr)
  clear e n
  -- nullary  → main_cst_22
  refine step_nullary (fun V164 e n => ?_)
  have h_main_cst_22 : V164 (Proc.devRef (τ := τ) .tc main_cst_22) = val_main_cst_22 (F := F) := e
  replace h_main_v118 : V164 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v120 : V164 (Proc.devRef (τ := τ) .tc main_v120) = val_main_v120 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v120 (by decide)).trans h_main_v120
  replace hA : ∀ r ∈ argRefs, V164 (Proc.devRef (τ := τ) .tc r) = V (Proc.devRef .tc r) :=
    fun r hr => (n r (ne_of_mem_of_not_mem hr (by decide))).trans (hA r hr)
  clear e n
  -- unary main_cst_22 → main_v121
  refine step_unary (fun V165 e n => ?_)
  have h_main_v121 : V165 (Proc.devRef (τ := τ) .tc main_v121) = val_main_v121 (F := F) := by
    rw [e, h_main_cst_22]
    rfl
  replace h_main_v118 : V165 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v120 : V165 (Proc.devRef (τ := τ) .tc main_v120) = val_main_v120 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v120 (by decide)).trans h_main_v120
  clear h_main_cst_22
  replace hA : ∀ r ∈ argRefs, V165 (Proc.devRef (τ := τ) .tc r) = V (Proc.devRef .tc r) :=
    fun r hr => (n r (ne_of_mem_of_not_mem hr (by decide))).trans (hA r hr)
  clear e n
  -- binary main_v120 main_v121 → main_v122
  refine step_binary (fun V166 e n => ?_)
  have h_main_v122 : V166 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v120, h_main_v121]
    rfl
  replace h_main_v118 : V166 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  clear h_main_v120
  clear h_main_v121
  replace hA : ∀ r ∈ argRefs, V166 (Proc.devRef (τ := τ) .tc r) = V (Proc.devRef .tc r) :=
    fun r hr => (n r (ne_of_mem_of_not_mem hr (by decide))).trans (hA r hr)
  clear e n
  -- unary main_v122 → main_v123
  refine step_unary (fun V167 e n => ?_)
  have h_main_v123 : V167 (Proc.devRef (τ := τ) .tc main_v123) = val_main_v123 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v122]
    rfl
  replace h_main_v118 : V167 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V167 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  replace hA : ∀ r ∈ argRefs, V167 (Proc.devRef (τ := τ) .tc r) = V (Proc.devRef .tc r) :=
    fun r hr => (n r (ne_of_mem_of_not_mem hr (by decide))).trans (hA r hr)
  clear e n
  -- binary main_v118 main_v123 → main_v124
  refine step_binary (fun V168 e n => ?_)
  have h_main_v124 : V168 (Proc.devRef (τ := τ) .tc main_v124) = val_main_v124 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v118, h_main_v123]
    rfl
  replace h_main_v118 : V168 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V168 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  clear h_main_v123
  replace hA : ∀ r ∈ argRefs, V168 (Proc.devRef (τ := τ) .tc r) = V (Proc.devRef .tc r) :=
    fun r hr => (n r (ne_of_mem_of_not_mem hr (by decide))).trans (hA r hr)
  clear e n
  -- binary main_v124 main_v124 → main_v125
  refine step_binary (fun V169 e n => ?_)
  have h_main_v125 : V169 (Proc.devRef (τ := τ) .tc main_v125) = val_main_v125 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v124]
    rfl
  replace h_main_v118 : V169 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V169 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  clear h_main_v124
  replace hA : ∀ r ∈ argRefs, V169 (Proc.devRef (τ := τ) .tc r) = V (Proc.devRef .tc r) :=
    fun r hr => (n r (ne_of_mem_of_not_mem hr (by decide))).trans (hA r hr)
  clear e n
  -- nullary  → main_cst_23
  refine step_nullary (fun V170 e n => ?_)
  have h_main_cst_23 : V170 (Proc.devRef (τ := τ) .tc main_cst_23) = val_main_cst_23 (F := F) := e
  replace h_main_v118 : V170 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V170 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  replace h_main_v125 : V170 (Proc.devRef (τ := τ) .tc main_v125) = val_main_v125 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v125 (by decide)).trans h_main_v125
  replace hA : ∀ r ∈ argRefs, V170 (Proc.devRef (τ := τ) .tc r) = V (Proc.devRef .tc r) :=
    fun r hr => (n r (ne_of_mem_of_not_mem hr (by decide))).trans (hA r hr)
  clear e n
  -- binary main_v125 main_cst_23 → main_v126
  refine step_binary (fun V171 e n => ?_)
  have h_main_v126 : V171 (Proc.devRef (τ := τ) .tc main_v126) = val_main_v126 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v125, h_main_cst_23]
    rfl
  replace h_main_v118 : V171 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V171 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  clear h_main_v125
  clear h_main_cst_23
  replace hA : ∀ r ∈ argRefs, V171 (Proc.devRef (τ := τ) .tc r) = V (Proc.devRef .tc r) :=
    fun r hr => (n r (ne_of_mem_of_not_mem hr (by decide))).trans (hA r hr)
  clear e n
  -- unary main_v126 → main_v127
  refine step_unary (fun V172 e n => ?_)
  have h_main_v127 : V172 (Proc.devRef (τ := τ) .tc main_v127) = val_main_v127 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v126]
    rfl
  replace h_main_v118 : V172 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V172 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  clear h_main_v126
  replace hA : ∀ r ∈ argRefs, V172 (Proc.devRef (τ := τ) .tc r) = V (Proc.devRef .tc r) :=
    fun r hr => (n r (ne_of_mem_of_not_mem hr (by decide))).trans (hA r hr)
  clear e n
  -- nullary  → main_cst_24
  refine step_nullary (fun V173 e n => ?_)
  have h_main_cst_24 : V173 (Proc.devRef (τ := τ) .tc main_cst_24) = val_main_cst_24 (F := F) := e
  replace h_main_v118 : V173 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V173 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  replace h_main_v127 : V173 (Proc.devRef (τ := τ) .tc main_v127) = val_main_v127 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v127 (by decide)).trans h_main_v127
  replace hA : ∀ r ∈ argRefs, V173 (Proc.devRef (τ := τ) .tc r) = V (Proc.devRef .tc r) :=
    fun r hr => (n r (ne_of_mem_of_not_mem hr (by decide))).trans (hA r hr)
  clear e n
  -- unary main_cst_24 → main_v128
  refine step_unary (fun V174 e n => ?_)
  have h_main_v128 : V174 (Proc.devRef (τ := τ) .tc main_v128) = val_main_v128 (F := F) := by
    rw [e, h_main_cst_24]
    rfl
  replace h_main_v118 : V174 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V174 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  replace h_main_v127 : V174 (Proc.devRef (τ := τ) .tc main_v127) = val_main_v127 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v127 (by decide)).trans h_main_v127
  clear h_main_cst_24
  replace hA : ∀ r ∈ argRefs, V174 (Proc.devRef (τ := τ) .tc r) = V (Proc.devRef .tc r) :=
    fun r hr => (n r (ne_of_mem_of_not_mem hr (by decide))).trans (hA r hr)
  clear e n
  -- binary main_v127 main_v128 → main_v129
  refine step_binary (fun V175 e n => ?_)
  have h_main_v129 : V175 (Proc.devRef (τ := τ) .tc main_v129) = val_main_v129 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v127, h_main_v128]
    rfl
  replace h_main_v118 : V175 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  replace h_main_v122 : V175 (Proc.devRef (τ := τ) .tc main_v122) = val_main_v122 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v122 (by decide)).trans h_main_v122
  clear h_main_v127
  clear h_main_v128
  replace hA : ∀ r ∈ argRefs, V175 (Proc.devRef (τ := τ) .tc r) = V (Proc.devRef .tc r) :=
    fun r hr => (n r (ne_of_mem_of_not_mem hr (by decide))).trans (hA r hr)
  clear e n
  -- unary main_v122 → main_v130
  refine step_unary (fun V176 e n => ?_)
  have h_main_v130 : V176 (Proc.devRef (τ := τ) .tc main_v130) = val_main_v130 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v122]
    rfl
  replace h_main_v118 : V176 (Proc.devRef (τ := τ) .tc main_v118) = val_main_v118 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v118 (by decide)).trans h_main_v118
  clear h_main_v122
  replace h_main_v129 : V176 (Proc.devRef (τ := τ) .tc main_v129) = val_main_v129 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v129 (by decide)).trans h_main_v129
  replace hA : ∀ r ∈ argRefs, V176 (Proc.devRef (τ := τ) .tc r) = V (Proc.devRef .tc r) :=
    fun r hr => (n r (ne_of_mem_of_not_mem hr (by decide))).trans (hA r hr)
  clear e n
  -- binary main_v118 main_v130 → main_v131
  refine step_binary (fun V177 e n => ?_)
  have h_main_v131 : V177 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v118, h_main_v130]
    rfl
  clear h_main_v118
  replace h_main_v129 : V177 (Proc.devRef (τ := τ) .tc main_v129) = val_main_v129 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v129 (by decide)).trans h_main_v129
  clear h_main_v130
  replace hA : ∀ r ∈ argRefs, V177 (Proc.devRef (τ := τ) .tc r) = V (Proc.devRef .tc r) :=
    fun r hr => (n r (ne_of_mem_of_not_mem hr (by decide))).trans (hA r hr)
  clear e n
  -- nullary  → main_cst_25
  refine step_nullary (fun V178 e n => ?_)
  have h_main_cst_25 : V178 (Proc.devRef (τ := τ) .tc main_cst_25) = val_main_cst_25 (F := F) := e
  replace h_main_v129 : V178 (Proc.devRef (τ := τ) .tc main_v129) = val_main_v129 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v129 (by decide)).trans h_main_v129
  replace h_main_v131 : V178 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v131 (by decide)).trans h_main_v131
  replace hA : ∀ r ∈ argRefs, V178 (Proc.devRef (τ := τ) .tc r) = V (Proc.devRef .tc r) :=
    fun r hr => (n r (ne_of_mem_of_not_mem hr (by decide))).trans (hA r hr)
  clear e n
  -- unary main_cst_25 → main_v132
  refine step_unary (fun V179 e n => ?_)
  have h_main_v132 : V179 (Proc.devRef (τ := τ) .tc main_v132) = val_main_v132 (F := F) := by
    rw [e, h_main_cst_25]
    rfl
  replace h_main_v129 : V179 (Proc.devRef (τ := τ) .tc main_v129) = val_main_v129 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v129 (by decide)).trans h_main_v129
  replace h_main_v131 : V179 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v131 (by decide)).trans h_main_v131
  clear h_main_cst_25
  replace hA : ∀ r ∈ argRefs, V179 (Proc.devRef (τ := τ) .tc r) = V (Proc.devRef .tc r) :=
    fun r hr => (n r (ne_of_mem_of_not_mem hr (by decide))).trans (hA r hr)
  clear e n
  -- binary main_v129 main_v132 → main_v133
  refine step_binary (fun V180 e n => ?_)
  have h_main_v133 : V180 (Proc.devRef (τ := τ) .tc main_v133) = val_main_v133 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v129, h_main_v132]
    rfl
  clear h_main_v129
  replace h_main_v131 : V180 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v131 (by decide)).trans h_main_v131
  clear h_main_v132
  replace hA : ∀ r ∈ argRefs, V180 (Proc.devRef (τ := τ) .tc r) = V (Proc.devRef .tc r) :=
    fun r hr => (n r (ne_of_mem_of_not_mem hr (by decide))).trans (hA r hr)
  clear e n
  -- unary main_v133 → main_v134
  refine step_unary (fun V181 e n => ?_)
  have h_main_v134 : V181 (Proc.devRef (τ := τ) .tc main_v134) = val_main_v134 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v133]
    rfl
  replace h_main_v131 : V181 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v131 (by decide)).trans h_main_v131
  clear h_main_v133
  replace hA : ∀ r ∈ argRefs, V181 (Proc.devRef (τ := τ) .tc r) = V (Proc.devRef .tc r) :=
    fun r hr => (n r (ne_of_mem_of_not_mem hr (by decide))).trans (hA r hr)
  clear e n
  -- unary main_v134 → main_v135
  refine step_unary (fun V182 e n => ?_)
  have h_main_v135 : V182 (Proc.devRef (τ := τ) .tc main_v135) = val_main_v135 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v134]
    rfl
  replace h_main_v131 : V182 (Proc.devRef (τ := τ) .tc main_v131) = val_main_v131 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v131 (by decide)).trans h_main_v131
  clear h_main_v134
  replace hA : ∀ r ∈ argRefs, V182 (Proc.devRef (τ := τ) .tc r) = V (Proc.devRef .tc r) :=
    fun r hr => (n r (ne_of_mem_of_not_mem hr (by decide))).trans (hA r hr)
  clear e n
  -- binary main_v131 main_v135 → main_v136
  refine step_binary (fun V183 e n => ?_)
  have h_main_v136 : V183 (Proc.devRef (τ := τ) .tc main_v136) = val_main_v136 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
    rw [e, h_main_v131, h_main_v135]
    rfl
  clear h_main_v131
  clear h_main_v135
  replace hA : ∀ r ∈ argRefs, V183 (Proc.devRef (τ := τ) .tc r) = V (Proc.devRef .tc r) :=
    fun r hr => (n r (ne_of_mem_of_not_mem hr (by decide))).trans (hA r hr)
  clear e n
  -- unary main_arg16 → main_v137
  refine step_unary (fun V184 e n => ?_)
  have h_main_v137 : V184 (Proc.devRef (τ := τ) .tc main_v137) = val_main_v137 (F := F) (V (Proc.devRef (τ := τ) .tc main_arg16)) := by
    rw [e, hA main_arg16 (by decide)]
    rfl
  replace h_main_v136 : V184 (Proc.devRef (τ := τ) .tc main_v136) = val_main_v136 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v136 (by decide)).trans h_main_v136
  replace hA : ∀ r ∈ argRefs, V184 (Proc.devRef (τ := τ) .tc r) = V (Proc.devRef .tc r) :=
    fun r hr => (n r (ne_of_mem_of_not_mem hr (by decide))).trans (hA r hr)
  clear e n
  -- unary main_v137 → main_v138
  refine step_unary (fun V185 e n => ?_)
  have h_main_v138 : V185 (Proc.devRef (τ := τ) .tc main_v138) = val_main_v138 (F := F) (V (Proc.devRef (τ := τ) .tc main_arg16)) := by
    rw [e, h_main_v137]
    rfl
  replace h_main_v136 : V185 (Proc.devRef (τ := τ) .tc main_v136) = val_main_v136 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := (n main_v136 (by decide)).trans h_main_v136
  clear h_main_v137
  replace hA : ∀ r ∈ argRefs, V185 (Proc.devRef (τ := τ) .tc r) = V (Proc.devRef .tc r) :=
    fun r hr => (n r (ne_of_mem_of_not_mem hr (by decide))).trans (hA r hr)
  clear e n
  -- binary main_v136 main_v138 → main_v139
  refine step_binary (fun V186 e n => ?_)
  have h_main_v139 : V186 (Proc.devRef (τ := τ) .tc main_v139) = val_main_v139 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) := by
    rw [e, h_main_v136, h_main_v138]
    rfl
  clear h_main_v136
  clear h_main_v138
  replace hA : ∀ r ∈ argRefs, V186 (Proc.devRef (τ := τ) .tc r) = V (Proc.devRef .tc r) :=
    fun r hr => (n r (ne_of_mem_of_not_mem hr (by decide))).trans (hA r hr)
  clear e n
  -- unary main_arg17 → main_v140
  refine step_unary (fun V187 e n => ?_)
  have h_main_v140 : V187 (Proc.devRef (τ := τ) .tc main_v140) = val_main_v140 (F := F) (V (Proc.devRef (τ := τ) .tc main_arg17)) := by
    rw [e, hA main_arg17 (by decide)]
    rfl
  replace h_main_v139 : V187 (Proc.devRef (τ := τ) .tc main_v139) = val_main_v139 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) := (n main_v139 (by decide)).trans h_main_v139
  replace hA : ∀ r ∈ argRefs, V187 (Proc.devRef (τ := τ) .tc r) = V (Proc.devRef .tc r) :=
    fun r hr => (n r (ne_of_mem_of_not_mem hr (by decide))).trans (hA r hr)
  clear e n
  -- unary main_v140 → main_v141
  refine step_unary (fun V188 e n => ?_)
  have h_main_v141 : V188 (Proc.devRef (τ := τ) .tc main_v141) = val_main_v141 (F := F) (V (Proc.devRef (τ := τ) .tc main_arg17)) := by
    rw [e, h_main_v140]
    rfl
  replace h_main_v139 : V188 (Proc.devRef (τ := τ) .tc main_v139) = val_main_v139 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) := (n main_v139 (by decide)).trans h_main_v139
  clear h_main_v140
  replace hA : ∀ r ∈ argRefs, V188 (Proc.devRef (τ := τ) .tc r) = V (Proc.devRef .tc r) :=
    fun r hr => (n r (ne_of_mem_of_not_mem hr (by decide))).trans (hA r hr)
  clear e n
  -- binary main_v139 main_v141 → main_v142
  refine step_binary (fun V189 e n => ?_)
  have h_main_v142 : V189 (Proc.devRef (τ := τ) .tc main_v142) = val_main_v142 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) := by
    rw [e, h_main_v139, h_main_v141]
    rfl
  clear h_main_v139
  clear h_main_v141
  replace hA : ∀ r ∈ argRefs, V189 (Proc.devRef (τ := τ) .tc r) = V (Proc.devRef .tc r) :=
    fun r hr => (n r (ne_of_mem_of_not_mem hr (by decide))).trans (hA r hr)
  clear e n
  -- binary main_v142 main_arg18 → main_v143
  refine step_binary (fun V190 e n => ?_)
  have h_main_v143 : V190 (Proc.devRef (τ := τ) .tc main_v143) = val_main_v143 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) := by
    rw [e, h_main_v142, hA main_arg18 (by decide)]
    rfl
  clear h_main_v142
  replace hA : ∀ r ∈ argRefs, V190 (Proc.devRef (τ := τ) .tc r) = V (Proc.devRef .tc r) :=
    fun r hr => (n r (ne_of_mem_of_not_mem hr (by decide))).trans (hA r hr)
  clear e n
  -- unary main_arg19 → main_v144
  refine step_unary (fun V191 e n => ?_)
  have h_main_v144 : V191 (Proc.devRef (τ := τ) .tc main_v144) = val_main_v144 (F := F) (V (Proc.devRef (τ := τ) .tc main_arg19)) := by
    rw [e, hA main_arg19 (by decide)]
    rfl
  replace h_main_v143 : V191 (Proc.devRef (τ := τ) .tc main_v143) = val_main_v143 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) := (n main_v143 (by decide)).trans h_main_v143
  replace hA : ∀ r ∈ argRefs, V191 (Proc.devRef (τ := τ) .tc r) = V (Proc.devRef .tc r) :=
    fun r hr => (n r (ne_of_mem_of_not_mem hr (by decide))).trans (hA r hr)
  clear e n
  -- unary main_v144 → main_v145
  refine step_unary (fun V192 e n => ?_)
  have h_main_v145 : V192 (Proc.devRef (τ := τ) .tc main_v145) = val_main_v145 (F := F) (V (Proc.devRef (τ := τ) .tc main_arg19)) := by
    rw [e, h_main_v144]
    rfl
  replace h_main_v143 : V192 (Proc.devRef (τ := τ) .tc main_v143) = val_main_v143 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) := (n main_v143 (by decide)).trans h_main_v143
  clear h_main_v144
  replace hA : ∀ r ∈ argRefs, V192 (Proc.devRef (τ := τ) .tc r) = V (Proc.devRef .tc r) :=
    fun r hr => (n r (ne_of_mem_of_not_mem hr (by decide))).trans (hA r hr)
  clear e n
  -- binary main_v143 main_v145 → main_v146
  refine step_binary (fun V193 e n => ?_)
  have h_main_v146 : V193 (Proc.devRef (τ := τ) .tc main_v146) = val_main_v146 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v143, h_main_v145]
    rfl
  clear h_main_v143
  clear h_main_v145
  replace hA : ∀ r ∈ argRefs, V193 (Proc.devRef (τ := τ) .tc r) = V (Proc.devRef .tc r) :=
    fun r hr => (n r (ne_of_mem_of_not_mem hr (by decide))).trans (hA r hr)
  clear e n
  -- nullary  → main_call6_cst
  refine step_nullary (fun V194 e n => ?_)
  have h_main_call6_cst : V194 (Proc.devRef (τ := τ) .tc main_call6_cst) = val_main_call6_cst (F := F) := e
  replace h_main_v146 : V194 (Proc.devRef (τ := τ) .tc main_v146) = val_main_v146 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v146 (by decide)).trans h_main_v146
  replace hA : ∀ r ∈ argRefs, V194 (Proc.devRef (τ := τ) .tc r) = V (Proc.devRef .tc r) :=
    fun r hr => (n r (ne_of_mem_of_not_mem hr (by decide))).trans (hA r hr)
  clear e n
  -- unary main_call6_cst → main_call6_v0
  refine step_unary (fun V195 e n => ?_)
  have h_main_call6_v0 : V195 (Proc.devRef (τ := τ) .tc main_call6_v0) = val_main_call6_v0 (F := F) := by
    rw [e, h_main_call6_cst]
    rfl
  replace h_main_v146 : V195 (Proc.devRef (τ := τ) .tc main_v146) = val_main_v146 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v146 (by decide)).trans h_main_v146
  clear h_main_call6_cst
  replace hA : ∀ r ∈ argRefs, V195 (Proc.devRef (τ := τ) .tc r) = V (Proc.devRef .tc r) :=
    fun r hr => (n r (ne_of_mem_of_not_mem hr (by decide))).trans (hA r hr)
  clear e n
  -- binary main_v146 main_call6_v0 → main_v147
  refine step_binary (fun V196 e n => ?_)
  have h_main_v147 : V196 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v146, h_main_call6_v0]
    rfl
  clear h_main_v146
  clear h_main_call6_v0
  replace hA : ∀ r ∈ argRefs, V196 (Proc.devRef (τ := τ) .tc r) = V (Proc.devRef .tc r) :=
    fun r hr => (n r (ne_of_mem_of_not_mem hr (by decide))).trans (hA r hr)
  clear e n
  -- nullary  → main_cst_26
  refine step_nullary (fun V197 e n => ?_)
  have h_main_cst_26 : V197 (Proc.devRef (τ := τ) .tc main_cst_26) = val_main_cst_26 (F := F) := e
  replace h_main_v147 : V197 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace hA : ∀ r ∈ argRefs, V197 (Proc.devRef (τ := τ) .tc r) = V (Proc.devRef .tc r) :=
    fun r hr => (n r (ne_of_mem_of_not_mem hr (by decide))).trans (hA r hr)
  clear e n
  -- binary main_v147 main_cst_26 → main_v148
  refine step_binary (fun V198 e n => ?_)
  have h_main_v148 : V198 (Proc.devRef (τ := τ) .tc main_v148) = val_main_v148 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v147, h_main_cst_26]
    rfl
  replace h_main_v147 : V198 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  clear h_main_cst_26
  replace hA : ∀ r ∈ argRefs, V198 (Proc.devRef (τ := τ) .tc r) = V (Proc.devRef .tc r) :=
    fun r hr => (n r (ne_of_mem_of_not_mem hr (by decide))).trans (hA r hr)
  clear e n
  -- unary main_v148 → main_v149
  refine step_unary (fun V199 e n => ?_)
  have h_main_v149 : V199 (Proc.devRef (τ := τ) .tc main_v149) = val_main_v149 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v148]
    rfl
  replace h_main_v147 : V199 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  clear h_main_v148
  replace hA : ∀ r ∈ argRefs, V199 (Proc.devRef (τ := τ) .tc r) = V (Proc.devRef .tc r) :=
    fun r hr => (n r (ne_of_mem_of_not_mem hr (by decide))).trans (hA r hr)
  clear e n
  -- nullary  → main_cst_27
  refine step_nullary (fun V200 e n => ?_)
  have h_main_cst_27 : V200 (Proc.devRef (τ := τ) .tc main_cst_27) = val_main_cst_27 (F := F) := e
  replace h_main_v147 : V200 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v149 : V200 (Proc.devRef (τ := τ) .tc main_v149) = val_main_v149 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v149 (by decide)).trans h_main_v149
  replace hA : ∀ r ∈ argRefs, V200 (Proc.devRef (τ := τ) .tc r) = V (Proc.devRef .tc r) :=
    fun r hr => (n r (ne_of_mem_of_not_mem hr (by decide))).trans (hA r hr)
  clear e n
  -- unary main_cst_27 → main_v150
  refine step_unary (fun V201 e n => ?_)
  have h_main_v150 : V201 (Proc.devRef (τ := τ) .tc main_v150) = val_main_v150 (F := F) := by
    rw [e, h_main_cst_27]
    rfl
  replace h_main_v147 : V201 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v149 : V201 (Proc.devRef (τ := τ) .tc main_v149) = val_main_v149 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v149 (by decide)).trans h_main_v149
  clear h_main_cst_27
  replace hA : ∀ r ∈ argRefs, V201 (Proc.devRef (τ := τ) .tc r) = V (Proc.devRef .tc r) :=
    fun r hr => (n r (ne_of_mem_of_not_mem hr (by decide))).trans (hA r hr)
  clear e n
  -- binary main_v149 main_v150 → main_v151
  refine step_binary (fun V202 e n => ?_)
  have h_main_v151 : V202 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v149, h_main_v150]
    rfl
  replace h_main_v147 : V202 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  clear h_main_v149
  clear h_main_v150
  replace hA : ∀ r ∈ argRefs, V202 (Proc.devRef (τ := τ) .tc r) = V (Proc.devRef .tc r) :=
    fun r hr => (n r (ne_of_mem_of_not_mem hr (by decide))).trans (hA r hr)
  clear e n
  -- unary main_v151 → main_v152
  refine step_unary (fun V203 e n => ?_)
  have h_main_v152 : V203 (Proc.devRef (τ := τ) .tc main_v152) = val_main_v152 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v151]
    rfl
  replace h_main_v147 : V203 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V203 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  replace hA : ∀ r ∈ argRefs, V203 (Proc.devRef (τ := τ) .tc r) = V (Proc.devRef .tc r) :=
    fun r hr => (n r (ne_of_mem_of_not_mem hr (by decide))).trans (hA r hr)
  clear e n
  -- binary main_v147 main_v152 → main_v153
  refine step_binary (fun V204 e n => ?_)
  have h_main_v153 : V204 (Proc.devRef (τ := τ) .tc main_v153) = val_main_v153 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v147, h_main_v152]
    rfl
  replace h_main_v147 : V204 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V204 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  clear h_main_v152
  replace hA : ∀ r ∈ argRefs, V204 (Proc.devRef (τ := τ) .tc r) = V (Proc.devRef .tc r) :=
    fun r hr => (n r (ne_of_mem_of_not_mem hr (by decide))).trans (hA r hr)
  clear e n
  -- binary main_v153 main_v153 → main_v154
  refine step_binary (fun V205 e n => ?_)
  have h_main_v154 : V205 (Proc.devRef (τ := τ) .tc main_v154) = val_main_v154 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v153]
    rfl
  replace h_main_v147 : V205 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V205 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  clear h_main_v153
  replace hA : ∀ r ∈ argRefs, V205 (Proc.devRef (τ := τ) .tc r) = V (Proc.devRef .tc r) :=
    fun r hr => (n r (ne_of_mem_of_not_mem hr (by decide))).trans (hA r hr)
  clear e n
  -- nullary  → main_cst_28
  refine step_nullary (fun V206 e n => ?_)
  have h_main_cst_28 : V206 (Proc.devRef (τ := τ) .tc main_cst_28) = val_main_cst_28 (F := F) := e
  replace h_main_v147 : V206 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V206 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  replace h_main_v154 : V206 (Proc.devRef (τ := τ) .tc main_v154) = val_main_v154 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v154 (by decide)).trans h_main_v154
  replace hA : ∀ r ∈ argRefs, V206 (Proc.devRef (τ := τ) .tc r) = V (Proc.devRef .tc r) :=
    fun r hr => (n r (ne_of_mem_of_not_mem hr (by decide))).trans (hA r hr)
  clear e n
  -- binary main_v154 main_cst_28 → main_v155
  refine step_binary (fun V207 e n => ?_)
  have h_main_v155 : V207 (Proc.devRef (τ := τ) .tc main_v155) = val_main_v155 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v154, h_main_cst_28]
    rfl
  replace h_main_v147 : V207 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V207 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  clear h_main_v154
  clear h_main_cst_28
  replace hA : ∀ r ∈ argRefs, V207 (Proc.devRef (τ := τ) .tc r) = V (Proc.devRef .tc r) :=
    fun r hr => (n r (ne_of_mem_of_not_mem hr (by decide))).trans (hA r hr)
  clear e n
  -- unary main_v155 → main_v156
  refine step_unary (fun V208 e n => ?_)
  have h_main_v156 : V208 (Proc.devRef (τ := τ) .tc main_v156) = val_main_v156 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v155]
    rfl
  replace h_main_v147 : V208 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V208 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  clear h_main_v155
  replace hA : ∀ r ∈ argRefs, V208 (Proc.devRef (τ := τ) .tc r) = V (Proc.devRef .tc r) :=
    fun r hr => (n r (ne_of_mem_of_not_mem hr (by decide))).trans (hA r hr)
  clear e n
  -- nullary  → main_cst_29
  refine step_nullary (fun V209 e n => ?_)
  have h_main_cst_29 : V209 (Proc.devRef (τ := τ) .tc main_cst_29) = val_main_cst_29 (F := F) := e
  replace h_main_v147 : V209 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V209 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  replace h_main_v156 : V209 (Proc.devRef (τ := τ) .tc main_v156) = val_main_v156 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v156 (by decide)).trans h_main_v156
  replace hA : ∀ r ∈ argRefs, V209 (Proc.devRef (τ := τ) .tc r) = V (Proc.devRef .tc r) :=
    fun r hr => (n r (ne_of_mem_of_not_mem hr (by decide))).trans (hA r hr)
  clear e n
  -- unary main_cst_29 → main_v157
  refine step_unary (fun V210 e n => ?_)
  have h_main_v157 : V210 (Proc.devRef (τ := τ) .tc main_v157) = val_main_v157 (F := F) := by
    rw [e, h_main_cst_29]
    rfl
  replace h_main_v147 : V210 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V210 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  replace h_main_v156 : V210 (Proc.devRef (τ := τ) .tc main_v156) = val_main_v156 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v156 (by decide)).trans h_main_v156
  clear h_main_cst_29
  replace hA : ∀ r ∈ argRefs, V210 (Proc.devRef (τ := τ) .tc r) = V (Proc.devRef .tc r) :=
    fun r hr => (n r (ne_of_mem_of_not_mem hr (by decide))).trans (hA r hr)
  clear e n
  -- binary main_v156 main_v157 → main_v158
  refine step_binary (fun V211 e n => ?_)
  have h_main_v158 : V211 (Proc.devRef (τ := τ) .tc main_v158) = val_main_v158 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v156, h_main_v157]
    rfl
  replace h_main_v147 : V211 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  replace h_main_v151 : V211 (Proc.devRef (τ := τ) .tc main_v151) = val_main_v151 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v151 (by decide)).trans h_main_v151
  clear h_main_v156
  clear h_main_v157
  replace hA : ∀ r ∈ argRefs, V211 (Proc.devRef (τ := τ) .tc r) = V (Proc.devRef .tc r) :=
    fun r hr => (n r (ne_of_mem_of_not_mem hr (by decide))).trans (hA r hr)
  clear e n
  -- unary main_v151 → main_v159
  refine step_unary (fun V212 e n => ?_)
  have h_main_v159 : V212 (Proc.devRef (τ := τ) .tc main_v159) = val_main_v159 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v151]
    rfl
  replace h_main_v147 : V212 (Proc.devRef (τ := τ) .tc main_v147) = val_main_v147 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v147 (by decide)).trans h_main_v147
  clear h_main_v151
  replace h_main_v158 : V212 (Proc.devRef (τ := τ) .tc main_v158) = val_main_v158 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v158 (by decide)).trans h_main_v158
  replace hA : ∀ r ∈ argRefs, V212 (Proc.devRef (τ := τ) .tc r) = V (Proc.devRef .tc r) :=
    fun r hr => (n r (ne_of_mem_of_not_mem hr (by decide))).trans (hA r hr)
  clear e n
  -- binary main_v147 main_v159 → main_v160
  refine step_binary (fun V213 e n => ?_)
  have h_main_v160 : V213 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v147, h_main_v159]
    rfl
  clear h_main_v147
  replace h_main_v158 : V213 (Proc.devRef (τ := τ) .tc main_v158) = val_main_v158 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v158 (by decide)).trans h_main_v158
  clear h_main_v159
  replace hA : ∀ r ∈ argRefs, V213 (Proc.devRef (τ := τ) .tc r) = V (Proc.devRef .tc r) :=
    fun r hr => (n r (ne_of_mem_of_not_mem hr (by decide))).trans (hA r hr)
  clear e n
  -- nullary  → main_cst_30
  refine step_nullary (fun V214 e n => ?_)
  have h_main_cst_30 : V214 (Proc.devRef (τ := τ) .tc main_cst_30) = val_main_cst_30 (F := F) := e
  replace h_main_v158 : V214 (Proc.devRef (τ := τ) .tc main_v158) = val_main_v158 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v158 (by decide)).trans h_main_v158
  replace h_main_v160 : V214 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v160 (by decide)).trans h_main_v160
  replace hA : ∀ r ∈ argRefs, V214 (Proc.devRef (τ := τ) .tc r) = V (Proc.devRef .tc r) :=
    fun r hr => (n r (ne_of_mem_of_not_mem hr (by decide))).trans (hA r hr)
  clear e n
  -- unary main_cst_30 → main_v161
  refine step_unary (fun V215 e n => ?_)
  have h_main_v161 : V215 (Proc.devRef (τ := τ) .tc main_v161) = val_main_v161 (F := F) := by
    rw [e, h_main_cst_30]
    rfl
  replace h_main_v158 : V215 (Proc.devRef (τ := τ) .tc main_v158) = val_main_v158 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v158 (by decide)).trans h_main_v158
  replace h_main_v160 : V215 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v160 (by decide)).trans h_main_v160
  clear h_main_cst_30
  replace hA : ∀ r ∈ argRefs, V215 (Proc.devRef (τ := τ) .tc r) = V (Proc.devRef .tc r) :=
    fun r hr => (n r (ne_of_mem_of_not_mem hr (by decide))).trans (hA r hr)
  clear e n
  -- binary main_v158 main_v161 → main_v162
  refine step_binary (fun V216 e n => ?_)
  have h_main_v162 : V216 (Proc.devRef (τ := τ) .tc main_v162) = val_main_v162 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v158, h_main_v161]
    rfl
  clear h_main_v158
  replace h_main_v160 : V216 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v160 (by decide)).trans h_main_v160
  clear h_main_v161
  replace hA : ∀ r ∈ argRefs, V216 (Proc.devRef (τ := τ) .tc r) = V (Proc.devRef .tc r) :=
    fun r hr => (n r (ne_of_mem_of_not_mem hr (by decide))).trans (hA r hr)
  clear e n
  -- unary main_v162 → main_v163
  refine step_unary (fun V217 e n => ?_)
  have h_main_v163 : V217 (Proc.devRef (τ := τ) .tc main_v163) = val_main_v163 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v162]
    rfl
  replace h_main_v160 : V217 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v160 (by decide)).trans h_main_v160
  clear h_main_v162
  replace hA : ∀ r ∈ argRefs, V217 (Proc.devRef (τ := τ) .tc r) = V (Proc.devRef .tc r) :=
    fun r hr => (n r (ne_of_mem_of_not_mem hr (by decide))).trans (hA r hr)
  clear e n
  -- unary main_v163 → main_v164
  refine step_unary (fun V218 e n => ?_)
  have h_main_v164 : V218 (Proc.devRef (τ := τ) .tc main_v164) = val_main_v164 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v163]
    rfl
  replace h_main_v160 : V218 (Proc.devRef (τ := τ) .tc main_v160) = val_main_v160 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v160 (by decide)).trans h_main_v160
  clear h_main_v163
  replace hA : ∀ r ∈ argRefs, V218 (Proc.devRef (τ := τ) .tc r) = V (Proc.devRef .tc r) :=
    fun r hr => (n r (ne_of_mem_of_not_mem hr (by decide))).trans (hA r hr)
  clear e n
  -- binary main_v160 main_v164 → main_v165
  refine step_binary (fun V219 e n => ?_)
  have h_main_v165 : V219 (Proc.devRef (τ := τ) .tc main_v165) = val_main_v165 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := by
    rw [e, h_main_v160, h_main_v164]
    rfl
  clear h_main_v160
  clear h_main_v164
  replace hA : ∀ r ∈ argRefs, V219 (Proc.devRef (τ := τ) .tc r) = V (Proc.devRef .tc r) :=
    fun r hr => (n r (ne_of_mem_of_not_mem hr (by decide))).trans (hA r hr)
  clear e n
  -- unary main_arg20 → main_v166
  refine step_unary (fun V220 e n => ?_)
  have h_main_v166 : V220 (Proc.devRef (τ := τ) .tc main_v166) = val_main_v166 (F := F) (V (Proc.devRef (τ := τ) .tc main_arg20)) := by
    rw [e, hA main_arg20 (by decide)]
    rfl
  replace h_main_v165 : V220 (Proc.devRef (τ := τ) .tc main_v165) = val_main_v165 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v165 (by decide)).trans h_main_v165
  replace hA : ∀ r ∈ argRefs, V220 (Proc.devRef (τ := τ) .tc r) = V (Proc.devRef .tc r) :=
    fun r hr => (n r (ne_of_mem_of_not_mem hr (by decide))).trans (hA r hr)
  clear e n
  -- unary main_v166 → main_v167
  refine step_unary (fun V221 e n => ?_)
  have h_main_v167 : V221 (Proc.devRef (τ := τ) .tc main_v167) = val_main_v167 (F := F) (V (Proc.devRef (τ := τ) .tc main_arg20)) := by
    rw [e, h_main_v166]
    rfl
  replace h_main_v165 : V221 (Proc.devRef (τ := τ) .tc main_v165) = val_main_v165 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) := (n main_v165 (by decide)).trans h_main_v165
  clear h_main_v166
  replace hA : ∀ r ∈ argRefs, V221 (Proc.devRef (τ := τ) .tc r) = V (Proc.devRef .tc r) :=
    fun r hr => (n r (ne_of_mem_of_not_mem hr (by decide))).trans (hA r hr)
  clear e n
  -- binary main_v165 main_v167 → main_v168
  refine step_binary (fun V222 e n => ?_)
  have h_main_v168 : V222 (Proc.devRef (τ := τ) .tc main_v168) = val_main_v168 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) := by
    rw [e, h_main_v165, h_main_v167]
    rfl
  clear h_main_v165
  clear h_main_v167
  replace hA : ∀ r ∈ argRefs, V222 (Proc.devRef (τ := τ) .tc r) = V (Proc.devRef .tc r) :=
    fun r hr => (n r (ne_of_mem_of_not_mem hr (by decide))).trans (hA r hr)
  clear e n
  -- unary main_arg21 → main_v169
  refine step_unary (fun V223 e n => ?_)
  have h_main_v169 : V223 (Proc.devRef (τ := τ) .tc main_v169) = val_main_v169 (F := F) (V (Proc.devRef (τ := τ) .tc main_arg21)) := by
    rw [e, hA main_arg21 (by decide)]
    rfl
  replace h_main_v168 : V223 (Proc.devRef (τ := τ) .tc main_v168) = val_main_v168 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) := (n main_v168 (by decide)).trans h_main_v168
  replace hA : ∀ r ∈ argRefs, V223 (Proc.devRef (τ := τ) .tc r) = V (Proc.devRef .tc r) :=
    fun r hr => (n r (ne_of_mem_of_not_mem hr (by decide))).trans (hA r hr)
  clear e n
  -- unary main_v169 → main_v170
  refine step_unary (fun V224 e n => ?_)
  have h_main_v170 : V224 (Proc.devRef (τ := τ) .tc main_v170) = val_main_v170 (F := F) (V (Proc.devRef (τ := τ) .tc main_arg21)) := by
    rw [e, h_main_v169]
    rfl
  replace h_main_v168 : V224 (Proc.devRef (τ := τ) .tc main_v168) = val_main_v168 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) := (n main_v168 (by decide)).trans h_main_v168
  clear h_main_v169
  replace hA : ∀ r ∈ argRefs, V224 (Proc.devRef (τ := τ) .tc r) = V (Proc.devRef .tc r) :=
    fun r hr => (n r (ne_of_mem_of_not_mem hr (by decide))).trans (hA r hr)
  clear e n
  -- binary main_v168 main_v170 → main_v171
  refine step_binary (fun V225 e n => ?_)
  have h_main_v171 : V225 (Proc.devRef (τ := τ) .tc main_v171) = val_main_v171 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) := by
    rw [e, h_main_v168, h_main_v170]
    rfl
  clear h_main_v168
  clear h_main_v170
  replace hA : ∀ r ∈ argRefs, V225 (Proc.devRef (τ := τ) .tc r) = V (Proc.devRef .tc r) :=
    fun r hr => (n r (ne_of_mem_of_not_mem hr (by decide))).trans (hA r hr)
  clear e n
  -- binary main_v171 main_arg22 → main_v172
  refine step_binary (fun V226 e n => ?_)
  have h_main_v172 : V226 (Proc.devRef (τ := τ) .tc main_v172) = val_main_v172 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) := by
    rw [e, h_main_v171, hA main_arg22 (by decide)]
    rfl
  replace h_main_v171 : V226 (Proc.devRef (τ := τ) .tc main_v171) = val_main_v171 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) := (n main_v171 (by decide)).trans h_main_v171
  replace hA : ∀ r ∈ argRefs, V226 (Proc.devRef (τ := τ) .tc r) = V (Proc.devRef .tc r) :=
    fun r hr => (n r (ne_of_mem_of_not_mem hr (by decide))).trans (hA r hr)
  clear e n
  -- unary main_arg23 → main_v173
  refine step_unary (fun V227 e n => ?_)
  have h_main_v173 : V227 (Proc.devRef (τ := τ) .tc main_v173) = val_main_v173 (F := F) (V (Proc.devRef (τ := τ) .tc main_arg23)) := by
    rw [e, hA main_arg23 (by decide)]
    rfl
  replace h_main_v171 : V227 (Proc.devRef (τ := τ) .tc main_v171) = val_main_v171 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) := (n main_v171 (by decide)).trans h_main_v171
  replace h_main_v172 : V227 (Proc.devRef (τ := τ) .tc main_v172) = val_main_v172 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) := (n main_v172 (by decide)).trans h_main_v172
  replace hA : ∀ r ∈ argRefs, V227 (Proc.devRef (τ := τ) .tc r) = V (Proc.devRef .tc r) :=
    fun r hr => (n r (ne_of_mem_of_not_mem hr (by decide))).trans (hA r hr)
  clear e n
  -- unary main_v173 → main_v174
  refine step_unary (fun V228 e n => ?_)
  have h_main_v174 : V228 (Proc.devRef (τ := τ) .tc main_v174) = val_main_v174 (F := F) (V (Proc.devRef (τ := τ) .tc main_arg23)) := by
    rw [e, h_main_v173]
    rfl
  replace h_main_v171 : V228 (Proc.devRef (τ := τ) .tc main_v171) = val_main_v171 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) := (n main_v171 (by decide)).trans h_main_v171
  replace h_main_v172 : V228 (Proc.devRef (τ := τ) .tc main_v172) = val_main_v172 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) := (n main_v172 (by decide)).trans h_main_v172
  clear h_main_v173
  replace hA : ∀ r ∈ argRefs, V228 (Proc.devRef (τ := τ) .tc r) = V (Proc.devRef .tc r) :=
    fun r hr => (n r (ne_of_mem_of_not_mem hr (by decide))).trans (hA r hr)
  clear e n
  -- binary main_v172 main_v174 → main_v175
  refine step_binary (fun V229 e n => ?_)
  have h_main_v175 : V229 (Proc.devRef (τ := τ) .tc main_v175) = val_main_v175 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := by
    rw [e, h_main_v172, h_main_v174]
    rfl
  replace h_main_v171 : V229 (Proc.devRef (τ := τ) .tc main_v171) = val_main_v171 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) := (n main_v171 (by decide)).trans h_main_v171
  clear h_main_v172
  clear h_main_v174
  replace hA : ∀ r ∈ argRefs, V229 (Proc.devRef (τ := τ) .tc r) = V (Proc.devRef .tc r) :=
    fun r hr => (n r (ne_of_mem_of_not_mem hr (by decide))).trans (hA r hr)
  clear e n
  -- binary main_v171 main_arg24 → main_v176
  refine step_binary (fun V230 e n => ?_)
  have h_main_v176 : V230 (Proc.devRef (τ := τ) .tc main_v176) = val_main_v176 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) := by
    rw [e, h_main_v171, hA main_arg24 (by decide)]
    rfl
  clear h_main_v171
  replace h_main_v175 : V230 (Proc.devRef (τ := τ) .tc main_v175) = val_main_v175 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := (n main_v175 (by decide)).trans h_main_v175
  replace hA : ∀ r ∈ argRefs, V230 (Proc.devRef (τ := τ) .tc r) = V (Proc.devRef .tc r) :=
    fun r hr => (n r (ne_of_mem_of_not_mem hr (by decide))).trans (hA r hr)
  clear e n
  -- unary main_arg25 → main_v177
  refine step_unary (fun V231 e n => ?_)
  have h_main_v177 : V231 (Proc.devRef (τ := τ) .tc main_v177) = val_main_v177 (F := F) (V (Proc.devRef (τ := τ) .tc main_arg25)) := by
    rw [e, hA main_arg25 (by decide)]
    rfl
  replace h_main_v175 : V231 (Proc.devRef (τ := τ) .tc main_v175) = val_main_v175 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := (n main_v175 (by decide)).trans h_main_v175
  replace h_main_v176 : V231 (Proc.devRef (τ := τ) .tc main_v176) = val_main_v176 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) := (n main_v176 (by decide)).trans h_main_v176
  replace hA : ∀ r ∈ argRefs, V231 (Proc.devRef (τ := τ) .tc r) = V (Proc.devRef .tc r) :=
    fun r hr => (n r (ne_of_mem_of_not_mem hr (by decide))).trans (hA r hr)
  clear e n
  -- unary main_v177 → main_v178
  refine step_unary (fun V232 e n => ?_)
  have h_main_v178 : V232 (Proc.devRef (τ := τ) .tc main_v178) = val_main_v178 (F := F) (V (Proc.devRef (τ := τ) .tc main_arg25)) := by
    rw [e, h_main_v177]
    rfl
  replace h_main_v175 : V232 (Proc.devRef (τ := τ) .tc main_v175) = val_main_v175 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := (n main_v175 (by decide)).trans h_main_v175
  replace h_main_v176 : V232 (Proc.devRef (τ := τ) .tc main_v176) = val_main_v176 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) := (n main_v176 (by decide)).trans h_main_v176
  clear h_main_v177
  replace hA : ∀ r ∈ argRefs, V232 (Proc.devRef (τ := τ) .tc r) = V (Proc.devRef .tc r) :=
    fun r hr => (n r (ne_of_mem_of_not_mem hr (by decide))).trans (hA r hr)
  clear e n
  -- binary main_v176 main_v178 → main_v179
  refine step_binary (fun V233 e n => ?_)
  have h_main_v179 : V233 (Proc.devRef (τ := τ) .tc main_v179) = val_main_v179 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) (V (Proc.devRef (τ := τ) .tc main_arg25)) := by
    rw [e, h_main_v176, h_main_v178]
    rfl
  replace h_main_v175 : V233 (Proc.devRef (τ := τ) .tc main_v175) = val_main_v175 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := (n main_v175 (by decide)).trans h_main_v175
  clear h_main_v176
  clear h_main_v178
  replace hA : ∀ r ∈ argRefs, V233 (Proc.devRef (τ := τ) .tc r) = V (Proc.devRef .tc r) :=
    fun r hr => (n r (ne_of_mem_of_not_mem hr (by decide))).trans (hA r hr)
  clear e n
  -- unary main_v175 → main_v180
  refine step_unary (fun V234 e n => ?_)
  have h_main_v180 : V234 (Proc.devRef (τ := τ) .tc main_v180) = val_main_v180 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := by
    rw [e, h_main_v175]
    rfl
  clear h_main_v175
  replace h_main_v179 : V234 (Proc.devRef (τ := τ) .tc main_v179) = val_main_v179 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) (V (Proc.devRef (τ := τ) .tc main_arg25)) := (n main_v179 (by decide)).trans h_main_v179
  replace hA : ∀ r ∈ argRefs, V234 (Proc.devRef (τ := τ) .tc r) = V (Proc.devRef .tc r) :=
    fun r hr => (n r (ne_of_mem_of_not_mem hr (by decide))).trans (hA r hr)
  clear e n
  -- unary main_v179 → main_v181
  refine step_unary (fun V235 e n => ?_)
  have h_main_v181 : V235 (Proc.devRef (τ := τ) .tc main_v181) = val_main_v181 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg24)) (V (Proc.devRef (τ := τ) .tc main_arg25)) := by
    rw [e, h_main_v179]
    rfl
  clear h_main_v179
  replace h_main_v180 : V235 (Proc.devRef (τ := τ) .tc main_v180) = val_main_v180 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) := (n main_v180 (by decide)).trans h_main_v180
  replace hA : ∀ r ∈ argRefs, V235 (Proc.devRef (τ := τ) .tc r) = V (Proc.devRef .tc r) :=
    fun r hr => (n r (ne_of_mem_of_not_mem hr (by decide))).trans (hA r hr)
  clear e n
  -- binary main_v180 main_v181 → main_v182
  refine step_binary (fun V236 e n => ?_)
  have h_main_v182 : V236 (Proc.devRef (τ := τ) .tc main_v182) = val_main_v182 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) (V (Proc.devRef (τ := τ) .tc main_arg19)) (V (Proc.devRef (τ := τ) .tc main_arg20)) (V (Proc.devRef (τ := τ) .tc main_arg21)) (V (Proc.devRef (τ := τ) .tc main_arg22)) (V (Proc.devRef (τ := τ) .tc main_arg23)) (V (Proc.devRef (τ := τ) .tc main_arg24)) (V (Proc.devRef (τ := τ) .tc main_arg25)) := by
    rw [e, h_main_v180, h_main_v181]
    rfl
  clear h_main_v180
  clear h_main_v181
  replace hA : ∀ r ∈ argRefs, V236 (Proc.devRef (τ := τ) .tc r) = V (Proc.devRef .tc r) :=
    fun r hr => (n r (ne_of_mem_of_not_mem hr (by decide))).trans (hA r hr)
  clear e n
  exact ⟨h_main_v182, hA⟩

/-- On every device, from any memory with zero counters: every weakly fair execution of the reference terminates
    with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v182).trans (after_post (launchContents m c)).1,
      (h c main_arg0).trans ((after_post (launchContents m c)).2 main_arg0 (by decide)),
      (h c main_arg1).trans ((after_post (launchContents m c)).2 main_arg1 (by decide)),
      (h c main_arg2).trans ((after_post (launchContents m c)).2 main_arg2 (by decide)),
      (h c main_arg3).trans ((after_post (launchContents m c)).2 main_arg3 (by decide)),
      (h c main_arg4).trans ((after_post (launchContents m c)).2 main_arg4 (by decide)),
      (h c main_arg5).trans ((after_post (launchContents m c)).2 main_arg5 (by decide)),
      (h c main_arg6).trans ((after_post (launchContents m c)).2 main_arg6 (by decide)),
      (h c main_arg7).trans ((after_post (launchContents m c)).2 main_arg7 (by decide)),
      (h c main_arg8).trans ((after_post (launchContents m c)).2 main_arg8 (by decide)),
      (h c main_arg9).trans ((after_post (launchContents m c)).2 main_arg9 (by decide)),
      (h c main_arg10).trans ((after_post (launchContents m c)).2 main_arg10 (by decide)),
      (h c main_arg11).trans ((after_post (launchContents m c)).2 main_arg11 (by decide)),
      (h c main_arg12).trans ((after_post (launchContents m c)).2 main_arg12 (by decide)),
      (h c main_arg13).trans ((after_post (launchContents m c)).2 main_arg13 (by decide)),
      (h c main_arg14).trans ((after_post (launchContents m c)).2 main_arg14 (by decide)),
      (h c main_arg15).trans ((after_post (launchContents m c)).2 main_arg15 (by decide)),
      (h c main_arg16).trans ((after_post (launchContents m c)).2 main_arg16 (by decide)),
      (h c main_arg17).trans ((after_post (launchContents m c)).2 main_arg17 (by decide)),
      (h c main_arg18).trans ((after_post (launchContents m c)).2 main_arg18 (by decide)),
      (h c main_arg19).trans ((after_post (launchContents m c)).2 main_arg19 (by decide)),
      (h c main_arg20).trans ((after_post (launchContents m c)).2 main_arg20 (by decide)),
      (h c main_arg21).trans ((after_post (launchContents m c)).2 main_arg21 (by decide)),
      (h c main_arg22).trans ((after_post (launchContents m c)).2 main_arg22 (by decide)),
      (h c main_arg23).trans ((after_post (launchContents m c)).2 main_arg23 (by decide)),
      (h c main_arg24).trans ((after_post (launchContents m c)).2 main_arg24 (by decide)),
      (h c main_arg25).trans ((after_post (launchContents m c)).2 main_arg25 (by decide))⟩)
    (run_seq scopedRefs_eq scopedSems_eq defs main (fun _ => ops) main_eq (fun _ => ops_sub) m ρ)

end Cert.RefRunHand

end
-- ==== Proof.RefHist.lean ====
/-
  The first stages of the reference program, one batch row at a time: the observation row without its 64 workload
  entries, the bin word and the in-range bit of a workload, the ten counts, and the normalised histogram.  Each
  statement reads a stage of the program at explicit coordinates and names the row function it computes.
-/
import proofs.«101865_j10033043603499_2_alg».proof.ReferenceIdeal
import proofs.«101865_j10033043603499_2_alg».proof.Proof.RefStages
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Gen Cert.ReferenceIdeal.Read Cert.RowSpec

/-- The workload slice: entry (r, s) is entry 68 + s of observation row r. -/
theorem v0_at (x0 : (⟨S65536x512, .f32⟩ : BufTy).Contents (Elt Ideal)) (r : Fin 65536) (s : Fin 64) :
    val_main_v0 (F := Ideal) x0 (ix2 r s) = server (row2 x0 r) s := by
  rw [val_main_v0_apply]
  exact congrArg x0 (by funext a; match a with | ⟨0, _⟩ => rfl | ⟨1, _⟩ => rfl)

/-- The clamped bin word of a workload. -/
theorem v8_at (x0 : (⟨S65536x512, .f32⟩ : BufTy).Contents (Elt Ideal)) (r : Fin 65536) (s : Fin 64) :
    val_main_v8 (F := Ideal) x0 (ix2 r s) = binWord (server (row2 x0 r) s) := by
  simp only [val_main_v8_apply, val_main_call0_v4_apply, val_main_call0_v3_apply, val_main_c_0_apply,
    val_main_call0_v2_apply, val_main_call0_v1_apply, val_main_call0_v0_apply, val_main_c_apply,
    val_main_v7_apply, val_main_v6_apply, val_main_v5_apply, val_main_v4_apply, val_main_cst_apply, v0_at]
  rfl

/-- The in-range bit of a workload, as a real. -/
theorem v14_at (x0 : (⟨S65536x512, .f32⟩ : BufTy).Contents (Elt Ideal)) (r : Fin 65536) (s : Fin 64) :
    val_main_v14 (F := Ideal) x0 (ix2 r s) = ind (inRange (server (row2 x0 r) s)) := by
  simp only [val_main_v14_apply, val_main_v13_apply, val_main_v10_apply, val_main_v12_apply, val_main_v9_apply,
    val_main_v11_apply, val_main_cst_1_apply, val_main_cst_2_apply, v0_at]
  rfl

/-- One term of a count: the one-hot entry times the in-range bit. -/
theorem v18_at (x0 : (⟨S65536x512, .f32⟩ : BufTy).Contents (Elt Ideal)) (r : Fin 65536) (s : Fin 64) (b : Fin 10) :
    val_main_v18 (F := Ideal) x0 (ix3 r s b)
      = ind (IntOp.cmpi .eq (binWord (server (row2 x0 r) s)) (BitVec.ofNat 32 b.val)) * ind (inRange (server (row2 x0 r) s)) := by
  have e1 : idx_main_call1_v0 (idx_main_call1_v2 (ix3 r s b)) = ix2 r s := by
    funext a; match a with | ⟨0, _⟩ => rfl | ⟨1, _⟩ => rfl
  have e2 : idx_main_v16 (idx_main_v17 (ix3 r s b)) = ix2 r s := by
    funext a; match a with | ⟨0, _⟩ => rfl | ⟨1, _⟩ => rfl
  simp only [val_main_v18_apply, val_main_v15_apply, val_main_call1_v4_apply, val_main_call1_v2_apply,
    val_main_call1_v0_apply, val_main_call1_v3_apply, val_main_call1_v1_apply, val_main_v17_apply, val_main_v16_apply,
    e1, e2, v8_at, v14_at]
  rfl

/-- The counts of a row. -/
theorem v19_at (x0 : (⟨S65536x512, .f32⟩ : BufTy).Contents (Elt Ideal)) (r : Fin 65536) (b : Fin 10) :
    val_main_v19 (F := Ideal) x0 (ix2 r b) = count (row2 x0 r) b := by
  have e : ∀ s : Fin 64, idx_main_v19 (ix2 r b) s = ix3 r s b := fun s => by
    funext a; match a with | ⟨0, _⟩ => rfl | ⟨1, _⟩ => rfl | ⟨2, _⟩ => rfl
  simp only [val_main_v19_apply, val_main_cst_3_apply, e, v18_at, Ideal.ofBits_def, Ideal.ofBits_zero_f32, zero_add]
  rfl

/-- The normalised histogram of a row. -/
theorem v25_at (x0 : (⟨S65536x512, .f32⟩ : BufTy).Contents (Elt Ideal)) (r : Fin 65536) (b : Fin 10) :
    val_main_v25 (F := Ideal) x0 (ix2 r b) = hist (row2 x0 r) b := by
  have e : ∀ k : Fin 10, idx_main_v20 (idx_main_v21 (idx_main_v24 (ix2 r b))) k = ix2 r k := fun k => by
    funext a; match a with | ⟨0, _⟩ => rfl | ⟨1, _⟩ => rfl
  simp only [val_main_v25_apply, val_main_v24_apply, val_main_v23_apply, val_main_v21_apply, val_main_v20_apply,
    val_main_v22_apply, val_main_cst_5_apply, val_main_cst_4_apply, e, v19_at, Ideal.ofBits_def, Ideal.ofBits_zero_f32, zero_add]
  rfl

theorem row_v25 (x0 : (⟨S65536x512, .f32⟩ : BufTy).Contents (Elt Ideal)) (r : Fin 65536) :
    row2 (val_main_v25 (F := Ideal) x0) r = hist (row2 x0 r) :=
  funext fun b => v25_at x0 r b

/-- The observation row without its workload entries: the first 68 entries, then the entries from 132 on. -/
theorem v3_at (x0 : (⟨S65536x512, .f32⟩ : BufTy).Contents (Elt Ideal)) (r : Fin 65536) (k : Fin 448) :
    val_main_v3 (F := Ideal) x0 (ix2 r k) = rest (row2 x0 r) k := by
  unfold val_main_v3
  by_cases h : k.val < 68
  · refine (concatenate_pair_apply_left 1 (val_main_v1 (F := Ideal) x0) (val_main_v2 (F := Ideal) x0)
      concatenates_S65536x68_S65536x380_S65536x448_d1 (ix2 r k) rfl (ix2 r (⟨k.val, h⟩ : Fin 68))
      (fun b => match b with | ⟨0, _⟩ => rfl | ⟨1, _⟩ => rfl)).trans ?_
    rw [val_main_v1_apply]
    unfold rest
    rw [dif_pos h]
    exact congrArg x0 (by funext a; match a with | ⟨0, _⟩ => rfl | ⟨1, _⟩ => rfl)
  · have h2 : k.val - 68 < 380 := by have := k.isLt; omega
    refine (concatenate_pair_apply_right 1 (val_main_v1 (F := Ideal) x0) (val_main_v2 (F := Ideal) x0)
      concatenates_S65536x68_S65536x380_S65536x448_d1 (ix2 r k) rfl rfl (ix2 r (⟨k.val - 68, h2⟩ : Fin 380))
      (fun b hb => match b, hb with | ⟨0, _⟩, _ => rfl | ⟨1, _⟩, hb => absurd rfl hb) ?_).trans ?_
    · show k.val - 68 + 68 = k.val
      omega
    rw [val_main_v2_apply]
    unfold rest
    rw [dif_neg h]
    exact congrArg x0 (funext fun a => Fin.ext (by
      match a with
      | ⟨0, _⟩ => rfl
      | ⟨1, _⟩ => show 132 + (k.val - 68) = 64 + k.val; omega))

theorem row_v3 (x0 : (⟨S65536x512, .f32⟩ : BufTy).Contents (Elt Ideal)) (r : Fin 65536) :
    row2 (val_main_v3 (F := Ideal) x0) r = rest (row2 x0 r) :=
  funext fun k => v3_at x0 r k

end Cert.RefRows

end
-- ==== Proof.RefMlpH.lean ====
/-
  The histogram branch of the reference program, one batch row at a time: two dense layers, each followed by
  max(·, 0) and a layer normalisation.  A dense layer's entry is the sum over k of the input row at k times the
  weight at (k, j), plus the bias at j; a layer normalisation is read through its two row sums (the mean and the mean
  of squared deviations), each an initial zero plus a finite sum.
-/
import proofs.«101865_j10033043603499_2_alg».proof.ReferenceIdeal
import proofs.«101865_j10033043603499_2_alg».proof.Proof.RefStages
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Gen Cert.ReferenceIdeal.Read Cert.RowSpec

/-- The first histogram layer after max(·, 0), row by row. -/
theorem dense_v26 (x0 : (⟨S65536x512, .f32⟩ : BufTy).Contents (Elt Ideal)) (x2 : (⟨S10x128, .f32⟩ : BufTy).Contents (Elt Ideal)) (x3 : (⟨S128, .f32⟩ : BufTy).Contents (Elt Ideal)) (r : Fin 65536) (j : Fin 128) :
    val_main_v30 (F := Ideal) x0 x2 x3 (ix2 r j) = relu (dense (row2 x2) (vec1 x3) (row2 (val_main_v25 (F := Ideal) x0) r)) j := by
  have e1 : ∀ k : Fin 10, lidx_main_v26 (ix2 r j) k = ix2 r k := fun k => by
    funext a; match a with | ⟨0, _⟩ => rfl | ⟨1, _⟩ => rfl
  have e2 : ∀ k : Fin 10, ridx_main_v26 (ix2 r j) k = ix2 k j := fun k => by
    funext a; match a with | ⟨0, _⟩ => rfl | ⟨1, _⟩ => rfl
  have e3 : idx_main_v27 (idx_main_v28 (ix2 r j)) = ix1 j := by
    funext a; match a with | ⟨0, _⟩ => rfl
  simp only [val_main_v30_apply, val_main_call2_v0_apply, val_main_call2_cst_apply, val_main_v29_apply, val_main_v26_apply, val_main_v28_apply, val_main_v27_apply, e1, e2, e3]
  rfl

theorem row_v30 (x0 : (⟨S65536x512, .f32⟩ : BufTy).Contents (Elt Ideal)) (x2 : (⟨S10x128, .f32⟩ : BufTy).Contents (Elt Ideal)) (x3 : (⟨S128, .f32⟩ : BufTy).Contents (Elt Ideal)) (r : Fin 65536) :
    row2 (val_main_v30 (F := Ideal) x0 x2 x3) r = relu (dense (row2 x2) (vec1 x3) (row2 (val_main_v25 (F := Ideal) x0) r)) :=
  funext fun j => dense_v26 x0 x2 x3 r j

/-- The mean of row r of the first histogram layer. -/
theorem mean_v30 (x0 : (⟨S65536x512, .f32⟩ : BufTy).Contents (Elt Ideal)) (x2 : (⟨S10x128, .f32⟩ : BufTy).Contents (Elt Ideal)) (x3 : (⟨S128, .f32⟩ : BufTy).Contents (Elt Ideal)) (r : Fin 65536) (z : Fin 1) :
    val_main_v34 (F := Ideal) x0 x2 x3 (ix2 r z) = mean 0x43000000#32 (row2 (val_main_v30 (F := Ideal) x0 x2 x3) r) := by
  have e : ∀ k : Fin 128, idx_main_v31 (idx_main_v32 (ix2 r z)) k = ix2 r k := fun k => by
    funext a; match a with | ⟨0, _⟩ => rfl | ⟨1, _⟩ => rfl
  simp only [val_main_v34_apply, val_main_v32_apply, val_main_v31_apply, val_main_v33_apply, val_main_cst_7_apply, val_main_cst_6_apply, e,
    Ideal.ofBits_def, Ideal.ofBits_zero_f32, zero_add]
  rfl

/-- The mean of the squared deviations of row r of the first histogram layer. -/
theorem var_v30 (x0 : (⟨S65536x512, .f32⟩ : BufTy).Contents (Elt Ideal)) (x2 : (⟨S10x128, .f32⟩ : BufTy).Contents (Elt Ideal)) (x3 : (⟨S128, .f32⟩ : BufTy).Contents (Elt Ideal)) (r : Fin 65536) (z : Fin 1) :
    val_main_v41 (F := Ideal) x0 x2 x3 (ix2 r z)
      = mean 0x43000000#32 (fun j' => ((row2 (val_main_v30 (F := Ideal) x0 x2 x3) r) j' - mean 0x43000000#32 (row2 (val_main_v30 (F := Ideal) x0 x2 x3) r)) * ((row2 (val_main_v30 (F := Ideal) x0 x2 x3) r) j' - mean 0x43000000#32 (row2 (val_main_v30 (F := Ideal) x0 x2 x3) r))) := by
  have e : ∀ k : Fin 128, idx_main_v38 (idx_main_v39 (ix2 r z)) k = ix2 r k := fun k => by
    funext a; match a with | ⟨0, _⟩ => rfl | ⟨1, _⟩ => rfl
  have e2 : ∀ k : Fin 128, idx_main_v35 (ix2 r k) = ix2 r (⟨0, Nat.one_pos⟩ : Fin 1) := fun k => by
    funext a; match a with | ⟨0, _⟩ => rfl | ⟨1, _⟩ => rfl
  simp only [val_main_v41_apply, val_main_v39_apply, val_main_v38_apply, val_main_v40_apply, val_main_cst_9_apply, val_main_cst_8_apply, e,
    val_main_v37_apply, val_main_v36_apply, val_main_v35_apply, e2, mean_v30,
    Ideal.ofBits_def, Ideal.ofBits_zero_f32, zero_add]
  rfl

/-- The layer normalisation of the first histogram layer, row by row. -/
theorem norm_v30 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (r : Fin 65536) (j : Fin 128) :
    val_main_v54 (F := Ideal) x0 x2 x3 x4 x5 (ix2 r j) = norm 0x43000000#32 (vec1 x4) (vec1 x5) (row2 (val_main_v30 (F := Ideal) x0 x2 x3) r) j := by
  have e1 : idx_main_v42 (ix2 r j) = ix2 r (⟨0, Nat.one_pos⟩ : Fin 1) := by
    funext a; match a with | ⟨0, _⟩ => rfl | ⟨1, _⟩ => rfl
  have e2 : idx_main_v47 (ix2 r j) = ix2 r (⟨0, Nat.one_pos⟩ : Fin 1) := by
    funext a; match a with | ⟨0, _⟩ => rfl | ⟨1, _⟩ => rfl
  have e3 : idx_main_v49 (idx_main_v50 (ix2 r j)) = ix1 j := by
    funext a; match a with | ⟨0, _⟩ => rfl
  have e4 : idx_main_v52 (idx_main_v53 (ix2 r j)) = ix1 j := by
    funext a; match a with | ⟨0, _⟩ => rfl
  simp only [val_main_v54_apply, val_main_v51_apply, val_main_v48_apply, val_main_v43_apply, val_main_v42_apply, val_main_v47_apply, val_main_v46_apply, val_main_v45_apply,
    val_main_v44_apply, val_main_cst_10_apply, val_main_v50_apply, val_main_v49_apply, val_main_v53_apply, val_main_v52_apply, e1, e2, e3, e4, mean_v30, var_v30]
  rfl

theorem row_v54 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (r : Fin 65536) :
    row2 (val_main_v54 (F := Ideal) x0 x2 x3 x4 x5) r = norm 0x43000000#32 (vec1 x4) (vec1 x5) (row2 (val_main_v30 (F := Ideal) x0 x2 x3) r) :=
  funext fun j => norm_v30 x0 x2 x3 x4 x5 r j

/-- The second histogram layer after max(·, 0), row by row. -/
theorem dense_v55 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 65536) (j : Fin 128) :
    val_main_v59 (F := Ideal) x0 x2 x3 x4 x5 x6 x7 (ix2 r j) = relu (dense (row2 x6) (vec1 x7) (row2 (val_main_v54 (F := Ideal) x0 x2 x3 x4 x5) r)) j := by
  have e1 : ∀ k : Fin 128, lidx_main_v55 (ix2 r j) k = ix2 r k := fun k => by
    funext a; match a with | ⟨0, _⟩ => rfl | ⟨1, _⟩ => rfl
  have e2 : ∀ k : Fin 128, ridx_main_v55 (ix2 r j) k = ix2 k j := fun k => by
    funext a; match a with | ⟨0, _⟩ => rfl | ⟨1, _⟩ => rfl
  have e3 : idx_main_v56 (idx_main_v57 (ix2 r j)) = ix1 j := by
    funext a; match a with | ⟨0, _⟩ => rfl
  simp only [val_main_v59_apply, val_main_call3_v0_apply, val_main_call3_cst_apply, val_main_v58_apply, val_main_v55_apply, val_main_v57_apply, val_main_v56_apply, e1, e2, e3]
  rfl

theorem row_v59 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 65536) :
    row2 (val_main_v59 (F := Ideal) x0 x2 x3 x4 x5 x6 x7) r = relu (dense (row2 x6) (vec1 x7) (row2 (val_main_v54 (F := Ideal) x0 x2 x3 x4 x5) r)) :=
  funext fun j => dense_v55 x0 x2 x3 x4 x5 x6 x7 r j

/-- The mean of row r of the second histogram layer. -/
theorem mean_v59 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 65536) (z : Fin 1) :
    val_main_v63 (F := Ideal) x0 x2 x3 x4 x5 x6 x7 (ix2 r z) = mean 0x43000000#32 (row2 (val_main_v59 (F := Ideal) x0 x2 x3 x4 x5 x6 x7) r) := by
  have e : ∀ k : Fin 128, idx_main_v60 (idx_main_v61 (ix2 r z)) k = ix2 r k := fun k => by
    funext a; match a with | ⟨0, _⟩ => rfl | ⟨1, _⟩ => rfl
  simp only [val_main_v63_apply, val_main_v61_apply, val_main_v60_apply, val_main_v62_apply, val_main_cst_12_apply, val_main_cst_11_apply, e,
    Ideal.ofBits_def, Ideal.ofBits_zero_f32, zero_add]
  rfl

/-- The mean of the squared deviations of row r of the second histogram layer. -/
theorem var_v59 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 65536) (z : Fin 1) :
    val_main_v70 (F := Ideal) x0 x2 x3 x4 x5 x6 x7 (ix2 r z)
      = mean 0x43000000#32 (fun j' => ((row2 (val_main_v59 (F := Ideal) x0 x2 x3 x4 x5 x6 x7) r) j' - mean 0x43000000#32 (row2 (val_main_v59 (F := Ideal) x0 x2 x3 x4 x5 x6 x7) r)) * ((row2 (val_main_v59 (F := Ideal) x0 x2 x3 x4 x5 x6 x7) r) j' - mean 0x43000000#32 (row2 (val_main_v59 (F := Ideal) x0 x2 x3 x4 x5 x6 x7) r))) := by
  have e : ∀ k : Fin 128, idx_main_v67 (idx_main_v68 (ix2 r z)) k = ix2 r k := fun k => by
    funext a; match a with | ⟨0, _⟩ => rfl | ⟨1, _⟩ => rfl
  have e2 : ∀ k : Fin 128, idx_main_v64 (ix2 r k) = ix2 r (⟨0, Nat.one_pos⟩ : Fin 1) := fun k => by
    funext a; match a with | ⟨0, _⟩ => rfl | ⟨1, _⟩ => rfl
  simp only [val_main_v70_apply, val_main_v68_apply, val_main_v67_apply, val_main_v69_apply, val_main_cst_14_apply, val_main_cst_13_apply, e,
    val_main_v66_apply, val_main_v65_apply, val_main_v64_apply, e2, mean_v59,
    Ideal.ofBits_def, Ideal.ofBits_zero_f32, zero_add]
  rfl

/-- The layer normalisation of the second histogram layer, row by row. -/
theorem norm_v59 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (r : Fin 65536) (j : Fin 128) :
    val_main_v83 (F := Ideal) x0 x2 x3 x4 x5 x6 x7 x8 x9 (ix2 r j) = norm 0x43000000#32 (vec1 x8) (vec1 x9) (row2 (val_main_v59 (F := Ideal) x0 x2 x3 x4 x5 x6 x7) r) j := by
  have e1 : idx_main_v71 (ix2 r j) = ix2 r (⟨0, Nat.one_pos⟩ : Fin 1) := by
    funext a; match a with | ⟨0, _⟩ => rfl | ⟨1, _⟩ => rfl
  have e2 : idx_main_v76 (ix2 r j) = ix2 r (⟨0, Nat.one_pos⟩ : Fin 1) := by
    funext a; match a with | ⟨0, _⟩ => rfl | ⟨1, _⟩ => rfl
  have e3 : idx_main_v78 (idx_main_v79 (ix2 r j)) = ix1 j := by
    funext a; match a with | ⟨0, _⟩ => rfl
  have e4 : idx_main_v81 (idx_main_v82 (ix2 r j)) = ix1 j := by
    funext a; match a with | ⟨0, _⟩ => rfl
  simp only [val_main_v83_apply, val_main_v80_apply, val_main_v77_apply, val_main_v72_apply, val_main_v71_apply, val_main_v76_apply, val_main_v75_apply, val_main_v74_apply,
    val_main_v73_apply, val_main_cst_15_apply, val_main_v79_apply, val_main_v78_apply, val_main_v82_apply, val_main_v81_apply, e1, e2, e3, e4, mean_v59, var_v59]
  rfl

theorem row_v83 (x0 : (⟨S65536x512, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (r : Fin 65536) :
    row2 (val_main_v83 (F := Ideal) x0 x2 x3 x4 x5 x6 x7 x8 x9) r = norm 0x43000000#32 (vec1 x8) (vec1 x9) (row2 (val_main_v59 (F := Ideal) x0 x2 x3 x4 x5 x6 x7) r) :=
  funext fun j => norm_v59 x0 x2 x3 x4 x5 x6 x7 x8 x9 r j

end Cert.RefRows

end
-- ==== Proof.RefMlpP.lean ====
/-
  The preference branch of the reference program, one batch row at a time: one dense layer on the two preference
  entries, max(·, 0), and a layer normalisation over the 64 outputs.
-/
import proofs.«101865_j10033043603499_2_alg».proof.ReferenceIdeal
import proofs.«101865_j10033043603499_2_alg».proof.Proof.RefStages
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Gen Cert.ReferenceIdeal.Read Cert.RowSpec

/-- The preference layer after max(·, 0), row by row. -/
theorem dense_v84 (x1 : (⟨S65536x2, .f32⟩ : BufTy).Contents (Elt Ideal)) (x10 : (⟨S2x64, .f32⟩ : BufTy).Contents (Elt Ideal)) (x11 : (⟨S64, .f32⟩ : BufTy).Contents (Elt Ideal)) (r : Fin 65536) (j : Fin 64) :
    val_main_v88 (F := Ideal) x1 x10 x11 (ix2 r j) = relu (dense (row2 x10) (vec1 x11) (row2 x1 r)) j := by
  have e1 : ∀ k : Fin 2, lidx_main_v84 (ix2 r j) k = ix2 r k := fun k => by
    funext a; match a with | ⟨0, _⟩ => rfl | ⟨1, _⟩ => rfl
  have e2 : ∀ k : Fin 2, ridx_main_v84 (ix2 r j) k = ix2 k j := fun k => by
    funext a; match a with | ⟨0, _⟩ => rfl | ⟨1, _⟩ => rfl
  have e3 : idx_main_v85 (idx_main_v86 (ix2 r j)) = ix1 j := by
    funext a; match a with | ⟨0, _⟩ => rfl
  simp only [val_main_v88_apply, val_main_call4_v0_apply, val_main_call4_cst_apply, val_main_v87_apply, val_main_v84_apply, val_main_v86_apply, val_main_v85_apply, e1, e2, e3]
  rfl

theorem row_v88 (x1 : (⟨S65536x2, .f32⟩ : BufTy).Contents (Elt Ideal)) (x10 : (⟨S2x64, .f32⟩ : BufTy).Contents (Elt Ideal)) (x11 : (⟨S64, .f32⟩ : BufTy).Contents (Elt Ideal)) (r : Fin 65536) :
    row2 (val_main_v88 (F := Ideal) x1 x10 x11) r = relu (dense (row2 x10) (vec1 x11) (row2 x1 r)) :=
  funext fun j => dense_v84 x1 x10 x11 r j

/-- The mean of row r of the preference layer. -/
theorem mean_v88 (x1 : (⟨S65536x2, .f32⟩ : BufTy).Contents (Elt Ideal)) (x10 : (⟨S2x64, .f32⟩ : BufTy).Contents (Elt Ideal)) (x11 : (⟨S64, .f32⟩ : BufTy).Contents (Elt Ideal)) (r : Fin 65536) (z : Fin 1) :
    val_main_v92 (F := Ideal) x1 x10 x11 (ix2 r z) = mean 0x42800000#32 (row2 (val_main_v88 (F := Ideal) x1 x10 x11) r) := by
  have e : ∀ k : Fin 64, idx_main_v89 (idx_main_v90 (ix2 r z)) k = ix2 r k := fun k => by
    funext a; match a with | ⟨0, _⟩ => rfl | ⟨1, _⟩ => rfl
  simp only [val_main_v92_apply, val_main_v90_apply, val_main_v89_apply, val_main_v91_apply, val_main_cst_17_apply, val_main_cst_16_apply, e,
    Ideal.ofBits_def, Ideal.ofBits_zero_f32, zero_add]
  rfl

/-- The mean of the squared deviations of row r of the preference layer. -/
theorem var_v88 (x1 : (⟨S65536x2, .f32⟩ : BufTy).Contents (Elt Ideal)) (x10 : (⟨S2x64, .f32⟩ : BufTy).Contents (Elt Ideal)) (x11 : (⟨S64, .f32⟩ : BufTy).Contents (Elt Ideal)) (r : Fin 65536) (z : Fin 1) :
    val_main_v99 (F := Ideal) x1 x10 x11 (ix2 r z)
      = mean 0x42800000#32 (fun j' => ((row2 (val_main_v88 (F := Ideal) x1 x10 x11) r) j' - mean 0x42800000#32 (row2 (val_main_v88 (F := Ideal) x1 x10 x11) r)) * ((row2 (val_main_v88 (F := Ideal) x1 x10 x11) r) j' - mean 0x42800000#32 (row2 (val_main_v88 (F := Ideal) x1 x10 x11) r))) := by
  have e : ∀ k : Fin 64, idx_main_v96 (idx_main_v97 (ix2 r z)) k = ix2 r k := fun k => by
    funext a; match a with | ⟨0, _⟩ => rfl | ⟨1, _⟩ => rfl
  have e2 : ∀ k : Fin 64, idx_main_v93 (ix2 r k) = ix2 r (⟨0, Nat.one_pos⟩ : Fin 1) := fun k => by
    funext a; match a with | ⟨0, _⟩ => rfl | ⟨1, _⟩ => rfl
  simp only [val_main_v99_apply, val_main_v97_apply, val_main_v96_apply, val_main_v98_apply, val_main_cst_19_apply, val_main_cst_18_apply, e,
    val_main_v95_apply, val_main_v94_apply, val_main_v93_apply, e2, mean_v88,
    Ideal.ofBits_def, Ideal.ofBits_zero_f32, zero_add]
  rfl

/-- The layer normalisation of the preference layer, row by row. -/
theorem norm_v88 (x1 : (⟨S65536x2, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (r : Fin 65536) (j : Fin 64) :
    val_main_v112 (F := Ideal) x1 x10 x11 x12 x13 (ix2 r j) = norm 0x42800000#32 (vec1 x12) (vec1 x13) (row2 (val_main_v88 (F := Ideal) x1 x10 x11) r) j := by
  have e1 : idx_main_v100 (ix2 r j) = ix2 r (⟨0, Nat.one_pos⟩ : Fin 1) := by
    funext a; match a with | ⟨0, _⟩ => rfl | ⟨1, _⟩ => rfl
  have e2 : idx_main_v105 (ix2 r j) = ix2 r (⟨0, Nat.one_pos⟩ : Fin 1) := by
    funext a; match a with | ⟨0, _⟩ => rfl | ⟨1, _⟩ => rfl
  have e3 : idx_main_v107 (idx_main_v108 (ix2 r j)) = ix1 j := by
    funext a; match a with | ⟨0, _⟩ => rfl
  have e4 : idx_main_v110 (idx_main_v111 (ix2 r j)) = ix1 j := by
    funext a; match a with | ⟨0, _⟩ => rfl
  simp only [val_main_v112_apply, val_main_v109_apply, val_main_v106_apply, val_main_v101_apply, val_main_v100_apply, val_main_v105_apply, val_main_v104_apply, val_main_v103_apply,
    val_main_v102_apply, val_main_cst_20_apply, val_main_v108_apply, val_main_v107_apply, val_main_v111_apply, val_main_v110_apply, e1, e2, e3, e4, mean_v88, var_v88]
  rfl

theorem row_v112 (x1 : (⟨S65536x2, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (r : Fin 65536) :
    row2 (val_main_v112 (F := Ideal) x1 x10 x11 x12 x13) r = norm 0x42800000#32 (vec1 x12) (vec1 x13) (row2 (val_main_v88 (F := Ideal) x1 x10 x11) r) :=
  funext fun j => norm_v88 x1 x10 x11 x12 x13 r j

end Cert.RefRows

end
-- ==== Proof.RefTrunk.lean ====
/-
  The trunk of the reference program, one batch row at a time: the 640-entry input row (three pieces side by side),
  two dense layers each followed by max(·, 0) and a layer normalisation, the two linear heads, and the result array
  whose entry (r, a, h) is output a of head h.
-/
import proofs.«101865_j10033043603499_2_alg».proof.ReferenceIdeal
import proofs.«101865_j10033043603499_2_alg».proof.Proof.RefStages
import proofs.«101865_j10033043603499_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.Gen Cert.ReferenceIdeal.Read Cert.RowSpec

/-- The trunk's input row: the remaining observation entries, the histogram features, the preference features, side
    by side. -/
theorem v113_at (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (r : Fin 65536) (k : Fin 640) :
    val_main_v113 (F := Ideal) x0 x1 x2 x3 x4 x5 x6 x7 x8 x9 x10 x11 x12 x13 (ix2 r k)
      = joined (row2 (val_main_v3 (F := Ideal) x0) r) (row2 (val_main_v83 (F := Ideal) x0 x2 x3 x4 x5 x6 x7 x8 x9) r) (row2 (val_main_v112 (F := Ideal) x1 x10 x11 x12 x13) r) k := by
  unfold val_main_v113
  generalize val_main_v3 (F := Ideal) x0 = y3
  generalize val_main_v83 (F := Ideal) x0 x2 x3 x4 x5 x6 x7 x8 x9 = y83
  generalize val_main_v112 (F := Ideal) x1 x10 x11 x12 x13 = y112
  unfold joined
  by_cases h1 : k.val < 448
  · rw [dif_pos h1]
    exact concatenate_apply_piece 1 _ _ (ix2 r k) 0 (by show 0 < 3; omega) S65536x448 y3 rfl rfl 0 rfl
      (ix2 r (⟨k.val, h1⟩ : Fin 448)) (fun b hb => match b, hb with | ⟨0, _⟩, _ => rfl | ⟨1, _⟩, hb => absurd rfl hb) (by show 0 + k.val = k.val; omega)
  · rw [dif_neg h1]
    by_cases h2 : k.val < 576
    · rw [dif_pos h2]
      exact concatenate_apply_piece 1 _ _ (ix2 r k) 1 (by show 1 < 3; omega) S65536x128 y83 rfl rfl 448 rfl
        (ix2 r (⟨k.val - 448, by omega⟩ : Fin 128)) (fun b hb => match b, hb with | ⟨0, _⟩, _ => rfl | ⟨1, _⟩, hb => absurd rfl hb) (by show 448 + (k.val - 448) = k.val; omega)
    · rw [dif_neg h2]
      exact concatenate_apply_piece 1 _ _ (ix2 r k) 2 (by show 2 < 3; omega) S65536x64 y112 rfl rfl 576 rfl
        (ix2 r (⟨k.val - 576, by have := k.isLt; omega⟩ : Fin 64)) (fun b hb => match b, hb with | ⟨0, _⟩, _ => rfl | ⟨1, _⟩, hb => absurd rfl hb) (by show 576 + (k.val - 576) = k.val; omega)

theorem row_v113 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (r : Fin 65536) :
    row2 (val_main_v113 (F := Ideal) x0 x1 x2 x3 x4 x5 x6 x7 x8 x9 x10 x11 x12 x13) r
      = joined (row2 (val_main_v3 (F := Ideal) x0) r) (row2 (val_main_v83 (F := Ideal) x0 x2 x3 x4 x5 x6 x7 x8 x9) r) (row2 (val_main_v112 (F := Ideal) x1 x10 x11 x12 x13) r) :=
  funext fun k => v113_at x0 x1 x2 x3 x4 x5 x6 x7 x8 x9 x10 x11 x12 x13 r k

/-- The first trunk layer after max(·, 0), row by row. -/
theorem dense_v114 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (r : Fin 65536) (j : Fin 256) :
    val_main_v118 (F := Ideal) x0 x1 x2 x3 x4 x5 x6 x7 x8 x9 x10 x11 x12 x13 x14 x15 (ix2 r j) = relu (dense (row2 x14) (vec1 x15) (row2 (val_main_v113 (F := Ideal) x0 x1 x2 x3 x4 x5 x6 x7 x8 x9 x10 x11 x12 x13) r)) j := by
  have e1 : ∀ k : Fin 640, lidx_main_v114 (ix2 r j) k = ix2 r k := fun k => by
    funext a; match a with | ⟨0, _⟩ => rfl | ⟨1, _⟩ => rfl
  have e2 : ∀ k : Fin 640, ridx_main_v114 (ix2 r j) k = ix2 k j := fun k => by
    funext a; match a with | ⟨0, _⟩ => rfl | ⟨1, _⟩ => rfl
  have e3 : idx_main_v115 (idx_main_v116 (ix2 r j)) = ix1 j := by
    funext a; match a with | ⟨0, _⟩ => rfl
  simp only [val_main_v118_apply, val_main_call5_v0_apply, val_main_call5_cst_apply, val_main_v117_apply, val_main_v114_apply, val_main_v116_apply, val_main_v115_apply, e1, e2, e3]
  rfl

theorem row_v118 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (r : Fin 65536) :
    row2 (val_main_v118 (F := Ideal) x0 x1 x2 x3 x4 x5 x6 x7 x8 x9 x10 x11 x12 x13 x14 x15) r = relu (dense (row2 x14) (vec1 x15) (row2 (val_main_v113 (F := Ideal) x0 x1 x2 x3 x4 x5 x6 x7 x8 x9 x10 x11 x12 x13) r)) :=
  funext fun j => dense_v114 x0 x1 x2 x3 x4 x5 x6 x7 x8 x9 x10 x11 x12 x13 x14 x15 r j

/-- The mean of row r of the first trunk layer. -/
theorem mean_v118 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (r : Fin 65536) (z : Fin 1) :
    val_main_v122 (F := Ideal) x0 x1 x2 x3 x4 x5 x6 x7 x8 x9 x10 x11 x12 x13 x14 x15 (ix2 r z) = mean 0x43800000#32 (row2 (val_main_v118 (F := Ideal) x0 x1 x2 x3 x4 x5 x6 x7 x8 x9 x10 x11 x12 x13 x14 x15) r) := by
  have e : ∀ k : Fin 256, idx_main_v119 (idx_main_v120 (ix2 r z)) k = ix2 r k := fun k => by
    funext a; match a with | ⟨0, _⟩ => rfl | ⟨1, _⟩ => rfl
  simp only [val_main_v122_apply, val_main_v120_apply, val_main_v119_apply, val_main_v121_apply, val_main_cst_22_apply, val_main_cst_21_apply, e,
    Ideal.ofBits_def, Ideal.ofBits_zero_f32, zero_add]
  rfl

/-- The mean of the squared deviations of row r of the first trunk layer. -/
theorem var_v118 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (r : Fin 65536) (z : Fin 1) :
    val_main_v129 (F := Ideal) x0 x1 x2 x3 x4 x5 x6 x7 x8 x9 x10 x11 x12 x13 x14 x15 (ix2 r z)
      = mean 0x43800000#32 (fun j' => ((row2 (val_main_v118 (F := Ideal) x0 x1 x2 x3 x4 x5 x6 x7 x8 x9 x10 x11 x12 x13 x14 x15) r) j' - mean 0x43800000#32 (row2 (val_main_v118 (F := Ideal) x0 x1 x2 x3 x4 x5 x6 x7 x8 x9 x10 x11 x12 x13 x14 x15) r)) * ((row2 (val_main_v118 (F := Ideal) x0 x1 x2 x3 x4 x5 x6 x7 x8 x9 x10 x11 x12 x13 x14 x15) r) j' - mean 0x43800000#32 (row2 (val_main_v118 (F := Ideal) x0 x1 x2 x3 x4 x5 x6 x7 x8 x9 x10 x11 x12 x13 x14 x15) r))) := by
  have e : ∀ k : Fin 256, idx_main_v126 (idx_main_v127 (ix2 r z)) k = ix2 r k := fun k => by
    funext a; match a with | ⟨0, _⟩ => rfl | ⟨1, _⟩ => rfl
  have e2 : ∀ k : Fin 256, idx_main_v123 (ix2 r k) = ix2 r (⟨0, Nat.one_pos⟩ : Fin 1) := fun k => by
    funext a; match a with | ⟨0, _⟩ => rfl | ⟨1, _⟩ => rfl
  simp only [val_main_v129_apply, val_main_v127_apply, val_main_v126_apply, val_main_v128_apply, val_main_cst_24_apply, val_main_cst_23_apply, e,
    val_main_v125_apply, val_main_v124_apply, val_main_v123_apply, e2, mean_v118,
    Ideal.ofBits_def, Ideal.ofBits_zero_f32, zero_add]
  rfl

/-- The layer normalisation of the first trunk layer, row by row. -/
theorem norm_v118 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (r : Fin 65536) (j : Fin 256) :
    val_main_v142 (F := Ideal) x0 x1 x2 x3 x4 x5 x6 x7 x8 x9 x10 x11 x12 x13 x14 x15 x16 x17 (ix2 r j) = norm 0x43800000#32 (vec1 x16) (vec1 x17) (row2 (val_main_v118 (F := Ideal) x0 x1 x2 x3 x4 x5 x6 x7 x8 x9 x10 x11 x12 x13 x14 x15) r) j := by
  have e1 : idx_main_v130 (ix2 r j) = ix2 r (⟨0, Nat.one_pos⟩ : Fin 1) := by
    funext a; match a with | ⟨0, _⟩ => rfl | ⟨1, _⟩ => rfl
  have e2 : idx_main_v135 (ix2 r j) = ix2 r (⟨0, Nat.one_pos⟩ : Fin 1) := by
    funext a; match a with | ⟨0, _⟩ => rfl | ⟨1, _⟩ => rfl
  have e3 : idx_main_v137 (idx_main_v138 (ix2 r j)) = ix1 j := by
    funext a; match a with | ⟨0, _⟩ => rfl
  have e4 : idx_main_v140 (idx_main_v141 (ix2 r j)) = ix1 j := by
    funext a; match a with | ⟨0, _⟩ => rfl
  simp only [val_main_v142_apply, val_main_v139_apply, val_main_v136_apply, val_main_v131_apply, val_main_v130_apply, val_main_v135_apply, val_main_v134_apply, val_main_v133_apply,
    val_main_v132_apply, val_main_cst_25_apply, val_main_v138_apply, val_main_v137_apply, val_main_v141_apply, val_main_v140_apply, e1, e2, e3, e4, mean_v118, var_v118]
  rfl

theorem row_v142 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (r : Fin 65536) :
    row2 (val_main_v142 (F := Ideal) x0 x1 x2 x3 x4 x5 x6 x7 x8 x9 x10 x11 x12 x13 x14 x15 x16 x17) r = norm 0x43800000#32 (vec1 x16) (vec1 x17) (row2 (val_main_v118 (F := Ideal) x0 x1 x2 x3 x4 x5 x6 x7 x8 x9 x10 x11 x12 x13 x14 x15) r) :=
  funext fun j => norm_v118 x0 x1 x2 x3 x4 x5 x6 x7 x8 x9 x10 x11 x12 x13 x14 x15 x16 x17 r j

/-- The second trunk layer after max(·, 0), row by row. -/
theorem dense_v143 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (r : Fin 65536) (j : Fin 256) :
    val_main_v147 (F := Ideal) x0 x1 x2 x3 x4 x5 x6 x7 x8 x9 x10 x11 x12 x13 x14 x15 x16 x17 x18 x19 (ix2 r j) = relu (dense (row2 x18) (vec1 x19) (row2 (val_main_v142 (F := Ideal) x0 x1 x2 x3 x4 x5 x6 x7 x8 x9 x10 x11 x12 x13 x14 x15 x16 x17) r)) j := by
  have e1 : ∀ k : Fin 256, lidx_main_v143 (ix2 r j) k = ix2 r k := fun k => by
    funext a; match a with | ⟨0, _⟩ => rfl | ⟨1, _⟩ => rfl
  have e2 : ∀ k : Fin 256, ridx_main_v143 (ix2 r j) k = ix2 k j := fun k => by
    funext a; match a with | ⟨0, _⟩ => rfl | ⟨1, _⟩ => rfl
  have e3 : idx_main_v144 (idx_main_v145 (ix2 r j)) = ix1 j := by
    funext a; match a with | ⟨0, _⟩ => rfl
  simp only [val_main_v147_apply, val_main_call6_v0_apply, val_main_call6_cst_apply, val_main_v146_apply, val_main_v143_apply, val_main_v145_apply, val_main_v144_apply, e1, e2, e3]
  rfl

theorem row_v147 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (r : Fin 65536) :
    row2 (val_main_v147 (F := Ideal) x0 x1 x2 x3 x4 x5 x6 x7 x8 x9 x10 x11 x12 x13 x14 x15 x16 x17 x18 x19) r = relu (dense (row2 x18) (vec1 x19) (row2 (val_main_v142 (F := Ideal) x0 x1 x2 x3 x4 x5 x6 x7 x8 x9 x10 x11 x12 x13 x14 x15 x16 x17) r)) :=
  funext fun j => dense_v143 x0 x1 x2 x3 x4 x5 x6 x7 x8 x9 x10 x11 x12 x13 x14 x15 x16 x17 x18 x19 r j

/-- The mean of row r of the second trunk layer. -/
theorem mean_v147 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (r : Fin 65536) (z : Fin 1) :
    val_main_v151 (F := Ideal) x0 x1 x2 x3 x4 x5 x6 x7 x8 x9 x10 x11 x12 x13 x14 x15 x16 x17 x18 x19 (ix2 r z) = mean 0x43800000#32 (row2 (val_main_v147 (F := Ideal) x0 x1 x2 x3 x4 x5 x6 x7 x8 x9 x10 x11 x12 x13 x14 x15 x16 x17 x18 x19) r) := by
  have e : ∀ k : Fin 256, idx_main_v148 (idx_main_v149 (ix2 r z)) k = ix2 r k := fun k => by
    funext a; match a with | ⟨0, _⟩ => rfl | ⟨1, _⟩ => rfl
  simp only [val_main_v151_apply, val_main_v149_apply, val_main_v148_apply, val_main_v150_apply, val_main_cst_27_apply, val_main_cst_26_apply, e,
    Ideal.ofBits_def, Ideal.ofBits_zero_f32, zero_add]
  rfl

/-- The mean of the squared deviations of row r of the second trunk layer. -/
theorem var_v147 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (r : Fin 65536) (z : Fin 1) :
    val_main_v158 (F := Ideal) x0 x1 x2 x3 x4 x5 x6 x7 x8 x9 x10 x11 x12 x13 x14 x15 x16 x17 x18 x19 (ix2 r z)
      = mean 0x43800000#32 (fun j' => ((row2 (val_main_v147 (F := Ideal) x0 x1 x2 x3 x4 x5 x6 x7 x8 x9 x10 x11 x12 x13 x14 x15 x16 x17 x18 x19) r) j' - mean 0x43800000#32 (row2 (val_main_v147 (F := Ideal) x0 x1 x2 x3 x4 x5 x6 x7 x8 x9 x10 x11 x12 x13 x14 x15 x16 x17 x18 x19) r)) * ((row2 (val_main_v147 (F := Ideal) x0 x1 x2 x3 x4 x5 x6 x7 x8 x9 x10 x11 x12 x13 x14 x15 x16 x17 x18 x19) r) j' - mean 0x43800000#32 (row2 (val_main_v147 (F := Ideal) x0 x1 x2 x3 x4 x5 x6 x7 x8 x9 x10 x11 x12 x13 x14 x15 x16 x17 x18 x19) r))) := by
  have e : ∀ k : Fin 256, idx_main_v155 (idx_main_v156 (ix2 r z)) k = ix2 r k := fun k => by
    funext a; match a with | ⟨0, _⟩ => rfl | ⟨1, _⟩ => rfl
  have e2 : ∀ k : Fin 256, idx_main_v152 (ix2 r k) = ix2 r (⟨0, Nat.one_pos⟩ : Fin 1) := fun k => by
    funext a; match a with | ⟨0, _⟩ => rfl | ⟨1, _⟩ => rfl
  simp only [val_main_v158_apply, val_main_v156_apply, val_main_v155_apply, val_main_v157_apply, val_main_cst_29_apply, val_main_cst_28_apply, e,
    val_main_v154_apply, val_main_v153_apply, val_main_v152_apply, e2, mean_v147,
    Ideal.ofBits_def, Ideal.ofBits_zero_f32, zero_add]
  rfl

/-- The layer normalisation of the second trunk layer, row by row. -/
theorem norm_v147 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (r : Fin 65536) (j : Fin 256) :
    val_main_v171 (F := Ideal) x0 x1 x2 x3 x4 x5 x6 x7 x8 x9 x10 x11 x12 x13 x14 x15 x16 x17 x18 x19 x20 x21 (ix2 r j) = norm 0x43800000#32 (vec1 x20) (vec1 x21) (row2 (val_main_v147 (F := Ideal) x0 x1 x2 x3 x4 x5 x6 x7 x8 x9 x10 x11 x12 x13 x14 x15 x16 x17 x18 x19) r) j := by
  have e1 : idx_main_v159 (ix2 r j) = ix2 r (⟨0, Nat.one_pos⟩ : Fin 1) := by
    funext a; match a with | ⟨0, _⟩ => rfl | ⟨1, _⟩ => rfl
  have e2 : idx_main_v164 (ix2 r j) = ix2 r (⟨0, Nat.one_pos⟩ : Fin 1) := by
    funext a; match a with | ⟨0, _⟩ => rfl | ⟨1, _⟩ => rfl
  have e3 : idx_main_v166 (idx_main_v167 (ix2 r j)) = ix1 j := by
    funext a; match a with | ⟨0, _⟩ => rfl
  have e4 : idx_main_v169 (idx_main_v170 (ix2 r j)) = ix1 j := by
    funext a; match a with | ⟨0, _⟩ => rfl
  simp only [val_main_v171_apply, val_main_v168_apply, val_main_v165_apply, val_main_v160_apply, val_main_v159_apply, val_main_v164_apply, val_main_v163_apply, val_main_v162_apply,
    val_main_v161_apply, val_main_cst_30_apply, val_main_v167_apply, val_main_v166_apply, val_main_v170_apply, val_main_v169_apply, e1, e2, e3, e4, mean_v147, var_v147]
  rfl

theorem row_v171 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (r : Fin 65536) :
    row2 (val_main_v171 (F := Ideal) x0 x1 x2 x3 x4 x5 x6 x7 x8 x9 x10 x11 x12 x13 x14 x15 x16 x17 x18 x19 x20 x21) r = norm 0x43800000#32 (vec1 x20) (vec1 x21) (row2 (val_main_v147 (F := Ideal) x0 x1 x2 x3 x4 x5 x6 x7 x8 x9 x10 x11 x12 x13 x14 x15 x16 x17 x18 x19) r) :=
  funext fun j => norm_v147 x0 x1 x2 x3 x4 x5 x6 x7 x8 x9 x10 x11 x12 x13 x14 x15 x16 x17 x18 x19 x20 x21 r j

/-- The first head, row by row. -/
theorem dense_v172 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x64, .f32⟩ : BufTy).Contents (Elt Ideal)) (x23 : (⟨S64, .f32⟩ : BufTy).Contents (Elt Ideal)) (r : Fin 65536) (j : Fin 64) :
    val_main_v175 (F := Ideal) x0 x1 x2 x3 x4 x5 x6 x7 x8 x9 x10 x11 x12 x13 x14 x15 x16 x17 x18 x19 x20 x21 x22 x23 (ix2 r j) = dense (row2 x22) (vec1 x23) (row2 (val_main_v171 (F := Ideal) x0 x1 x2 x3 x4 x5 x6 x7 x8 x9 x10 x11 x12 x13 x14 x15 x16 x17 x18 x19 x20 x21) r) j := by
  have e1 : ∀ k : Fin 256, lidx_main_v172 (ix2 r j) k = ix2 r k := fun k => by
    funext a; match a with | ⟨0, _⟩ => rfl | ⟨1, _⟩ => rfl
  have e2 : ∀ k : Fin 256, ridx_main_v172 (ix2 r j) k = ix2 k j := fun k => by
    funext a; match a with | ⟨0, _⟩ => rfl | ⟨1, _⟩ => rfl
  have e3 : idx_main_v173 (idx_main_v174 (ix2 r j)) = ix1 j := by
    funext a; match a with | ⟨0, _⟩ => rfl
  simp only [val_main_v175_apply, val_main_v172_apply, val_main_v174_apply, val_main_v173_apply, e1, e2, e3]
  rfl

theorem row_v175 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x64, .f32⟩ : BufTy).Contents (Elt Ideal)) (x23 : (⟨S64, .f32⟩ : BufTy).Contents (Elt Ideal)) (r : Fin 65536) :
    row2 (val_main_v175 (F := Ideal) x0 x1 x2 x3 x4 x5 x6 x7 x8 x9 x10 x11 x12 x13 x14 x15 x16 x17 x18 x19 x20 x21 x22 x23) r = dense (row2 x22) (vec1 x23) (row2 (val_main_v171 (F := Ideal) x0 x1 x2 x3 x4 x5 x6 x7 x8 x9 x10 x11 x12 x13 x14 x15 x16 x17 x18 x19 x20 x21) r) :=
  funext fun j => dense_v172 x0 x1 x2 x3 x4 x5 x6 x7 x8 x9 x10 x11 x12 x13 x14 x15 x16 x17 x18 x19 x20 x21 x22 x23 r j

/-- The second head, row by row. -/
theorem dense_v176 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x24 : (⟨S256x64, .f32⟩ : BufTy).Contents (Elt Ideal)) (x25 : (⟨S64, .f32⟩ : BufTy).Contents (Elt Ideal)) (r : Fin 65536) (j : Fin 64) :
    val_main_v179 (F := Ideal) x0 x1 x2 x3 x4 x5 x6 x7 x8 x9 x10 x11 x12 x13 x14 x15 x16 x17 x18 x19 x20 x21 x24 x25 (ix2 r j) = dense (row2 x24) (vec1 x25) (row2 (val_main_v171 (F := Ideal) x0 x1 x2 x3 x4 x5 x6 x7 x8 x9 x10 x11 x12 x13 x14 x15 x16 x17 x18 x19 x20 x21) r) j := by
  have e1 : ∀ k : Fin 256, lidx_main_v176 (ix2 r j) k = ix2 r k := fun k => by
    funext a; match a with | ⟨0, _⟩ => rfl | ⟨1, _⟩ => rfl
  have e2 : ∀ k : Fin 256, ridx_main_v176 (ix2 r j) k = ix2 k j := fun k => by
    funext a; match a with | ⟨0, _⟩ => rfl | ⟨1, _⟩ => rfl
  have e3 : idx_main_v177 (idx_main_v178 (ix2 r j)) = ix1 j := by
    funext a; match a with | ⟨0, _⟩ => rfl
  simp only [val_main_v179_apply, val_main_v176_apply, val_main_v178_apply, val_main_v177_apply, e1, e2, e3]
  rfl

theorem row_v179 (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x24 : (⟨S256x64, .f32⟩ : BufTy).Contents (Elt Ideal)) (x25 : (⟨S64, .f32⟩ : BufTy).Contents (Elt Ideal)) (r : Fin 65536) :
    row2 (val_main_v179 (F := Ideal) x0 x1 x2 x3 x4 x5 x6 x7 x8 x9 x10 x11 x12 x13 x14 x15 x16 x17 x18 x19 x20 x21 x24 x25) r = dense (row2 x24) (vec1 x25) (row2 (val_main_v171 (F := Ideal) x0 x1 x2 x3 x4 x5 x6 x7 x8 x9 x10 x11 x12 x13 x14 x15 x16 x17 x18 x19 x20 x21) r) :=
  funext fun j => dense_v176 x0 x1 x2 x3 x4 x5 x6 x7 x8 x9 x10 x11 x12 x13 x14 x15 x16 x17 x18 x19 x20 x21 x24 x25 r j

/-- The result array: entry (r, a, h) is output a of head h, that is entry 64·h + a of the two heads side by side. -/
theorem v182_at (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S640x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x64, .f32⟩ : BufTy).Contents (Elt Ideal)) (x23 : (⟨S64, .f32⟩ : BufTy).Contents (Elt Ideal)) (x24 : (⟨S256x64, .f32⟩ : BufTy).Contents (Elt Ideal)) (x25 : (⟨S64, .f32⟩ : BufTy).Contents (Elt Ideal)) (r : Fin 65536) (a : Fin 64) (h : Fin 2) :
    val_main_v182 (F := Ideal) x0 x1 x2 x3 x4 x5 x6 x7 x8 x9 x10 x11 x12 x13 x14 x15 x16 x17 x18 x19 x20 x21 x22 x23 x24 x25 (ix3 r a h)
      = heads (row2 (val_main_v175 (F := Ideal) x0 x1 x2 x3 x4 x5 x6 x7 x8 x9 x10 x11 x12 x13 x14 x15 x16 x17 x18 x19 x20 x21 x22 x23) r) (row2 (val_main_v179 (F := Ideal) x0 x1 x2 x3 x4 x5 x6 x7 x8 x9 x10 x11 x12 x13 x14 x15 x16 x17 x18 x19 x20 x21 x24 x25) r)
          ⟨64 * h.val + a.val, by have := h.isLt; have := a.isLt; omega⟩ := by
  unfold val_main_v182 heads
  match h with
  | ⟨0, _⟩ =>
    rw [dif_pos (show 64 * 0 + a.val < 64 by have := a.isLt; omega)]
    refine (concatenate_pair_apply_left 2 (val_main_v180 (F := Ideal) x0 x1 x2 x3 x4 x5 x6 x7 x8 x9 x10 x11 x12 x13 x14 x15 x16 x17 x18 x19 x20 x21 x22 x23) (val_main_v181 (F := Ideal) x0 x1 x2 x3 x4 x5 x6 x7 x8 x9 x10 x11 x12 x13 x14 x15 x16 x17 x18 x19 x20 x21 x24 x25)
      concatenates_S65536x64x1_S65536x64x1_S65536x64x2_d2 (ix3 r a (⟨0, by decide⟩ : Fin 2)) rfl (ix3 r a (⟨0, Nat.one_pos⟩ : Fin 1))
      (fun b => match b with | ⟨0, _⟩ => rfl | ⟨1, _⟩ => rfl | ⟨2, _⟩ => rfl)).trans ?_
    rw [val_main_v180_apply]
    exact congrArg (val_main_v175 (F := Ideal) x0 x1 x2 x3 x4 x5 x6 x7 x8 x9 x10 x11 x12 x13 x14 x15 x16 x17 x18 x19 x20 x21 x22 x23) (funext fun c => Fin.ext (by
      match c with
      | ⟨0, _⟩ => rfl
      | ⟨1, _⟩ => show a.val = 64 * 0 + a.val; omega))
  | ⟨1, _⟩ =>
    rw [dif_neg (show ¬ 64 * 1 + a.val < 64 by omega)]
    refine (concatenate_pair_apply_right 2 (val_main_v180 (F := Ideal) x0 x1 x2 x3 x4 x5 x6 x7 x8 x9 x10 x11 x12 x13 x14 x15 x16 x17 x18 x19 x20 x21 x22 x23) (val_main_v181 (F := Ideal) x0 x1 x2 x3 x4 x5 x6 x7 x8 x9 x10 x11 x12 x13 x14 x15 x16 x17 x18 x19 x20 x21 x24 x25)
      concatenates_S65536x64x1_S65536x64x1_S65536x64x2_d2 (ix3 r a (⟨1, by decide⟩ : Fin 2)) rfl rfl (ix3 r a (⟨0, Nat.one_pos⟩ : Fin 1))
      (fun b hb => match b, hb with | ⟨0, _⟩, _ => rfl | ⟨1, _⟩, _ => rfl | ⟨2, _⟩, hb => absurd rfl hb) ?_).trans ?_
    · show 0 + 1 = 1
      rfl
    rw [val_main_v181_apply]
    exact congrArg (val_main_v179 (F := Ideal) x0 x1 x2 x3 x4 x5 x6 x7 x8 x9 x10 x11 x12 x13 x14 x15 x16 x17 x18 x19 x20 x21 x24 x25) (funext fun c => Fin.ext (by
      match c with
      | ⟨0, _⟩ => rfl
      | ⟨1, _⟩ => show a.val = 64 * 1 + a.val - 64; omega))

end Cert.RefRows

end
-- ==== Proof.RefRows.lean ====
/-
  The reference program's result array, as a function of its 26 argument arrays, is the batch of result rows
  (`Cert.RowSpec.result`): entry (r, a, h) is output `a` of head `h` of the row function at observation row `r` and
  preference row `r`.
-/
import proofs.«101865_j10033043603499_2_alg».proof.ReferenceIdeal
import proofs.«101865_j10033043603499_2_alg».proof.Proof.RefStages
import proofs.«101865_j10033043603499_2_alg».proof.Proof.RowSpec
import proofs.«101865_j10033043603499_2_alg».proof.Proof.RefHist
import proofs.«101865_j10033043603499_2_alg».proof.Proof.RefMlpH
import proofs.«101865_j10033043603499_2_alg».proof.Proof.RefMlpP
import proofs.«101865_j10033043603499_2_alg».proof.Proof.RefTrunk
import Idealize.ShloMosaic.Lib.ValueIdx
import Idealize.ShloMosaic.Lib.ValueLayout
import Idealize.ShloMosaic.Lib.Pipeline.Value
import Idealize.ShloMosaic.PureOps.Ideal.Laws

noncomputable section

namespace Cert.RefRows

open Idealize.ShloMosaic Idealize.ShloMosaic.ValueIdx Cert.ReferenceIdeal Cert.RowSpec

/-- The reference's last stage, read as a whole array, is the batch of result rows. -/
theorem ref_result (x0 : (⟨S65536x512, .f32⟩ : BufTy).Contents (Elt Ideal)) (x1 : (⟨S65536x2, .f32⟩ : BufTy).Contents (Elt Ideal))
    (x2 : (⟨S10x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S2x64, .f32⟩ : BufTy).Contents (Elt Ideal)) (x11 x12 x13 : (⟨S64, .f32⟩ : BufTy).Contents (Elt Ideal))
    (x14 : (⟨S640x256, .f32⟩ : BufTy).Contents (Elt Ideal)) (x15 x16 x17 : (⟨S256, .f32⟩ : BufTy).Contents (Elt Ideal))
    (x18 : (⟨S256x256, .f32⟩ : BufTy).Contents (Elt Ideal)) (x19 x20 x21 : (⟨S256, .f32⟩ : BufTy).Contents (Elt Ideal))
    (x22 : (⟨S256x64, .f32⟩ : BufTy).Contents (Elt Ideal)) (x23 : (⟨S64, .f32⟩ : BufTy).Contents (Elt Ideal))
    (x24 : (⟨S256x64, .f32⟩ : BufTy).Contents (Elt Ideal)) (x25 : (⟨S64, .f32⟩ : BufTy).Contents (Elt Ideal)) :
    Cert.ReferenceIdeal.Read.val_main_v182 (F := Ideal) x0 x1 x2 x3 x4 x5 x6 x7 x8 x9 x10 x11 x12 x13 x14 x15 x16 x17 x18 x19 x20 x21 x22 x23 x24 x25
      = result (weightsOf x2 x3 x4 x5 x6 x7 x8 x9 x10 x11 x12 x13 x14 x15 x16 x17 x18 x19 x20 x21 x22 x23 x24 x25) x0 x1 := by
  funext i
  obtain ⟨r, a, h, rfl⟩ : ∃ (r : Fin 65536) (a : Fin 64) (h : Fin 2), i = ix3 r a h := ⟨i 0, i 1, i 2, eq_ix3 i⟩
  rw [v182_at, row_v175, row_v179, row_v171, row_v147, row_v142, row_v118, row_v113, row_v3, row_v83, row_v59, row_v54,
    row_v30, row_v25, row_v112, row_v88]
  rfl

end Cert.RefRows

end
-- ==== Proof.lean ====
/-
  The certificate's claims.

  Both programs compute, for each of the 65536 batch rows independently, the row function of
  `Cert.RowSpec`: a ten-bin histogram of the row's 64 server workloads, normalised, through two dense layers with
  max(·, 0) and layer normalisation; the row's two preference entries through one such layer; the remaining 448
  observation entries, the 128 histogram features and the 64 preference features side by side through two more such
  layers and two linear heads of 64 outputs.  On the extended reals the kernel and the reference apply the same
  operations in the same order, so no law beyond the definitions is needed: a lane sum and a host sum are the same
  finite sum (the host's starts from the zero word), a matrix product into a zero accumulator and a host
  `dot_general` are the same sum of products, a change of float format is the identity, and a 0/1 bit converted to a
  float through a 32-bit word or directly is the same real.

  The kernel side: row by row the block a grid point writes is the row function of the blocks it reads
  (`Cert.KerRows`), the 64 blocks tile the [65536, 128] output (`Cert.KerArray`), and the lines after the region re-lay
  that array as [65536, 2, 64] and swap the last two axes (`Cert.KerTail`).  The reference side: its stages read one
  operation at a time give the same [65536, 64, 2] array (`Cert.RefRows`), and its run leaves the result buffer at the
  last stage (`Cert.RefRunHand`).  The three frames are the programs' runs;
  the idealization rewrote nothing, so `preserves` is trivial.
-/
import proofs.«101865_j10033043603499_2_alg».proof.Defs
import proofs.«101865_j10033043603499_2_alg».proof.Proof.Gen.Kernel
import proofs.«101865_j10033043603499_2_alg».proof.Proof.Gen.Kernel.Skeleton
import proofs.«101865_j10033043603499_2_alg».proof.Proof.Gen.Kernel.Launch
import proofs.«101865_j10033043603499_2_alg».proof.Proof.Gen.Kernel.Points
import proofs.«101865_j10033043603499_2_alg».proof.Proof.Gen.Kernel.Frame
import proofs.«101865_j10033043603499_2_alg».proof.Proof.Gen.KernelIdeal
import proofs.«101865_j10033043603499_2_alg».proof.Proof.Gen.KernelIdeal.Skeleton
import proofs.«101865_j10033043603499_2_alg».proof.Proof.Gen.KernelIdeal.Launch
import proofs.«101865_j10033043603499_2_alg».proof.Proof.Gen.KernelIdeal.Points
import proofs.«101865_j10033043603499_2_alg».proof.Proof.Gen.KernelIdeal.Frame
import proofs.«101865_j10033043603499_2_alg».proof.Proof.Gen.ReferenceIdeal
import proofs.«101865_j10033043603499_2_alg».proof.Proof.Gen.Pre_finite_inputs
import proofs.«101865_j10033043603499_2_alg».proof.Proof.RowSpec
import proofs.«101865_j10033043603499_2_alg».proof.Proof.KerArray
import proofs.«101865_j10033043603499_2_alg».proof.Proof.KerTail
import proofs.«101865_j10033043603499_2_alg».proof.Proof.RefRunHand
import proofs.«101865_j10033043603499_2_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.RefRunHand.run (F := Ideal) m ρ)

/-- The idealization rewrote no operation. -/
theorem preserves : Cert.preserves_Kernel_KernelIdeal := trivial

/-- At the ideal values the kernel's result and the reference's are the same array of result rows. -/
theorem algebraic : Cert.algebraic_KernelIdeal_ReferenceIdeal := by
  intro m ρ m' ρ' _ hagree
  refine ⟨_, Cert.KerTail.run m ρ, ?_⟩
  refine (θ_run Cert.ReferenceIdeal.defs _ _).mono (fun _ h c => ⟨(h c).1.trans ?_, (h c).2⟩)
    (Cert.RefRunHand.run (F := Ideal) m' ρ')
  rw [Cert.RefRows.ref_result]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
